-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x1x6x1024 : Shape := ⟨4, ![4, 1, 6, 1024]⟩
abbrev S4x16x1024x1024 : Shape := ⟨4, ![4, 16, 1024, 1024]⟩
abbrev S1x1x6x1024 : Shape := ⟨4, ![1, 1, 6, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x1x6x1024 : S_.BroadcastsInDim S4x1x6x1024 (![] : Fin 0 → Fin S4x1x6x1024.rank)
  reducesTo_S4x1x6x1024_S_d0_1_2_3 : S4x1x6x1024.ReducesTo [0, 1, 2, 3] S_
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  bcast_S_S1x1x6x1024 : S_.BroadcastsInDim S1x1x6x1024 (![] : Fin 0 → Fin S1x1x6x1024.rank)
  reducesTo_S1x1x6x1024_S_d0_1_2_3 : S1x1x6x1024.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4096 .f32) (main_arg12 : FVec F S1024x4096 .f32) (main_arg13 : FVec F S1024 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S1024x4096 .f32 := Host.absf main_arg12
  let main_cst_22 : FVec F S_ .f32 := constant S_ .f32 0x7F800000#32
  let main_v60 : FVec F S1024x4096 .f32 := broadcastInDim S1024x4096 ![] bcast_S_S1024x4096 main_cst_22
  let main_v61 : IVec S1024x4096 1 := cmpf .olt main_v59 main_v60
  let main_c_23 : IVec S_ 1 := constantI S_ 1 1#1
  let main_v62 : IVec S_ 1 := (fun x v => Host.reduce IntOp.andi x v reducesTo_S1024x4096_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x1024 .f32) (main_arg8 : FVec F S1024x1024 .f32) (main_arg9 : FVec F S1024 .f32) (main_arg10 : FVec F S4096x1024 .f32) (main_arg11 : FVec F S4096 .f32) (main_arg12 : FVec F S1024x4096 .f32) (main_arg13 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_arg12 main_arg13 main_v48 main_v49 main_v50

def fn_part1 {F : FTy → Type} [FloatOps F] (main_arg4 : FVec F S1x1x6x1024 .f32) (main_arg5 : FVec F S1024x1024 .f32) (main_arg6 : FVec F S1024x1024 .f32) (main_arg7 : FVec F S1024x1024 .f32) (main_arg8 : FVec F S1024x1024 .f32) (main_arg9 : FVec F S1024 .f32) (main_arg10 : FVec F S4096x1024 .f32) (main_arg11 : FVec F S4096 .f32) (main_arg12 : FVec F S1024x4096 .f32) (main_arg13 : FVec F S1024 .f32) (main_v13 : IVec S_ 1) (main_v16 : IVec S4x16x1024x1024 1) : IVec S_ 1 :=
  let main_c_5 : IVec S_ 1 := constantI S_ 1 1#1
  let main_v17 : IVec S_ 1 := (fun x v => Host.reduce IntOp.andi x v reducesTo_S4x16x1024x1024_S_d0_1_2_3 h_S_) main_v16 main_c_5
  let main_v18 : IVec S_ 1 := andi main_v13 main_v17
  let main_v19 : FVec F S1x1x6x1024 .f32 := Host.absf main_arg4
  let main_cst_6 : FVec F S_ .f32 := constant S_ .f32 0x7F800000#32
  let main_v20 : FVec F S1x1x6x1024 .f32 := broadcastInDim S1x1x6x1024 ![] bcast_S_S1x1x6x1024 main_cst_6
  let main_v21 : IVec S1x1x6x1024 1 := cmpf .olt main_v19 main_v20
  let main_c_7 : IVec S_ 1 := constantI S_ 1 1#1
  let main_v22 : IVec S_ 1 := (fun x v => Host.reduce IntOp.andi x v reducesTo_S1x1x6x1024_S_d0_1_2_3 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x1024x1024 .f32) (main_arg1 : FVec F S4x1024x1024 .f32) (main_arg2 : FVec F S4x1x6x1024 .f32) (main_arg3 : FVec F S4x16x1024x1024 .f32) (main_arg4 : FVec F S1x1x6x1024 .f32) (main_arg5 : FVec F S1024x1024 .f32) (main_arg6 : FVec F S1024x1024 .f32) (main_arg7 : FVec F S1024x1024 .f32) (main_arg8 : FVec F S1024x1024 .f32) (main_arg9 : FVec F S1024 .f32) (main_arg10 : FVec F S4096x1024 .f32) (main_arg11 : FVec F S4096 .f32) (main_arg12 : FVec F S1024x4096 .f32) (main_arg13 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1x6x1024 .f32 := Host.absf main_arg2
  let main_cst_2 : FVec F S_ .f32 := constant S_ .f32 0x7F800000#32
  let main_v10 : FVec F S4x1x6x1024 .f32 := broadcastInDim S4x1x6x1024 ![] bcast_S_S4x1x6x1024 main_cst_2
  let main_v11 : IVec S4x1x6x1024 1 := cmpf .olt main_v9 main_v10
  let main_c_3 : IVec S_ 1 := constantI S_ 1 1#1
  let main_v12 : IVec S_ 1 := (fun x v => Host.reduce IntOp.andi x v reducesTo_S4x1x6x1024_S_d0_1_2_3 h_S_) main_v11 main_c_3
  let main_v13 : IVec S_ 1 := andi main_v8 main_v12
  let main_v14 : FVec F S4x16x1024x1024 .f32 := Host.absf main_arg3
  let main_cst_4 : FVec F S_ .f32 := constant S_ .f32 0x7F800000#32
  let main_v15 : FVec F S4x16x1024x1024 .f32 := broadcastInDim S4x16x1024x1024 ![] bcast_S_S4x16x1024x1024 main_cst_4
  let main_v16 : IVec S4x16x1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x1024x1024 : Shape := ⟨3, ![4, 1024, 1024]⟩
abbrev S4x1x6x1024 : Shape := ⟨4, ![4, 1, 6, 1024]⟩
abbrev S4x16x1024x1024 : Shape := ⟨4, ![4, 16, 1024, 1024]⟩
abbrev S1x1x6x1024 : Shape := ⟨4, ![1, 1, 6, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S4x1x1x1024 : Shape := ⟨4, ![4, 1, 1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S4x1024x16x64 : Shape := ⟨4, ![4, 1024, 16, 64]⟩
abbrev S4x16x1024x64 : Shape := ⟨4, ![4, 16, 1024, 64]⟩
abbrev S1x1x512x64 : Shape := ⟨4, ![1, 1, 512, 64]⟩
abbrev S1x1x1024x64 : Shape := ⟨4, ![1, 1, 1024, 64]⟩
abbrev S1x1x512x1024 : Shape := ⟨4, ![1, 1, 512, 1024]⟩
abbrev S64x1024 : Shape := ⟨2, ![64, 1024]⟩
abbrev S512x64 : Shape := ⟨2, ![512, 64]⟩
abbrev S1024x64 : Shape := ⟨2, ![1024, 64]⟩

abbrev nBuf : Space → Nat
  | .hbm => 51
  | .vmem => 49
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1x6x1024, .f32⟩
  | .hbm, ⟨3, _⟩ => ⟨S4x16x1024x1024, .f32⟩
  | .hbm, ⟨4, _⟩ => ⟨S1x1x6x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S4096x1024, .f32⟩
  | .hbm, ⟨11, _⟩ => ⟨S4096, .f32⟩
  | .hbm, ⟨12, _⟩ => ⟨S1024x4096, .f32⟩
  | .hbm, ⟨13, _⟩ => ⟨S1024, .f32⟩
  | .hbm, ⟨14, _⟩ => ⟨S4x1x6x1024, .f32⟩
  | .hbm, ⟨15, _⟩ => ⟨S4x1x6x1024, .f32⟩
  | .hbm, ⟨16, _⟩ => ⟨S4x1x1x1024, .f32⟩
  | .hbm, ⟨17, _⟩ => ⟨S4x1x1024, .f32⟩
  | .hbm, ⟨18, _⟩ => ⟨S4x1x1x1024, .f32⟩
  | .hbm, ⟨19, _⟩ => ⟨S4x1x1024, .f32⟩
  | .hbm, ⟨20, _⟩ => ⟨S4x1x1x1024, .f32⟩
  | .hbm, ⟨21, _⟩ => ⟨S4x1x1024, .f32⟩
  | .hbm, ⟨22, _⟩ => ⟨S4x1x1x1024, .f32⟩
  | .hbm, ⟨23, _⟩ => ⟨S4x1x1024, .f32⟩
  | .hbm, ⟨24, _⟩ => ⟨S4x1x1x1024, .f32⟩
  | .hbm, ⟨25, _⟩ => ⟨S4x1x1024, .f32⟩
  | .hbm, ⟨26, _⟩ => ⟨S4x1x1x1024, .f32⟩
  | .hbm, ⟨27, _⟩ => ⟨S4x1x1024, .f32⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .bf16⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S1024x4096, .f32⟩
  | .hbm, ⟨37, _⟩ => ⟨S1024x4096, .bf16⟩
  | .hbm, ⟨38, _⟩ => ⟨S4096x1024, .f32⟩
  | .hbm, ⟨39, _⟩ => ⟨S4096x1024, .bf16⟩
  | .hbm, ⟨40, _⟩ => ⟨S4x1024x1024, .bf16⟩
  | .hbm, ⟨41, _⟩ => ⟨S4x1024x1024, .bf16⟩
  | .hbm, ⟨42, _⟩ => ⟨S4x1024x1024, .bf16⟩
  | .hbm, ⟨43, _⟩ => ⟨S4x1024x16x64, .bf16⟩
  | .hbm, ⟨44, _⟩ => ⟨S4x16x1024x64, .bf16⟩
  | .hbm, ⟨45, _⟩ => ⟨S4x1024x16x64, .bf16⟩
  | .hbm, ⟨46, _⟩ => ⟨S4x16x1024x64, .bf16⟩
  | .hbm, ⟨47, _⟩ => ⟨S4x1024x16x64, .bf16⟩
  | .hbm, ⟨48, _⟩ => ⟨S4x16x1024x64, .bf16⟩
  | .hbm, ⟨49, _⟩ => ⟨S4x1024x1024, .f32⟩
  | .hbm, ⟨50, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1x512x64, .bf16⟩
  | .local _ .vmem, ⟨18, _⟩ => ⟨S1x1x512x64, .bf16⟩
  | .local _ .vmem, ⟨19, _⟩ => ⟨S1x1x1024x64, .bf16⟩
  | .local _ .vmem, ⟨20, _⟩ => ⟨S1x1x1024x64, .bf16⟩
  | .local _ .vmem, ⟨21, _⟩ => ⟨S1x1x1024x64, .bf16⟩
  | .local _ .vmem, ⟨22, _⟩ => ⟨S1x1x1024x64, .bf16⟩
  | .local _ .vmem, ⟨23, _⟩ => ⟨S1x1x512x1024, .f32⟩
  | .local _ .vmem, ⟨24, _⟩ => ⟨S1x1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x1x1024, .f32⟩
  | .local _ .vmem, ⟨28, _⟩ => ⟨S1x1x1024, .f32⟩
  | .local _ .vmem, ⟨29, _⟩ => ⟨S64x1024, .bf16⟩
  | .local _ .vmem, ⟨30, _⟩ => ⟨S64x1024, .bf16⟩
  | .local _ .vmem, ⟨31, _⟩ => ⟨S1024, .f32⟩
  | .local _ .vmem, ⟨32, _⟩ => ⟨S1x512x1024, .f32⟩
  | .local _ .vmem, ⟨33, _⟩ => ⟨S1x512x1024, .f32⟩
  | .local _ .vmem, ⟨34, _⟩ => ⟨S512x1024, .f32⟩
  | .local _ .vmem, ⟨35, _⟩ => ⟨S1x512x1024, .f32⟩
  | .local _ .vmem, ⟨36, _⟩ => ⟨S1x512x1024, .f32⟩
  | .local _ .vmem, ⟨37, _⟩ => ⟨S1x1x1024, .f32⟩
  | .local _ .vmem, ⟨38, _⟩ => ⟨S1x1x1024, .f32⟩
  | .local _ .vmem, ⟨39, _⟩ => ⟨S1x1x1024, .f32⟩
  | .local _ .vmem, ⟨40, _⟩ => ⟨S1x1x1024, .f32⟩
  | .local _ .vmem, ⟨41, _⟩ => ⟨S1x1x1024, .f32⟩
  | .local _ .vmem, ⟨42, _⟩ => ⟨S1x1x1024, .f32⟩
  | .local _ .vmem, ⟨43, _⟩ => ⟨S1024x4096, .bf16⟩
  | .local _ .vmem, ⟨44, _⟩ => ⟨S4096, .f32⟩
  | .local _ .vmem, ⟨45, _⟩ => ⟨S4096x1024, .bf16⟩
  | .local _ .vmem, ⟨46, _⟩ => ⟨S1024, .f32⟩
  | .local _ .vmem, ⟨47, _⟩ => ⟨S1x512x1024, .f32⟩
  | .local _ .vmem, ⟨48, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc1_scratch0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg8_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem8_0 : DmaSem sig := 32
abbrev cc1_sem8_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem8_1 : DmaSem sig := 47

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 2, 16], ![false, false, false]⟩

def k1_cond2 (i : grid1.Coords) : BitVec 1 :=
  let arg2 : BitVec 32 := BitVec.ofNat 32 (i 2).val
  let c15_i32 : BitVec 32 := 15#32
  let v35 : BitVec 1 := Scalar.cmpi .eq arg2 c15_i32
  let v36 : BitVec 32 := Scalar.extui v35
  let c0_i32_27 : BitVec 32 := 0#32
  let v37 : BitVec 1 := Scalar.cmpi .ne v36 c0_i32_27
  v37

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_7 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S64x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, false, true]

abbrev stage1_7 : Fin 1 → Memref sig .tc .vmem S1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1024x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S4096x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

class Facts₀ : Prop where
  bcast_S1x1x6x1024_S4x1x6x1024_0_1_2_3 : S1x1x6x1024.BroadcastsInDim S4x1x6x1024 (![0, 1, 2, 3] : Fin 4 → Fin S4x1x6x1024.rank)
  slices_S4x1x6x1024_S4x1x1x1024_0_0_0_0 : S4x1x6x1024.Slices ![0, 0, 0, 0] S4x1x1x1024
  shapeCasts_S4x1x1x1024_S4x1x1024 : S4x1x1x1024.ShapeCasts S4x1x1024
  slices_S4x1x6x1024_S4x1x1x1024_0_0_1_0 : S4x1x6x1024.Slices ![0, 0, 1, 0] S4x1x1x1024
  slices_S4x1x6x1024_S4x1x1x1024_0_0_2_0 : S4x1x6x1024.Slices ![0, 0, 2, 0] S4x1x1x1024
  slices_S4x1x6x1024_S4x1x1x1024_0_0_3_0 : S4x1x6x1024.Slices ![0, 0, 3, 0] S4x1x1x1024
  slices_S4x1x6x1024_S4x1x1x1024_0_0_4_0 : S4x1x6x1024.Slices ![0, 0, 4, 0] S4x1x1x1024
  slices_S4x1x6x1024_S4x1x1x1024_0_0_5_0 : S4x1x6x1024.Slices ![0, 0, 5, 0] S4x1x1x1024
  transposes_S1024x1024_S1024x1024_1_0 : S1024x1024.Transposes [1, 0] S1024x1024
  bitsLt_bf16_f32 : FTy.bits .bf16 < FTy.bits .f32
  transposes_S4096x1024_S1024x4096_1_0 : S4096x1024.Transposes [1, 0] S1024x4096
  transposes_S1024x4096_S4096x1024_1_0 : S1024x4096.Transposes [1, 0] S4096x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024_S1024_0 : ∀ a, (![0] : Fin 1 → Nat) a + S1024.size a ≤ S1024.size a
  h_S1024 : 0 < S1024.numel
  shapeCasts_S1024_S1x1024 : S1024.ShapeCasts S1x1024
  inb_S1024x4096_S1024x1024_0_0 : ∀ a, (![0, 0] : Fin 2 → Nat) a + S1024x1024.size a ≤ S1024x4096.size a
  inb_S4096_S1024_0 : ∀ a, (![0] : Fin 1 → Nat) a + S1024.size a ≤ S4096.size a
  inb_S4096x1024_S1024x1024_0_0 : ∀ a, (![0, 0] : Fin 2 → Nat) a + S1024x1024.size a ≤ S4096x1024.size a
  inb_S1024x4096_S1024x1024_0_1024 : ∀ a, (![0, 1024] : Fin 2 → Nat) a + S1024x1024.size a ≤ S1024x4096.size a
  inb_S4096_S1024_1024 : ∀ a, (![1024] : Fin 1 → Nat) a + S1024.size a ≤ S4096.size a
  inb_S4096x1024_S1024x1024_1024_0 : ∀ a, (![1024, 0] : Fin 2 → Nat) a + S1024x1024.size a ≤ S4096x1024.size a
  inb_S1024x4096_S1024x1024_0_2048 : ∀ a, (![0, 2048] : Fin 2 → Nat) a + S1024x1024.size a ≤ S1024x4096.size a
  inb_S4096_S1024_2048 : ∀ a, (![2048] : Fin 1 → Nat) a + S1024.size a ≤ S4096.size a
  inb_S4096x1024_S1024x1024_2048_0 : ∀ a, (![2048, 0] : Fin 2 → Nat) a + S1024x1024.size a ≤ S4096x1024.size a
  inb_S1024x4096_S1024x1024_0_3072 : ∀ a, (![0, 3072] : Fin 2 → Nat) a + S1024x1024.size a ≤ S1024x4096.size a
  inb_S4096_S1024_3072 : ∀ a, (![3072] : Fin 1 → Nat) a + S1024.size a ≤ S4096.size a
  inb_S4096x1024_S1024x1024_3072_0 : ∀ a, (![3072, 0] : Fin 2 → Nat) a + S1024x1024.size a ≤ S4096x1024.size a
  dot_S512x1024_S1024x1024_S512x1024_1_0_0_1_n_n_wf : DotDims.WF S512x1024 S1024x1024 S512x1024 [1] [0] [0] [1] [] []
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x1024x1024.size a
  hwx0_0 : ∀ i : grid0.Coords, EltTy.bits .f32 = 32 ∨ (Rect.block (s := S4x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S4x1x1024.size a
  hwx0_1 : ∀ i : grid0.Coords, EltTy.bits .f32 = 32 ∨ (Rect.block (s := S4x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x1024.size a
  hwx0_2 : ∀ i : grid0.Coords, EltTy.bits .f32 = 32 ∨ (Rect.block (s := S4x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x1024x1024.size a
  hwx0_3 : ∀ i : grid0.Coords, EltTy.bits .f32 = 32 ∨ (Rect.block (s := S4x1024x1024) S1x512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x1024x1024.size a
  hwx0_7 : ∀ i : grid0.Coords, EltTy.bits .bf16 = 32 ∨ (Rect.block (s := S4x1024x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x1024x1024.size a
  hwx0_8 : ∀ i : grid0.Coords, EltTy.bits .bf16 = 32 ∨ (Rect.block (s := S4x1024x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x1024x1024.size a
  hwx0_9 : ∀ i : grid0.Coords, EltTy.bits .bf16 = 32 ∨ (Rect.block (s := S4x1024x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S4x16x1024x64.size a
  hwx1_0 : ∀ i : grid1.Coords, EltTy.bits .bf16 = 32 ∨ (Rect.block (s := S4x16x1024x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S4x16x1024x64.size a
  hwx1_1 : ∀ i : grid1.Coords, EltTy.bits .bf16 = 32 ∨ (Rect.block (s := S4x16x1024x64) S1x1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S4x16x1024x64.size a
  hwx1_2 : ∀ i : grid1.Coords, EltTy.bits .bf16 = 32 ∨ (Rect.block (s := S4x16x1024x64) S1x1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x1024.size a ≤ S4x16x1024x1024.size a
  hwx1_3 : ∀ i : grid1.Coords, EltTy.bits .f32 = 32 ∨ (Rect.block (s := S4x16x1024x1024) S1x1x512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x1024x1024.size a
  hwx1_4 : ∀ i : grid1.Coords, EltTy.bits .f32 = 32 ∨ (Rect.block (s := S4x1024x1024) S1x512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S4x1x1024.size a
  hwx1_5 : ∀ i : grid1.Coords, EltTy.bits .f32 = 32 ∨ (Rect.block (s := S4x1x1024) S1x1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x1024.size a ≤ S1024x1024.size a
  hwx1_6 : ∀ i : grid1.Coords, EltTy.bits .bf16 = 32 ∨ (Rect.block (s := S1024x1024) S64x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S1024.size a
  hwx1_7 : ∀ i : grid1.Coords, EltTy.bits .f32 = 32 ∨ (Rect.block (s := S1024) S1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x1024.size a ≤ S4x1024x1024.size a
  hwx1_8 : ∀ i : grid1.Coords, EltTy.bits .f32 = 32 ∨ (Rect.block (s := S4x1024x1024) S1x512x1024.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x1024x1024.size a
  hwx2_0 : ∀ i : grid2.Coords, EltTy.bits .f32 = 32 ∨ (Rect.block (s := S4x1024x1024) S1x512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x1024.size a ≤ S4x1x1024.size a
  hwx2_1 : ∀ i : grid2.Coords, EltTy.bits .f32 = 32 ∨ (Rect.block (s := S4x1x1024) S1x1x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024.size a ≤ S4x1x1024.size a
  hwx2_2 : ∀ i : grid2.Coords, EltTy.bits .f32 = 32 ∨ (Rect.block (s := S4x1x1024) S1x1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1024.size a ≤ S4x1x1024.size a
  hwx2_3 : ∀ i : grid2.Coords, EltTy.bits .f32 = 32 ∨ (Rect.block (s := S4x1x1024) S1x1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x4096.size a ≤ S1024x4096.size a
  hwx2_4 : ∀ i : grid2.Coords, EltTy.bits .bf16 = 32 ∨ (Rect.block (s := S1024x4096) S1024x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096.size a ≤ S4096.size a
  hwx2_5 : ∀ i : grid2.Coords, EltTy.bits .f32 = 32 ∨ (Rect.block (s := S4096) S4096.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S4096x1024.size a ≤ S4096x1024.size a
  hwx2_6 : ∀ i : grid2.Coords, EltTy.bits .bf16 = 32 ∨ (Rect.block (s := S4096x1024) S4096x1024.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024.size a ≤ S1024.size a
  hwx2_7 : ∀ i : grid2.Coords, EltTy.bits .f32 = 32 ∨ (Rect.block (s := S1024) S1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x512x1024.size a ≤ S4x1024x1024.size a
  hwx2_8 : ∀ i : grid2.Coords, EltTy.bits .f32 = 32 ∨ (Rect.block (s := S4x1024x1024) S1x512x1024.size (cc2_transform_8 i) (hinb2_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v26_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v28) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21) S64x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S1x512x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v33) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x1x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1024x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S4096x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v34) S1x512x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S4x1x6x1024 : Shape := ⟨4, ![4, 1, 6, 1024]⟩
abbrev S4x16x1024x1024 : Shape := ⟨4, ![4, 16, 1024, 1024]⟩
abbrev S1x1x6x1024 : Shape := ⟨4, ![1, 1, 6, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S4x1x1x1024 : Shape := ⟨4, ![4, 1, 1, 1024]⟩
abbrev S4x1x1024 : Shape := ⟨3, ![4, 1, 1024]⟩
abbrev S_ : Shape := ⟨0, ![]⟩
abbrev S4x1024 : Shape := ⟨2, ![4, 1024]⟩
abbrev S4x1024x1 : Shape := ⟨3, ![4, 1024, 1]⟩
abbrev S4x1024x16x64 : Shape := ⟨4, ![4, 1024, 16, 64]⟩
abbrev S4x16x1024x64 : Shape := ⟨4, ![4, 16, 1024, 64]⟩
abbrev S4x16x1024 : Shape := ⟨3, ![4, 16, 1024]⟩
abbrev S4x16x1024x1 : Shape := ⟨4, ![4, 16, 1024, 1]⟩
abbrev S1x1x1024 : Shape := ⟨3, ![1, 1, 1024]⟩
abbrev S4x1024x4096 : Shape := ⟨3, ![4, 1024, 4096]⟩
abbrev S1x1x4096 : Shape := ⟨3, ![1, 1, 4096]⟩

abbrev nBuf : Space → Nat
  | .hbm => 154
  | .vmem => 0
  | .smem => 0
  | _ => 0

abbrev hbmTy0_0 (i : Nat) : BufTy := match i % 128 with
  | 0 => ⟨S4x1024x1024, .f32⟩
  | 1 => ⟨S4x1024x1024, .f32⟩
  | 2 => ⟨S4x1x6x1024, .f32⟩
  | 3 => ⟨S4x16x1024x1024, .f32⟩
  | 4 => ⟨S1x1x6x1024, .f32⟩
  | 5 => ⟨S1024x1024, .f32⟩
  | 6 => ⟨S1024x1024, .f32⟩
  | 7 => ⟨S1024x1024, .f32⟩
  | 8 => ⟨S1024x1024, .f32⟩
  | 9 => ⟨S1024, .f32⟩
  | 10 => ⟨S4096x1024, .f32⟩
  | 11 => ⟨S4096, .f32⟩
  | 12 => ⟨S1024x4096, .f32⟩
  | 13 => ⟨S1024, .f32⟩
  | 14 => ⟨S4x1x6x1024, .f32⟩
  | 15 => ⟨S4x1x6x1024, .f32⟩
  | 16 => ⟨S4x1x1x1024, .f32⟩
  | 17 => ⟨S4x1x1024, .f32⟩
  | 18 => ⟨S4x1x1x1024, .f32⟩
  | 19 => ⟨S4x1x1024, .f32⟩
  | 20 => ⟨S4x1x1x1024, .f32⟩
  | 21 => ⟨S4x1x1024, .f32⟩
  | 22 => ⟨S4x1x1x1024, .f32⟩
  | 23 => ⟨S4x1x1024, .f32⟩
  | 24 => ⟨S4x1x1x1024, .f32⟩
  | 25 => ⟨S4x1x1024, .f32⟩
  | 26 => ⟨S4x1x1x1024, .f32⟩
  | 27 => ⟨S4x1x1024, .f32⟩
  | 28 => ⟨S_, .f32⟩
  | 29 => ⟨S4x1024, .f32⟩
  | 30 => ⟨S4x1024x1, .f32⟩
  | 31 => ⟨S_, .f32⟩
  | 32 => ⟨S4x1024x1, .f32⟩
  | 33 => ⟨S4x1024x1, .f32⟩
  | 34 => ⟨S4x1024x1024, .f32⟩
  | 35 => ⟨S4x1024x1024, .f32⟩
  | 36 => ⟨S4x1024x1024, .f32⟩
  | 37 => ⟨S_, .f32⟩
  | 38 => ⟨S4x1024, .f32⟩
  | 39 => ⟨S4x1024x1, .f32⟩
  | 40 => ⟨S_, .f32⟩
  | 41 => ⟨S4x1024x1, .f32⟩
  | 42 => ⟨S4x1024x1, .f32⟩
  | 43 => ⟨S4x1024x1024, .f32⟩
  | 44 => ⟨S4x1024x1024, .f32⟩
  | 45 => ⟨S_, .f32⟩
  | 46 => ⟨S4x1024x1, .f32⟩
  | 47 => ⟨S4x1024x1, .f32⟩
  | 48 => ⟨S4x1024x1, .f32⟩
  | 49 => ⟨S4x1024x1024, .f32⟩
  | 50 => ⟨S4x1024x1024, .f32⟩
  | 51 => ⟨S_, .f32⟩
  | 52 => ⟨S4x1x1024, .f32⟩
  | 53 => ⟨S4x1x1024, .f32⟩
  | 54 => ⟨S4x1024x1024, .f32⟩
  | 55 => ⟨S4x1024x1024, .f32⟩
  | 56 => ⟨S4x1024x1024, .f32⟩
  | 57 => ⟨S4x1024x1024, .f32⟩
  | 58 => ⟨S4x1024x1024, .f32⟩
  | 59 => ⟨S4x1024x16x64, .f32⟩
  | 60 => ⟨S4x16x1024x64, .f32⟩
  | 61 => ⟨S4x1024x1024, .f32⟩
  | 62 => ⟨S4x1024x16x64, .f32⟩
  | 63 => ⟨S4x16x1024x64, .f32⟩
  | 64 => ⟨S4x1024x1024, .f32⟩
  | 65 => ⟨S4x1024x16x64, .f32⟩
  | 66 => ⟨S4x16x1024x64, .f32⟩
  | 67 => ⟨S4x16x1024x1024, .f32⟩
  | 68 => ⟨S_, .f32⟩
  | 69 => ⟨S4x16x1024x1024, .f32⟩
  | 70 => ⟨S4x16x1024x1024, .f32⟩
  | 71 => ⟨S4x16x1024x1024, .f32⟩
  | 72 => ⟨S_, .f32⟩
  | 73 => ⟨S4x16x1024, .f32⟩
  | 74 => ⟨S_, .f32⟩
  | 75 => ⟨S4x16x1024, .f32⟩
  | 76 => ⟨S4x16x1024, .f32⟩
  | 77 => ⟨S4x16x1024x1, .f32⟩
  | 78 => ⟨S4x16x1024x1024, .f32⟩
  | 79 => ⟨S4x16x1024x1024, .f32⟩
  | 80 => ⟨S4x16x1024x1024, .f32⟩
  | 81 => ⟨S_, .f32⟩
  | 82 => ⟨S4x16x1024, .f32⟩
  | 83 => ⟨S4x16x1024x1, .f32⟩
  | 84 => ⟨S4x16x1024x1024, .f32⟩
  | 85 => ⟨S4x16x1024x1024, .f32⟩
  | 86 => ⟨S4x16x1024x64, .f32⟩
  | 87 => ⟨S4x1024x16x64, .f32⟩
  | 88 => ⟨S4x1024x1024, .f32⟩
  | 89 => ⟨S4x1024x1024, .f32⟩
  | 90 => ⟨S1x1x1024, .f32⟩
  | 91 => ⟨S4x1024x1024, .f32⟩
  | 92 => ⟨S4x1024x1024, .f32⟩
  | 93 => ⟨S4x1024x1024, .f32⟩
  | 94 => ⟨S4x1024x1024, .f32⟩
  | 95 => ⟨S4x1024x1024, .f32⟩
  | 96 => ⟨S_, .f32⟩
  | 97 => ⟨S4x1024, .f32⟩
  | 98 => ⟨S4x1024x1, .f32⟩
  | 99 => ⟨S_, .f32⟩
  | 100 => ⟨S4x1024x1, .f32⟩
  | 101 => ⟨S4x1024x1, .f32⟩
  | 102 => ⟨S4x1024x1024, .f32⟩
  | 103 => ⟨S4x1024x1024, .f32⟩
  | 104 => ⟨S4x1024x1024, .f32⟩
  | 105 => ⟨S_, .f32⟩
  | 106 => ⟨S4x1024, .f32⟩
  | 107 => ⟨S4x1024x1, .f32⟩
  | 108 => ⟨S_, .f32⟩
  | 109 => ⟨S4x1024x1, .f32⟩
  | 110 => ⟨S4x1024x1, .f32⟩
  | 111 => ⟨S4x1024x1024, .f32⟩
  | 112 => ⟨S4x1024x1024, .f32⟩
  | 113 => ⟨S_, .f32⟩
  | 114 => ⟨S4x1024x1, .f32⟩
  | 115 => ⟨S4x1024x1, .f32⟩
  | 116 => ⟨S4x1024x1, .f32⟩
  | 117 => ⟨S4x1024x1024, .f32⟩
  | 118 => ⟨S4x1024x1024, .f32⟩
  | 119 => ⟨S_, .f32⟩
  | 120 => ⟨S4x1x1024, .f32⟩
  | 121 => ⟨S4x1x1024, .f32⟩
  | 122 => ⟨S4x1024x1024, .f32⟩
  | 123 => ⟨S4x1024x1024, .f32⟩
  | 124 => ⟨S4x1024x1024, .f32⟩
  | 125 => ⟨S4x1024x1024, .f32⟩
  | 126 => ⟨S4x1024x4096, .f32⟩
  | 127 => ⟨S1x1x4096, .f32⟩
  | _ => ⟨S4x1024x1024, .f32⟩

abbrev hbmTy0_1 (i : Nat) : BufTy := match i % 128 with
  | 0 => ⟨S4x1024x4096, .f32⟩
  | 1 => ⟨S4x1024x4096, .f32⟩
  | 2 => ⟨S4x1024x4096, .f32⟩
  | 3 => ⟨S4x1024x4096, .f32⟩
  | 4 => ⟨S_, .f32⟩
  | 5 => ⟨S4x1024x4096, .f32⟩
  | 6 => ⟨S4x1024x4096, .f32⟩
  | 7 => ⟨S4x1024x4096, .f32⟩
  | 8 => ⟨S_, .f32⟩
  | 9 => ⟨S4x1024x4096, .f32⟩
  | 10 => ⟨S4x1024x4096, .f32⟩
  | 11 => ⟨S4x1024x4096, .f32⟩
  | 12 => ⟨S_, .f32⟩
  | 13 => ⟨S4x1024x4096, .f32⟩
  | 14 => ⟨S4x1024x4096, .f32⟩
  | 15 => ⟨S_, .f32⟩
  | 16 => ⟨S4x1024x4096, .f32⟩
  | 17 => ⟨S4x1024x4096, .f32⟩
  | 18 => ⟨S4x1024x4096, .f32⟩
  | 19 => ⟨S4x1024x1024, .f32⟩
  | 20 => ⟨S1x1x1024, .f32⟩
  | 21 => ⟨S4x1024x1024, .f32⟩
  | 22 => ⟨S4x1024x1024, .f32⟩
  | 23 => ⟨S4x1024x1024, .f32⟩
  | 24 => ⟨S4x1024x1024, .f32⟩
  | 25 => ⟨S4x1024x1024, .f32⟩
  | _ => ⟨S4x1024x1024, .f32⟩

abbrev hbmTy (i : Nat) : BufTy := match i / 128 with
  | 0 => hbmTy0_0 i
  | 1 => hbmTy0_1 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_9 : Ref sig .tc := ⟨.hbm, 96, rfl⟩
abbrev main_v72 : Ref sig .tc := ⟨.hbm, 97, rfl⟩
abbrev main_v73 : Ref sig .tc := ⟨.hbm, 98, rfl⟩
abbrev main_cst_10 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_11 : Ref sig .tc := ⟨.hbm, 105, rfl⟩
abbrev main_v79 : Ref sig .tc := ⟨.hbm, 106, rfl⟩
abbrev main_v80 : Ref sig .tc := ⟨.hbm, 107, rfl⟩
abbrev main_cst_12 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_14 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_15 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_17 : Ref sig .tc := ⟨.hbm, 140, rfl⟩
abbrev main_v108 : Ref sig .tc := ⟨.hbm, 141, rfl⟩
abbrev main_v109 : Ref sig .tc := ⟨.hbm, 142, rfl⟩
abbrev main_cst_18 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩

abbrev nD : Nat := 1
abbrev τ : Topo := Topo.v7x

variable {F : FTy → Type} [FloatOps F]

class Facts₀ : Prop where
  bcast_S1x1x6x1024_S4x1x6x1024_0_1_2_3 : S1x1x6x1024.BroadcastsInDim S4x1x6x1024 (![0, 1, 2, 3] : Fin 4 → Fin S4x1x6x1024.rank)
  slices_S4x1x6x1024_S4x1x1x1024_0_0_0_0 : S4x1x6x1024.Slices ![0, 0, 0, 0] S4x1x1x1024
  shapeCasts_S4x1x1x1024_S4x1x1024 : S4x1x1x1024.ShapeCasts S4x1x1024
  slices_S4x1x6x1024_S4x1x1x1024_0_0_1_0 : S4x1x6x1024.Slices ![0, 0, 1, 0] S4x1x1x1024
  slices_S4x1x6x1024_S4x1x1x1024_0_0_2_0 : S4x1x6x1024.Slices ![0, 0, 2, 0] S4x1x1x1024
  slices_S4x1x6x1024_S4x1x1x1024_0_0_3_0 : S4x1x6x1024.Slices ![0, 0, 3, 0] S4x1x1x1024
  slices_S4x1x6x1024_S4x1x1x1024_0_0_4_0 : S4x1x6x1024.Slices ![0, 0, 4, 0] S4x1x1x1024
  slices_S4x1x6x1024_S4x1x1x1024_0_0_5_0 : S4x1x6x1024.Slices ![0, 0, 5, 0] S4x1x1x1024
  reducesTo_S4x1024x1024_S4x1024_d2 : S4x1024x1024.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  bcast_S_S4x1x1024 : S_.BroadcastsInDim S4x1x1024 (![] : Fin 0 → Fin S4x1x1024.rank)
  bcast_S4x1x1024_S4x1024x1024_0_1_2 : S4x1x1024.BroadcastsInDim S4x1024x1024 (![0, 1, 2] : Fin 3 → Fin S4x1024x1024.rank)
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  bcast_S4096_S1x1x4096_2 : S4096.BroadcastsInDim S1x1x4096 (![2] : Fin 1 → Fin S1x1x4096.rank)
  bcast_S1x1x4096_S4x1024x4096_0_1_2 : S1x1x4096.BroadcastsInDim S4x1024x4096 (![0, 1, 2] : Fin 3 → Fin S4x1024x4096.rank)
  bcast_S_S4x1024x4096 : S_.BroadcastsInDim S4x1024x4096 (![] : Fin 0 → Fin S4x1024x4096.rank)
  dot_S4x1024x1024_S1024x1024_S4x1024x1024_2_1_01_0_n_n_wf : DotDims.WF S4x1024x1024 S1024x1024 S4x1024x1024 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]
  dot_S4x1024x1024_S4096x1024_S4x1024x4096_2_1_01_0_n_n_wf : DotDims.WF S4x1024x1024 S4096x1024 S4x1024x4096 [2] [1] [0, 1] [0] [] []
  dot_S4x1024x4096_S1024x4096_S4x1024x1024_2_1_01_0_n_n_wf : DotDims.WF S4x1024x4096 S1024x4096 S4x1024x1024 [2] [1] [0, 1] [0] [] []

variable [Facts₀]

def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x1024x1024_S4096x1024_S4x1024x4096_2_1_01_0_n_n : DotDims S4x1024x1024 S4096x1024 S4x1024x4096 where
  lhsContracting := [2]
  rhsContracting := [1]
  lhsNonContracting := [0, 1]
  rhsNonContracting := [0]
  lhsBatch := []
  rhsBatch := []
  wf := dot_S4x1024x1024_S4096x1024_S4x1024x4096_2_1_01_0_n_n_wf
def dot_S4x1024x4096_S1024x4096_S4x1024x1024_2_1_01_0_n_n : DotDims S4x1024x4096 S1024x4096 S4x1024x1024 where
  lhsContracting := [2]
  rhsContracting := [1]
  lhsNonContracting := [0, 1]
  rhsNonContracting := [0]
  lhsBatch := []
  rhsBatch := []
  wf := dot_S4x1024x4096_S1024x4096_S4x1024x1024_2_1_01_0_n_n_wf

class Facts : Prop extends Facts₀ where

variable [Facts]
-- ==== Proof.Projections.lean ====
/-
  The first grid of the kernel program: the three projections, on the 8 points (batch, row block of 512).

  At a point the body reads the 512 rows of `x` and of `context` for its batch and row block, the batch's scale and shift
  rows and the three 1024×1024 weights, and stores three whole 512×1024 blocks: the modulated normalised rows of `x` times
  the query weight, and the context rows times the key and the value weight. It keeps nothing between points. This module
  states what each of the three output blocks holds after the body as a function of the seven input blocks, proves the
  body's triple over whole staging buffers, and from it the pipeline's obligation at every point: each input buffer holds
  its array's block whether or not the point fetched it (an unfetched block has not moved), each output buffer ends at
  its block's function of the inputs.
-/
import proofs.«126116_j51702816309661_2_alg».proof.Proof.Gen.KernelIdeal.Launch
import proofs.«126116_j51702816309661_2_alg».proof.Proof.Gen.KernelIdeal.Skeleton
import proofs.«126116_j51702816309661_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Projections

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1×512×1024 block, the whole 1×1×1024 modulation row and the whole 1024×1024 weight: every access of the
    projection body is through one of these. -/
abbrev rBlk : Rect S1x512x1024 := Rect.unit (s := S1x512x1024) ![0, 0, 0] S1x512x1024.size inb_S1x512x1024_S1x512x1024_0_0_0
abbrev rRow : Rect S1x1x1024 := Rect.unit (s := S1x1x1024) ![0, 0, 0] S1x1x1024.size inb_S1x1x1024_S1x1x1024_0_0_0
abbrev rWgt : Rect S1024x1024 := Rect.unit (s := S1024x1024) ![0, 0] S1024x1024.size inb_S1024x1024_S1024x1024_0_0

/-- The query block: the modulated, normalised rows of `x` times the query weight. -/
def qBlock (x : Vec F S1x512x1024 .f32) (sc sh : Vec F S1x1x1024 .f32) (wq : Vec F S1024x1024 .bf16) : Vec F S1x512x1024 .bf16 :=
  View.canon [⟨rBlk, k0_pay1 (k0_pay5 (View.ld x rBlk) (View.ld sc rRow) (View.ld sh rRow) (View.ld wq rWgt))⟩]
/-- The key block: the context rows times the key weight. -/
def kBlock (ctx : Vec F S1x512x1024 .f32) (wk : Vec F S1024x1024 .bf16) : Vec F S1x512x1024 .bf16 :=
  View.canon [⟨rBlk, k0_pay3 (View.ld ctx rBlk) (View.ld wk rWgt)⟩]
/-- The value block: the context rows times the value weight. -/
def vBlock (ctx : Vec F S1x512x1024 .f32) (wv : Vec F S1024x1024 .bf16) : Vec F S1x512x1024 .bf16 :=
  View.canon [⟨rBlk, k0_pay4 (View.ld ctx rBlk) (View.ld wv rWgt)⟩]

/-- One store through the whole block covers it. -/
theorem cover_blk (p : rBlk.shape.Idx → Elt F .bf16) (y : S1x512x1024.Idx) :
    ∃ pc ∈ ([⟨rBlk, p⟩] : List (View.Piece (Elt F) S1x512x1024 .bf16)), y ∈ pc.1.set :=
  View.cover_of_tiled [⟨rBlk, p⟩] S1x512x1024.size (by rfl) y

set_option maxHeartbeats 4000000 in
/-- The body over whole staging buffers — the seven inputs at given contents, the three outputs at anything — runs to its
    end leaving the inputs as they were and each output at its block's function of them. -/
theorem body_triple (c : Dev nD) (E : Set ℕ) (i : grid0.Coords)
    (arg2 : Memref sig .tc .vmem S1x512x1024 .f32) (harg2 : arg2.IsWhole) (arg3 : Memref sig .tc .vmem S1x1x1024 .f32) (harg3 : arg3.IsWhole)
    (arg4 : Memref sig .tc .vmem S1x1x1024 .f32) (harg4 : arg4.IsWhole) (arg5 : Memref sig .tc .vmem S1x512x1024 .f32) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole) (arg9 : Memref sig .tc .vmem S1x512x1024 .bf16) (harg9 : arg9.IsWhole)
    (arg10 : Memref sig .tc .vmem S1x512x1024 .bf16) (harg10 : arg10.IsWhole) (arg11 : Memref sig .tc .vmem S1x512x1024 .bf16) (harg11 : arg11.IsWhole)
    (x : Vec F S1x512x1024 .f32) (sc sh : Vec F S1x1x1024 .f32) (ctx : Vec F S1x512x1024 .f32) (wq wk wv : Vec F S1024x1024 .bf16)
    (K : PUnit → sProp 𝕄) :
    iprop(owns (c : Thread nD τ) arg2 fullShare x ∗ owns (c : Thread nD τ) arg3 fullShare sc ∗ owns (c : Thread nD τ) arg4 fullShare sh
        ∗ owns (c : Thread nD τ) arg5 fullShare ctx ∗ owns (c : Thread nD τ) arg6 fullShare wq ∗ owns (c : Thread nD τ) arg7 fullShare wk
        ∗ owns (c : Thread nD τ) arg8 fullShare wv
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare sc ∗ owns (c : Thread nD τ) arg4 fullShare sh
            ∗ owns (c : Thread nD τ) arg5 fullShare ctx ∗ owns (c : Thread nD τ) arg6 fullShare wq ∗ owns (c : Thread nD τ) arg7 fullShare wk
            ∗ owns (c : Thread nD τ) arg8 fullShare wv
            ∗ owns (c : Thread nD τ) arg9 fullShare (qBlock x sc sh wq) ∗ owns (c : Thread nD τ) arg10 fullShare (kBlock ctx wk)
            ∗ owns (c : Thread nD τ) arg11 fullShare (vBlock ctx wv)) -∗ K ⟨⟩))
      ⊢ wp frame (wpE (defs₀ (F := F)) Variants.none c none) E
          (cc0__qkv_proj_kernel i arg2 harg2 arg3 harg3 arg4 harg4 arg5 harg5 arg6 harg6 arg7 harg7 arg8 harg8 arg9 harg9 arg10 harg10 arg11 harg11) K := by
  simp only [cc0__qkv_proj_kernel_eq_skeleton]; unfold cc0__qkv_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_blk _)
  isplitl [H10]
  · iexists _; isplitr
    swap; · iexact H10
    ipureintro
    exact View.read_writes_eq_canon _ _ _ (cover_blk _)
  iexists _; isplitr
  swap; · iexact H11
  ipureintro
  exact View.read_writes_eq_canon _ _ _ (cover_blk _)

/-! ## The proof data at the contents the region is entered with -/

section AtEntry

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as entered; after the body each input buffer at its block, the three output buffers at
    the query, key and value blocks of the input blocks; nothing kept between points beyond the scoped rest and the
    generator register; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => qBlock (blk V c 0 t) (blk V c 1 t) (blk V c 2 t) (blk V c 4 t)
    | ⟨8, _⟩ => kBlock (blk V c 3 t) (blk V c 5 t)
    | ⟨9, _⟩ => vBlock (blk V c 3 t) (blk V c 6 t)
  Φ _ := Pipeline.ΦA spec0 c
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) :
    (dat V c).after 7 t = qBlock (blk V c 0 t) (blk V c 1 t) (blk V c 2 t) (blk V c 4 t) := by dsimp only [dat]
theorem after_8 (c : Dev nD) (t : Fin cfg0.N) : (dat V c).after 8 t = kBlock (blk V c 3 t) (blk V c 5 t) := by dsimp only [dat]
theorem after_9 (c : Dev nD) (t : Fin cfg0.N) : (dat V c).after 9 t = vBlock (blk V c 3 t) (blk V c 6 t) := by dsimp only [dat]

/-- An input buffer holds its array's block at every point, fetched there or not: where it was not fetched the block
    index has not moved since the point before, and the body left the block in place. -/
theorem found_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem found_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem found_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem found_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem found_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem found_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem found_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)

/-- What the body is called with at point `t`, the ten windows one by one, -/
def atCall (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def atReturn (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: the input buffers hold their blocks, so the triple applies; the scoped rest, the generator
    register and the core's dues pass through unread. -/
theorem body_at (c : Dev nD) (t : Fin cfg0.N) :
    atCall V c t ⊢ wp frame (wpE (defs₀ (F := F)) Variants.none c none) Set.univ (bodyAt0 t) (fun _ => atReturn V c t) := by
  unfold atCall atReturn bodyAt0
  simp only [found_0, found_1, found_2, found_3, found_4, found_5, found_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ _ _ _ _ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation, at every point. -/
theorem obligation (c : Dev nD) : BodyObligation (dat (F := F) V c) (defs₀ (F := F)) Variants.none () Set.univ := fun t => by
  rw [bigSep_W0, bigSep_W0]
  exact body_at V c t

end AtEntry

end Cert.KernelIdeal.Projections

end
-- ==== Proof.AttentionBody.lean ====
/-
  The second grid of the kernel program: attention and the output projection, on the 128 points (batch, row block of 512,
  head), the head running fastest.

  At a point the body reads one head's 512×64 queries and 1024×64 keys and values, the head's 512×1024 bias block and
  its 64 rows of the output weight, and adds to a 512×1024 accumulator — a scratch buffer kept from point to point — the
  head's contribution: softmax over the keys of (q kᵀ)/32 + bias, times the values, times those 64 rows. At the first
  head it first resets the accumulator to zero; at the last head it also reads the block of `x`, the gate row and the
  output bias and stores `x + (accumulator + bias)·gate` into the output block, which is written back there and nowhere
  else. So there are three kinds of point, and what the accumulator holds after a point is a recursion over the points
  of one (batch, row block): the contribution alone after the first head, the previous contents plus the contribution
  after every other. This module states the accumulator and the output block as functions of the input blocks, proves the
  body's triple for each kind of point, and from them the pipeline's obligation at every point, the accumulator's
  contents carried by the invariant between points.
-/
import proofs.«126116_j51702816309661_2_alg».proof.Proof.Gen.KernelIdeal.Launch
import proofs.«126116_j51702816309661_2_alg».proof.Proof.Gen.KernelIdeal.Skeleton
import proofs.«126116_j51702816309661_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole blocks the attention body reads and writes: a head's 512×64 queries, its 1024×64 keys and values, the
    512×1024 bias block, the 512×1024 block of `x`, the gate row, the head's 64 rows of the output weight, the output bias,
    and the 512×1024 accumulator. -/
abbrev rQ : Rect S1x1x512x64 := Rect.unit (s := S1x1x512x64) ![0, 0, 0, 0] S1x1x512x64.size inb_S1x1x512x64_S1x1x512x64_0_0_0_0
abbrev rKV : Rect S1x1x1024x64 := Rect.unit (s := S1x1x1024x64) ![0, 0, 0, 0] S1x1x1024x64.size inb_S1x1x1024x64_S1x1x1024x64_0_0_0_0
abbrev rBias : Rect S1x1x512x1024 := Rect.unit (s := S1x1x512x1024) ![0, 0, 0, 0] S1x1x512x1024.size inb_S1x1x512x1024_S1x1x512x1024_0_0_0_0
abbrev rBlk : Rect S1x512x1024 := Rect.unit (s := S1x512x1024) ![0, 0, 0] S1x512x1024.size inb_S1x512x1024_S1x512x1024_0_0_0
abbrev rRow : Rect S1x1x1024 := Rect.unit (s := S1x1x1024) ![0, 0, 0] S1x1x1024.size inb_S1x1x1024_S1x1x1024_0_0_0
abbrev rWo : Rect S64x1024 := Rect.unit (s := S64x1024) ![0, 0] S64x1024.size inb_S64x1024_S64x1024_0_0
abbrev rBo : Rect S1024 := Rect.unit (s := S1024) ![0] S1024.size inb_S1024_S1024_0
abbrev rAcc : Rect S512x1024 := Rect.unit (s := S512x1024) ![0, 0] S512x1024.size inb_S512x1024_S512x1024_0_0

/-- The grid's head coordinate is the first head, as the body tests it; -/
abbrev firstHead (i : grid1.Coords) : Prop :=
  Scalar.cmpi .ne (Scalar.extui (Scalar.cmpi .eq (BitVec.ofNat 32 (i 2).val) 0#32)) 0#32 = 1#1
/-- it is the last head, as the body tests it. -/
abbrev lastHead (i : grid1.Coords) : Prop := k1_cond2 i = 1#1

/-- One head's contribution to the 512×1024 block of the output projection: softmax of the scaled scores plus bias,
    times the values, times the head's 64 rows of the output weight. -/
def contrib (q : Vec F S1x1x512x64 .bf16) (k v : Vec F S1x1x1024x64 .bf16) (bias : Vec F S1x1x512x1024 .f32) (wo : Vec F S64x1024 .bf16) :
    Vec F S512x1024 .f32 :=
  k1_pay4 (View.ld q rQ) (View.ld k rKV) (View.ld v rKV) (View.ld bias rBias) (View.ld wo rWo)
/-- The accumulator after the first head: zero plus the head's contribution. -/
def accFirst (q : Vec F S1x1x512x64 .bf16) (k v : Vec F S1x1x1024x64 .bf16) (bias : Vec F S1x1x512x1024 .f32) (wo : Vec F S64x1024 .bf16) :
    Vec F S512x1024 .f32 :=
  View.canon [⟨rAcc, k1_pay1 (contrib q k v bias wo) (k1_pay3 (F := F))⟩]
/-- The accumulator after any other head: what it held plus the head's contribution. -/
def accStep (prev : Vec F S512x1024 .f32) (q : Vec F S1x1x512x64 .bf16) (k v : Vec F S1x1x1024x64 .bf16) (bias : Vec F S1x1x512x1024 .f32)
    (wo : Vec F S64x1024 .bf16) : Vec F S512x1024 .f32 :=
  View.canon [⟨rAcc, k1_pay1 (contrib q k v bias wo) (View.ld prev rAcc)⟩]
/-- The output block the last head stores: `x` plus the gated sum of the accumulator and the output bias. -/
def outBlock (x : Vec F S1x512x1024 .f32) (acc : Vec F S512x1024 .f32) (bo : Vec F S1024 .f32) (gm : Vec F S1x1x1024 .f32) : Vec F S1x512x1024 .f32 :=
  View.canon [⟨rBlk, k1_pay2 (View.ld x rBlk) (View.ld acc rAcc) (View.ld bo rBo) (View.ld gm rRow)⟩]

theorem cover_acc (p : rAcc.shape.Idx → Elt F .f32) (y : S512x1024.Idx) :
    ∃ pc ∈ ([⟨rAcc, p⟩] : List (View.Piece (Elt F) S512x1024 .f32)), y ∈ pc.1.set :=
  View.cover_of_tiled [⟨rAcc, p⟩] S512x1024.size (by rfl) y
theorem cover_blk (p : rBlk.shape.Idx → Elt F .f32) (y : S1x512x1024.Idx) :
    ∃ pc ∈ ([⟨rBlk, p⟩] : List (View.Piece (Elt F) S1x512x1024 .f32)), y ∈ pc.1.set :=
  View.cover_of_tiled [⟨rBlk, p⟩] S1x512x1024.size (by rfl) y

/-- A store through the whole accumulator hides every earlier one. -/
theorem cover_acc_cons (p : rAcc.shape.Idx → Elt F .f32) (L : List (View.Piece (Elt F) S512x1024 .f32)) (y : S512x1024.Idx) :
    ∃ pc ∈ (⟨rAcc, p⟩ :: L : List (View.Piece (Elt F) S512x1024 .f32)), y ∈ pc.1.set := by
  obtain ⟨pc, hm, hy⟩ := cover_acc p y
  obtain rfl := List.mem_singleton.mp hm
  exact ⟨_, List.mem_cons.mpr (Or.inl rfl), hy⟩
theorem canon_acc_cons (p : rAcc.shape.Idx → Elt F .f32) (L : List (View.Piece (Elt F) S512x1024 .f32)) :
    View.canon (⟨rAcc, p⟩ :: L) = View.canon [⟨rAcc, p⟩] := by
  funext y
  obtain ⟨pc, hm, hy⟩ := cover_acc p y
  obtain rfl := List.mem_singleton.mp hm
  obtain ⟨x, rfl⟩ : ∃ x, (rAcc).emb x = y := (rAcc).exists_idx_of_mem hy
  rw [View.canon_cons_emb, View.canon_cons_emb]

set_option maxHeartbeats 8000000 in
/-- A first head that is not the last: the accumulator, whatever it held, ends at the head's contribution; the output
    buffer is not touched. -/
theorem first_head (c : Dev nD) (E : Set ℕ) (i : grid1.Coords) (h1 : firstHead i) (h2 : ¬ lastHead i)
    (arg3 : Memref sig .tc .vmem S1x1x512x64 .bf16) (harg3 : arg3.IsWhole) (arg4 : Memref sig .tc .vmem S1x1x1024x64 .bf16) (harg4 : arg4.IsWhole)
    (arg5 : Memref sig .tc .vmem S1x1x1024x64 .bf16) (harg5 : arg5.IsWhole) (arg6 : Memref sig .tc .vmem S1x1x512x1024 .f32) (harg6 : arg6.IsWhole)
    (arg7 : Memref sig .tc .vmem S1x512x1024 .f32) (harg7 : arg7.IsWhole) (arg8 : Memref sig .tc .vmem S1x1x1024 .f32) (harg8 : arg8.IsWhole)
    (arg9 : Memref sig .tc .vmem S64x1024 .bf16) (harg9 : arg9.IsWhole) (arg10 : Memref sig .tc .vmem S1024 .f32) (harg10 : arg10.IsWhole)
    (arg11 : Memref sig .tc .vmem S1x512x1024 .f32) (harg11 : arg11.IsWhole) (arg12 : Memref sig .tc .vmem S512x1024 .f32) (harg12 : arg12.IsWhole)
    (q : Vec F S1x1x512x64 .bf16) (k v : Vec F S1x1x1024x64 .bf16) (bias : Vec F S1x1x512x1024 .f32) (x : Vec F S1x512x1024 .f32)
    (gm : Vec F S1x1x1024 .f32) (wo : Vec F S64x1024 .bf16) (bo : Vec F S1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
        ∗ (∃ a, owns (c : Thread nD τ) arg12 fullShare a)
        ∗ (iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
            ∗ owns (c : Thread nD τ) arg12 fullShare (accFirst q k v bias wo)) -∗ K ⟨⟩))
      ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K := by
  simp only [cc1__attn_outproj_kernel_eq_skeleton]; unfold cc1__attn_outproj_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f10, %hf10, H10⟩, ⟨%a12, %f12, -, H12⟩, Hk⟩
  subst hf3 hf4 hf5 hf6 hf7 hf8 hf9 hf10
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H12
  ipureintro
  rw [View.read_writes_eq_canon _ _ _ (cover_acc_cons _ _), canon_acc_cons]
  exact congrArg (fun w => View.canon [⟨rAcc, w⟩]) (congrArg (k1_pay1 _) (View.readCov_cons_toLoadRect _ _ _ _))

set_option maxHeartbeats 8000000 in
/-- A head that is neither first nor last: the accumulator ends at what it held plus the head's contribution; the
    output buffer is not touched. -/
theorem middle_head (c : Dev nD) (E : Set ℕ) (i : grid1.Coords) (h1 : ¬ firstHead i) (h2 : ¬ lastHead i)
    (arg3 : Memref sig .tc .vmem S1x1x512x64 .bf16) (harg3 : arg3.IsWhole) (arg4 : Memref sig .tc .vmem S1x1x1024x64 .bf16) (harg4 : arg4.IsWhole)
    (arg5 : Memref sig .tc .vmem S1x1x1024x64 .bf16) (harg5 : arg5.IsWhole) (arg6 : Memref sig .tc .vmem S1x1x512x1024 .f32) (harg6 : arg6.IsWhole)
    (arg7 : Memref sig .tc .vmem S1x512x1024 .f32) (harg7 : arg7.IsWhole) (arg8 : Memref sig .tc .vmem S1x1x1024 .f32) (harg8 : arg8.IsWhole)
    (arg9 : Memref sig .tc .vmem S64x1024 .bf16) (harg9 : arg9.IsWhole) (arg10 : Memref sig .tc .vmem S1024 .f32) (harg10 : arg10.IsWhole)
    (arg11 : Memref sig .tc .vmem S1x512x1024 .f32) (harg11 : arg11.IsWhole) (arg12 : Memref sig .tc .vmem S512x1024 .f32) (harg12 : arg12.IsWhole)
    (q : Vec F S1x1x512x64 .bf16) (k v : Vec F S1x1x1024x64 .bf16) (bias : Vec F S1x1x512x1024 .f32) (x : Vec F S1x512x1024 .f32)
    (gm : Vec F S1x1x1024 .f32) (wo : Vec F S64x1024 .bf16) (bo : Vec F S1024 .f32) (acc : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
        ∗ owns (c : Thread nD τ) arg12 fullShare acc
        ∗ (iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
            ∗ owns (c : Thread nD τ) arg12 fullShare (accStep acc q k v bias wo)) -∗ K ⟨⟩))
      ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K := by
  simp only [cc1__attn_outproj_kernel_eq_skeleton]; unfold cc1__attn_outproj_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f10, %hf10, H10⟩, ⟨%f12, %hf12, H12⟩, Hk⟩
  subst hf3 hf4 hf5 hf6 hf7 hf8 hf9 hf10 hf12
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H12
  ipureintro
  exact View.read_writes_eq_canon _ _ _ (cover_acc _)

set_option maxHeartbeats 8000000 in
/-- The last head (not the first): the accumulator ends at what it held plus the head's contribution, and the output
    buffer, whatever it held, at `x` plus the gated sum of that accumulator and the output bias. -/
theorem last_head (c : Dev nD) (E : Set ℕ) (i : grid1.Coords) (h1 : ¬ firstHead i) (h2 : lastHead i)
    (arg3 : Memref sig .tc .vmem S1x1x512x64 .bf16) (harg3 : arg3.IsWhole) (arg4 : Memref sig .tc .vmem S1x1x1024x64 .bf16) (harg4 : arg4.IsWhole)
    (arg5 : Memref sig .tc .vmem S1x1x1024x64 .bf16) (harg5 : arg5.IsWhole) (arg6 : Memref sig .tc .vmem S1x1x512x1024 .f32) (harg6 : arg6.IsWhole)
    (arg7 : Memref sig .tc .vmem S1x512x1024 .f32) (harg7 : arg7.IsWhole) (arg8 : Memref sig .tc .vmem S1x1x1024 .f32) (harg8 : arg8.IsWhole)
    (arg9 : Memref sig .tc .vmem S64x1024 .bf16) (harg9 : arg9.IsWhole) (arg10 : Memref sig .tc .vmem S1024 .f32) (harg10 : arg10.IsWhole)
    (arg11 : Memref sig .tc .vmem S1x512x1024 .f32) (harg11 : arg11.IsWhole) (arg12 : Memref sig .tc .vmem S512x1024 .f32) (harg12 : arg12.IsWhole)
    (q : Vec F S1x1x512x64 .bf16) (k v : Vec F S1x1x1024x64 .bf16) (bias : Vec F S1x1x512x1024 .f32) (x : Vec F S1x512x1024 .f32)
    (gm : Vec F S1x1x1024 .f32) (wo : Vec F S64x1024 .bf16) (bo : Vec F S1024 .f32) (acc : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
        ∗ (∃ d, owns (c : Thread nD τ) arg11 fullShare d)
        ∗ owns (c : Thread nD τ) arg12 fullShare acc
        ∗ (iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
            ∗ owns (c : Thread nD τ) arg11 fullShare (outBlock x (accStep acc q k v bias wo) bo gm)
            ∗ owns (c : Thread nD τ) arg12 fullShare (accStep acc q k v bias wo)) -∗ K ⟨⟩))
      ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K := by
  simp only [cc1__attn_outproj_kernel_eq_skeleton]; unfold cc1__attn_outproj_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f10, %hf10, H10⟩, ⟨%d11, %f11, -, H11⟩, ⟨%f12, %hf12, H12⟩, Hk⟩
  subst hf3 hf4 hf5 hf6 hf7 hf8 hf9 hf10 hf12
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (cover_blk _)]
    exact congrArg (fun w => View.canon [⟨rBlk, w⟩])
      (congrArg (fun a => k1_pay2 _ a _ _) (View.readCov_eq_canon_ld _ _ _ (cover_acc _)))
  iexists _; isplitr
  swap; · iexact H12
  ipureintro
  exact View.read_writes_eq_canon _ _ _ (cover_acc _)

/-! ## The proof data at the contents the region is entered with -/

section AtEntry

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point numbered `n` (a number past the grid wraps; only numbers inside it are used). -/
def pt (n : ℕ) : Fin cfg1.N := ⟨n % 128, by rw [show cfg1.N = 128 from N_1]; exact Nat.mod_lt _ (by decide)⟩
theorem pt_val (t : Fin cfg1.N) : pt t.val = t :=
  Fin.ext (Nat.mod_eq_of_lt (lt_of_lt_of_eq t.isLt (show cfg1.N = 128 from N_1)))

/-- The accumulator after a first head at point `t`, and after any other head at `t` over what it held. -/
def firstAt (c : Dev nD) (t : Fin cfg1.N) : Vec F S512x1024 .f32 :=
  accFirst (blk V c 0 t) (blk V c 1 t) (blk V c 2 t) (blk V c 3 t) (blk V c 6 t)
def stepAt (c : Dev nD) (prev : Vec F S512x1024 .f32) (t : Fin cfg1.N) : Vec F S512x1024 .f32 :=
  accStep prev (blk V c 0 t) (blk V c 1 t) (blk V c 2 t) (blk V c 3 t) (blk V c 6 t)

/-- The accumulator after the point numbered `n`: the heads of one (batch, row block) are sixteen consecutive points,
    the first at a multiple of sixteen. -/
def accAfter (c : Dev nD) : ℕ → Vec F S512x1024 .f32
  | 0 => firstAt V c (pt 0)
  | n + 1 => if (n + 1) % 16 = 0 then firstAt V c (pt (n + 1)) else stepAt V c (accAfter c n) (pt (n + 1))

theorem accAfter_first (c : Dev nD) (n : ℕ) (h : n % 16 = 0) : accAfter V c n = firstAt V c (pt n) := by
  cases n with
  | zero => rfl
  | succ n => simp only [accAfter]; rw [if_pos h]
theorem accAfter_step (c : Dev nD) (n : ℕ) (h : (n + 1) % 16 ≠ 0) :
    accAfter V c (n + 1) = stepAt V c (accAfter V c n) (pt (n + 1)) := by
  simp only [accAfter]; rw [if_neg h]

/-- The proof data: the arrays as entered; after the body each input buffer at its block and, at a last head, the output
    buffer at the output block over the accumulator after that point; between points the accumulator — before a first
    head at anything, before any other at what the point before left — beside the other scoped buffers and the generator
    register; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outBlock (blk V c 4 t) (accAfter V c t.val) (blk V c 7 t) (blk V c 5 t)
  Φ t := iprop((∃ a : Vec F S512x1024 .f32, ⌜t.val % 16 ≠ 0 → a = accAfter V c (t.val - 1)⌝
        ∗ owns (c : Thread nD τ) (Memref.whole cc1_scratch0) fullShare a)
      ∗ Pipeline.scopedRestBut (Ix := Unit) (Name := ℕ) (U := UR sig nD τ) (Lvl := ℕ) (Val := Elt F) spec1 c [cc1_scratch0]
      ∗ ∃ r, prngReg c r)
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) :
    (dat V c).after 8 t = outBlock (blk V c 4 t) (accAfter V c t.val) (blk V c 7 t) (blk V c 5 t) := by dsimp only [dat]

/-- An input buffer holds its array's block at every point, fetched there or not: where it was not fetched the block
    index has not moved since the point before, and the body left the block in place. -/
theorem found_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem found_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem found_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem found_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem found_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem found_5 (c : Dev nD) (t : Fin cfg1.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem found_6 (c : Dev nD) (t : Fin cfg1.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)
theorem found_7 (c : Dev nD) (t : Fin cfg1.N) (d) : (dat V c).before 7 t d = blk V c 7 t :=
  ((dat V c).before_in_eq_fetched 7 rfl (fun _ => rfl) (fun _ _ _ => rfl)
    (fun t => by rw [after_7]; unfold Dat.blockOf blk; rw [dat_A]; try rfl) t d).trans
    (by unfold Dat.fetched Dat.blockOf blk; rw [dat_A]; try rfl)

/-- The two tests the body makes of the head coordinate, over the grid's points in order. -/
theorem firstHead_iff : ∀ t : Fin cfg1.N, firstHead (grid1.coords t) ↔ t.val % 16 = 0 :=
  (by decide +kernel : ∀ t : Fin grid1.N, firstHead (grid1.coords t) ↔ t.val % 16 = 0)
theorem lastHead_iff : ∀ t : Fin cfg1.N, lastHead (grid1.coords t) ↔ t.val % 16 = 15 :=
  (by decide +kernel : ∀ t : Fin grid1.N, lastHead (grid1.coords t) ↔ t.val % 16 = 15)

/-- What the body is called with at point `t`: the invariant, the dues, the eight input buffers and the output buffer, -/
def atCall (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- what it returns at a point that is not a last head — the output buffer as it was found — -/
def atReturnIdle (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ (∃ d, owns (c : Thread nD τ) (st1_8 t) fullShare ((dat V c).before 8 t d)))

/-- and at a last head — the output buffer at the output block. -/
def atReturnLast (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The accumulator after point `t`, at a first head and at any other. -/
theorem accAfter_at_first (c : Dev nD) (t : Fin cfg1.N) (h : t.val % 16 = 0) : accAfter V c t.val = firstAt V c t := by
  rw [accAfter_first V c t.val h, pt_val]
theorem accAfter_at_later (c : Dev nD) (t : Fin cfg1.N) (h : t.val % 16 ≠ 0) :
    accAfter V c t.val = stepAt V c (accAfter V c (t.val - 1)) t := by
  obtain ⟨n, hn⟩ : ∃ n, t.val = n + 1 := Nat.exists_eq_succ_of_ne_zero (fun h0 => h (by rw [h0]))
  have e := accAfter_step V c n (by rw [← hn]; exact h)
  rw [← hn, pt_val] at e
  rw [e, hn, Nat.add_sub_cancel]

theorem at_first (c : Dev nD) (t : Fin cfg1.N) (h0 : t.val % 16 = 0) :
    atCall V c t ⊢ wp frame (wpE (defs₀ (F := F)) Variants.none c none) Set.univ (bodyAt1 t) (fun _ => atReturnIdle V c t) := by
  have h1 : firstHead (grid1.coords t) := (firstHead_iff t).mpr h0
  have h2 : ¬ lastHead (grid1.coords t) := fun h => by have := (lastHead_iff t).mp h; omega
  unfold atCall atReturnIdle bodyAt1
  simp only [found_0, found_1, found_2, found_3, found_4, found_5, found_6, found_7]
  rw [show (dat V c).owesAt () t.succ = (dat V c).owesAt () t.castSucc from rfl,
    after_0, after_1, after_2, after_3, after_4, after_5, after_6, after_7]
  dsimp only [dat]
  iintro ⟨⟨⟨%a, -, Ha⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (first_head c Set.univ _ h1 h2 _ _ _ _ _ _ _ _ _ _ _ _ _ _ _ _ _ _ _ _
    (blk V c 0 t) (blk V c 1 t) (blk V c 2 t) (blk V c 3 t) (blk V c 4 t) (blk V c 5 t) (blk V c 6 t) (blk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexists _; iexact Ha
  iintro ⟨H0, H1, H2, H3, H4, H5, H6, H7, Ha⟩
  isplitl [Ha Hrest Hp]
  · isplitl [Ha]
    · iexists _; isplitr
      swap; · iexact Ha
      ipureintro; intro _
      show _ = accAfter V c (t.val + 1 - 1)
      rw [Nat.add_sub_cancel, accAfter_at_first V c t h0]; rfl
    isplitl [Hrest] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem at_middle (c : Dev nD) (t : Fin cfg1.N) (h0 : t.val % 16 ≠ 0) (h15 : t.val % 16 ≠ 15) :
    atCall V c t ⊢ wp frame (wpE (defs₀ (F := F)) Variants.none c none) Set.univ (bodyAt1 t) (fun _ => atReturnIdle V c t) := by
  have h1 : ¬ firstHead (grid1.coords t) := fun h => h0 ((firstHead_iff t).mp h)
  have h2 : ¬ lastHead (grid1.coords t) := fun h => h15 ((lastHead_iff t).mp h)
  unfold atCall atReturnIdle bodyAt1
  simp only [found_0, found_1, found_2, found_3, found_4, found_5, found_6, found_7]
  rw [show (dat V c).owesAt () t.succ = (dat V c).owesAt () t.castSucc from rfl,
    after_0, after_1, after_2, after_3, after_4, after_5, after_6, after_7]
  dsimp only [dat]
  iintro ⟨⟨⟨%a, %ha, Ha⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  obtain rfl : a = accAfter V c (t.val - 1) := ha h0
  iapply (middle_head c Set.univ _ h1 h2 _ _ _ _ _ _ _ _ _ _ _ _ _ _ _ _ _ _ _ _
    (blk V c 0 t) (blk V c 1 t) (blk V c 2 t) (blk V c 3 t) (blk V c 4 t) (blk V c 5 t) (blk V c 6 t) (blk V c 7 t) (accAfter V c (t.val - 1)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexact Ha
  iintro ⟨H0, H1, H2, H3, H4, H5, H6, H7, Ha⟩
  isplitl [Ha Hrest Hp]
  · isplitl [Ha]
    · iexists _; isplitr
      swap; · iexact Ha
      ipureintro; intro _
      show _ = accAfter V c (t.val + 1 - 1)
      rw [Nat.add_sub_cancel, accAfter_at_later V c t h0]; rfl
    isplitl [Hrest] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem at_last (c : Dev nD) (t : Fin cfg1.N) (h15 : t.val % 16 = 15) :
    atCall V c t ⊢ wp frame (wpE (defs₀ (F := F)) Variants.none c none) Set.univ (bodyAt1 t) (fun _ => atReturnLast V c t) := by
  have h0 : t.val % 16 ≠ 0 := by omega
  have h1 : ¬ firstHead (grid1.coords t) := fun h => h0 ((firstHead_iff t).mp h)
  have h2 : lastHead (grid1.coords t) := (lastHead_iff t).mpr h15
  unfold atCall atReturnLast bodyAt1
  simp only [found_0, found_1, found_2, found_3, found_4, found_5, found_6, found_7]
  rw [show (dat V c).owesAt () t.succ = (dat V c).owesAt () t.castSucc from rfl,
    after_0, after_1, after_2, after_3, after_4, after_5, after_6, after_7, after_8, accAfter_at_later V c t h0]
  dsimp only [dat]
  iintro ⟨⟨⟨%a, %ha, Ha⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : a = accAfter V c (t.val - 1) := ha h0
  iapply (last_head c Set.univ _ h1 h2 _ _ _ _ _ _ _ _ _ _ _ _ _ _ _ _ _ _ _ _
    (blk V c 0 t) (blk V c 1 t) (blk V c 2 t) (blk V c 3 t) (blk V c 4 t) (blk V c 5 t) (blk V c 6 t) (blk V c 7 t) (accAfter V c (t.val - 1)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Ha]; · iexact Ha
  iintro ⟨H0, H1, H2, H3, H4, H5, H6, H7, H8, Ha⟩
  isplitl [Ha Hrest Hp]
  · isplitl [Ha]
    · iexists _; isplitr
      swap; · iexact Ha
      ipureintro; intro _
      show _ = accAfter V c (t.val + 1 - 1)
      rw [Nat.add_sub_cancel, accAfter_at_later V c t h0]; rfl
    isplitl [Hrest] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end AtEntry

end Cert.KernelIdeal.Attention

end
-- ==== Proof.Attention.lean ====
/-
  The attention grid's obligation at every point, from the three kinds of point (first head, middle heads, last head): the
  output window is idle exactly where the head is not the last, and is written back exactly at the last head, so at every
  other point its buffer is handed back as it was found.
-/
import proofs.«126116_j51702816309661_2_alg».proof.Proof.AttentionBody
import proofs.«126116_j51702816309661_2_alg».proof.Proof.Gen.KernelIdeal.Launch
import proofs.«126116_j51702816309661_2_alg».proof.Proof.Gen.KernelIdeal.Skeleton
import proofs.«126116_j51702816309661_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pipeline's obligation, at every point, by the kind of point. -/
theorem obligation (c : Dev nD) : BodyObligation (dat (F := F) V c) (defs₀ (F := F)) Variants.none () Set.univ := fun t => by
  rw [bigSep_W1, bigSep_W1]
  by_cases h15 : t.val % 16 = 15
  · have h2 : lastHead (grid1.coords t) := (lastHead_iff t).mpr h15
    have hidle : idle1 8 (grid1.coords t) = false := by
      show (!(k1_cond2 (grid1.coords t) == 1#1)) = false
      rw [h2]; rfl
    have hidle' : cfg1.idle 8 (cfg1.grid.coords t) = false := hidle
    simp only [hidle, hidle']
    exact at_last V c t h15
  · have h2 : ¬ lastHead (grid1.coords t) := fun h => h15 ((lastHead_iff t).mp h)
    have hidle : idle1 8 (grid1.coords t) = true := by
      show (!(k1_cond2 (grid1.coords t) == 1#1)) = true
      simpa using h2
    have hidle' : cfg1.idle 8 (cfg1.grid.coords t) = true := hidle
    have hfl : (cfg1.win 8).flush t = false := Bool.eq_false_iff.mpr fun h => h15 ((flush1_8 t).mp h)
    have hfl' : (win1 8).flush t = false := hfl
    simp only [hidle, hidle', hfl, hfl']
    by_cases h0 : t.val % 16 = 0
    · exact at_first V c t h0
    · exact at_middle V c t h0 h15

end Cert.KernelIdeal.Attention

end
-- ==== Proof.FeedForward.lean ====
/-
  The third grid of the kernel program: the feed-forward branch, on the 8 points (batch, row block of 512).

  At a point the body reads the 512 rows of the attention branch's result for its batch and row block, the batch's second
  scale, shift and gate rows, both feed-forward weights and both biases, and stores one whole 512×1024 block: the rows plus
  the gated feed-forward of their modulated normalisation. The hidden axis of 4096 is taken in four slices of 1024 — a
  1024×1024 slice of each weight and a 1024 slice of the first bias per slice — and the four products are added up. It keeps
  nothing between points. This module states the output block as a function of the eight input blocks (the body's own
  payloads composed in the order the body computes them), proves the body's triple over whole staging buffers, and from it
  the pipeline's obligation at every point.
-/
import proofs.«126116_j51702816309661_2_alg».proof.Proof.Gen.KernelIdeal.Launch
import proofs.«126116_j51702816309661_2_alg».proof.Proof.Gen.KernelIdeal.Skeleton
import proofs.«126116_j51702816309661_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.FeedForward

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1×512×1024 block and 1×1×1024 row; the four column slices of the first weight, the four slices of the first
    bias, the four row slices of the second weight, and the whole second bias. -/
abbrev rBlk : Rect S1x512x1024 := Rect.unit (s := S1x512x1024) ![0, 0, 0] S1x512x1024.size inb_S1x512x1024_S1x512x1024_0_0_0
abbrev rRow : Rect S1x1x1024 := Rect.unit (s := S1x1x1024) ![0, 0, 0] S1x1x1024.size inb_S1x1x1024_S1x1x1024_0_0_0
abbrev rUp0 : Rect S1024x4096 := Rect.unit (s := S1024x4096) ![0, 0] S1024x1024.size inb_S1024x4096_S1024x1024_0_0
abbrev rUp1 : Rect S1024x4096 := Rect.unit (s := S1024x4096) ![0, 1024] S1024x1024.size inb_S1024x4096_S1024x1024_0_1024
abbrev rUp2 : Rect S1024x4096 := Rect.unit (s := S1024x4096) ![0, 2048] S1024x1024.size inb_S1024x4096_S1024x1024_0_2048
abbrev rUp3 : Rect S1024x4096 := Rect.unit (s := S1024x4096) ![0, 3072] S1024x1024.size inb_S1024x4096_S1024x1024_0_3072
abbrev rB0 : Rect S4096 := Rect.unit (s := S4096) ![0] S1024.size inb_S4096_S1024_0
abbrev rB1 : Rect S4096 := Rect.unit (s := S4096) ![1024] S1024.size inb_S4096_S1024_1024
abbrev rB2 : Rect S4096 := Rect.unit (s := S4096) ![2048] S1024.size inb_S4096_S1024_2048
abbrev rB3 : Rect S4096 := Rect.unit (s := S4096) ![3072] S1024.size inb_S4096_S1024_3072
abbrev rDn0 : Rect S4096x1024 := Rect.unit (s := S4096x1024) ![0, 0] S1024x1024.size inb_S4096x1024_S1024x1024_0_0
abbrev rDn1 : Rect S4096x1024 := Rect.unit (s := S4096x1024) ![1024, 0] S1024x1024.size inb_S4096x1024_S1024x1024_1024_0
abbrev rDn2 : Rect S4096x1024 := Rect.unit (s := S4096x1024) ![2048, 0] S1024x1024.size inb_S4096x1024_S1024x1024_2048_0
abbrev rDn3 : Rect S4096x1024 := Rect.unit (s := S4096x1024) ![3072, 0] S1024x1024.size inb_S4096x1024_S1024x1024_3072_0
abbrev rB2nd : Rect S1024 := Rect.unit (s := S1024) ![0] S1024.size inb_S1024_S1024_0

/-- The output block: the body's payloads composed in the order the body computes them — the rows and their modulated
    normalisation, then slice by slice the hidden activations and the running sum of their products with the second
    weight's rows, then the second bias, the gate and the residual. -/
def outBlock (x : Vec F S1x512x1024 .f32) (sc sh gm : Vec F S1x1x1024 .f32) (w1 : Vec F S1024x4096 .bf16) (b1 : Vec F S4096 .f32)
    (w2 : Vec F S4096x1024 .bf16) (b2 : Vec F S1024 .f32) : Vec F S1x512x1024 .f32 :=
  let v0 := View.ld x rBlk
  let v20 := View.ld sc rRow
  let v26 := View.ld sh rRow
  let v1 := k2_pay2 v0
  let v30 := k2_pay3 v0 v20 v26
  let v31 := k2_pay4 (F := F)
  let v35 := k2_pay5 v0 v20 v26 (View.ld w1 rUp0)
  let v37 := k2_pay6 (View.ld b1 rB0)
  let v56 := k2_pay7 v31 v35 v37 (View.ld w2 rDn0)
  let v77 := k2_pay8 v30 (View.ld w1 rUp1) (View.ld b1 rB1)
  let v79 := k2_pay9 (View.ld w2 rDn1)
  let cst_34 : FVec F S512x1024 .f32 := constant S512x1024 .f32 0x00000000#32
  let v106 := k2_pay10 v30 v56 v77 v79 cst_34 (View.ld w1 rUp2) (View.ld b1 rB2) (View.ld w2 rDn2)
  let v113 := k2_pay11 v30 (View.ld w1 rUp3) (View.ld b1 rB3)
  let v121 := k2_pay12 v30 (View.ld w1 rUp3) (View.ld b1 rB3)
  let cst_50 : F .f32 := Scalar.ofBits .f32 0x3F800000#32
  View.canon [⟨rBlk, k2_pay1 v1 v106 v113 v121 cst_50 (View.ld w2 rDn3) (View.ld b2 rB2nd) (View.ld gm rRow)⟩]

/-- One store through the whole block covers it. -/
theorem cover_blk (p : rBlk.shape.Idx → Elt F .f32) (y : S1x512x1024.Idx) :
    ∃ pc ∈ ([⟨rBlk, p⟩] : List (View.Piece (Elt F) S1x512x1024 .f32)), y ∈ pc.1.set :=
  View.cover_of_tiled [⟨rBlk, p⟩] S1x512x1024.size (by rfl) y

set_option maxHeartbeats 8000000 in
/-- The body over whole staging buffers — the eight inputs at given contents, the output at anything — runs to its end
    leaving the inputs as they were and the output at its block's function of them. -/
theorem body_triple (c : Dev nD) (E : Set ℕ) (i : grid2.Coords)
    (arg2 : Memref sig .tc .vmem S1x512x1024 .f32) (harg2 : arg2.IsWhole) (arg3 : Memref sig .tc .vmem S1x1x1024 .f32) (harg3 : arg3.IsWhole)
    (arg4 : Memref sig .tc .vmem S1x1x1024 .f32) (harg4 : arg4.IsWhole) (arg5 : Memref sig .tc .vmem S1x1x1024 .f32) (harg5 : arg5.IsWhole)
    (arg6 : Memref sig .tc .vmem S1024x4096 .bf16) (harg6 : arg6.IsWhole) (arg7 : Memref sig .tc .vmem S4096 .f32) (harg7 : arg7.IsWhole)
    (arg8 : Memref sig .tc .vmem S4096x1024 .bf16) (harg8 : arg8.IsWhole) (arg9 : Memref sig .tc .vmem S1024 .f32) (harg9 : arg9.IsWhole)
    (arg10 : Memref sig .tc .vmem S1x512x1024 .f32) (harg10 : arg10.IsWhole)
    (x : Vec F S1x512x1024 .f32) (sc sh gm : Vec F S1x1x1024 .f32) (w1 : Vec F S1024x4096 .bf16) (b1 : Vec F S4096 .f32)
    (w2 : Vec F S4096x1024 .bf16) (b2 : Vec F S1024 .f32) (K : PUnit → sProp 𝕄) :
    iprop(owns (c : Thread nD τ) arg2 fullShare x ∗ owns (c : Thread nD τ) arg3 fullShare sc ∗ owns (c : Thread nD τ) arg4 fullShare sh
        ∗ owns (c : Thread nD τ) arg5 fullShare gm ∗ owns (c : Thread nD τ) arg6 fullShare w1 ∗ owns (c : Thread nD τ) arg7 fullShare b1
        ∗ owns (c : Thread nD τ) arg8 fullShare w2 ∗ owns (c : Thread nD τ) arg9 fullShare b2
        ∗ (∃ d, owns (c : Thread nD τ) arg10 fullShare d)
        ∗ (iprop(owns (c : Thread nD τ) arg2 fullShare x ∗ owns (c : Thread nD τ) arg3 fullShare sc ∗ owns (c : Thread nD τ) arg4 fullShare sh
            ∗ owns (c : Thread nD τ) arg5 fullShare gm ∗ owns (c : Thread nD τ) arg6 fullShare w1 ∗ owns (c : Thread nD τ) arg7 fullShare b1
            ∗ owns (c : Thread nD τ) arg8 fullShare w2 ∗ owns (c : Thread nD τ) arg9 fullShare b2
            ∗ owns (c : Thread nD τ) arg10 fullShare (outBlock x sc sh gm w1 b1 w2 b2)) -∗ K ⟨⟩))
      ⊢ wp frame (wpE (defs₀ (F := F)) Variants.none c none) E
          (cc2__ffn_kernel i arg2 harg2 arg3 harg3 arg4 harg4 arg5 harg5 arg6 harg6 arg7 harg7 arg8 harg8 arg9 harg9 arg10 harg10) K := by
  simp only [cc2__ffn_kernel_eq_skeleton]; unfold cc2__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%d10, %f10, -, H10⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_blk _)

/-! ## The proof data at the contents the region is entered with -/

section AtEntry

variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as entered; after the body each input buffer at its block, the output buffer at the
    feed-forward block of the input blocks; nothing kept between points beyond the scoped rest and the generator register;
    nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outBlock (blk V c 0 t) (blk V c 1 t) (blk V c 2 t) (blk V c 3 t) (blk V c 4 t) (blk V c 5 t) (blk V c 6 t) (blk V c 7 t)
  Φ _ := Pipeline.ΦA spec2 c
  q _ := fullShare
  owed _ := 0

theorem dat_A (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) : (dat V c).after 6 t = blk V c 6 t := by dsimp only [dat]
theorem after_7 (c : Dev nD) (t : Fin cfg2.N) : (dat V c).after 7 t = blk V c 7 t := by dsimp only [dat]
theorem after_8 (c : Dev nD) (t : Fin cfg2.N) :
    (dat V c).after 8 t = outBlock (blk V c 0 t) (blk V c 1 t) (blk V c 2 t) (blk V c 3 t) (blk V c 4 t) (blk V c 5 t) (blk V c 6 t) (blk V c 7 t) := by dsimp only [dat]

/-- An input buffer holds its array's block at every point, fetched there or not: where it was not fetched the block
    index has not moved since the point before, and the body left the block in place. -/
theorem found_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem found_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem found_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem found_3 (c : Dev nD) (t : Fin cfg2.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem found_4 (c : Dev nD) (t : Fin cfg2.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem found_5 (c : Dev nD) (t : Fin cfg2.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem found_6 (c : Dev nD) (t : Fin cfg2.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)
theorem found_7 (c : Dev nD) (t : Fin cfg2.N) (d) : (dat V c).before 7 t d = blk V c 7 t :=
  ((dat V c).before_in_eq_fetched 7 rfl (fun _ => rfl) (fun _ _ _ => rfl)
    (fun t => by rw [after_7]; unfold Dat.blockOf blk; rw [dat_A]; try rfl) t d).trans
    (by unfold Dat.fetched Dat.blockOf blk; rw [dat_A]; try rfl)

/-- What the body is called with at point `t`, the windows one by one, -/
def atCall (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def atReturn (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

/-- The body at any point: the input buffers hold their blocks, so the triple applies; the scoped rest, the generator
    register and the core's dues pass through unread. -/
theorem body_at (c : Dev nD) (t : Fin cfg2.N) :
    atCall V c t ⊢ wp frame (wpE (defs₀ (F := F)) Variants.none c none) Set.univ (bodyAt2 t) (fun _ => atReturn V c t) := by
  unfold atCall atReturn bodyAt2
  simp only [found_0, found_1, found_2, found_3, found_4, found_5, found_6, found_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ _ _ _ _ _ _ _ _ _ _ _ _ _ _ _ _ _ _ _
    (blk V c 0 t) (blk V c 1 t) (blk V c 2 t) (blk V c 3 t) (blk V c 4 t) (blk V c 5 t) (blk V c 6 t) (blk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's obligation, at every point. -/
theorem obligation (c : Dev nD) : BodyObligation (dat (F := F) V c) (defs₀ (F := F)) Variants.none () Set.univ := fun t => by
  rw [bigSep_W2, bigSep_W2]
  exact body_at V c t

end AtEntry

end Cert.KernelIdeal.FeedForward

end
-- ==== Proof.Whole.lean ====
/-
  The kernel program's run as a whole. @main is: host operations (the six modulation rows out of ada_gss + cond_BD, and the
  six weights transposed), the projection grid, host operations (queries, keys and values split into heads), the attention
  grid, the feed-forward grid.

  The contents of every unscoped buffer at the five boundaries are a fold from the launch memory: a stretch of host
  operations leaves its operations' results; a grid leaves each of its arrays at what its write-backs add up to (an input
  array as it was, an output array block by block) and every other buffer alone. Each grid is entered from all unscoped
  buffers at the boundary's contents and left at the next boundary's, the core's generator register and its dues riding
  along; the attention grid's invariant also takes its accumulator out of the scoped buffers and puts it back. The run:
  every weakly fair execution of @main ends with every unscoped buffer at the last boundary's contents. No host operation
  and no grid writes an argument, so each argument ends as launched; the result is the feed-forward grid's output array.
-/
import proofs.«126116_j51702816309661_2_alg».proof.Proof.Projections
import proofs.«126116_j51702816309661_2_alg».proof.Proof.Attention
import proofs.«126116_j51702816309661_2_alg».proof.Proof.FeedForward
import proofs.«126116_j51702816309661_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch; -/
abbrev B0 : Dev nD → Valuation τ sig (Elt F) := fun c b => m (c, b)
/-- after the first stretch of host operations, where the projection grid is entered. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At the projection grid's exit: its arrays at what the pipeline leaves, every other buffer as entered. -/
def B2 (c : Dev nD) : Valuation τ sig (Elt F) :=
  Pipeline.withArrays spec0 c (B1 m c) fun w => (Projections.dat (E1 m) c).arrAt w cfg0.N
theorem B2_arr (c : Dev nD) (w : Fin cfg0.W) :
    B2 m c (Proc.devRef .tc (Pipeline.arrRef spec0 w)) = (Projections.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (Projections.dat (E1 m) c).arrAt w cfg0.N = E2 m c (Pipeline.arrRef spec0 w) :=
  (B2_arr m c w).symm
theorem alone0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second stretch of host operations, where the attention grid is entered. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At the attention grid's exit: its arrays at what the pipeline leaves, every other buffer as entered. -/
def B4 (c : Dev nD) : Valuation τ sig (Elt F) :=
  Pipeline.withArrays spec1 c (B3 m c) fun w => (Attention.dat (E3 m) c).arrAt w cfg1.N
theorem B4_arr (c : Dev nD) (w : Fin cfg1.W) :
    B4 m c (Proc.devRef .tc (Pipeline.arrRef spec1 w)) = (Attention.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem left1 (c : Dev nD) (w : Fin cfg1.W) : (Attention.dat (E3 m) c).arrAt w cfg1.N = E4 m c (Pipeline.arrRef spec1 w) :=
  (B4_arr m c w).symm
theorem alone1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- At the feed-forward grid's exit: its arrays at what the pipeline leaves, every other buffer as entered. -/
def B5 (c : Dev nD) : Valuation τ sig (Elt F) :=
  Pipeline.withArrays spec2 c (B4 m c) fun w => (FeedForward.dat (E4 m) c).arrAt w cfg2.N
theorem B5_arr (c : Dev nD) (w : Fin cfg2.W) :
    B5 m c (Proc.devRef .tc (Pipeline.arrRef spec2 w)) = (FeedForward.dat (E4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
abbrev E5 : (c : Dev nD) → (b : Ref sig .tc) → Buf (Elt F) ((c : Thread nD τ).loc b) := fun c b => B5 m c b
theorem left2 (c : Dev nD) (w : Fin cfg2.W) : (FeedForward.dat (E4 m) c).arrAt w cfg2.N = E5 m c (Pipeline.arrRef spec2 w) :=
  (B5_arr m c w).symm
theorem alone2 (c : Dev nD) : ∀ b, b ∉ Finset.univ.image (Pipeline.arrRef spec2) → E5 m c b = E4 m c b :=
  fun b hb => B5_of_ne m c b fun w e => hb (Finset.mem_image.mpr ⟨w, Finset.mem_univ _, e⟩)

/-! ## The proof data family and the thread state -/

/-- No grid has a prefetched table. -/
abbrev adm : (p : Fin 3) → (pcfgs (F := F) p).Adm := fun p => (cfgs p).toPCfg_adm
/-- Each grid's proof data at the contents it is entered with. -/
def pdats : (p : Fin 3) → (c : Dev nD) → Dat τ (Elt F) Unit ℕ (UR sig nD τ) ℕ (Pipeline.pin (pcfgs (F := F)) adm p) c
  | ⟨0, _⟩ => fun c => Projections.dat (E1 m) c
  | ⟨1, _⟩ => fun c => Attention.dat (E3 m) c
  | ⟨2, _⟩ => fun c => FeedForward.dat (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator register. -/
abbrev Tₙ (c : Dev nD) : sProp 𝕄 := iprop(StableHlo.held (c : Thread nD τ) (Pipeline.ucRefs τ sig) (B5 m c) ∗ ∃ r, prngReg c r)

/-! ## The grids as segments -/

set_option backward.isDefEq.respectTransparency.types false in
/-- The projection grid over the thread state: its arrays taken out of the unscoped buffers at entry and put back at their
    exit contents; the generator register into the invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Projections.obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (alone0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention grid over the thread state: its arrays taken out of the unscoped buffers at entry and put back at their
    exit contents; its accumulator, at whatever it holds, out of the scoped buffers into the invariant and back; the
    generator register likewise; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attention.obligation (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show Pipeline.scopedRest (Ix := Unit) (Name := ℕ) (U := UR sig nD τ) (Lvl := ℕ) (Val := Elt F) (Pipeline.pin (pcfgs (F := F)) adm 1).spec c = _
      from scopedRest1_split (Ix := Unit) (Val := Elt F) (Name := ℕ) (U := UR sig nD τ) (Lvl := ℕ) c]
    show _ ⊢ (Attention.dat (E3 m) c).Φ 0
    dsimp only [Attention.dat]
    simp only [owns_whole_eq]
    iintro ⟨Hp, -, ⟨%f, Hs⟩, Hr⟩
    isplitl [Hs]
    · iexists f; isplitr
      · ipureintro; intro h; first | exact absurd rfl h | exact absurd (by decide) h
      iexists f; isplitr; · ipureintro; rfl
      iexact Hs
    isplitl [Hr]; · iexact Hr
    iexact Hp
  hout c := by
    rw [Pipeline.ownSems0_none,
      show Pipeline.scopedRest (Ix := Unit) (Name := ℕ) (U := UR sig nD τ) (Lvl := ℕ) (Val := Elt F) (Pipeline.pin (pcfgs (F := F)) adm 1).spec c = _
        from scopedRest1_split (Ix := Unit) (Val := Elt F) (Name := ℕ) (U := UR sig nD τ) (Lvl := ℕ) c]
    show (Attention.dat (E3 m) c).Φ (Fin.last _) ⊢ _
    dsimp only [Attention.dat]
    simp only [owns_whole_eq]
    iintro ⟨⟨%a, -, ⟨%f, -, Hs⟩⟩, Hr, Hp⟩
    isplitl [Hp]; · iexact Hp
    isplitr; · iempintro
    isplitl [Hs]; · iexists f; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (alone1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The feed-forward grid over the thread state: its arrays taken out of the unscoped buffers at entry and put back at their
    exit contents; the generator register into the invariant and out; nothing owed; no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (FeedForward.obligation (E4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (left2 m c) (alone2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .region (reg2 m) ]
/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main on the TensorCores terminates, nothing
    faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-! ## The arguments end as launched

No host operation writes an argument and no grid has one as an output (a grid reads it through an input window or leaves
it alone), so the fold at an argument's buffer walks back to the launch memory. -/

theorem kept_arg0 (c : Dev nD) : B5 m c (Proc.devRef .tc main_arg0) = m ((c : Thread nD τ).loc main_arg0) :=
  calc B5 m c (Proc.devRef .tc main_arg0)
    _ = B4 m c (Proc.devRef .tc main_arg0) := B5_of_ne m c main_arg0 (by decide)
    _ = B3 m c (Proc.devRef .tc main_arg0) := (B4_arr m c 4).trans (((Attention.dat (E3 m) c).arrAt_in 4 rfl _).trans (Attention.dat_A (E3 m) c 4))
    _ = B2 m c (Proc.devRef .tc main_arg0) := StableHlo.after_of_writes_sub hostOps1 _ hostOps1_writes (r := main_arg0) (by decide)
    _ = B1 m c (Proc.devRef .tc main_arg0) := (B2_arr m c 0).trans (((Projections.dat (E1 m) c).arrAt_in 0 rfl _).trans (Projections.dat_A (E1 m) c 0))
    _ = B0 m c (Proc.devRef .tc main_arg0) := StableHlo.after_of_writes_sub hostOps0 _ hostOps0_writes (r := main_arg0) (by decide)
    _ = m ((c : Thread nD τ).loc main_arg0) := rfl

theorem kept_arg1 (c : Dev nD) : B5 m c (Proc.devRef .tc main_arg1) = m ((c : Thread nD τ).loc main_arg1) :=
  calc B5 m c (Proc.devRef .tc main_arg1)
    _ = B4 m c (Proc.devRef .tc main_arg1) := B5_of_ne m c main_arg1 (by decide)
    _ = B3 m c (Proc.devRef .tc main_arg1) := B4_of_ne m c main_arg1 (by decide)
    _ = B2 m c (Proc.devRef .tc main_arg1) := StableHlo.after_of_writes_sub hostOps1 _ hostOps1_writes (r := main_arg1) (by decide)
    _ = B1 m c (Proc.devRef .tc main_arg1) := (B2_arr m c 3).trans (((Projections.dat (E1 m) c).arrAt_in 3 rfl _).trans (Projections.dat_A (E1 m) c 3))
    _ = B0 m c (Proc.devRef .tc main_arg1) := StableHlo.after_of_writes_sub hostOps0 _ hostOps0_writes (r := main_arg1) (by decide)
    _ = m ((c : Thread nD τ).loc main_arg1) := rfl

theorem kept_arg2 (c : Dev nD) : B5 m c (Proc.devRef .tc main_arg2) = m ((c : Thread nD τ).loc main_arg2) :=
  calc B5 m c (Proc.devRef .tc main_arg2)
    _ = B4 m c (Proc.devRef .tc main_arg2) := B5_of_ne m c main_arg2 (by decide)
    _ = B3 m c (Proc.devRef .tc main_arg2) := B4_of_ne m c main_arg2 (by decide)
    _ = B2 m c (Proc.devRef .tc main_arg2) := StableHlo.after_of_writes_sub hostOps1 _ hostOps1_writes (r := main_arg2) (by decide)
    _ = B1 m c (Proc.devRef .tc main_arg2) := B2_of_ne m c main_arg2 (by decide)
    _ = B0 m c (Proc.devRef .tc main_arg2) := StableHlo.after_of_writes_sub hostOps0 _ hostOps0_writes (r := main_arg2) (by decide)
    _ = m ((c : Thread nD τ).loc main_arg2) := rfl

theorem kept_arg3 (c : Dev nD) : B5 m c (Proc.devRef .tc main_arg3) = m ((c : Thread nD τ).loc main_arg3) :=
  calc B5 m c (Proc.devRef .tc main_arg3)
    _ = B4 m c (Proc.devRef .tc main_arg3) := B5_of_ne m c main_arg3 (by decide)
    _ = B3 m c (Proc.devRef .tc main_arg3) := (B4_arr m c 3).trans (((Attention.dat (E3 m) c).arrAt_in 3 rfl _).trans (Attention.dat_A (E3 m) c 3))
    _ = B2 m c (Proc.devRef .tc main_arg3) := StableHlo.after_of_writes_sub hostOps1 _ hostOps1_writes (r := main_arg3) (by decide)
    _ = B1 m c (Proc.devRef .tc main_arg3) := B2_of_ne m c main_arg3 (by decide)
    _ = B0 m c (Proc.devRef .tc main_arg3) := StableHlo.after_of_writes_sub hostOps0 _ hostOps0_writes (r := main_arg3) (by decide)
    _ = m ((c : Thread nD τ).loc main_arg3) := rfl

theorem kept_arg4 (c : Dev nD) : B5 m c (Proc.devRef .tc main_arg4) = m ((c : Thread nD τ).loc main_arg4) :=
  calc B5 m c (Proc.devRef .tc main_arg4)
    _ = B4 m c (Proc.devRef .tc main_arg4) := B5_of_ne m c main_arg4 (by decide)
    _ = B3 m c (Proc.devRef .tc main_arg4) := B4_of_ne m c main_arg4 (by decide)
    _ = B2 m c (Proc.devRef .tc main_arg4) := StableHlo.after_of_writes_sub hostOps1 _ hostOps1_writes (r := main_arg4) (by decide)
    _ = B1 m c (Proc.devRef .tc main_arg4) := B2_of_ne m c main_arg4 (by decide)
    _ = B0 m c (Proc.devRef .tc main_arg4) := StableHlo.after_of_writes_sub hostOps0 _ hostOps0_writes (r := main_arg4) (by decide)
    _ = m ((c : Thread nD τ).loc main_arg4) := rfl

theorem kept_arg5 (c : Dev nD) : B5 m c (Proc.devRef .tc main_arg5) = m ((c : Thread nD τ).loc main_arg5) :=
  calc B5 m c (Proc.devRef .tc main_arg5)
    _ = B4 m c (Proc.devRef .tc main_arg5) := B5_of_ne m c main_arg5 (by decide)
    _ = B3 m c (Proc.devRef .tc main_arg5) := B4_of_ne m c main_arg5 (by decide)
    _ = B2 m c (Proc.devRef .tc main_arg5) := StableHlo.after_of_writes_sub hostOps1 _ hostOps1_writes (r := main_arg5) (by decide)
    _ = B1 m c (Proc.devRef .tc main_arg5) := B2_of_ne m c main_arg5 (by decide)
    _ = B0 m c (Proc.devRef .tc main_arg5) := StableHlo.after_of_writes_sub hostOps0 _ hostOps0_writes (r := main_arg5) (by decide)
    _ = m ((c : Thread nD τ).loc main_arg5) := rfl

theorem kept_arg6 (c : Dev nD) : B5 m c (Proc.devRef .tc main_arg6) = m ((c : Thread nD τ).loc main_arg6) :=
  calc B5 m c (Proc.devRef .tc main_arg6)
    _ = B4 m c (Proc.devRef .tc main_arg6) := B5_of_ne m c main_arg6 (by decide)
    _ = B3 m c (Proc.devRef .tc main_arg6) := B4_of_ne m c main_arg6 (by decide)
    _ = B2 m c (Proc.devRef .tc main_arg6) := StableHlo.after_of_writes_sub hostOps1 _ hostOps1_writes (r := main_arg6) (by decide)
    _ = B1 m c (Proc.devRef .tc main_arg6) := B2_of_ne m c main_arg6 (by decide)
    _ = B0 m c (Proc.devRef .tc main_arg6) := StableHlo.after_of_writes_sub hostOps0 _ hostOps0_writes (r := main_arg6) (by decide)
    _ = m ((c : Thread nD τ).loc main_arg6) := rfl

theorem kept_arg7 (c : Dev nD) : B5 m c (Proc.devRef .tc main_arg7) = m ((c : Thread nD τ).loc main_arg7) :=
  calc B5 m c (Proc.devRef .tc main_arg7)
    _ = B4 m c (Proc.devRef .tc main_arg7) := B5_of_ne m c main_arg7 (by decide)
    _ = B3 m c (Proc.devRef .tc main_arg7) := B4_of_ne m c main_arg7 (by decide)
    _ = B2 m c (Proc.devRef .tc main_arg7) := StableHlo.after_of_writes_sub hostOps1 _ hostOps1_writes (r := main_arg7) (by decide)
    _ = B1 m c (Proc.devRef .tc main_arg7) := B2_of_ne m c main_arg7 (by decide)
    _ = B0 m c (Proc.devRef .tc main_arg7) := StableHlo.after_of_writes_sub hostOps0 _ hostOps0_writes (r := main_arg7) (by decide)
    _ = m ((c : Thread nD τ).loc main_arg7) := rfl

theorem kept_arg8 (c : Dev nD) : B5 m c (Proc.devRef .tc main_arg8) = m ((c : Thread nD τ).loc main_arg8) :=
  calc B5 m c (Proc.devRef .tc main_arg8)
    _ = B4 m c (Proc.devRef .tc main_arg8) := B5_of_ne m c main_arg8 (by decide)
    _ = B3 m c (Proc.devRef .tc main_arg8) := B4_of_ne m c main_arg8 (by decide)
    _ = B2 m c (Proc.devRef .tc main_arg8) := StableHlo.after_of_writes_sub hostOps1 _ hostOps1_writes (r := main_arg8) (by decide)
    _ = B1 m c (Proc.devRef .tc main_arg8) := B2_of_ne m c main_arg8 (by decide)
    _ = B0 m c (Proc.devRef .tc main_arg8) := StableHlo.after_of_writes_sub hostOps0 _ hostOps0_writes (r := main_arg8) (by decide)
    _ = m ((c : Thread nD τ).loc main_arg8) := rfl

theorem kept_arg9 (c : Dev nD) : B5 m c (Proc.devRef .tc main_arg9) = m ((c : Thread nD τ).loc main_arg9) :=
  calc B5 m c (Proc.devRef .tc main_arg9)
    _ = B4 m c (Proc.devRef .tc main_arg9) := B5_of_ne m c main_arg9 (by decide)
    _ = B3 m c (Proc.devRef .tc main_arg9) := (B4_arr m c 7).trans (((Attention.dat (E3 m) c).arrAt_in 7 rfl _).trans (Attention.dat_A (E3 m) c 7))
    _ = B2 m c (Proc.devRef .tc main_arg9) := StableHlo.after_of_writes_sub hostOps1 _ hostOps1_writes (r := main_arg9) (by decide)
    _ = B1 m c (Proc.devRef .tc main_arg9) := B2_of_ne m c main_arg9 (by decide)
    _ = B0 m c (Proc.devRef .tc main_arg9) := StableHlo.after_of_writes_sub hostOps0 _ hostOps0_writes (r := main_arg9) (by decide)
    _ = m ((c : Thread nD τ).loc main_arg9) := rfl

theorem kept_arg10 (c : Dev nD) : B5 m c (Proc.devRef .tc main_arg10) = m ((c : Thread nD τ).loc main_arg10) :=
  calc B5 m c (Proc.devRef .tc main_arg10)
    _ = B4 m c (Proc.devRef .tc main_arg10) := B5_of_ne m c main_arg10 (by decide)
    _ = B3 m c (Proc.devRef .tc main_arg10) := B4_of_ne m c main_arg10 (by decide)
    _ = B2 m c (Proc.devRef .tc main_arg10) := StableHlo.after_of_writes_sub hostOps1 _ hostOps1_writes (r := main_arg10) (by decide)
    _ = B1 m c (Proc.devRef .tc main_arg10) := B2_of_ne m c main_arg10 (by decide)
    _ = B0 m c (Proc.devRef .tc main_arg10) := StableHlo.after_of_writes_sub hostOps0 _ hostOps0_writes (r := main_arg10) (by decide)
    _ = m ((c : Thread nD τ).loc main_arg10) := rfl

theorem kept_arg11 (c : Dev nD) : B5 m c (Proc.devRef .tc main_arg11) = m ((c : Thread nD τ).loc main_arg11) :=
  calc B5 m c (Proc.devRef .tc main_arg11)
    _ = B4 m c (Proc.devRef .tc main_arg11) := (B5_arr m c 5).trans (((FeedForward.dat (E4 m) c).arrAt_in 5 rfl _).trans (FeedForward.dat_A (E4 m) c 5))
    _ = B3 m c (Proc.devRef .tc main_arg11) := B4_of_ne m c main_arg11 (by decide)
    _ = B2 m c (Proc.devRef .tc main_arg11) := StableHlo.after_of_writes_sub hostOps1 _ hostOps1_writes (r := main_arg11) (by decide)
    _ = B1 m c (Proc.devRef .tc main_arg11) := B2_of_ne m c main_arg11 (by decide)
    _ = B0 m c (Proc.devRef .tc main_arg11) := StableHlo.after_of_writes_sub hostOps0 _ hostOps0_writes (r := main_arg11) (by decide)
    _ = m ((c : Thread nD τ).loc main_arg11) := rfl

theorem kept_arg12 (c : Dev nD) : B5 m c (Proc.devRef .tc main_arg12) = m ((c : Thread nD τ).loc main_arg12) :=
  calc B5 m c (Proc.devRef .tc main_arg12)
    _ = B4 m c (Proc.devRef .tc main_arg12) := B5_of_ne m c main_arg12 (by decide)
    _ = B3 m c (Proc.devRef .tc main_arg12) := B4_of_ne m c main_arg12 (by decide)
    _ = B2 m c (Proc.devRef .tc main_arg12) := StableHlo.after_of_writes_sub hostOps1 _ hostOps1_writes (r := main_arg12) (by decide)
    _ = B1 m c (Proc.devRef .tc main_arg12) := B2_of_ne m c main_arg12 (by decide)
    _ = B0 m c (Proc.devRef .tc main_arg12) := StableHlo.after_of_writes_sub hostOps0 _ hostOps0_writes (r := main_arg12) (by decide)
    _ = m ((c : Thread nD τ).loc main_arg12) := rfl

theorem kept_arg13 (c : Dev nD) : B5 m c (Proc.devRef .tc main_arg13) = m ((c : Thread nD τ).loc main_arg13) :=
  calc B5 m c (Proc.devRef .tc main_arg13)
    _ = B4 m c (Proc.devRef .tc main_arg13) := (B5_arr m c 7).trans (((FeedForward.dat (E4 m) c).arrAt_in 7 rfl _).trans (FeedForward.dat_A (E4 m) c 7))
    _ = B3 m c (Proc.devRef .tc main_arg13) := B4_of_ne m c main_arg13 (by decide)
    _ = B2 m c (Proc.devRef .tc main_arg13) := StableHlo.after_of_writes_sub hostOps1 _ hostOps1_writes (r := main_arg13) (by decide)
    _ = B1 m c (Proc.devRef .tc main_arg13) := B2_of_ne m c main_arg13 (by decide)
    _ = B0 m c (Proc.devRef .tc main_arg13) := StableHlo.after_of_writes_sub hostOps0 _ hostOps0_writes (r := main_arg13) (by decide)
    _ = m ((c : Thread nD τ).loc main_arg13) := rfl

/-- The frame: every weakly fair execution of @main terminates, nothing faulting, with the fourteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (kept_arg0 m c),
    (h c _ (mem_uc main_arg1 (by decide))).trans (kept_arg1 m c),
    (h c _ (mem_uc main_arg2 (by decide))).trans (kept_arg2 m c),
    (h c _ (mem_uc main_arg3 (by decide))).trans (kept_arg3 m c),
    (h c _ (mem_uc main_arg4 (by decide))).trans (kept_arg4 m c),
    (h c _ (mem_uc main_arg5 (by decide))).trans (kept_arg5 m c),
    (h c _ (mem_uc main_arg6 (by decide))).trans (kept_arg6 m c),
    (h c _ (mem_uc main_arg7 (by decide))).trans (kept_arg7 m c),
    (h c _ (mem_uc main_arg8 (by decide))).trans (kept_arg8 m c),
    (h c _ (mem_uc main_arg9 (by decide))).trans (kept_arg9 m c),
    (h c _ (mem_uc main_arg10 (by decide))).trans (kept_arg10 m c),
    (h c _ (mem_uc main_arg11 (by decide))).trans (kept_arg11 m c),
    (h c _ (mem_uc main_arg12 (by decide))).trans (kept_arg12 m c),
    (h c _ (mem_uc main_arg13 (by decide))).trans (kept_arg13 m c)⟩) (run m ρ)

/-- The run with the result named: the block output is the feed-forward grid's output array after its eight write-backs,
    and the arguments are as launched. -/
theorem run_result : θ_run defs (onTc (τ := τ) (main (F := F))) ⟨m, fun _ => 0, ρ⟩ (fun r => ∀ c : Dev nD,
      r.2.mem ((c.tc : Thread nD τ).loc main_v34) = (FeedForward.dat (E4 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v34 (by decide))).trans (B5_arr m c 8),
    (h c _ (mem_uc main_arg0 (by decide))).trans (kept_arg0 m c),
    (h c _ (mem_uc main_arg1 (by decide))).trans (kept_arg1 m c),
    (h c _ (mem_uc main_arg2 (by decide))).trans (kept_arg2 m c),
    (h c _ (mem_uc main_arg3 (by decide))).trans (kept_arg3 m c),
    (h c _ (mem_uc main_arg4 (by decide))).trans (kept_arg4 m c),
    (h c _ (mem_uc main_arg5 (by decide))).trans (kept_arg5 m c),
    (h c _ (mem_uc main_arg6 (by decide))).trans (kept_arg6 m c),
    (h c _ (mem_uc main_arg7 (by decide))).trans (kept_arg7 m c),
    (h c _ (mem_uc main_arg8 (by decide))).trans (kept_arg8 m c),
    (h c _ (mem_uc main_arg9 (by decide))).trans (kept_arg9 m c),
    (h c _ (mem_uc main_arg10 (by decide))).trans (kept_arg10 m c),
    (h c _ (mem_uc main_arg11 (by decide))).trans (kept_arg11 m c),
    (h c _ (mem_uc main_arg12 (by decide))).trans (kept_arg12 m c),
    (h c _ (mem_uc main_arg13 (by decide))).trans (kept_arg13 m c)⟩) (run m ρ)

end Cert.KernelIdeal.Whole

end
-- ==== Proof.Bits.Projections.lean ====
/-
  The first grid of the kernel program: the three projections, on the 8 points (batch, row block of 512).

  At a point the body reads the 512 rows of `x` and of `context` for its batch and row block, the batch's scale and shift
  rows and the three 1024×1024 weights, and stores three whole 512×1024 blocks: the modulated normalised rows of `x` times
  the query weight, and the context rows times the key and the value weight. It keeps nothing between points. This module
  states what each of the three output blocks holds after the body as a function of the seven input blocks, proves the
  body's triple over whole staging buffers, and from it the pipeline's obligation at every point: each input buffer holds
  its array's block whether or not the point fetched it (an unfetched block has not moved), each output buffer ends at
  its block's function of the inputs.
  (This copy is the same argument for the kernel program as printed, read at the word level: nothing in it depends on how a
  float is read.)
-/
import proofs.«126116_j51702816309661_2_alg».proof.Proof.Gen.Kernel.Launch
import proofs.«126116_j51702816309661_2_alg».proof.Proof.Gen.Kernel.Skeleton
import proofs.«126116_j51702816309661_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Projections

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1×512×1024 block, the whole 1×1×1024 modulation row and the whole 1024×1024 weight: every access of the
    projection body is through one of these. -/
abbrev rBlk : Rect S1x512x1024 := Rect.unit (s := S1x512x1024) ![0, 0, 0] S1x512x1024.size inb_S1x512x1024_S1x512x1024_0_0_0
abbrev rRow : Rect S1x1x1024 := Rect.unit (s := S1x1x1024) ![0, 0, 0] S1x1x1024.size inb_S1x1x1024_S1x1x1024_0_0_0
abbrev rWgt : Rect S1024x1024 := Rect.unit (s := S1024x1024) ![0, 0] S1024x1024.size inb_S1024x1024_S1024x1024_0_0

/-- The query block: the modulated, normalised rows of `x` times the query weight. -/
def qBlock (x : Vec F S1x512x1024 .f32) (sc sh : Vec F S1x1x1024 .f32) (wq : Vec F S1024x1024 .bf16) : Vec F S1x512x1024 .bf16 :=
  View.canon [⟨rBlk, k0_pay1 (k0_pay5 (View.ld x rBlk) (View.ld sc rRow) (View.ld sh rRow) (View.ld wq rWgt))⟩]
/-- The key block: the context rows times the key weight. -/
def kBlock (ctx : Vec F S1x512x1024 .f32) (wk : Vec F S1024x1024 .bf16) : Vec F S1x512x1024 .bf16 :=
  View.canon [⟨rBlk, k0_pay3 (View.ld ctx rBlk) (View.ld wk rWgt)⟩]
/-- The value block: the context rows times the value weight. -/
def vBlock (ctx : Vec F S1x512x1024 .f32) (wv : Vec F S1024x1024 .bf16) : Vec F S1x512x1024 .bf16 :=
  View.canon [⟨rBlk, k0_pay4 (View.ld ctx rBlk) (View.ld wv rWgt)⟩]

/-- One store through the whole block covers it. -/
theorem cover_blk (p : rBlk.shape.Idx → Elt F .bf16) (y : S1x512x1024.Idx) :
    ∃ pc ∈ ([⟨rBlk, p⟩] : List (View.Piece (Elt F) S1x512x1024 .bf16)), y ∈ pc.1.set :=
  View.cover_of_tiled [⟨rBlk, p⟩] S1x512x1024.size (by rfl) y

set_option maxHeartbeats 4000000 in
/-- The body over whole staging buffers — the seven inputs at given contents, the three outputs at anything — runs to its
    end leaving the inputs as they were and each output at its block's function of them. -/
theorem body_triple (c : Dev nD) (E : Set ℕ) (i : grid0.Coords)
    (arg2 : Memref sig .tc .vmem S1x512x1024 .f32) (harg2 : arg2.IsWhole) (arg3 : Memref sig .tc .vmem S1x1x1024 .f32) (harg3 : arg3.IsWhole)
    (arg4 : Memref sig .tc .vmem S1x1x1024 .f32) (harg4 : arg4.IsWhole) (arg5 : Memref sig .tc .vmem S1x512x1024 .f32) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole) (arg9 : Memref sig .tc .vmem S1x512x1024 .bf16) (harg9 : arg9.IsWhole)
    (arg10 : Memref sig .tc .vmem S1x512x1024 .bf16) (harg10 : arg10.IsWhole) (arg11 : Memref sig .tc .vmem S1x512x1024 .bf16) (harg11 : arg11.IsWhole)
    (x : Vec F S1x512x1024 .f32) (sc sh : Vec F S1x1x1024 .f32) (ctx : Vec F S1x512x1024 .f32) (wq wk wv : Vec F S1024x1024 .bf16)
    (K : PUnit → sProp 𝕄) :
    iprop(owns (c : Thread nD τ) arg2 fullShare x ∗ owns (c : Thread nD τ) arg3 fullShare sc ∗ owns (c : Thread nD τ) arg4 fullShare sh
        ∗ owns (c : Thread nD τ) arg5 fullShare ctx ∗ owns (c : Thread nD τ) arg6 fullShare wq ∗ owns (c : Thread nD τ) arg7 fullShare wk
        ∗ owns (c : Thread nD τ) arg8 fullShare wv
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare sc ∗ owns (c : Thread nD τ) arg4 fullShare sh
            ∗ owns (c : Thread nD τ) arg5 fullShare ctx ∗ owns (c : Thread nD τ) arg6 fullShare wq ∗ owns (c : Thread nD τ) arg7 fullShare wk
            ∗ owns (c : Thread nD τ) arg8 fullShare wv
            ∗ owns (c : Thread nD τ) arg9 fullShare (qBlock x sc sh wq) ∗ owns (c : Thread nD τ) arg10 fullShare (kBlock ctx wk)
            ∗ owns (c : Thread nD τ) arg11 fullShare (vBlock ctx wv)) -∗ K ⟨⟩))
      ⊢ wp frame (wpE (defs₀ (F := F)) Variants.none c none) E
          (cc0__qkv_proj_kernel i arg2 harg2 arg3 harg3 arg4 harg4 arg5 harg5 arg6 harg6 arg7 harg7 arg8 harg8 arg9 harg9 arg10 harg10 arg11 harg11) K := by
  simp only [cc0__qkv_proj_kernel_eq_skeleton]; unfold cc0__qkv_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_blk _)
  isplitl [H10]
  · iexists _; isplitr
    swap; · iexact H10
    ipureintro
    exact View.read_writes_eq_canon _ _ _ (cover_blk _)
  iexists _; isplitr
  swap; · iexact H11
  ipureintro
  exact View.read_writes_eq_canon _ _ _ (cover_blk _)

/-! ## The proof data at the contents the region is entered with -/

section AtEntry

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as entered; after the body each input buffer at its block, the three output buffers at
    the query, key and value blocks of the input blocks; nothing kept between points beyond the scoped rest and the
    generator register; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => qBlock (blk V c 0 t) (blk V c 1 t) (blk V c 2 t) (blk V c 4 t)
    | ⟨8, _⟩ => kBlock (blk V c 3 t) (blk V c 5 t)
    | ⟨9, _⟩ => vBlock (blk V c 3 t) (blk V c 6 t)
  Φ _ := Pipeline.ΦA spec0 c
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) :
    (dat V c).after 7 t = qBlock (blk V c 0 t) (blk V c 1 t) (blk V c 2 t) (blk V c 4 t) := by dsimp only [dat]
theorem after_8 (c : Dev nD) (t : Fin cfg0.N) : (dat V c).after 8 t = kBlock (blk V c 3 t) (blk V c 5 t) := by dsimp only [dat]
theorem after_9 (c : Dev nD) (t : Fin cfg0.N) : (dat V c).after 9 t = vBlock (blk V c 3 t) (blk V c 6 t) := by dsimp only [dat]

/-- An input buffer holds its array's block at every point, fetched there or not: where it was not fetched the block
    index has not moved since the point before, and the body left the block in place. -/
theorem found_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem found_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem found_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem found_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem found_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem found_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem found_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)

/-- What the body is called with at point `t`, the ten windows one by one, -/
def atCall (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def atReturn (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: the input buffers hold their blocks, so the triple applies; the scoped rest, the generator
    register and the core's dues pass through unread. -/
theorem body_at (c : Dev nD) (t : Fin cfg0.N) :
    atCall V c t ⊢ wp frame (wpE (defs₀ (F := F)) Variants.none c none) Set.univ (bodyAt0 t) (fun _ => atReturn V c t) := by
  unfold atCall atReturn bodyAt0
  simp only [found_0, found_1, found_2, found_3, found_4, found_5, found_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ _ _ _ _ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation, at every point. -/
theorem obligation (c : Dev nD) : BodyObligation (dat (F := F) V c) (defs₀ (F := F)) Variants.none () Set.univ := fun t => by
  rw [bigSep_W0, bigSep_W0]
  exact body_at V c t

end AtEntry

end Cert.Kernel.Projections

end
-- ==== Proof.Bits.AttentionBody.lean ====
/-
  The second grid of the kernel program: attention and the output projection, on the 128 points (batch, row block of 512,
  head), the head running fastest.

  At a point the body reads one head's 512×64 queries and 1024×64 keys and values, the head's 512×1024 bias block and
  its 64 rows of the output weight, and adds to a 512×1024 accumulator — a scratch buffer kept from point to point — the
  head's contribution: softmax over the keys of (q kᵀ)/32 + bias, times the values, times those 64 rows. At the first
  head it first resets the accumulator to zero; at the last head it also reads the block of `x`, the gate row and the
  output bias and stores `x + (accumulator + bias)·gate` into the output block, which is written back there and nowhere
  else. So there are three kinds of point, and what the accumulator holds after a point is a recursion over the points
  of one (batch, row block): the contribution alone after the first head, the previous contents plus the contribution
  after every other. This module states the accumulator and the output block as functions of the input blocks, proves the
  body's triple for each kind of point, and from them the pipeline's obligation at every point, the accumulator's
  contents carried by the invariant between points.
  (This copy is the same argument for the kernel program as printed, read at the word level: nothing in it depends on how a
  float is read.)
-/
import proofs.«126116_j51702816309661_2_alg».proof.Proof.Gen.Kernel.Launch
import proofs.«126116_j51702816309661_2_alg».proof.Proof.Gen.Kernel.Skeleton
import proofs.«126116_j51702816309661_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Attention

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole blocks the attention body reads and writes: a head's 512×64 queries, its 1024×64 keys and values, the
    512×1024 bias block, the 512×1024 block of `x`, the gate row, the head's 64 rows of the output weight, the output bias,
    and the 512×1024 accumulator. -/
abbrev rQ : Rect S1x1x512x64 := Rect.unit (s := S1x1x512x64) ![0, 0, 0, 0] S1x1x512x64.size inb_S1x1x512x64_S1x1x512x64_0_0_0_0
abbrev rKV : Rect S1x1x1024x64 := Rect.unit (s := S1x1x1024x64) ![0, 0, 0, 0] S1x1x1024x64.size inb_S1x1x1024x64_S1x1x1024x64_0_0_0_0
abbrev rBias : Rect S1x1x512x1024 := Rect.unit (s := S1x1x512x1024) ![0, 0, 0, 0] S1x1x512x1024.size inb_S1x1x512x1024_S1x1x512x1024_0_0_0_0
abbrev rBlk : Rect S1x512x1024 := Rect.unit (s := S1x512x1024) ![0, 0, 0] S1x512x1024.size inb_S1x512x1024_S1x512x1024_0_0_0
abbrev rRow : Rect S1x1x1024 := Rect.unit (s := S1x1x1024) ![0, 0, 0] S1x1x1024.size inb_S1x1x1024_S1x1x1024_0_0_0
abbrev rWo : Rect S64x1024 := Rect.unit (s := S64x1024) ![0, 0] S64x1024.size inb_S64x1024_S64x1024_0_0
abbrev rBo : Rect S1024 := Rect.unit (s := S1024) ![0] S1024.size inb_S1024_S1024_0
abbrev rAcc : Rect S512x1024 := Rect.unit (s := S512x1024) ![0, 0] S512x1024.size inb_S512x1024_S512x1024_0_0

/-- The grid's head coordinate is the first head, as the body tests it; -/
abbrev firstHead (i : grid1.Coords) : Prop :=
  Scalar.cmpi .ne (Scalar.extui (Scalar.cmpi .eq (BitVec.ofNat 32 (i 2).val) 0#32)) 0#32 = 1#1
/-- it is the last head, as the body tests it. -/
abbrev lastHead (i : grid1.Coords) : Prop := k1_cond2 i = 1#1

/-- One head's contribution to the 512×1024 block of the output projection: softmax of the scaled scores plus bias,
    times the values, times the head's 64 rows of the output weight. -/
def contrib (q : Vec F S1x1x512x64 .bf16) (k v : Vec F S1x1x1024x64 .bf16) (bias : Vec F S1x1x512x1024 .f32) (wo : Vec F S64x1024 .bf16) :
    Vec F S512x1024 .f32 :=
  k1_pay4 (View.ld q rQ) (View.ld k rKV) (View.ld v rKV) (View.ld bias rBias) (View.ld wo rWo)
/-- The accumulator after the first head: zero plus the head's contribution. -/
def accFirst (q : Vec F S1x1x512x64 .bf16) (k v : Vec F S1x1x1024x64 .bf16) (bias : Vec F S1x1x512x1024 .f32) (wo : Vec F S64x1024 .bf16) :
    Vec F S512x1024 .f32 :=
  View.canon [⟨rAcc, k1_pay1 (contrib q k v bias wo) (k1_pay3 (F := F))⟩]
/-- The accumulator after any other head: what it held plus the head's contribution. -/
def accStep (prev : Vec F S512x1024 .f32) (q : Vec F S1x1x512x64 .bf16) (k v : Vec F S1x1x1024x64 .bf16) (bias : Vec F S1x1x512x1024 .f32)
    (wo : Vec F S64x1024 .bf16) : Vec F S512x1024 .f32 :=
  View.canon [⟨rAcc, k1_pay1 (contrib q k v bias wo) (View.ld prev rAcc)⟩]
/-- The output block the last head stores: `x` plus the gated sum of the accumulator and the output bias. -/
def outBlock (x : Vec F S1x512x1024 .f32) (acc : Vec F S512x1024 .f32) (bo : Vec F S1024 .f32) (gm : Vec F S1x1x1024 .f32) : Vec F S1x512x1024 .f32 :=
  View.canon [⟨rBlk, k1_pay2 (View.ld x rBlk) (View.ld acc rAcc) (View.ld bo rBo) (View.ld gm rRow)⟩]

theorem cover_acc (p : rAcc.shape.Idx → Elt F .f32) (y : S512x1024.Idx) :
    ∃ pc ∈ ([⟨rAcc, p⟩] : List (View.Piece (Elt F) S512x1024 .f32)), y ∈ pc.1.set :=
  View.cover_of_tiled [⟨rAcc, p⟩] S512x1024.size (by rfl) y
theorem cover_blk (p : rBlk.shape.Idx → Elt F .f32) (y : S1x512x1024.Idx) :
    ∃ pc ∈ ([⟨rBlk, p⟩] : List (View.Piece (Elt F) S1x512x1024 .f32)), y ∈ pc.1.set :=
  View.cover_of_tiled [⟨rBlk, p⟩] S1x512x1024.size (by rfl) y

/-- A store through the whole accumulator hides every earlier one. -/
theorem cover_acc_cons (p : rAcc.shape.Idx → Elt F .f32) (L : List (View.Piece (Elt F) S512x1024 .f32)) (y : S512x1024.Idx) :
    ∃ pc ∈ (⟨rAcc, p⟩ :: L : List (View.Piece (Elt F) S512x1024 .f32)), y ∈ pc.1.set := by
  obtain ⟨pc, hm, hy⟩ := cover_acc p y
  obtain rfl := List.mem_singleton.mp hm
  exact ⟨_, List.mem_cons.mpr (Or.inl rfl), hy⟩
theorem canon_acc_cons (p : rAcc.shape.Idx → Elt F .f32) (L : List (View.Piece (Elt F) S512x1024 .f32)) :
    View.canon (⟨rAcc, p⟩ :: L) = View.canon [⟨rAcc, p⟩] := by
  funext y
  obtain ⟨pc, hm, hy⟩ := cover_acc p y
  obtain rfl := List.mem_singleton.mp hm
  obtain ⟨x, rfl⟩ : ∃ x, (rAcc).emb x = y := (rAcc).exists_idx_of_mem hy
  rw [View.canon_cons_emb, View.canon_cons_emb]

set_option maxHeartbeats 8000000 in
/-- A first head that is not the last: the accumulator, whatever it held, ends at the head's contribution; the output
    buffer is not touched. -/
theorem first_head (c : Dev nD) (E : Set ℕ) (i : grid1.Coords) (h1 : firstHead i) (h2 : ¬ lastHead i)
    (arg3 : Memref sig .tc .vmem S1x1x512x64 .bf16) (harg3 : arg3.IsWhole) (arg4 : Memref sig .tc .vmem S1x1x1024x64 .bf16) (harg4 : arg4.IsWhole)
    (arg5 : Memref sig .tc .vmem S1x1x1024x64 .bf16) (harg5 : arg5.IsWhole) (arg6 : Memref sig .tc .vmem S1x1x512x1024 .f32) (harg6 : arg6.IsWhole)
    (arg7 : Memref sig .tc .vmem S1x512x1024 .f32) (harg7 : arg7.IsWhole) (arg8 : Memref sig .tc .vmem S1x1x1024 .f32) (harg8 : arg8.IsWhole)
    (arg9 : Memref sig .tc .vmem S64x1024 .bf16) (harg9 : arg9.IsWhole) (arg10 : Memref sig .tc .vmem S1024 .f32) (harg10 : arg10.IsWhole)
    (arg11 : Memref sig .tc .vmem S1x512x1024 .f32) (harg11 : arg11.IsWhole) (arg12 : Memref sig .tc .vmem S512x1024 .f32) (harg12 : arg12.IsWhole)
    (q : Vec F S1x1x512x64 .bf16) (k v : Vec F S1x1x1024x64 .bf16) (bias : Vec F S1x1x512x1024 .f32) (x : Vec F S1x512x1024 .f32)
    (gm : Vec F S1x1x1024 .f32) (wo : Vec F S64x1024 .bf16) (bo : Vec F S1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
        ∗ (∃ a, owns (c : Thread nD τ) arg12 fullShare a)
        ∗ (iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
            ∗ owns (c : Thread nD τ) arg12 fullShare (accFirst q k v bias wo)) -∗ K ⟨⟩))
      ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K := by
  simp only [cc1__attn_outproj_kernel_eq_skeleton]; unfold cc1__attn_outproj_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f10, %hf10, H10⟩, ⟨%a12, %f12, -, H12⟩, Hk⟩
  subst hf3 hf4 hf5 hf6 hf7 hf8 hf9 hf10
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H12
  ipureintro
  rw [View.read_writes_eq_canon _ _ _ (cover_acc_cons _ _), canon_acc_cons]
  exact congrArg (fun w => View.canon [⟨rAcc, w⟩]) (congrArg (k1_pay1 _) (View.readCov_cons_toLoadRect _ _ _ _))

set_option maxHeartbeats 8000000 in
/-- A head that is neither first nor last: the accumulator ends at what it held plus the head's contribution; the
    output buffer is not touched. -/
theorem middle_head (c : Dev nD) (E : Set ℕ) (i : grid1.Coords) (h1 : ¬ firstHead i) (h2 : ¬ lastHead i)
    (arg3 : Memref sig .tc .vmem S1x1x512x64 .bf16) (harg3 : arg3.IsWhole) (arg4 : Memref sig .tc .vmem S1x1x1024x64 .bf16) (harg4 : arg4.IsWhole)
    (arg5 : Memref sig .tc .vmem S1x1x1024x64 .bf16) (harg5 : arg5.IsWhole) (arg6 : Memref sig .tc .vmem S1x1x512x1024 .f32) (harg6 : arg6.IsWhole)
    (arg7 : Memref sig .tc .vmem S1x512x1024 .f32) (harg7 : arg7.IsWhole) (arg8 : Memref sig .tc .vmem S1x1x1024 .f32) (harg8 : arg8.IsWhole)
    (arg9 : Memref sig .tc .vmem S64x1024 .bf16) (harg9 : arg9.IsWhole) (arg10 : Memref sig .tc .vmem S1024 .f32) (harg10 : arg10.IsWhole)
    (arg11 : Memref sig .tc .vmem S1x512x1024 .f32) (harg11 : arg11.IsWhole) (arg12 : Memref sig .tc .vmem S512x1024 .f32) (harg12 : arg12.IsWhole)
    (q : Vec F S1x1x512x64 .bf16) (k v : Vec F S1x1x1024x64 .bf16) (bias : Vec F S1x1x512x1024 .f32) (x : Vec F S1x512x1024 .f32)
    (gm : Vec F S1x1x1024 .f32) (wo : Vec F S64x1024 .bf16) (bo : Vec F S1024 .f32) (acc : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
        ∗ owns (c : Thread nD τ) arg12 fullShare acc
        ∗ (iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
            ∗ owns (c : Thread nD τ) arg12 fullShare (accStep acc q k v bias wo)) -∗ K ⟨⟩))
      ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K := by
  simp only [cc1__attn_outproj_kernel_eq_skeleton]; unfold cc1__attn_outproj_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f10, %hf10, H10⟩, ⟨%f12, %hf12, H12⟩, Hk⟩
  subst hf3 hf4 hf5 hf6 hf7 hf8 hf9 hf10 hf12
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H12
  ipureintro
  exact View.read_writes_eq_canon _ _ _ (cover_acc _)

set_option maxHeartbeats 8000000 in
/-- The last head (not the first): the accumulator ends at what it held plus the head's contribution, and the output
    buffer, whatever it held, at `x` plus the gated sum of that accumulator and the output bias. -/
theorem last_head (c : Dev nD) (E : Set ℕ) (i : grid1.Coords) (h1 : ¬ firstHead i) (h2 : lastHead i)
    (arg3 : Memref sig .tc .vmem S1x1x512x64 .bf16) (harg3 : arg3.IsWhole) (arg4 : Memref sig .tc .vmem S1x1x1024x64 .bf16) (harg4 : arg4.IsWhole)
    (arg5 : Memref sig .tc .vmem S1x1x1024x64 .bf16) (harg5 : arg5.IsWhole) (arg6 : Memref sig .tc .vmem S1x1x512x1024 .f32) (harg6 : arg6.IsWhole)
    (arg7 : Memref sig .tc .vmem S1x512x1024 .f32) (harg7 : arg7.IsWhole) (arg8 : Memref sig .tc .vmem S1x1x1024 .f32) (harg8 : arg8.IsWhole)
    (arg9 : Memref sig .tc .vmem S64x1024 .bf16) (harg9 : arg9.IsWhole) (arg10 : Memref sig .tc .vmem S1024 .f32) (harg10 : arg10.IsWhole)
    (arg11 : Memref sig .tc .vmem S1x512x1024 .f32) (harg11 : arg11.IsWhole) (arg12 : Memref sig .tc .vmem S512x1024 .f32) (harg12 : arg12.IsWhole)
    (q : Vec F S1x1x512x64 .bf16) (k v : Vec F S1x1x1024x64 .bf16) (bias : Vec F S1x1x512x1024 .f32) (x : Vec F S1x512x1024 .f32)
    (gm : Vec F S1x1x1024 .f32) (wo : Vec F S64x1024 .bf16) (bo : Vec F S1024 .f32) (acc : Vec F S512x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
        ∗ (∃ d, owns (c : Thread nD τ) arg11 fullShare d)
        ∗ owns (c : Thread nD τ) arg12 fullShare acc
        ∗ (iprop(owns (c : Thread nD τ) arg3 fullShare q ∗ owns (c : Thread nD τ) arg4 fullShare k ∗ owns (c : Thread nD τ) arg5 fullShare v
        ∗ owns (c : Thread nD τ) arg6 fullShare bias ∗ owns (c : Thread nD τ) arg7 fullShare x ∗ owns (c : Thread nD τ) arg8 fullShare gm
        ∗ owns (c : Thread nD τ) arg9 fullShare wo ∗ owns (c : Thread nD τ) arg10 fullShare bo
            ∗ owns (c : Thread nD τ) arg11 fullShare (outBlock x (accStep acc q k v bias wo) bo gm)
            ∗ owns (c : Thread nD τ) arg12 fullShare (accStep acc q k v bias wo)) -∗ K ⟨⟩))
      ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K := by
  simp only [cc1__attn_outproj_kernel_eq_skeleton]; unfold cc1__attn_outproj_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f10, %hf10, H10⟩, ⟨%d11, %f11, -, H11⟩, ⟨%f12, %hf12, H12⟩, Hk⟩
  subst hf3 hf4 hf5 hf6 hf7 hf8 hf9 hf10 hf12
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (cover_blk _)]
    exact congrArg (fun w => View.canon [⟨rBlk, w⟩])
      (congrArg (fun a => k1_pay2 _ a _ _) (View.readCov_eq_canon_ld _ _ _ (cover_acc _)))
  iexists _; isplitr
  swap; · iexact H12
  ipureintro
  exact View.read_writes_eq_canon _ _ _ (cover_acc _)

/-! ## The proof data at the contents the region is entered with -/

section AtEntry

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point numbered `n` (a number past the grid wraps; only numbers inside it are used). -/
def pt (n : ℕ) : Fin cfg1.N := ⟨n % 128, by rw [show cfg1.N = 128 from N_1]; exact Nat.mod_lt _ (by decide)⟩
theorem pt_val (t : Fin cfg1.N) : pt t.val = t :=
  Fin.ext (Nat.mod_eq_of_lt (lt_of_lt_of_eq t.isLt (show cfg1.N = 128 from N_1)))

/-- The accumulator after a first head at point `t`, and after any other head at `t` over what it held. -/
def firstAt (c : Dev nD) (t : Fin cfg1.N) : Vec F S512x1024 .f32 :=
  accFirst (blk V c 0 t) (blk V c 1 t) (blk V c 2 t) (blk V c 3 t) (blk V c 6 t)
def stepAt (c : Dev nD) (prev : Vec F S512x1024 .f32) (t : Fin cfg1.N) : Vec F S512x1024 .f32 :=
  accStep prev (blk V c 0 t) (blk V c 1 t) (blk V c 2 t) (blk V c 3 t) (blk V c 6 t)

/-- The accumulator after the point numbered `n`: the heads of one (batch, row block) are sixteen consecutive points,
    the first at a multiple of sixteen. -/
def accAfter (c : Dev nD) : ℕ → Vec F S512x1024 .f32
  | 0 => firstAt V c (pt 0)
  | n + 1 => if (n + 1) % 16 = 0 then firstAt V c (pt (n + 1)) else stepAt V c (accAfter c n) (pt (n + 1))

theorem accAfter_first (c : Dev nD) (n : ℕ) (h : n % 16 = 0) : accAfter V c n = firstAt V c (pt n) := by
  cases n with
  | zero => rfl
  | succ n => simp only [accAfter]; rw [if_pos h]
theorem accAfter_step (c : Dev nD) (n : ℕ) (h : (n + 1) % 16 ≠ 0) :
    accAfter V c (n + 1) = stepAt V c (accAfter V c n) (pt (n + 1)) := by
  simp only [accAfter]; rw [if_neg h]

/-- The proof data: the arrays as entered; after the body each input buffer at its block and, at a last head, the output
    buffer at the output block over the accumulator after that point; between points the accumulator — before a first
    head at anything, before any other at what the point before left — beside the other scoped buffers and the generator
    register; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outBlock (blk V c 4 t) (accAfter V c t.val) (blk V c 7 t) (blk V c 5 t)
  Φ t := iprop((∃ a : Vec F S512x1024 .f32, ⌜t.val % 16 ≠ 0 → a = accAfter V c (t.val - 1)⌝
        ∗ owns (c : Thread nD τ) (Memref.whole cc1_scratch0) fullShare a)
      ∗ Pipeline.scopedRestBut (Ix := Unit) (Name := ℕ) (U := UR sig nD τ) (Lvl := ℕ) (Val := Elt F) spec1 c [cc1_scratch0]
      ∗ ∃ r, prngReg c r)
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) :
    (dat V c).after 8 t = outBlock (blk V c 4 t) (accAfter V c t.val) (blk V c 7 t) (blk V c 5 t) := by dsimp only [dat]

/-- An input buffer holds its array's block at every point, fetched there or not: where it was not fetched the block
    index has not moved since the point before, and the body left the block in place. -/
theorem found_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem found_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem found_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem found_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem found_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem found_5 (c : Dev nD) (t : Fin cfg1.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem found_6 (c : Dev nD) (t : Fin cfg1.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)
theorem found_7 (c : Dev nD) (t : Fin cfg1.N) (d) : (dat V c).before 7 t d = blk V c 7 t :=
  ((dat V c).before_in_eq_fetched 7 rfl (fun _ => rfl) (fun _ _ _ => rfl)
    (fun t => by rw [after_7]; unfold Dat.blockOf blk; rw [dat_A]; try rfl) t d).trans
    (by unfold Dat.fetched Dat.blockOf blk; rw [dat_A]; try rfl)

/-- The two tests the body makes of the head coordinate, over the grid's points in order. -/
theorem firstHead_iff : ∀ t : Fin cfg1.N, firstHead (grid1.coords t) ↔ t.val % 16 = 0 :=
  (by decide +kernel : ∀ t : Fin grid1.N, firstHead (grid1.coords t) ↔ t.val % 16 = 0)
theorem lastHead_iff : ∀ t : Fin cfg1.N, lastHead (grid1.coords t) ↔ t.val % 16 = 15 :=
  (by decide +kernel : ∀ t : Fin grid1.N, lastHead (grid1.coords t) ↔ t.val % 16 = 15)

/-- What the body is called with at point `t`: the invariant, the dues, the eight input buffers and the output buffer, -/
def atCall (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- what it returns at a point that is not a last head — the output buffer as it was found — -/
def atReturnIdle (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ (∃ d, owns (c : Thread nD τ) (st1_8 t) fullShare ((dat V c).before 8 t d)))

/-- and at a last head — the output buffer at the output block. -/
def atReturnLast (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The accumulator after point `t`, at a first head and at any other. -/
theorem accAfter_at_first (c : Dev nD) (t : Fin cfg1.N) (h : t.val % 16 = 0) : accAfter V c t.val = firstAt V c t := by
  rw [accAfter_first V c t.val h, pt_val]
theorem accAfter_at_later (c : Dev nD) (t : Fin cfg1.N) (h : t.val % 16 ≠ 0) :
    accAfter V c t.val = stepAt V c (accAfter V c (t.val - 1)) t := by
  obtain ⟨n, hn⟩ : ∃ n, t.val = n + 1 := Nat.exists_eq_succ_of_ne_zero (fun h0 => h (by rw [h0]))
  have e := accAfter_step V c n (by rw [← hn]; exact h)
  rw [← hn, pt_val] at e
  rw [e, hn, Nat.add_sub_cancel]

theorem at_first (c : Dev nD) (t : Fin cfg1.N) (h0 : t.val % 16 = 0) :
    atCall V c t ⊢ wp frame (wpE (defs₀ (F := F)) Variants.none c none) Set.univ (bodyAt1 t) (fun _ => atReturnIdle V c t) := by
  have h1 : firstHead (grid1.coords t) := (firstHead_iff t).mpr h0
  have h2 : ¬ lastHead (grid1.coords t) := fun h => by have := (lastHead_iff t).mp h; omega
  unfold atCall atReturnIdle bodyAt1
  simp only [found_0, found_1, found_2, found_3, found_4, found_5, found_6, found_7]
  rw [show (dat V c).owesAt () t.succ = (dat V c).owesAt () t.castSucc from rfl,
    after_0, after_1, after_2, after_3, after_4, after_5, after_6, after_7]
  dsimp only [dat]
  iintro ⟨⟨⟨%a, -, Ha⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (first_head c Set.univ _ h1 h2 _ _ _ _ _ _ _ _ _ _ _ _ _ _ _ _ _ _ _ _
    (blk V c 0 t) (blk V c 1 t) (blk V c 2 t) (blk V c 3 t) (blk V c 4 t) (blk V c 5 t) (blk V c 6 t) (blk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexists _; iexact Ha
  iintro ⟨H0, H1, H2, H3, H4, H5, H6, H7, Ha⟩
  isplitl [Ha Hrest Hp]
  · isplitl [Ha]
    · iexists _; isplitr
      swap; · iexact Ha
      ipureintro; intro _
      show _ = accAfter V c (t.val + 1 - 1)
      rw [Nat.add_sub_cancel, accAfter_at_first V c t h0]; rfl
    isplitl [Hrest] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem at_middle (c : Dev nD) (t : Fin cfg1.N) (h0 : t.val % 16 ≠ 0) (h15 : t.val % 16 ≠ 15) :
    atCall V c t ⊢ wp frame (wpE (defs₀ (F := F)) Variants.none c none) Set.univ (bodyAt1 t) (fun _ => atReturnIdle V c t) := by
  have h1 : ¬ firstHead (grid1.coords t) := fun h => h0 ((firstHead_iff t).mp h)
  have h2 : ¬ lastHead (grid1.coords t) := fun h => h15 ((lastHead_iff t).mp h)
  unfold atCall atReturnIdle bodyAt1
  simp only [found_0, found_1, found_2, found_3, found_4, found_5, found_6, found_7]
  rw [show (dat V c).owesAt () t.succ = (dat V c).owesAt () t.castSucc from rfl,
    after_0, after_1, after_2, after_3, after_4, after_5, after_6, after_7]
  dsimp only [dat]
  iintro ⟨⟨⟨%a, %ha, Ha⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  obtain rfl : a = accAfter V c (t.val - 1) := ha h0
  iapply (middle_head c Set.univ _ h1 h2 _ _ _ _ _ _ _ _ _ _ _ _ _ _ _ _ _ _ _ _
    (blk V c 0 t) (blk V c 1 t) (blk V c 2 t) (blk V c 3 t) (blk V c 4 t) (blk V c 5 t) (blk V c 6 t) (blk V c 7 t) (accAfter V c (t.val - 1)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexact Ha
  iintro ⟨H0, H1, H2, H3, H4, H5, H6, H7, Ha⟩
  isplitl [Ha Hrest Hp]
  · isplitl [Ha]
    · iexists _; isplitr
      swap; · iexact Ha
      ipureintro; intro _
      show _ = accAfter V c (t.val + 1 - 1)
      rw [Nat.add_sub_cancel, accAfter_at_later V c t h0]; rfl
    isplitl [Hrest] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem at_last (c : Dev nD) (t : Fin cfg1.N) (h15 : t.val % 16 = 15) :
    atCall V c t ⊢ wp frame (wpE (defs₀ (F := F)) Variants.none c none) Set.univ (bodyAt1 t) (fun _ => atReturnLast V c t) := by
  have h0 : t.val % 16 ≠ 0 := by omega
  have h1 : ¬ firstHead (grid1.coords t) := fun h => h0 ((firstHead_iff t).mp h)
  have h2 : lastHead (grid1.coords t) := (lastHead_iff t).mpr h15
  unfold atCall atReturnLast bodyAt1
  simp only [found_0, found_1, found_2, found_3, found_4, found_5, found_6, found_7]
  rw [show (dat V c).owesAt () t.succ = (dat V c).owesAt () t.castSucc from rfl,
    after_0, after_1, after_2, after_3, after_4, after_5, after_6, after_7, after_8, accAfter_at_later V c t h0]
  dsimp only [dat]
  iintro ⟨⟨⟨%a, %ha, Ha⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl : a = accAfter V c (t.val - 1) := ha h0
  iapply (last_head c Set.univ _ h1 h2 _ _ _ _ _ _ _ _ _ _ _ _ _ _ _ _ _ _ _ _
    (blk V c 0 t) (blk V c 1 t) (blk V c 2 t) (blk V c 3 t) (blk V c 4 t) (blk V c 5 t) (blk V c 6 t) (blk V c 7 t) (accAfter V c (t.val - 1)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Ha]; · iexact Ha
  iintro ⟨H0, H1, H2, H3, H4, H5, H6, H7, H8, Ha⟩
  isplitl [Ha Hrest Hp]
  · isplitl [Ha]
    · iexists _; isplitr
      swap; · iexact Ha
      ipureintro; intro _
      show _ = accAfter V c (t.val + 1 - 1)
      rw [Nat.add_sub_cancel, accAfter_at_later V c t h0]; rfl
    isplitl [Hrest] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end AtEntry

end Cert.Kernel.Attention

end
-- ==== Proof.Bits.Attention.lean ====
/-
  The attention grid's obligation at every point, from the three kinds of point (first head, middle heads, last head): the
  output window is idle exactly where the head is not the last, and is written back exactly at the last head, so at every
  other point its buffer is handed back as it was found.
  (This copy is the same argument for the kernel program as printed, read at the word level: nothing in it depends on how a
  float is read.)
-/
import proofs.«126116_j51702816309661_2_alg».proof.Proof.Bits.AttentionBody
import proofs.«126116_j51702816309661_2_alg».proof.Proof.Gen.Kernel.Launch
import proofs.«126116_j51702816309661_2_alg».proof.Proof.Gen.Kernel.Skeleton
import proofs.«126116_j51702816309661_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Attention

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pipeline's obligation, at every point, by the kind of point. -/
theorem obligation (c : Dev nD) : BodyObligation (dat (F := F) V c) (defs₀ (F := F)) Variants.none () Set.univ := fun t => by
  rw [bigSep_W1, bigSep_W1]
  by_cases h15 : t.val % 16 = 15
  · have h2 : lastHead (grid1.coords t) := (lastHead_iff t).mpr h15
    have hidle : idle1 8 (grid1.coords t) = false := by
      show (!(k1_cond2 (grid1.coords t) == 1#1)) = false
      rw [h2]; rfl
    have hidle' : cfg1.idle 8 (cfg1.grid.coords t) = false := hidle
    simp only [hidle, hidle']
    exact at_last V c t h15
  · have h2 : ¬ lastHead (grid1.coords t) := fun h => h15 ((lastHead_iff t).mp h)
    have hidle : idle1 8 (grid1.coords t) = true := by
      show (!(k1_cond2 (grid1.coords t) == 1#1)) = true
      simpa using h2
    have hidle' : cfg1.idle 8 (cfg1.grid.coords t) = true := hidle
    have hfl : (cfg1.win 8).flush t = false := Bool.eq_false_iff.mpr fun h => h15 ((flush1_8 t).mp h)
    have hfl' : (win1 8).flush t = false := hfl
    simp only [hidle, hidle', hfl, hfl']
    by_cases h0 : t.val % 16 = 0
    · exact at_first V c t h0
    · exact at_middle V c t h0 h15

end Cert.Kernel.Attention

end
-- ==== Proof.Bits.FeedForward.lean ====
/-
  The third grid of the kernel program: the feed-forward branch, on the 8 points (batch, row block of 512).

  At a point the body reads the 512 rows of the attention branch's result for its batch and row block, the batch's second
  scale, shift and gate rows, both feed-forward weights and both biases, and stores one whole 512×1024 block: the rows plus
  the gated feed-forward of their modulated normalisation. The hidden axis of 4096 is taken in four slices of 1024 — a
  1024×1024 slice of each weight and a 1024 slice of the first bias per slice — and the four products are added up. It keeps
  nothing between points. This module states the output block as a function of the eight input blocks (the body's own
  payloads composed in the order the body computes them), proves the body's triple over whole staging buffers, and from it
  the pipeline's obligation at every point.
  (This copy is the same argument for the kernel program as printed, read at the word level: nothing in it depends on how a
  float is read.)
-/
import proofs.«126116_j51702816309661_2_alg».proof.Proof.Gen.Kernel.Launch
import proofs.«126116_j51702816309661_2_alg».proof.Proof.Gen.Kernel.Skeleton
import proofs.«126116_j51702816309661_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.FeedForward

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1×512×1024 block and 1×1×1024 row; the four column slices of the first weight, the four slices of the first
    bias, the four row slices of the second weight, and the whole second bias. -/
abbrev rBlk : Rect S1x512x1024 := Rect.unit (s := S1x512x1024) ![0, 0, 0] S1x512x1024.size inb_S1x512x1024_S1x512x1024_0_0_0
abbrev rRow : Rect S1x1x1024 := Rect.unit (s := S1x1x1024) ![0, 0, 0] S1x1x1024.size inb_S1x1x1024_S1x1x1024_0_0_0
abbrev rUp0 : Rect S1024x4096 := Rect.unit (s := S1024x4096) ![0, 0] S1024x1024.size inb_S1024x4096_S1024x1024_0_0
abbrev rUp1 : Rect S1024x4096 := Rect.unit (s := S1024x4096) ![0, 1024] S1024x1024.size inb_S1024x4096_S1024x1024_0_1024
abbrev rUp2 : Rect S1024x4096 := Rect.unit (s := S1024x4096) ![0, 2048] S1024x1024.size inb_S1024x4096_S1024x1024_0_2048
abbrev rUp3 : Rect S1024x4096 := Rect.unit (s := S1024x4096) ![0, 3072] S1024x1024.size inb_S1024x4096_S1024x1024_0_3072
abbrev rB0 : Rect S4096 := Rect.unit (s := S4096) ![0] S1024.size inb_S4096_S1024_0
abbrev rB1 : Rect S4096 := Rect.unit (s := S4096) ![1024] S1024.size inb_S4096_S1024_1024
abbrev rB2 : Rect S4096 := Rect.unit (s := S4096) ![2048] S1024.size inb_S4096_S1024_2048
abbrev rB3 : Rect S4096 := Rect.unit (s := S4096) ![3072] S1024.size inb_S4096_S1024_3072
abbrev rDn0 : Rect S4096x1024 := Rect.unit (s := S4096x1024) ![0, 0] S1024x1024.size inb_S4096x1024_S1024x1024_0_0
abbrev rDn1 : Rect S4096x1024 := Rect.unit (s := S4096x1024) ![1024, 0] S1024x1024.size inb_S4096x1024_S1024x1024_1024_0
abbrev rDn2 : Rect S4096x1024 := Rect.unit (s := S4096x1024) ![2048, 0] S1024x1024.size inb_S4096x1024_S1024x1024_2048_0
abbrev rDn3 : Rect S4096x1024 := Rect.unit (s := S4096x1024) ![3072, 0] S1024x1024.size inb_S4096x1024_S1024x1024_3072_0
abbrev rB2nd : Rect S1024 := Rect.unit (s := S1024) ![0] S1024.size inb_S1024_S1024_0

/-- The output block: the body's payloads composed in the order the body computes them — the rows and their modulated
    normalisation, then slice by slice the hidden activations and the running sum of their products with the second
    weight's rows, then the second bias, the gate and the residual. -/
def outBlock (x : Vec F S1x512x1024 .f32) (sc sh gm : Vec F S1x1x1024 .f32) (w1 : Vec F S1024x4096 .bf16) (b1 : Vec F S4096 .f32)
    (w2 : Vec F S4096x1024 .bf16) (b2 : Vec F S1024 .f32) : Vec F S1x512x1024 .f32 :=
  let v0 := View.ld x rBlk
  let v20 := View.ld sc rRow
  let v26 := View.ld sh rRow
  let v1 := k2_pay2 v0
  let v30 := k2_pay3 v0 v20 v26
  let v31 := k2_pay4 (F := F)
  let v35 := k2_pay5 v0 v20 v26 (View.ld w1 rUp0)
  let v37 := k2_pay6 (View.ld b1 rB0)
  let v56 := k2_pay7 v31 v35 v37 (View.ld w2 rDn0)
  let v77 := k2_pay8 v30 (View.ld w1 rUp1) (View.ld b1 rB1)
  let v79 := k2_pay9 (View.ld w2 rDn1)
  let cst_34 : FVec F S512x1024 .f32 := constant S512x1024 .f32 0x00000000#32
  let v106 := k2_pay10 v30 v56 v77 v79 cst_34 (View.ld w1 rUp2) (View.ld b1 rB2) (View.ld w2 rDn2)
  let v113 := k2_pay11 v30 (View.ld w1 rUp3) (View.ld b1 rB3)
  let v121 := k2_pay12 v30 (View.ld w1 rUp3) (View.ld b1 rB3)
  let cst_50 : F .f32 := Scalar.ofBits .f32 0x3F800000#32
  View.canon [⟨rBlk, k2_pay1 v1 v106 v113 v121 cst_50 (View.ld w2 rDn3) (View.ld b2 rB2nd) (View.ld gm rRow)⟩]

/-- One store through the whole block covers it. -/
theorem cover_blk (p : rBlk.shape.Idx → Elt F .f32) (y : S1x512x1024.Idx) :
    ∃ pc ∈ ([⟨rBlk, p⟩] : List (View.Piece (Elt F) S1x512x1024 .f32)), y ∈ pc.1.set :=
  View.cover_of_tiled [⟨rBlk, p⟩] S1x512x1024.size (by rfl) y

set_option maxHeartbeats 8000000 in
/-- The body over whole staging buffers — the eight inputs at given contents, the output at anything — runs to its end
    leaving the inputs as they were and the output at its block's function of them. -/
theorem body_triple (c : Dev nD) (E : Set ℕ) (i : grid2.Coords)
    (arg2 : Memref sig .tc .vmem S1x512x1024 .f32) (harg2 : arg2.IsWhole) (arg3 : Memref sig .tc .vmem S1x1x1024 .f32) (harg3 : arg3.IsWhole)
    (arg4 : Memref sig .tc .vmem S1x1x1024 .f32) (harg4 : arg4.IsWhole) (arg5 : Memref sig .tc .vmem S1x1x1024 .f32) (harg5 : arg5.IsWhole)
    (arg6 : Memref sig .tc .vmem S1024x4096 .bf16) (harg6 : arg6.IsWhole) (arg7 : Memref sig .tc .vmem S4096 .f32) (harg7 : arg7.IsWhole)
    (arg8 : Memref sig .tc .vmem S4096x1024 .bf16) (harg8 : arg8.IsWhole) (arg9 : Memref sig .tc .vmem S1024 .f32) (harg9 : arg9.IsWhole)
    (arg10 : Memref sig .tc .vmem S1x512x1024 .f32) (harg10 : arg10.IsWhole)
    (x : Vec F S1x512x1024 .f32) (sc sh gm : Vec F S1x1x1024 .f32) (w1 : Vec F S1024x4096 .bf16) (b1 : Vec F S4096 .f32)
    (w2 : Vec F S4096x1024 .bf16) (b2 : Vec F S1024 .f32) (K : PUnit → sProp 𝕄) :
    iprop(owns (c : Thread nD τ) arg2 fullShare x ∗ owns (c : Thread nD τ) arg3 fullShare sc ∗ owns (c : Thread nD τ) arg4 fullShare sh
        ∗ owns (c : Thread nD τ) arg5 fullShare gm ∗ owns (c : Thread nD τ) arg6 fullShare w1 ∗ owns (c : Thread nD τ) arg7 fullShare b1
        ∗ owns (c : Thread nD τ) arg8 fullShare w2 ∗ owns (c : Thread nD τ) arg9 fullShare b2
        ∗ (∃ d, owns (c : Thread nD τ) arg10 fullShare d)
        ∗ (iprop(owns (c : Thread nD τ) arg2 fullShare x ∗ owns (c : Thread nD τ) arg3 fullShare sc ∗ owns (c : Thread nD τ) arg4 fullShare sh
            ∗ owns (c : Thread nD τ) arg5 fullShare gm ∗ owns (c : Thread nD τ) arg6 fullShare w1 ∗ owns (c : Thread nD τ) arg7 fullShare b1
            ∗ owns (c : Thread nD τ) arg8 fullShare w2 ∗ owns (c : Thread nD τ) arg9 fullShare b2
            ∗ owns (c : Thread nD τ) arg10 fullShare (outBlock x sc sh gm w1 b1 w2 b2)) -∗ K ⟨⟩))
      ⊢ wp frame (wpE (defs₀ (F := F)) Variants.none c none) E
          (cc2__ffn_kernel i arg2 harg2 arg3 harg3 arg4 harg4 arg5 harg5 arg6 harg6 arg7 harg7 arg8 harg8 arg9 harg9 arg10 harg10) K := by
  simp only [cc2__ffn_kernel_eq_skeleton]; unfold cc2__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%d10, %f10, -, H10⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_blk _)

/-! ## The proof data at the contents the region is entered with -/

section AtEntry

variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as entered; after the body each input buffer at its block, the output buffer at the
    feed-forward block of the input blocks; nothing kept between points beyond the scoped rest and the generator register;
    nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outBlock (blk V c 0 t) (blk V c 1 t) (blk V c 2 t) (blk V c 3 t) (blk V c 4 t) (blk V c 5 t) (blk V c 6 t) (blk V c 7 t)
  Φ _ := Pipeline.ΦA spec2 c
  q _ := fullShare
  owed _ := 0

theorem dat_A (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) : (dat V c).after 6 t = blk V c 6 t := by dsimp only [dat]
theorem after_7 (c : Dev nD) (t : Fin cfg2.N) : (dat V c).after 7 t = blk V c 7 t := by dsimp only [dat]
theorem after_8 (c : Dev nD) (t : Fin cfg2.N) :
    (dat V c).after 8 t = outBlock (blk V c 0 t) (blk V c 1 t) (blk V c 2 t) (blk V c 3 t) (blk V c 4 t) (blk V c 5 t) (blk V c 6 t) (blk V c 7 t) := by dsimp only [dat]

/-- An input buffer holds its array's block at every point, fetched there or not: where it was not fetched the block
    index has not moved since the point before, and the body left the block in place. -/
theorem found_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem found_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem found_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem found_3 (c : Dev nD) (t : Fin cfg2.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem found_4 (c : Dev nD) (t : Fin cfg2.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem found_5 (c : Dev nD) (t : Fin cfg2.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem found_6 (c : Dev nD) (t : Fin cfg2.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)
theorem found_7 (c : Dev nD) (t : Fin cfg2.N) (d) : (dat V c).before 7 t d = blk V c 7 t :=
  ((dat V c).before_in_eq_fetched 7 rfl (fun _ => rfl) (fun _ _ _ => rfl)
    (fun t => by rw [after_7]; unfold Dat.blockOf blk; rw [dat_A]; try rfl) t d).trans
    (by unfold Dat.fetched Dat.blockOf blk; rw [dat_A]; try rfl)

/-- What the body is called with at point `t`, the windows one by one, -/
def atCall (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def atReturn (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

/-- The body at any point: the input buffers hold their blocks, so the triple applies; the scoped rest, the generator
    register and the core's dues pass through unread. -/
theorem body_at (c : Dev nD) (t : Fin cfg2.N) :
    atCall V c t ⊢ wp frame (wpE (defs₀ (F := F)) Variants.none c none) Set.univ (bodyAt2 t) (fun _ => atReturn V c t) := by
  unfold atCall atReturn bodyAt2
  simp only [found_0, found_1, found_2, found_3, found_4, found_5, found_6, found_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ _ _ _ _ _ _ _ _ _ _ _ _ _ _ _ _ _ _ _
    (blk V c 0 t) (blk V c 1 t) (blk V c 2 t) (blk V c 3 t) (blk V c 4 t) (blk V c 5 t) (blk V c 6 t) (blk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's obligation, at every point. -/
theorem obligation (c : Dev nD) : BodyObligation (dat (F := F) V c) (defs₀ (F := F)) Variants.none () Set.univ := fun t => by
  rw [bigSep_W2, bigSep_W2]
  exact body_at V c t

end AtEntry

end Cert.Kernel.FeedForward

end
-- ==== Proof.Bits.Whole.lean ====
/-
  The kernel program's run as a whole. @main is: host operations (the six modulation rows out of ada_gss + cond_BD, and the
  six weights transposed), the projection grid, host operations (queries, keys and values split into heads), the attention
  grid, the feed-forward grid.

  The contents of every unscoped buffer at the five boundaries are a fold from the launch memory: a stretch of host
  operations leaves its operations' results; a grid leaves each of its arrays at what its write-backs add up to (an input
  array as it was, an output array block by block) and every other buffer alone. Each grid is entered from all unscoped
  buffers at the boundary's contents and left at the next boundary's, the core's generator register and its dues riding
  along; the attention grid's invariant also takes its accumulator out of the scoped buffers and puts it back. The run:
  every weakly fair execution of @main ends with every unscoped buffer at the last boundary's contents. No host operation
  and no grid writes an argument, so each argument ends as launched; the result is the feed-forward grid's output array.
  (This copy is the same argument for the kernel program as printed, read at the word level: nothing in it depends on how a
  float is read.)
-/
import proofs.«126116_j51702816309661_2_alg».proof.Proof.Bits.Projections
import proofs.«126116_j51702816309661_2_alg».proof.Proof.Bits.Attention
import proofs.«126116_j51702816309661_2_alg».proof.Proof.Bits.FeedForward
import proofs.«126116_j51702816309661_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch; -/
abbrev B0 : Dev nD → Valuation τ sig (Elt F) := fun c b => m (c, b)
/-- after the first stretch of host operations, where the projection grid is entered. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At the projection grid's exit: its arrays at what the pipeline leaves, every other buffer as entered. -/
def B2 (c : Dev nD) : Valuation τ sig (Elt F) :=
  Pipeline.withArrays spec0 c (B1 m c) fun w => (Projections.dat (E1 m) c).arrAt w cfg0.N
theorem B2_arr (c : Dev nD) (w : Fin cfg0.W) :
    B2 m c (Proc.devRef .tc (Pipeline.arrRef spec0 w)) = (Projections.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (Projections.dat (E1 m) c).arrAt w cfg0.N = E2 m c (Pipeline.arrRef spec0 w) :=
  (B2_arr m c w).symm
theorem alone0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second stretch of host operations, where the attention grid is entered. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At the attention grid's exit: its arrays at what the pipeline leaves, every other buffer as entered. -/
def B4 (c : Dev nD) : Valuation τ sig (Elt F) :=
  Pipeline.withArrays spec1 c (B3 m c) fun w => (Attention.dat (E3 m) c).arrAt w cfg1.N
theorem B4_arr (c : Dev nD) (w : Fin cfg1.W) :
    B4 m c (Proc.devRef .tc (Pipeline.arrRef spec1 w)) = (Attention.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem left1 (c : Dev nD) (w : Fin cfg1.W) : (Attention.dat (E3 m) c).arrAt w cfg1.N = E4 m c (Pipeline.arrRef spec1 w) :=
  (B4_arr m c w).symm
theorem alone1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- At the feed-forward grid's exit: its arrays at what the pipeline leaves, every other buffer as entered. -/
def B5 (c : Dev nD) : Valuation τ sig (Elt F) :=
  Pipeline.withArrays spec2 c (B4 m c) fun w => (FeedForward.dat (E4 m) c).arrAt w cfg2.N
theorem B5_arr (c : Dev nD) (w : Fin cfg2.W) :
    B5 m c (Proc.devRef .tc (Pipeline.arrRef spec2 w)) = (FeedForward.dat (E4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
abbrev E5 : (c : Dev nD) → (b : Ref sig .tc) → Buf (Elt F) ((c : Thread nD τ).loc b) := fun c b => B5 m c b
theorem left2 (c : Dev nD) (w : Fin cfg2.W) : (FeedForward.dat (E4 m) c).arrAt w cfg2.N = E5 m c (Pipeline.arrRef spec2 w) :=
  (B5_arr m c w).symm
theorem alone2 (c : Dev nD) : ∀ b, b ∉ Finset.univ.image (Pipeline.arrRef spec2) → E5 m c b = E4 m c b :=
  fun b hb => B5_of_ne m c b fun w e => hb (Finset.mem_image.mpr ⟨w, Finset.mem_univ _, e⟩)

/-! ## The proof data family and the thread state -/

/-- No grid has a prefetched table. -/
abbrev adm : (p : Fin 3) → (pcfgs (F := F) p).Adm := fun p => (cfgs p).toPCfg_adm
/-- Each grid's proof data at the contents it is entered with. -/
def pdats : (p : Fin 3) → (c : Dev nD) → Dat τ (Elt F) Unit ℕ (UR sig nD τ) ℕ (Pipeline.pin (pcfgs (F := F)) adm p) c
  | ⟨0, _⟩ => fun c => Projections.dat (E1 m) c
  | ⟨1, _⟩ => fun c => Attention.dat (E3 m) c
  | ⟨2, _⟩ => fun c => FeedForward.dat (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator register. -/
abbrev Tₙ (c : Dev nD) : sProp 𝕄 := iprop(StableHlo.held (c : Thread nD τ) (Pipeline.ucRefs τ sig) (B5 m c) ∗ ∃ r, prngReg c r)

/-! ## The grids as segments -/

set_option backward.isDefEq.respectTransparency.types false in
/-- The projection grid over the thread state: its arrays taken out of the unscoped buffers at entry and put back at their
    exit contents; the generator register into the invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Projections.obligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (alone0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention grid over the thread state: its arrays taken out of the unscoped buffers at entry and put back at their
    exit contents; its accumulator, at whatever it holds, out of the scoped buffers into the invariant and back; the
    generator register likewise; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attention.obligation (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show Pipeline.scopedRest (Ix := Unit) (Name := ℕ) (U := UR sig nD τ) (Lvl := ℕ) (Val := Elt F) (Pipeline.pin (pcfgs (F := F)) adm 1).spec c = _
      from scopedRest1_split (Ix := Unit) (Val := Elt F) (Name := ℕ) (U := UR sig nD τ) (Lvl := ℕ) c]
    show _ ⊢ (Attention.dat (E3 m) c).Φ 0
    dsimp only [Attention.dat]
    simp only [owns_whole_eq]
    iintro ⟨Hp, -, ⟨%f, Hs⟩, Hr⟩
    isplitl [Hs]
    · iexists f; isplitr
      · ipureintro; intro h; first | exact absurd rfl h | exact absurd (by decide) h
      iexists f; isplitr; · ipureintro; rfl
      iexact Hs
    isplitl [Hr]; · iexact Hr
    iexact Hp
  hout c := by
    rw [Pipeline.ownSems0_none,
      show Pipeline.scopedRest (Ix := Unit) (Name := ℕ) (U := UR sig nD τ) (Lvl := ℕ) (Val := Elt F) (Pipeline.pin (pcfgs (F := F)) adm 1).spec c = _
        from scopedRest1_split (Ix := Unit) (Val := Elt F) (Name := ℕ) (U := UR sig nD τ) (Lvl := ℕ) c]
    show (Attention.dat (E3 m) c).Φ (Fin.last _) ⊢ _
    dsimp only [Attention.dat]
    simp only [owns_whole_eq]
    iintro ⟨⟨%a, -, ⟨%f, -, Hs⟩⟩, Hr, Hp⟩
    isplitl [Hp]; · iexact Hp
    isplitr; · iempintro
    isplitl [Hs]; · iexists f; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (alone1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The feed-forward grid over the thread state: its arrays taken out of the unscoped buffers at entry and put back at their
    exit contents; the generator register into the invariant and out; nothing owed; no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (FeedForward.obligation (E4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (left2 m c) (alone2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .region (reg2 m) ]
/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main on the TensorCores terminates, nothing
    faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-! ## The arguments end as launched

No host operation writes an argument and no grid has one as an output (a grid reads it through an input window or leaves
it alone), so the fold at an argument's buffer walks back to the launch memory. -/

theorem kept_arg0 (c : Dev nD) : B5 m c (Proc.devRef .tc main_arg0) = m ((c : Thread nD τ).loc main_arg0) :=
  calc B5 m c (Proc.devRef .tc main_arg0)
    _ = B4 m c (Proc.devRef .tc main_arg0) := B5_of_ne m c main_arg0 (by decide)
    _ = B3 m c (Proc.devRef .tc main_arg0) := (B4_arr m c 4).trans (((Attention.dat (E3 m) c).arrAt_in 4 rfl _).trans (Attention.dat_A (E3 m) c 4))
    _ = B2 m c (Proc.devRef .tc main_arg0) := StableHlo.after_of_writes_sub hostOps1 _ hostOps1_writes (r := main_arg0) (by decide)
    _ = B1 m c (Proc.devRef .tc main_arg0) := (B2_arr m c 0).trans (((Projections.dat (E1 m) c).arrAt_in 0 rfl _).trans (Projections.dat_A (E1 m) c 0))
    _ = B0 m c (Proc.devRef .tc main_arg0) := StableHlo.after_of_writes_sub hostOps0 _ hostOps0_writes (r := main_arg0) (by decide)
    _ = m ((c : Thread nD τ).loc main_arg0) := rfl

theorem kept_arg1 (c : Dev nD) : B5 m c (Proc.devRef .tc main_arg1) = m ((c : Thread nD τ).loc main_arg1) :=
  calc B5 m c (Proc.devRef .tc main_arg1)
    _ = B4 m c (Proc.devRef .tc main_arg1) := B5_of_ne m c main_arg1 (by decide)
    _ = B3 m c (Proc.devRef .tc main_arg1) := B4_of_ne m c main_arg1 (by decide)
    _ = B2 m c (Proc.devRef .tc main_arg1) := StableHlo.after_of_writes_sub hostOps1 _ hostOps1_writes (r := main_arg1) (by decide)
    _ = B1 m c (Proc.devRef .tc main_arg1) := (B2_arr m c 3).trans (((Projections.dat (E1 m) c).arrAt_in 3 rfl _).trans (Projections.dat_A (E1 m) c 3))
    _ = B0 m c (Proc.devRef .tc main_arg1) := StableHlo.after_of_writes_sub hostOps0 _ hostOps0_writes (r := main_arg1) (by decide)
    _ = m ((c : Thread nD τ).loc main_arg1) := rfl

theorem kept_arg2 (c : Dev nD) : B5 m c (Proc.devRef .tc main_arg2) = m ((c : Thread nD τ).loc main_arg2) :=
  calc B5 m c (Proc.devRef .tc main_arg2)
    _ = B4 m c (Proc.devRef .tc main_arg2) := B5_of_ne m c main_arg2 (by decide)
    _ = B3 m c (Proc.devRef .tc main_arg2) := B4_of_ne m c main_arg2 (by decide)
    _ = B2 m c (Proc.devRef .tc main_arg2) := StableHlo.after_of_writes_sub hostOps1 _ hostOps1_writes (r := main_arg2) (by decide)
    _ = B1 m c (Proc.devRef .tc main_arg2) := B2_of_ne m c main_arg2 (by decide)
    _ = B0 m c (Proc.devRef .tc main_arg2) := StableHlo.after_of_writes_sub hostOps0 _ hostOps0_writes (r := main_arg2) (by decide)
    _ = m ((c : Thread nD τ).loc main_arg2) := rfl

theorem kept_arg3 (c : Dev nD) : B5 m c (Proc.devRef .tc main_arg3) = m ((c : Thread nD τ).loc main_arg3) :=
  calc B5 m c (Proc.devRef .tc main_arg3)
    _ = B4 m c (Proc.devRef .tc main_arg3) := B5_of_ne m c main_arg3 (by decide)
    _ = B3 m c (Proc.devRef .tc main_arg3) := (B4_arr m c 3).trans (((Attention.dat (E3 m) c).arrAt_in 3 rfl _).trans (Attention.dat_A (E3 m) c 3))
    _ = B2 m c (Proc.devRef .tc main_arg3) := StableHlo.after_of_writes_sub hostOps1 _ hostOps1_writes (r := main_arg3) (by decide)
    _ = B1 m c (Proc.devRef .tc main_arg3) := B2_of_ne m c main_arg3 (by decide)
    _ = B0 m c (Proc.devRef .tc main_arg3) := StableHlo.after_of_writes_sub hostOps0 _ hostOps0_writes (r := main_arg3) (by decide)
    _ = m ((c : Thread nD τ).loc main_arg3) := rfl

theorem kept_arg4 (c : Dev nD) : B5 m c (Proc.devRef .tc main_arg4) = m ((c : Thread nD τ).loc main_arg4) :=
  calc B5 m c (Proc.devRef .tc main_arg4)
    _ = B4 m c (Proc.devRef .tc main_arg4) := B5_of_ne m c main_arg4 (by decide)
    _ = B3 m c (Proc.devRef .tc main_arg4) := B4_of_ne m c main_arg4 (by decide)
    _ = B2 m c (Proc.devRef .tc main_arg4) := StableHlo.after_of_writes_sub hostOps1 _ hostOps1_writes (r := main_arg4) (by decide)
    _ = B1 m c (Proc.devRef .tc main_arg4) := B2_of_ne m c main_arg4 (by decide)
    _ = B0 m c (Proc.devRef .tc main_arg4) := StableHlo.after_of_writes_sub hostOps0 _ hostOps0_writes (r := main_arg4) (by decide)
    _ = m ((c : Thread nD τ).loc main_arg4) := rfl

theorem kept_arg5 (c : Dev nD) : B5 m c (Proc.devRef .tc main_arg5) = m ((c : Thread nD τ).loc main_arg5) :=
  calc B5 m c (Proc.devRef .tc main_arg5)
    _ = B4 m c (Proc.devRef .tc main_arg5) := B5_of_ne m c main_arg5 (by decide)
    _ = B3 m c (Proc.devRef .tc main_arg5) := B4_of_ne m c main_arg5 (by decide)
    _ = B2 m c (Proc.devRef .tc main_arg5) := StableHlo.after_of_writes_sub hostOps1 _ hostOps1_writes (r := main_arg5) (by decide)
    _ = B1 m c (Proc.devRef .tc main_arg5) := B2_of_ne m c main_arg5 (by decide)
    _ = B0 m c (Proc.devRef .tc main_arg5) := StableHlo.after_of_writes_sub hostOps0 _ hostOps0_writes (r := main_arg5) (by decide)
    _ = m ((c : Thread nD τ).loc main_arg5) := rfl

theorem kept_arg6 (c : Dev nD) : B5 m c (Proc.devRef .tc main_arg6) = m ((c : Thread nD τ).loc main_arg6) :=
  calc B5 m c (Proc.devRef .tc main_arg6)
    _ = B4 m c (Proc.devRef .tc main_arg6) := B5_of_ne m c main_arg6 (by decide)
    _ = B3 m c (Proc.devRef .tc main_arg6) := B4_of_ne m c main_arg6 (by decide)
    _ = B2 m c (Proc.devRef .tc main_arg6) := StableHlo.after_of_writes_sub hostOps1 _ hostOps1_writes (r := main_arg6) (by decide)
    _ = B1 m c (Proc.devRef .tc main_arg6) := B2_of_ne m c main_arg6 (by decide)
    _ = B0 m c (Proc.devRef .tc main_arg6) := StableHlo.after_of_writes_sub hostOps0 _ hostOps0_writes (r := main_arg6) (by decide)
    _ = m ((c : Thread nD τ).loc main_arg6) := rfl

theorem kept_arg7 (c : Dev nD) : B5 m c (Proc.devRef .tc main_arg7) = m ((c : Thread nD τ).loc main_arg7) :=
  calc B5 m c (Proc.devRef .tc main_arg7)
    _ = B4 m c (Proc.devRef .tc main_arg7) := B5_of_ne m c main_arg7 (by decide)
    _ = B3 m c (Proc.devRef .tc main_arg7) := B4_of_ne m c main_arg7 (by decide)
    _ = B2 m c (Proc.devRef .tc main_arg7) := StableHlo.after_of_writes_sub hostOps1 _ hostOps1_writes (r := main_arg7) (by decide)
    _ = B1 m c (Proc.devRef .tc main_arg7) := B2_of_ne m c main_arg7 (by decide)
    _ = B0 m c (Proc.devRef .tc main_arg7) := StableHlo.after_of_writes_sub hostOps0 _ hostOps0_writes (r := main_arg7) (by decide)
    _ = m ((c : Thread nD τ).loc main_arg7) := rfl

theorem kept_arg8 (c : Dev nD) : B5 m c (Proc.devRef .tc main_arg8) = m ((c : Thread nD τ).loc main_arg8) :=
  calc B5 m c (Proc.devRef .tc main_arg8)
    _ = B4 m c (Proc.devRef .tc main_arg8) := B5_of_ne m c main_arg8 (by decide)
    _ = B3 m c (Proc.devRef .tc main_arg8) := B4_of_ne m c main_arg8 (by decide)
    _ = B2 m c (Proc.devRef .tc main_arg8) := StableHlo.after_of_writes_sub hostOps1 _ hostOps1_writes (r := main_arg8) (by decide)
    _ = B1 m c (Proc.devRef .tc main_arg8) := B2_of_ne m c main_arg8 (by decide)
    _ = B0 m c (Proc.devRef .tc main_arg8) := StableHlo.after_of_writes_sub hostOps0 _ hostOps0_writes (r := main_arg8) (by decide)
    _ = m ((c : Thread nD τ).loc main_arg8) := rfl

theorem kept_arg9 (c : Dev nD) : B5 m c (Proc.devRef .tc main_arg9) = m ((c : Thread nD τ).loc main_arg9) :=
  calc B5 m c (Proc.devRef .tc main_arg9)
    _ = B4 m c (Proc.devRef .tc main_arg9) := B5_of_ne m c main_arg9 (by decide)
    _ = B3 m c (Proc.devRef .tc main_arg9) := (B4_arr m c 7).trans (((Attention.dat (E3 m) c).arrAt_in 7 rfl _).trans (Attention.dat_A (E3 m) c 7))
    _ = B2 m c (Proc.devRef .tc main_arg9) := StableHlo.after_of_writes_sub hostOps1 _ hostOps1_writes (r := main_arg9) (by decide)
    _ = B1 m c (Proc.devRef .tc main_arg9) := B2_of_ne m c main_arg9 (by decide)
    _ = B0 m c (Proc.devRef .tc main_arg9) := StableHlo.after_of_writes_sub hostOps0 _ hostOps0_writes (r := main_arg9) (by decide)
    _ = m ((c : Thread nD τ).loc main_arg9) := rfl

theorem kept_arg10 (c : Dev nD) : B5 m c (Proc.devRef .tc main_arg10) = m ((c : Thread nD τ).loc main_arg10) :=
  calc B5 m c (Proc.devRef .tc main_arg10)
    _ = B4 m c (Proc.devRef .tc main_arg10) := B5_of_ne m c main_arg10 (by decide)
    _ = B3 m c (Proc.devRef .tc main_arg10) := B4_of_ne m c main_arg10 (by decide)
    _ = B2 m c (Proc.devRef .tc main_arg10) := StableHlo.after_of_writes_sub hostOps1 _ hostOps1_writes (r := main_arg10) (by decide)
    _ = B1 m c (Proc.devRef .tc main_arg10) := B2_of_ne m c main_arg10 (by decide)
    _ = B0 m c (Proc.devRef .tc main_arg10) := StableHlo.after_of_writes_sub hostOps0 _ hostOps0_writes (r := main_arg10) (by decide)
    _ = m ((c : Thread nD τ).loc main_arg10) := rfl

theorem kept_arg11 (c : Dev nD) : B5 m c (Proc.devRef .tc main_arg11) = m ((c : Thread nD τ).loc main_arg11) :=
  calc B5 m c (Proc.devRef .tc main_arg11)
    _ = B4 m c (Proc.devRef .tc main_arg11) := (B5_arr m c 5).trans (((FeedForward.dat (E4 m) c).arrAt_in 5 rfl _).trans (FeedForward.dat_A (E4 m) c 5))
    _ = B3 m c (Proc.devRef .tc main_arg11) := B4_of_ne m c main_arg11 (by decide)
    _ = B2 m c (Proc.devRef .tc main_arg11) := StableHlo.after_of_writes_sub hostOps1 _ hostOps1_writes (r := main_arg11) (by decide)
    _ = B1 m c (Proc.devRef .tc main_arg11) := B2_of_ne m c main_arg11 (by decide)
    _ = B0 m c (Proc.devRef .tc main_arg11) := StableHlo.after_of_writes_sub hostOps0 _ hostOps0_writes (r := main_arg11) (by decide)
    _ = m ((c : Thread nD τ).loc main_arg11) := rfl

theorem kept_arg12 (c : Dev nD) : B5 m c (Proc.devRef .tc main_arg12) = m ((c : Thread nD τ).loc main_arg12) :=
  calc B5 m c (Proc.devRef .tc main_arg12)
    _ = B4 m c (Proc.devRef .tc main_arg12) := B5_of_ne m c main_arg12 (by decide)
    _ = B3 m c (Proc.devRef .tc main_arg12) := B4_of_ne m c main_arg12 (by decide)
    _ = B2 m c (Proc.devRef .tc main_arg12) := StableHlo.after_of_writes_sub hostOps1 _ hostOps1_writes (r := main_arg12) (by decide)
    _ = B1 m c (Proc.devRef .tc main_arg12) := B2_of_ne m c main_arg12 (by decide)
    _ = B0 m c (Proc.devRef .tc main_arg12) := StableHlo.after_of_writes_sub hostOps0 _ hostOps0_writes (r := main_arg12) (by decide)
    _ = m ((c : Thread nD τ).loc main_arg12) := rfl

theorem kept_arg13 (c : Dev nD) : B5 m c (Proc.devRef .tc main_arg13) = m ((c : Thread nD τ).loc main_arg13) :=
  calc B5 m c (Proc.devRef .tc main_arg13)
    _ = B4 m c (Proc.devRef .tc main_arg13) := (B5_arr m c 7).trans (((FeedForward.dat (E4 m) c).arrAt_in 7 rfl _).trans (FeedForward.dat_A (E4 m) c 7))
    _ = B3 m c (Proc.devRef .tc main_arg13) := B4_of_ne m c main_arg13 (by decide)
    _ = B2 m c (Proc.devRef .tc main_arg13) := StableHlo.after_of_writes_sub hostOps1 _ hostOps1_writes (r := main_arg13) (by decide)
    _ = B1 m c (Proc.devRef .tc main_arg13) := B2_of_ne m c main_arg13 (by decide)
    _ = B0 m c (Proc.devRef .tc main_arg13) := StableHlo.after_of_writes_sub hostOps0 _ hostOps0_writes (r := main_arg13) (by decide)
    _ = m ((c : Thread nD τ).loc main_arg13) := rfl

/-- The frame: every weakly fair execution of @main terminates, nothing faulting, with the fourteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (kept_arg0 m c),
    (h c _ (mem_uc main_arg1 (by decide))).trans (kept_arg1 m c),
    (h c _ (mem_uc main_arg2 (by decide))).trans (kept_arg2 m c),
    (h c _ (mem_uc main_arg3 (by decide))).trans (kept_arg3 m c),
    (h c _ (mem_uc main_arg4 (by decide))).trans (kept_arg4 m c),
    (h c _ (mem_uc main_arg5 (by decide))).trans (kept_arg5 m c),
    (h c _ (mem_uc main_arg6 (by decide))).trans (kept_arg6 m c),
    (h c _ (mem_uc main_arg7 (by decide))).trans (kept_arg7 m c),
    (h c _ (mem_uc main_arg8 (by decide))).trans (kept_arg8 m c),
    (h c _ (mem_uc main_arg9 (by decide))).trans (kept_arg9 m c),
    (h c _ (mem_uc main_arg10 (by decide))).trans (kept_arg10 m c),
    (h c _ (mem_uc main_arg11 (by decide))).trans (kept_arg11 m c),
    (h c _ (mem_uc main_arg12 (by decide))).trans (kept_arg12 m c),
    (h c _ (mem_uc main_arg13 (by decide))).trans (kept_arg13 m c)⟩) (run m ρ)

/-- The run with the result named: the block output is the feed-forward grid's output array after its eight write-backs,
    and the arguments are as launched. -/
theorem run_result : θ_run defs (onTc (τ := τ) (main (F := F))) ⟨m, fun _ => 0, ρ⟩ (fun r => ∀ c : Dev nD,
      r.2.mem ((c.tc : Thread nD τ).loc main_v34) = (FeedForward.dat (E4 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v34 (by decide))).trans (B5_arr m c 8),
    (h c _ (mem_uc main_arg0 (by decide))).trans (kept_arg0 m c),
    (h c _ (mem_uc main_arg1 (by decide))).trans (kept_arg1 m c),
    (h c _ (mem_uc main_arg2 (by decide))).trans (kept_arg2 m c),
    (h c _ (mem_uc main_arg3 (by decide))).trans (kept_arg3 m c),
    (h c _ (mem_uc main_arg4 (by decide))).trans (kept_arg4 m c),
    (h c _ (mem_uc main_arg5 (by decide))).trans (kept_arg5 m c),
    (h c _ (mem_uc main_arg6 (by decide))).trans (kept_arg6 m c),
    (h c _ (mem_uc main_arg7 (by decide))).trans (kept_arg7 m c),
    (h c _ (mem_uc main_arg8 (by decide))).trans (kept_arg8 m c),
    (h c _ (mem_uc main_arg9 (by decide))).trans (kept_arg9 m c),
    (h c _ (mem_uc main_arg10 (by decide))).trans (kept_arg10 m c),
    (h c _ (mem_uc main_arg11 (by decide))).trans (kept_arg11 m c),
    (h c _ (mem_uc main_arg12 (by decide))).trans (kept_arg12 m c),
    (h c _ (mem_uc main_arg13 (by decide))).trans (kept_arg13 m c)⟩) (run m ρ)

end Cert.Kernel.Whole

end
-- ==== Proof.RefResult.lean ====
/-
  The reference program's result as one term of its arguments: the composed term its generated run states for the result
  buffer (the feed-forward branch over the attention branch's result `res_main_v71`), named so that the value equation can
  be stated against it.
-/
import proofs.«126116_j51702816309661_2_alg».proof.Proof.Gen.ReferenceIdeal.Run

set_option maxRecDepth 16384

noncomputable section

namespace Cert.ReferenceIdeal.Result

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The block's output as the reference computes it, from the arguments' contents `V0`. -/
def out (V0 : Valuation τ sig (Elt F)) : (Proc.devRef .tc main_v119 : DevRef τ sig).ty.Contents (Elt F) :=
  addf (res_main_v71 V0) (mulf (addf (Host.dotGeneral dot_S4x1024x4096_S1024x4096_S4x1024x1024_2_1_01_0_n_n none (mulf (res_main_v99 V0) (mulf (broadcastInDim S4x1024x4096 ![] bcast_S_S4x1024x4096 (constant S_ .f32 0x3F000000#32)) (addf (broadcastInDim S4x1024x4096 ![] bcast_S_S4x1024x4096 (constant S_ .f32 0x3F800000#32)) (Host.tanh (mulf (broadcastInDim S4x1024x4096 ![] bcast_S_S4x1024x4096 (constant S_ .f32 0x3F4C422A#32)) (addf (res_main_v99 V0) (mulf (broadcastInDim S4x1024x4096 ![] bcast_S_S4x1024x4096 (constant S_ .f32 0x3D372713#32)) (mulf (mulf (res_main_v99 V0) (res_main_v99 V0)) (res_main_v99 V0))))))))) (V0 (Proc.devRef .tc main_arg12))) (broadcastInDim S4x1024x1024 ![0, 1, 2] bcast_S1x1x1024_S4x1024x1024_0_1_2 (broadcastInDim S1x1x1024 ![2] bcast_S1024_S1x1x1024_2 (V0 (Proc.devRef .tc main_arg13))))) (broadcastInDim S4x1024x1024 ![0, 1, 2] bcast_S4x1x1024_S4x1024x1024_0_1_2 (shapeCast _ (extractStridedSlice S4x1x1x1024 ![0, 0, 1, 0] (res_main_v1 V0) slices_S4x1x6x1024_S4x1x1x1024_0_0_1_0) shapeCasts_S4x1x1x1024_S4x1x1024)))

end Cert.ReferenceIdeal.Result

end
-- ==== Proof.Spec.lean ====
/-
  The block as mathematics, on the extended reals: what both programs compute, entry by entry, from the fourteen argument
  arrays. Sums are written once over their whole axis (1024 channels, 1024 keys, 4096 hidden units); a channel of the
  attention output is a pair (head, position in the head), `hd h e = 64·h + e`.
-/
import Idealize.ShloMosaic.PureOps.Ideal.Laws
import Idealize.ShloMosaic.Lib.ValueIdx

noncomputable section

namespace Cert.Spec

open Idealize.ShloMosaic Idealize.ShloMosaic.ValueIdx

/-- The f32 words the programs use, as extended reals: 1024, ε, 1, 1/32, 1/2, the two gelu constants. -/
abbrev c1024 : EReal := (Scalar.ofBits .f32 0x44800000#32 : Ideal .f32)
abbrev cEps : EReal := (Scalar.ofBits .f32 0x3727C5AC#32 : Ideal .f32)
abbrev cOne : EReal := (Scalar.ofBits .f32 0x3F800000#32 : Ideal .f32)
abbrev cScale : EReal := (Scalar.ofBits .f32 0x3D000000#32 : Ideal .f32)
abbrev cHalf : EReal := (Scalar.ofBits .f32 0x3F000000#32 : Ideal .f32)
abbrev cCube : EReal := (Scalar.ofBits .f32 0x3D372713#32 : Ideal .f32)
abbrev cTanh : EReal := (Scalar.ofBits .f32 0x3F4C422A#32 : Ideal .f32)

/-- Layer normalisation of a row of 1024, and its modulation by a scale and a shift row. -/
def mean (z : Fin 1024 → EReal) : EReal := Ideal.div (∑ j : Fin 1024, z j) c1024
def var (z : Fin 1024 → EReal) : EReal := Ideal.div (∑ j : Fin 1024, (z j - mean z) * (z j - mean z)) c1024
def modulate (z sc sh : Fin 1024 → EReal) (k : Fin 1024) : EReal :=
  (z k - mean z) * Ideal.rsqrt (var z + cEps) * (sc k + cOne) + sh k

/-- Softmax over 1024 keys, as both programs compute it: exponentials of the scores less their maximum, over their sum. -/
def softmax (s : Fin 1024 → EReal) (mk : Fin 1024) : EReal :=
  Ideal.div (Ideal.exp (s mk - (Finset.univ : Finset (Fin 1024)).fold max ⊥ s))
    (∑ m' : Fin 1024, Ideal.exp (s m' - (Finset.univ : Finset (Fin 1024)).fold max ⊥ s))

/-- The tanh form of gelu, in the order both programs multiply it out. -/
def gelu (u : EReal) : EReal := u * (cHalf * (cOne + Ideal.tanh (cTanh * (u + cCube * ((u * u) * u)))))

/-- Channel `64·h + e`: position `e` of head `h`. -/
def hd (h : Fin 16) (e : Fin 64) : Fin 1024 := ⟨h.val * 64 + e.val, by omega⟩

section Block

variable (X Ctx : (⟨3, ![4, 1024, 1024]⟩ : Shape).Idx → EReal) (Cond : (⟨4, ![4, 1, 6, 1024]⟩ : Shape).Idx → EReal)
  (Bias : (⟨4, ![4, 16, 1024, 1024]⟩ : Shape).Idx → EReal) (Ada : (⟨4, ![1, 1, 6, 1024]⟩ : Shape).Idx → EReal)
  (Wq Wk Wv Wo : (⟨2, ![1024, 1024]⟩ : Shape).Idx → EReal) (Bo : (⟨1, ![1024]⟩ : Shape).Idx → EReal)
  (W1 : (⟨2, ![4096, 1024]⟩ : Shape).Idx → EReal) (B1 : (⟨1, ![4096]⟩ : Shape).Idx → EReal)
  (W2 : (⟨2, ![1024, 4096]⟩ : Shape).Idx → EReal) (B2 : (⟨1, ![1024]⟩ : Shape).Idx → EReal)

/-- The six modulation rows: gate 1, gate 2, scale 1, scale 2, shift 1, shift 2 at `s = 0 … 5`. -/
def g (b : Fin 4) (s : Fin 6) (c : Fin 1024) : EReal := Ada (ix4 (0 : Fin 1) (0 : Fin 1) s c) + Cond (ix4 b (0 : Fin 1) s c)

/-- Queries, keys and values, all heads side by side. -/
def Q (b : Fin 4) (l d : Fin 1024) : EReal :=
  ∑ k : Fin 1024, modulate (fun j => X (ix3 b l j)) (g Cond Ada b 2) (g Cond Ada b 4) k * Wq (ix2 d k)
def K (b : Fin 4) (m d : Fin 1024) : EReal := ∑ k : Fin 1024, Ctx (ix3 b m k) * Wk (ix2 d k)
def V (b : Fin 4) (m d : Fin 1024) : EReal := ∑ k : Fin 1024, Ctx (ix3 b m k) * Wv (ix2 d k)

/-- A head's scores for a query row, its attention weights, and its output. -/
def S (b : Fin 4) (h : Fin 16) (l m : Fin 1024) : EReal :=
  (∑ e : Fin 64, Q X Cond Ada Wq b l (hd h e) * K Ctx Wk b m (hd h e)) * cScale + Bias (ix4 b h l m)
def O (b : Fin 4) (h : Fin 16) (l : Fin 1024) (e : Fin 64) : EReal :=
  ∑ m : Fin 1024, softmax (S X Ctx Cond Bias Ada Wq Wk b h l) m * V Ctx Wv b m (hd h e)

/-- The attention branch's result: `x` plus the gated output projection of the merged heads. -/
def X1 (b : Fin 4) (l c : Fin 1024) : EReal :=
  X (ix3 b l c)
    + ((∑ h : Fin 16, ∑ e : Fin 64, O X Ctx Cond Bias Ada Wq Wk Wv b h l e * Wo (ix2 c (hd h e))) + Bo (ix1 c)) * g Cond Ada b 0 c

/-- The hidden activations and the block's output over ANY attention-branch result `x1`, -/
def Hfrom (x1 : Fin 4 → Fin 1024 → Fin 1024 → EReal) (b : Fin 4) (l : Fin 1024) (j : Fin 4096) : EReal :=
  (∑ k : Fin 1024, modulate (fun i => x1 b l i) (g Cond Ada b 3) (g Cond Ada b 5) k * W1 (ix2 j k)) + B1 (ix1 j)
def Yfrom (x1 : Fin 4 → Fin 1024 → Fin 1024 → EReal) (b : Fin 4) (l c : Fin 1024) : EReal :=
  x1 b l c + ((∑ j : Fin 4096, gelu (Hfrom Cond Ada W1 B1 x1 b l j) * W2 (ix2 c j)) + B2 (ix1 c)) * g Cond Ada b 1 c
/-- and over the attention branch's own. -/
def Y (b : Fin 4) (l c : Fin 1024) : EReal :=
  Yfrom Cond Ada W1 B1 W2 B2 (X1 X Ctx Cond Bias Ada Wq Wk Wv Wo Bo) b l c

/-- The output array. -/
def out (i : (⟨3, ![4, 1024, 1024]⟩ : Shape).Idx) : EReal :=
  Y X Ctx Cond Bias Ada Wq Wk Wv Wo Bo W1 B1 W2 B2 (i 0) (i 1) (i 2)

end Block

end Cert.Spec

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.RefAttention.lean ====
/-
  The reference's attention branch, entry by entry: its composed term for `x + ((heads merged) · Woᵀ + bo) · gamma1` is
  the specification's `X1` of the argument arrays.
-/
import proofs.«126116_j51702816309661_2_alg».proof.Proof.RefResult
import proofs.«126116_j51702816309661_2_alg».proof.Proof.Spec
import proofs.«126116_j51702816309661_2_alg».proof.Proof.LibRowOps
import proofs.«126116_j51702816309661_2_alg».proof.Proof.LibPlainDot
import proofs.«126116_j51702816309661_2_alg».proof.Proof.LibTransposedDot
import proofs.«126116_j51702816309661_2_alg».proof.Proof.LibHostRead
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.ReferenceIdeal.RefValue

open Cert.ReferenceIdeal Cert.ReferenceIdeal.Gen Cert.ReferenceIdeal.Value Idealize.ShloMosaic Idealize.ShloMosaic.TcCoe
  Idealize.ShloMosaic.ValueIdx Idealize.SL.Sem Idealize.ShloMosaic.StableHlo

/-! ## A sum over the 1024 channels, regrouped by head -/

/-- The channels are the pairs (head, position in the head). -/
def hdEquiv : Fin 16 × Fin 64 ≃ Fin 1024 where
  toFun p := Cert.Spec.hd p.1 p.2
  invFun d := (⟨d.val / 64, by have := d.isLt; omega⟩, ⟨d.val % 64, by omega⟩)
  left_inv p := by
    obtain ⟨h, e⟩ := p
    have hh := h.isLt
    have he := e.isLt
    refine Prod.ext (Fin.ext ?_) (Fin.ext ?_)
    · show (h.val * 64 + e.val) / 64 = h.val
      omega
    · show (h.val * 64 + e.val) % 64 = e.val
      omega
  right_inv d := by
    refine Fin.ext ?_
    show d.val / 64 * 64 + d.val % 64 = d.val
    omega

/-- A sum over the channels is the sum over the heads of the sums over a head's positions. -/
theorem sum_hd {M : Type*} [AddCommMonoid M] (f : Fin 1024 → M) :
    ∑ d : Fin 1024, f d = ∑ h : Fin 16, ∑ e : Fin 64, f (Cert.Spec.hd h e) :=
  ((Equiv.sum_comp hdEquiv f).symm).trans (Fintype.sum_prod_type _)

/-! ## Reductions of a rank-4 array along its last axis -/

section Reduce4
variable {n0 n1 n2 n3 : ℕ}

/-- `(p, q, r)` with the last coordinate `j` put back is `(p, q, r, j)`. -/
theorem lift4_axis3 (h : Shape.Reduces ⟨4, ![n0, n1, n2, n3]⟩ [3] ⟨3, ![n0, n1, n2]⟩) (p : Fin n0) (q : Fin n1) (r : Fin n2)
    (j : Fin n3) : h.lift (ix3 p q r) j = ix4 p q r j := by
  funext ax
  apply Fin.ext
  match ax with
  | ⟨0, _⟩ => rfl
  | ⟨1, _⟩ => rfl
  | ⟨2, _⟩ => rfl
  | ⟨3, _⟩ => rfl

/-- The host's sum along the last axis, from the zero word: at `(p, q, r)` the sum over the last coordinate. -/
theorem hostReduceAdd4_apply {u : Shape} (x : FVec Ideal ⟨4, ![n0, n1, n2, n3]⟩ .f32)
    (h' : Shape.ReducesTo ⟨4, ![n0, n1, n2, n3]⟩ [3] ⟨3, ![n0, n1, n2]⟩) (hu : 0 < u.numel) (p : Fin n0) (q : Fin n1)
    (r : Fin n2) :
    Host.reduceAdd x (constant u .f32 0x00000000#32) h' hu (ix3 p q r) = ∑ j : Fin n3, x (ix4 p q r j) := by
  have h : Shape.Reduces ⟨4, ![n0, n1, n2, n3]⟩ [3] ⟨3, ![n0, n1, n2]⟩ := ⟨h'.1, Nat.succ_pos 2, h'.2⟩
  refine (hostReduceAdd_apply x _ h' hu (ix3 p q r)).trans ?_
  refine (Ideal.hostReduceAdd_single h' h x _ (ix3 p q r)).trans ?_
  show Ideal.ofBits .f32 0x00000000#32 + _ = _
  rw [Ideal.ofBits_zero_f32, zero_add]
  exact Finset.sum_congr rfl fun j _ => congrArg x (lift4_axis3 h p q r j)

/-- The host's maximum along the last axis: at `(p, q, r)` the fold of `max` from the initial value over the last
    coordinate. -/
theorem hostReduceMax4_apply {u : Shape} (x : (⟨4, ![n0, n1, n2, n3]⟩ : Shape).Idx → EReal) (init : u.Idx → EReal)
    (h' : Shape.ReducesTo ⟨4, ![n0, n1, n2, n3]⟩ [3] ⟨3, ![n0, n1, n2]⟩) (hu : 0 < u.numel) (p : Fin n0) (q : Fin n1)
    (r : Fin n2) :
    Host.reduce (FloatOps.maximumf (F := Ideal) (φ := .f32)) x init h' hu (ix3 p q r)
      = (Finset.univ : Finset (Fin n3)).fold max (init (Shape.Idx.first hu)) (fun k => x (ix4 p q r k)) := by
  have h : Shape.Reduces ⟨4, ![n0, n1, n2, n3]⟩ [3] ⟨3, ![n0, n1, n2]⟩ := ⟨h'.1, Nat.succ_pos 2, h'.2⟩
  refine (Host.reduce_eq_fold_single (FloatOps.maximumf (F := Ideal) (φ := .f32)) x init h' h hu (ix3 p q r)).trans ?_
  show (Finset.univ : Finset (Fin n3)).fold max (init (Shape.Idx.first hu)) (x ∘ h.lift (ix3 p q r)) = _
  exact congrArg (fun f => (Finset.univ : Finset (Fin n3)).fold max (init (Shape.Idx.first hu)) f)
    (funext fun k => congrArg x (lift4_axis3 h p q r k))

/-- … and from the `-∞` word: the fold from `⊥`. -/
theorem hostReduceMax4_negInf_apply (x : (⟨4, ![n0, n1, n2, n3]⟩ : Shape).Idx → EReal)
    (h' : Shape.ReducesTo ⟨4, ![n0, n1, n2, n3]⟩ [3] ⟨3, ![n0, n1, n2]⟩) (hu : 0 < (⟨0, ![]⟩ : Shape).numel) (p : Fin n0)
    (q : Fin n1) (r : Fin n2) :
    Host.reduce (FloatOps.maximumf (F := Ideal) (φ := .f32)) x (constant (F := Ideal) ⟨0, ![]⟩ .f32 0xFF800000#32) h' hu (ix3 p q r)
      = (Finset.univ : Finset (Fin n3)).fold max ⊥ (fun k => x (ix4 p q r k)) := by
  refine (hostReduceMax4_apply x _ h' hu p q r).trans ?_
  show (Finset.univ : Finset (Fin n3)).fold max (Ideal.ofBits .f32 0xFF800000#32) _ = _
  rw [Gcn.Lib.ofBits_neg_inf_f32]

end Reduce4

/-! ## `broadcast_in_dim` forms at an index -/

section Broadcast
variable {α : Type} {n0 n1 n2 n3 : ℕ}

/-- `[n0, n1]` given a unit last axis: `(p, q, u) ↦ (p, q)`. -/
theorem bcast_ab_ab1_apply (x : (⟨2, ![n0, n1]⟩ : Shape).Idx → α)
    (h : (⟨2, ![n0, n1]⟩ : Shape).BroadcastsInDim ⟨3, ![n0, n1, 1]⟩ (![0, 1] : Fin 2 → Fin 3)) (p : Fin n0) (q : Fin n1)
    (u : Fin 1) : broadcastInDim ⟨3, ![n0, n1, 1]⟩ ![0, 1] h x (ix3 p q u) = x (ix2 p q) := by
  refine broadcastInDim_apply _ h x _ (ix2 p q) fun ax => ?_
  match ax with
  | ⟨0, _⟩ =>
    show p.val = if n0 = 1 then 0 else p.val
    split
    · have := p.isLt; omega
    · rfl
  | ⟨1, _⟩ =>
    show q.val = if n1 = 1 then 0 else q.val
    split
    · have := q.isLt; omega
    · rfl

/-- `[n0, n1, 1]` repeated along its last axis: `(p, q, j) ↦ (p, q, 0)`. -/
theorem bcast_ab1_abc_apply (x : (⟨3, ![n0, n1, 1]⟩ : Shape).Idx → α)
    (h : (⟨3, ![n0, n1, 1]⟩ : Shape).BroadcastsInDim ⟨3, ![n0, n1, n2]⟩ (![0, 1, 2] : Fin 3 → Fin 3)) (p : Fin n0)
    (q : Fin n1) (j : Fin n2) :
    broadcastInDim ⟨3, ![n0, n1, n2]⟩ ![0, 1, 2] h x (ix3 p q j) = x (ix3 p q (0 : Fin 1)) := by
  refine broadcastInDim_apply _ h x _ (ix3 p q (0 : Fin 1)) fun ax => ?_
  match ax with
  | ⟨0, _⟩ =>
    show p.val = if n0 = 1 then 0 else p.val
    split
    · have := p.isLt; omega
    · rfl
  | ⟨1, _⟩ =>
    show q.val = if n1 = 1 then 0 else q.val
    split
    · have := q.isLt; omega
    · rfl
  | ⟨2, _⟩ => rfl

/-- `[n0, n1, n2]` given a unit last axis: `(p, q, r, u) ↦ (p, q, r)`. -/
theorem bcast_abc_abc1_apply (x : (⟨3, ![n0, n1, n2]⟩ : Shape).Idx → α)
    (h : (⟨3, ![n0, n1, n2]⟩ : Shape).BroadcastsInDim ⟨4, ![n0, n1, n2, 1]⟩ (![0, 1, 2] : Fin 3 → Fin 4)) (p : Fin n0)
    (q : Fin n1) (r : Fin n2) (u : Fin 1) :
    broadcastInDim ⟨4, ![n0, n1, n2, 1]⟩ ![0, 1, 2] h x (ix4 p q r u) = x (ix3 p q r) := by
  refine broadcastInDim_apply _ h x _ (ix3 p q r) fun ax => ?_
  match ax with
  | ⟨0, _⟩ =>
    show p.val = if n0 = 1 then 0 else p.val
    split
    · have := p.isLt; omega
    · rfl
  | ⟨1, _⟩ =>
    show q.val = if n1 = 1 then 0 else q.val
    split
    · have := q.isLt; omega
    · rfl
  | ⟨2, _⟩ =>
    show r.val = if n2 = 1 then 0 else r.val
    split
    · have := r.isLt; omega
    · rfl

/-- `[n0, n1, n2, 1]` repeated along its last axis: `(p, q, r, j) ↦ (p, q, r, 0)`. -/
theorem bcast_abc1_abcd_apply (x : (⟨4, ![n0, n1, n2, 1]⟩ : Shape).Idx → α)
    (h : (⟨4, ![n0, n1, n2, 1]⟩ : Shape).BroadcastsInDim ⟨4, ![n0, n1, n2, n3]⟩ (![0, 1, 2, 3] : Fin 4 → Fin 4)) (p : Fin n0)
    (q : Fin n1) (r : Fin n2) (j : Fin n3) :
    broadcastInDim ⟨4, ![n0, n1, n2, n3]⟩ ![0, 1, 2, 3] h x (ix4 p q r j) = x (ix4 p q r (0 : Fin 1)) := by
  refine broadcastInDim_apply _ h x _ (ix4 p q r (0 : Fin 1)) fun ax => ?_
  match ax with
  | ⟨0, _⟩ =>
    show p.val = if n0 = 1 then 0 else p.val
    split
    · have := p.isLt; omega
    · rfl
  | ⟨1, _⟩ =>
    show q.val = if n1 = 1 then 0 else q.val
    split
    · have := q.isLt; omega
    · rfl
  | ⟨2, _⟩ =>
    show r.val = if n2 = 1 then 0 else r.val
    split
    · have := r.isLt; omega
    · rfl
  | ⟨3, _⟩ => rfl

/-- A vector `[n2]` as `[1, 1, n2]`: `(u, v, j) ↦ j`. -/
theorem bcast_c_11c_apply (x : (⟨1, ![n2]⟩ : Shape).Idx → α)
    (h : (⟨1, ![n2]⟩ : Shape).BroadcastsInDim ⟨3, ![1, 1, n2]⟩ (![2] : Fin 1 → Fin 3)) (u v : Fin 1) (j : Fin n2) :
    broadcastInDim ⟨3, ![1, 1, n2]⟩ ![2] h x (ix3 u v j) = x (ix1 j) := by
  refine broadcastInDim_apply _ h x _ (ix1 j) fun ax => ?_
  match ax with
  | ⟨0, _⟩ =>
    show j.val = if n2 = 1 then 0 else j.val
    split
    · have := j.isLt; omega
    · rfl

/-- `[1, 1, n2]` repeated over `[n0, n1, n2]`: `(p, q, j) ↦ (0, 0, j)`. -/
theorem bcast_11c_abc_apply (x : (⟨3, ![1, 1, n2]⟩ : Shape).Idx → α)
    (h : (⟨3, ![1, 1, n2]⟩ : Shape).BroadcastsInDim ⟨3, ![n0, n1, n2]⟩ (![0, 1, 2] : Fin 3 → Fin 3)) (p : Fin n0)
    (q : Fin n1) (j : Fin n2) :
    broadcastInDim ⟨3, ![n0, n1, n2]⟩ ![0, 1, 2] h x (ix3 p q j) = x (ix3 (0 : Fin 1) (0 : Fin 1) j) := by
  refine broadcastInDim_apply _ h x _ (ix3 (0 : Fin 1) (0 : Fin 1) j) fun ax => ?_
  match ax with
  | ⟨0, _⟩ => rfl
  | ⟨1, _⟩ => rfl
  | ⟨2, _⟩ =>
    show j.val = if n2 = 1 then 0 else j.val
    split
    · have := j.isLt; omega
    · rfl

/-- `[1, n1, n2, n3]` repeated along its leading axis: `(p, q, r, j) ↦ (0, q, r, j)`. -/
theorem bcast_1bcd_abcd_apply (x : (⟨4, ![1, n1, n2, n3]⟩ : Shape).Idx → α)
    (h : (⟨4, ![1, n1, n2, n3]⟩ : Shape).BroadcastsInDim ⟨4, ![n0, n1, n2, n3]⟩ (![0, 1, 2, 3] : Fin 4 → Fin 4)) (p : Fin n0)
    (q : Fin n1) (r : Fin n2) (j : Fin n3) :
    broadcastInDim ⟨4, ![n0, n1, n2, n3]⟩ ![0, 1, 2, 3] h x (ix4 p q r j) = x (ix4 (0 : Fin 1) q r j) := by
  refine broadcastInDim_apply _ h x _ (ix4 (0 : Fin 1) q r j) fun ax => ?_
  match ax with
  | ⟨0, _⟩ => rfl
  | ⟨1, _⟩ =>
    show q.val = if n1 = 1 then 0 else q.val
    split
    · have := q.isLt; omega
    · rfl
  | ⟨2, _⟩ =>
    show r.val = if n2 = 1 then 0 else r.val
    split
    · have := r.isLt; omega
    · rfl
  | ⟨3, _⟩ =>
    show j.val = if n3 = 1 then 0 else j.val
    split
    · have := j.isLt; omega
    · rfl

/-- The maximum with a `-∞` splat is the other operand. -/
theorem maximumf_negInf_apply {T : Shape} (hb : (⟨0, ![]⟩ : Shape).BroadcastsInDim T ![]) (w : FVec Ideal T .f32) (i : T.Idx) :
    maximumf (broadcastInDim T ![] hb (constant (F := Ideal) ⟨0, ![]⟩ .f32 0xFF800000#32)) w i = w i := by
  refine (maximumf_apply _ _ i).trans ?_
  rw [Hmu.Lib.bcast_const_apply, Gcn.Lib.ofBits_neg_inf_f32]
  exact max_bot_left _

end Broadcast

/-! ## The program's three contractions at an entry -/

section Dots

local notation "projDot" => dot_S4x1024x1024_S1024x1024_S4x1024x1024_2_1_01_0_n_n
local notation "scoreDot" => dot_S4x16x1024x64_S4x16x1024x64_S4x16x1024x1024_3_3_2_2_01_01
local notation "mixDot" => dot_S4x16x1024x1024_S4x16x1024x64_S4x16x1024x64_3_2_2_3_01_01

/-- The projection `[4, 1024, 1024] × [1024, 1024]` contracting the last axes: the left operand's index at output
    entry `(b, l, d)` and contracted coordinate `k` is `(b, l, k)`. -/
theorem projDot_lhsIdx (b : Fin 4) (l d k : Fin 1024) :
    DotDims.lhsIdx projDot (ix3 b l d) ((contrEquiv1 projDot 1024 rfl rfl).symm k) = ix3 b l k := by
  have hk := contrEquiv1_symm_val projDot 1024 rfl rfl k
  funext ax
  apply Fin.ext
  match ax with
  | ⟨0, _⟩ => rfl
  | ⟨1, _⟩ => rfl
  | ⟨2, _⟩ => exact (DotDims.lhsIdx_val_of_single projDot (cl := 2) rfl _ _).trans hk

/-- … and the right operand's is `(d, k)`. -/
theorem projDot_rhsIdx (b : Fin 4) (l d k : Fin 1024) :
    DotDims.rhsIdx projDot (ix3 b l d) ((contrEquiv1 projDot 1024 rfl rfl).symm k) = ix2 d k := by
  have hk := contrEquiv1_symm_val projDot 1024 rfl rfl k
  funext ax
  apply Fin.ext
  match ax with
  | ⟨0, _⟩ => rfl
  | ⟨1, _⟩ => exact (DotDims.rhsIdx_val_of_single projDot (cr := 1) rfl _ _).trans hk

/-- The projection read at `(b, l, d)`: row `(b, l)` of the left operand against row `d` of the right one. -/
theorem projDot_apply (x : FVec Ideal S4x1024x1024 .f32) (w : FVec Ideal S1024x1024 .f32) (b : Fin 4) (l d : Fin 1024) :
    Host.dotGeneral projDot none x w (ix3 b l d) = ∑ k : Fin 1024, x (ix3 b l k) * w (ix2 d k) := by
  refine (Ideal.dotGeneral_apply projDot none .single x w (ix3 b l d)).trans ?_
  rw [← Equiv.sum_comp (contrEquiv1 projDot 1024 rfl rfl).symm]
  refine Finset.sum_congr rfl fun k _ => ?_
  rw [projDot_lhsIdx, projDot_rhsIdx]

/-- The scores' contraction `[4, 16, 1024, 64] × [4, 16, 1024, 64]` over the last axes, batched over the first two: the
    operands' indices at output entry `(b, h, l, m)` and contracted coordinate `e` are `(b, h, l, e)` and `(b, h, m, e)`. -/
theorem scoreDot_lhsIdx (b : Fin 4) (h : Fin 16) (l m : Fin 1024) (e : Fin 64) :
    DotDims.lhsIdx scoreDot (ix4 b h l m) ((contrEquiv1 scoreDot 64 rfl rfl).symm e) = ix4 b h l e := by
  have hk := contrEquiv1_symm_val scoreDot 64 rfl rfl e
  funext ax
  apply Fin.ext
  match ax with
  | ⟨0, _⟩ => rfl
  | ⟨1, _⟩ => rfl
  | ⟨2, _⟩ => rfl
  | ⟨3, _⟩ => exact (DotDims.lhsIdx_val_of_single scoreDot (cl := 3) rfl _ _).trans hk

theorem scoreDot_rhsIdx (b : Fin 4) (h : Fin 16) (l m : Fin 1024) (e : Fin 64) :
    DotDims.rhsIdx scoreDot (ix4 b h l m) ((contrEquiv1 scoreDot 64 rfl rfl).symm e) = ix4 b h m e := by
  have hk := contrEquiv1_symm_val scoreDot 64 rfl rfl e
  funext ax
  apply Fin.ext
  match ax with
  | ⟨0, _⟩ => rfl
  | ⟨1, _⟩ => rfl
  | ⟨2, _⟩ => rfl
  | ⟨3, _⟩ => exact (DotDims.rhsIdx_val_of_single scoreDot (cr := 3) rfl _ _).trans hk

/-- The scores' contraction read at `(b, h, l, m)`. -/
theorem scoreDot_apply (q k : FVec Ideal S4x16x1024x64 .f32) (b : Fin 4) (h : Fin 16) (l m : Fin 1024) :
    Host.dotGeneral scoreDot none q k (ix4 b h l m) = ∑ e : Fin 64, q (ix4 b h l e) * k (ix4 b h m e) := by
  refine (Ideal.dotGeneral_apply scoreDot none .single q k (ix4 b h l m)).trans ?_
  rw [← Equiv.sum_comp (contrEquiv1 scoreDot 64 rfl rfl).symm]
  refine Finset.sum_congr rfl fun e _ => ?_
  rw [scoreDot_lhsIdx, scoreDot_rhsIdx]

/-- The weights-times-values contraction `[4, 16, 1024, 1024] × [4, 16, 1024, 64]` over the keys, batched over the first
    two axes: the operands' indices at output entry `(b, h, l, e)` and contracted coordinate `m` are `(b, h, l, m)` and
    `(b, h, m, e)`. -/
theorem mixDot_lhsIdx (b : Fin 4) (h : Fin 16) (l : Fin 1024) (e : Fin 64) (m : Fin 1024) :
    DotDims.lhsIdx mixDot (ix4 b h l e) ((contrEquiv1 mixDot 1024 rfl rfl).symm m) = ix4 b h l m := by
  have hk := contrEquiv1_symm_val mixDot 1024 rfl rfl m
  funext ax
  apply Fin.ext
  match ax with
  | ⟨0, _⟩ => rfl
  | ⟨1, _⟩ => rfl
  | ⟨2, _⟩ => rfl
  | ⟨3, _⟩ => exact (DotDims.lhsIdx_val_of_single mixDot (cl := 3) rfl _ _).trans hk

theorem mixDot_rhsIdx (b : Fin 4) (h : Fin 16) (l : Fin 1024) (e : Fin 64) (m : Fin 1024) :
    DotDims.rhsIdx mixDot (ix4 b h l e) ((contrEquiv1 mixDot 1024 rfl rfl).symm m) = ix4 b h m e := by
  have hk := contrEquiv1_symm_val mixDot 1024 rfl rfl m
  funext ax
  apply Fin.ext
  match ax with
  | ⟨0, _⟩ => rfl
  | ⟨1, _⟩ => rfl
  | ⟨2, _⟩ => exact (DotDims.rhsIdx_val_of_single mixDot (cr := 2) rfl _ _).trans hk
  | ⟨3, _⟩ => rfl

/-- The weights-times-values contraction read at `(b, h, l, e)`. -/
theorem mixDot_apply (p : FVec Ideal S4x16x1024x1024 .f32) (v : FVec Ideal S4x16x1024x64 .f32) (b : Fin 4) (h : Fin 16)
    (l : Fin 1024) (e : Fin 64) :
    Host.dotGeneral mixDot none p v (ix4 b h l e) = ∑ m : Fin 1024, p (ix4 b h l m) * v (ix4 b h m e) := by
  refine (Ideal.dotGeneral_apply mixDot none .single p v (ix4 b h l e)).trans ?_
  rw [← Equiv.sum_comp (contrEquiv1 mixDot 1024 rfl rfl).symm]
  refine Finset.sum_congr rfl fun m _ => ?_
  rw [mixDot_lhsIdx, mixDot_rhsIdx]

end Dots

/-! ## Splitting the channels into heads and merging them back -/

section Heads
variable {α : Type}

/-- `[4, 1024, 1024]` recast to `[4, 1024, 16, 64]` reads, at `(b, l, h, e)`, the operand at channel `64·h + e`. -/
theorem splitHeads_apply (x : S4x1024x1024.Idx → α) (hc : S4x1024x1024.ShapeCasts S4x1024x16x64) (b : Fin 4) (l : Fin 1024)
    (h : Fin 16) (e : Fin 64) : shapeCast S4x1024x16x64 x hc (ix4 b l h e) = x (ix3 b l (Cert.Spec.hd h e)) :=
  shapeCast_apply x hc _ _ (by
    rw [Shape.rowMajor_val_three, Shape.rowMajor_val_four]
    show (b.val * 1024 + l.val) * 1024 + (h.val * 64 + e.val) = ((b.val * 1024 + l.val) * 16 + h.val) * 64 + e.val
    omega)

/-- `[4, 1024, 16, 64]` recast to `[4, 1024, 1024]` reads, at channel `64·h + e`, the operand at `(b, l, h, e)`. -/
theorem mergeHeads_apply (x : S4x1024x16x64.Idx → α) (hc : S4x1024x16x64.ShapeCasts S4x1024x1024) (b : Fin 4) (l : Fin 1024)
    (h : Fin 16) (e : Fin 64) : shapeCast S4x1024x1024 x hc (ix3 b l (Cert.Spec.hd h e)) = x (ix4 b l h e) :=
  shapeCast_apply x hc _ _ (by
    rw [Shape.rowMajor_val_three, Shape.rowMajor_val_four]
    show ((b.val * 1024 + l.val) * 16 + h.val) * 64 + e.val = (b.val * 1024 + l.val) * 1024 + (h.val * 64 + e.val)
    omega)

/-- The heads brought in front of the rows (permutation `[0, 2, 1, 3]`): `(b, h, l, e) ↦ (b, l, h, e)`. -/
theorem headsFirst_apply (x : S4x1024x16x64.Idx → α) (ht : S4x1024x16x64.Transposes [0, 2, 1, 3] S4x16x1024x64) (b : Fin 4)
    (h : Fin 16) (l : Fin 1024) (e : Fin 64) :
    transpose S4x16x1024x64 [0, 2, 1, 3] x ht (ix4 b h l e) = x (ix4 b l h e) :=
  transpose_apply _ x ht _ _ fun ax => match ax with | ⟨0, _⟩ => rfl | ⟨1, _⟩ => rfl | ⟨2, _⟩ => rfl | ⟨3, _⟩ => rfl

/-- … and back: `(b, l, h, e) ↦ (b, h, l, e)`. -/
theorem rowsFirst_apply (x : S4x16x1024x64.Idx → α) (ht : S4x16x1024x64.Transposes [0, 2, 1, 3] S4x1024x16x64) (b : Fin 4)
    (l : Fin 1024) (h : Fin 16) (e : Fin 64) :
    transpose S4x1024x16x64 [0, 2, 1, 3] x ht (ix4 b l h e) = x (ix4 b h l e) :=
  transpose_apply _ x ht _ _ fun ax => match ax with | ⟨0, _⟩ => rfl | ⟨1, _⟩ => rfl | ⟨2, _⟩ => rfl | ⟨3, _⟩ => rfl

/-- A projection split into heads, heads first: at `(b, h, l, e)` the projection at `(b, l, 64·h + e)`. -/
theorem headsOf_apply (x : S4x1024x1024.Idx → α) (hc : S4x1024x1024.ShapeCasts S4x1024x16x64)
    (ht : S4x1024x16x64.Transposes [0, 2, 1, 3] S4x16x1024x64) (b : Fin 4) (h : Fin 16) (l : Fin 1024) (e : Fin 64) :
    transpose S4x16x1024x64 [0, 2, 1, 3] (shapeCast S4x1024x16x64 x hc) ht (ix4 b h l e) = x (ix3 b l (Cert.Spec.hd h e)) :=
  (headsFirst_apply _ ht b h l e).trans (splitHeads_apply x hc b l h e)

end Heads

/-! ## The host's layer normalisation and modulation of a row, at an entry -/

section Norm

/-- `[4, 1, 1, 1024]` recast to `[4, 1, 1024]` reads, at `(b, u, c)`, the operand at `(b, 0, 0, c)`. -/
theorem dropUnit_apply {α : Type} (x : S4x1x1x1024.Idx → α) (hc : S4x1x1x1024.ShapeCasts S4x1x1024) (b : Fin 4) (u : Fin 1)
    (c : Fin 1024) : shapeCast S4x1x1024 x hc (ix3 b u c) = x (ix4 b (0 : Fin 1) (0 : Fin 1) c) :=
  shapeCast_apply x hc _ _ (by
    rw [Shape.rowMajor_val_four, Shape.rowMajor_val_three]
    show ((b.val * 1 + 0) * 1 + 0) * 1024 + c.val = (b.val * 1 + u.val) * 1024 + c.val
    have := u.isLt
    omega)

/-- A row's sum over 1024, as a column, divided by the literal 1024: at `(b, l, u)` the row's sum over `c1024`. -/
theorem meanCol_apply (z : FVec Ideal S4x1024x1024 .f32) (b : Fin 4) (l : Fin 1024) (u : Fin 1) :
    Host.divf (broadcastInDim S4x1024x1 ![0, 1] bcast_S4x1024_S4x1024x1_0_1
        (Host.reduceAdd z (constant (F := Ideal) S_ .f32 0x00000000#32) reducesTo_S4x1024x1024_S4x1024_d2 h_S_))
      (broadcastInDim S4x1024x1 ![] bcast_S_S4x1024x1 (constant (F := Ideal) S_ .f32 0x44800000#32)) (ix3 b l u)
      = Ideal.div (∑ j : Fin 1024, z (ix3 b l j)) Cert.Spec.c1024 := by
  show Ideal.div (_ : EReal) (_ : EReal) = _
  refine congrArg₂ Ideal.div ?_ ?_
  · exact (bcast_ab_ab1_apply _ _ b l u).trans (Hmu.Lib.hostReduceAdd_abc_axis2_apply _ _ _ b l)
  · exact Hmu.Lib.bcast_const_apply _ _ _

/-- The host's modulated layer normalisation, over any centred array `dv` and mean column `mu` that are the row's: at
    `(b, l, k)` the specification's `modulate` of row `(b, l)` by the scale row and the shift row of batch `b`. -/
theorem hostModulate_apply (x : FVec Ideal S4x1024x1024 .f32) (mu : FVec Ideal S4x1024x1 .f32) (dv : FVec Ideal S4x1024x1024 .f32)
    (sc sh : FVec Ideal S4x1x1024 .f32)
    (hmu : ∀ (b : Fin 4) (l : Fin 1024) (u : Fin 1), mu (ix3 b l u) = Cert.Spec.mean fun j => x (ix3 b l j))
    (hdv : ∀ (b : Fin 4) (l k : Fin 1024), dv (ix3 b l k) = x (ix3 b l k) - Cert.Spec.mean fun j => x (ix3 b l j))
    (b : Fin 4) (l k : Fin 1024) :
    addf (mulf (mulf (subf x (broadcastInDim S4x1024x1024 ![0, 1, 2] bcast_S4x1024x1_S4x1024x1024_0_1_2 mu))
          (broadcastInDim S4x1024x1024 ![0, 1, 2] bcast_S4x1024x1_S4x1024x1024_0_1_2 (Host.rsqrt (addf (Host.divf
            (broadcastInDim S4x1024x1 ![0, 1] bcast_S4x1024_S4x1024x1_0_1
              (Host.reduceAdd (mulf dv dv) (constant (F := Ideal) S_ .f32 0x00000000#32) reducesTo_S4x1024x1024_S4x1024_d2 h_S_))
            (broadcastInDim S4x1024x1 ![] bcast_S_S4x1024x1 (constant (F := Ideal) S_ .f32 0x44800000#32)))
            (broadcastInDim S4x1024x1 ![] bcast_S_S4x1024x1 (constant (F := Ideal) S_ .f32 0x3727C5AC#32))))))
          (broadcastInDim S4x1024x1024 ![0, 1, 2] bcast_S4x1x1024_S4x1024x1024_0_1_2
            (addf sc (broadcastInDim S4x1x1024 ![] bcast_S_S4x1x1024 (constant (F := Ideal) S_ .f32 0x3F800000#32)))))
        (broadcastInDim S4x1024x1024 ![0, 1, 2] bcast_S4x1x1024_S4x1024x1024_0_1_2 sh) (ix3 b l k)
      = Cert.Spec.modulate (fun j => x (ix3 b l j)) (fun j => sc (ix3 b (0 : Fin 1) j)) (fun j => sh (ix3 b (0 : Fin 1) j)) k := by
  unfold Cert.Spec.modulate
  show ((_ : EReal) - (_ : EReal)) * (_ : EReal) * (_ : EReal) + (_ : EReal) = _
  refine congrArg₂ (· + ·) (congrArg₂ (· * ·) (congrArg₂ (· * ·) (congrArg₂ (· - ·) rfl ?_) ?_) ?_) ?_
  · exact (bcast_ab1_abc_apply _ _ b l k).trans (hmu b l 0)
  · refine (bcast_ab1_abc_apply _ _ b l k).trans ?_
    show Ideal.rsqrt ((_ : EReal) + (_ : EReal)) = _
    unfold Cert.Spec.var
    refine congrArg Ideal.rsqrt (congrArg₂ (· + ·) ?_ (Hmu.Lib.bcast_const_apply _ _ _))
    refine (meanCol_apply (mulf dv dv) b l 0).trans ?_
    exact congrArg (fun t => Ideal.div t Cert.Spec.c1024)
      (Finset.sum_congr rfl fun j _ => congrArg₂ (· * ·) (hdv b l j) (hdv b l j))
  · refine (Hmu.Lib.bcast_a1c_akc_apply _ _ b l k).trans ?_
    show (_ : EReal) + (_ : EReal) = _
    exact congrArg₂ (· + ·) rfl (Hmu.Lib.bcast_const_apply _ _ _)
  · exact Hmu.Lib.bcast_a1c_akc_apply _ _ b l k

end Norm

/-! ## The arguments, as the specification names them -/

section Args
variable (V0 : Valuation τ sig (Elt Ideal))

/-- `x`, the context, the conditioning, the attention bias, the modulation table, the four projection weights and the
    output bias. -/
abbrev aX : S4x1024x1024.Idx → EReal := V0 (Proc.devRef .tc main_arg0)
abbrev aCtx : S4x1024x1024.Idx → EReal := V0 (Proc.devRef .tc main_arg1)
abbrev aCond : S4x1x6x1024.Idx → EReal := V0 (Proc.devRef .tc main_arg2)
abbrev aBias : S4x16x1024x1024.Idx → EReal := V0 (Proc.devRef .tc main_arg3)
abbrev aAda : S1x1x6x1024.Idx → EReal := V0 (Proc.devRef .tc main_arg4)
abbrev aWq : S1024x1024.Idx → EReal := V0 (Proc.devRef .tc main_arg5)
abbrev aWk : S1024x1024.Idx → EReal := V0 (Proc.devRef .tc main_arg6)
abbrev aWv : S1024x1024.Idx → EReal := V0 (Proc.devRef .tc main_arg7)
abbrev aWo : S1024x1024.Idx → EReal := V0 (Proc.devRef .tc main_arg8)
abbrev aBo : S1024.Idx → EReal := V0 (Proc.devRef .tc main_arg9)

end Args

/-! ## The reference's named sub-terms at an entry -/

section Terms
variable (V0 : Valuation τ sig (Elt Ideal))

/-- The six modulation rows: the table plus the conditioning. -/
theorem v1_apply (b : Fin 4) (s : Fin 6) (c : Fin 1024) :
    res_main_v1 (F := Ideal) V0 (ix4 b (0 : Fin 1) s c) = Cert.Spec.g (aCond V0) (aAda V0) b s c := by
  unfold res_main_v1 Cert.Spec.g
  show (_ : EReal) + (_ : EReal) = _
  exact congrArg₂ (· + ·) (bcast_1bcd_abcd_apply _ _ b 0 s c) rfl

/-- Row `s` of the modulation rows, sliced out at the literal offset `o = s` and flattened to `[4, 1, 1024]`. -/
theorem modRow_apply (o : ℕ) (s : Fin 6) (hs : s.val = o) (hsl : S4x1x6x1024.Slices ![0, 0, o, 0] S4x1x1x1024)
    (hc : S4x1x1x1024.ShapeCasts S4x1x1024) (b : Fin 4) (u : Fin 1) (c : Fin 1024) :
    shapeCast S4x1x1024 (extractStridedSlice S4x1x1x1024 ![0, 0, o, 0] (res_main_v1 (F := Ideal) V0) hsl) hc (ix3 b u c)
      = Cert.Spec.g (aCond V0) (aAda V0) b s c :=
  (dropUnit_apply _ hc b u c).trans <|
    (slice4_axis2_apply o _ hsl b (0 : Fin 1) (0 : Fin 1) c s (by simp [hs])).trans (v1_apply V0 b s c)

/-- The mean column of `x`. -/
theorem v17_apply (b : Fin 4) (l : Fin 1024) (u : Fin 1) :
    res_main_v17 (F := Ideal) V0 (ix3 b l u) = Cert.Spec.mean fun j => (aX V0) (ix3 b l j) := by
  unfold res_main_v17 Cert.Spec.mean
  exact meanCol_apply (aX V0) b l u

/-- `x` less its rows' means. -/
theorem v19_apply (b : Fin 4) (l k : Fin 1024) :
    res_main_v19 (F := Ideal) V0 (ix3 b l k) = (aX V0) (ix3 b l k) - Cert.Spec.mean fun j => (aX V0) (ix3 b l j) := by
  unfold res_main_v19
  show (_ : EReal) - (_ : EReal) = _
  exact congrArg₂ (· - ·) rfl ((bcast_ab1_abc_apply _ _ b l k).trans (v17_apply V0 b l 0))

end Terms

section Scores
variable (V0 : Valuation τ sig (Elt Ideal))

/-- The specification's scores of the arguments, a row of 1024 keys per batch, head and query row. -/
abbrev specS (b : Fin 4) (h : Fin 16) (l : Fin 1024) : Fin 1024 → EReal :=
  Cert.Spec.S (aX V0) (aCtx V0) (aCond V0) (aBias V0) (aAda V0) (aWq V0) (aWk V0) b h l

/-- The scaled scores plus the bias: the queries are the modulated normalisation of `x` against `Wq`, the keys the context
    against `Wk`, both split into heads. -/
theorem v50_apply (b : Fin 4) (h : Fin 16) (l m : Fin 1024) :
    res_main_v50 (F := Ideal) V0 (ix4 b h l m) = specS V0 b h l m := by
  unfold res_main_v50 specS Cert.Spec.S
  show (_ : EReal) * (_ : EReal) + (_ : EReal) = _
  refine congrArg₂ (· + ·) (congrArg₂ (· * ·) ?_ (Hmu.Lib.bcast_const_apply _ _ _)) rfl
  refine (scoreDot_apply _ _ b h l m).trans ?_
  refine Finset.sum_congr rfl fun e _ => congrArg₂ (· * ·) ?_ ?_
  · refine (headsOf_apply _ _ _ b h l e).trans ?_
    refine (projDot_apply _ _ b l (Cert.Spec.hd h e)).trans ?_
    unfold Cert.Spec.Q
    refine Finset.sum_congr rfl fun k _ => congrArg₂ (· * ·) ?_ rfl
    refine (hostModulate_apply (aX V0) (res_main_v17 V0) (res_main_v19 V0) _ _ (v17_apply V0) (v19_apply V0) b l k).trans ?_
    exact congrArg₂ (fun sc sh => Cert.Spec.modulate (fun j => aX V0 (ix3 b l j)) sc sh k)
      (funext fun j => modRow_apply V0 2 2 rfl _ _ b 0 j) (funext fun j => modRow_apply V0 4 4 rfl _ _ b 0 j)
  · refine (headsOf_apply _ _ _ b h m e).trans ?_
    exact projDot_apply _ _ b m (Cert.Spec.hd h e)

/-- The scores' maximum over the keys, from `-∞`. -/
theorem v50_rowMax (b : Fin 4) (h : Fin 16) (l : Fin 1024) :
    Host.reduce (FloatOps.maximumf (F := Ideal) (φ := .f32)) (res_main_v50 (F := Ideal) V0)
        (constant (F := Ideal) S_ .f32 0xFF800000#32) reducesTo_S4x16x1024x1024_S4x16x1024_d3 h_S_ (ix3 b h l)
      = (Finset.univ : Finset (Fin 1024)).fold max ⊥ (specS V0 b h l) :=
  (hostReduceMax4_negInf_apply _ _ _ b h l).trans
    (congrArg (fun f => (Finset.univ : Finset (Fin 1024)).fold max ⊥ f) (funext fun k => v50_apply V0 b h l k))

/-- The exponential of a score less its row's maximum. -/
theorem v57_apply (b : Fin 4) (h : Fin 16) (l m : Fin 1024) :
    res_main_v57 (F := Ideal) V0 (ix4 b h l m)
      = Ideal.exp (specS V0 b h l m - (Finset.univ : Finset (Fin 1024)).fold max ⊥ (specS V0 b h l)) := by
  unfold res_main_v57
  show Ideal.exp ((_ : EReal) - (_ : EReal)) = _
  refine congrArg Ideal.exp (congrArg₂ (· - ·) (v50_apply V0 b h l m) ?_)
  refine (bcast_abc1_abcd_apply _ _ b h l m).trans ?_
  refine (bcast_abc_abc1_apply _ _ b h l 0).trans ?_
  exact (maximumf_negInf_apply _ _ (ix3 b h l)).trans (v50_rowMax V0 b h l)

/-- The attention weights: the exponentials over their row's sum. -/
theorem weights_apply (b : Fin 4) (h : Fin 16) (l m : Fin 1024) :
    Host.divf (res_main_v57 (F := Ideal) V0)
        (broadcastInDim S4x16x1024x1024 ![0, 1, 2, 3] bcast_S4x16x1024x1_S4x16x1024x1024_0_1_2_3
          (broadcastInDim S4x16x1024x1 ![0, 1, 2] bcast_S4x16x1024_S4x16x1024x1_0_1_2
            (Host.reduceAdd (res_main_v57 (F := Ideal) V0) (constant (F := Ideal) S_ .f32 0x00000000#32)
              reducesTo_S4x16x1024x1024_S4x16x1024_d3 h_S_))) (ix4 b h l m)
      = Cert.Spec.softmax (specS V0 b h l) m := by
  unfold Cert.Spec.softmax
  show Ideal.div (_ : EReal) (_ : EReal) = _
  refine congrArg₂ Ideal.div (v57_apply V0 b h l m) ?_
  refine (bcast_abc1_abcd_apply _ _ b h l m).trans ?_
  refine (bcast_abc_abc1_apply _ _ b h l 0).trans ?_
  refine (hostReduceAdd4_apply _ _ _ b h l).trans ?_
  exact Finset.sum_congr rfl fun m' _ => v57_apply V0 b h l m'

end Scores

/-- The attention branch's result at entry `(b, l, c)`. -/
theorem attention_branch (V0 : Valuation τ sig (Elt Ideal)) (b : Fin 4) (l c : Fin 1024) :
    res_main_v71 (F := Ideal) V0 (ix3 b l c)
      = Cert.Spec.X1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) b l c := by
  unfold res_main_v71 Cert.Spec.X1
  refine (addf_apply _ _ _).trans (congrArg₂ (· + ·) rfl ?_)
  refine (mulf_apply _ _ _).trans (congrArg₂ (· * ·) ?_ ?_)
  · refine (addf_apply _ _ _).trans (congrArg₂ (· + ·) ?_ ?_)
    · refine (projDot_apply _ _ b l c).trans ?_
      refine (sum_hd _).trans ?_
      refine Finset.sum_congr rfl fun h _ => Finset.sum_congr rfl fun e _ => congrArg₂ (· * ·) ?_ rfl
      refine (mergeHeads_apply _ _ b l h e).trans ?_
      refine (rowsFirst_apply _ _ b l h e).trans ?_
      refine (mixDot_apply _ _ b h l e).trans ?_
      unfold Cert.Spec.O
      refine Finset.sum_congr rfl fun m _ => congrArg₂ (· * ·) (weights_apply V0 b h l m) ?_
      refine (headsOf_apply _ _ _ b h m e).trans ?_
      exact projDot_apply _ _ b m (Cert.Spec.hd h e)
    · exact (bcast_11c_abc_apply _ _ b l c).trans (bcast_c_11c_apply _ _ 0 0 c)
  · refine (Hmu.Lib.bcast_a1c_akc_apply _ _ b l c).trans ?_
    exact modRow_apply V0 0 0 rfl _ _ b 0 c

end Cert.ReferenceIdeal.RefValue

end
-- ==== Proof.RefFeedForward.lean ====
/-
  The reference's feed-forward branch, entry by entry: its result's composed term, over its own attention-branch result,
  is the specification's `Yfrom` of that result and the argument arrays.
-/
import proofs.«126116_j51702816309661_2_alg».proof.Proof.RefResult
import proofs.«126116_j51702816309661_2_alg».proof.Proof.Spec
import proofs.«126116_j51702816309661_2_alg».proof.Proof.LibRowOps
import proofs.«126116_j51702816309661_2_alg».proof.Proof.LibPlainDot
import proofs.«126116_j51702816309661_2_alg».proof.Proof.LibTransposedDot
import proofs.«126116_j51702816309661_2_alg».proof.Proof.LibHostRead
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.ReferenceIdeal.RefFfn

open Cert.ReferenceIdeal Cert.ReferenceIdeal.Gen Cert.ReferenceIdeal.Value Idealize.ShloMosaic Idealize.ShloMosaic.TcCoe
  Idealize.ShloMosaic.ValueIdx Idealize.SL.Sem Idealize.ShloMosaic.StableHlo

/-! ## A stack of rows against a matrix contracted on its columns: `[A, B, D] × [N, D] → [A, B, N]` -/

section Dot
variable {A B D N : ℕ}

/-- The dimension numbers "contract the left operand's last axis with the right operand's columns, no batch axis". -/
def dotABDxND (A B D N : ℕ)
    (wf : DotDims.WF ⟨3, ![A, B, D]⟩ ⟨2, ![N, D]⟩ ⟨3, ![A, B, N]⟩ [2] [1] [0, 1] [0] [] []) :
    DotDims ⟨3, ![A, B, D]⟩ ⟨2, ![N, D]⟩ ⟨3, ![A, B, N]⟩ where
  lhsContracting := [2]
  rhsContracting := [1]
  lhsNonContracting := [0, 1]
  rhsNonContracting := [0]
  lhsBatch := []
  rhsBatch := []
  wf := wf

variable (wf : DotDims.WF ⟨3, ![A, B, D]⟩ ⟨2, ![N, D]⟩ ⟨3, ![A, B, N]⟩ [2] [1] [0, 1] [0] [] [])

/-- The left operand's index at output entry `(p, q, j)` and contracted coordinate `d` is `(p, q, d)`. -/
theorem dotABDxND_lhsIdx (p : Fin A) (q : Fin B) (j : Fin N) (d : Fin D) :
    (dotABDxND A B D N wf).lhsIdx (ix3 p q j) ((contrEquiv1 (dotABDxND A B D N wf) D rfl rfl).symm d) = ix3 p q d := by
  have hk := contrEquiv1_symm_val (dotABDxND A B D N wf) D rfl rfl d
  funext ax
  apply Fin.ext
  match ax with
  | ⟨0, _⟩ => rfl
  | ⟨1, _⟩ => rfl
  | ⟨2, _⟩ => exact ((dotABDxND A B D N wf).lhsIdx_val_of_single (cl := 2) rfl _ _).trans hk

/-- The right operand's index at output entry `(p, q, j)` and contracted coordinate `d` is `(j, d)`. -/
theorem dotABDxND_rhsIdx (p : Fin A) (q : Fin B) (j : Fin N) (d : Fin D) :
    (dotABDxND A B D N wf).rhsIdx (ix3 p q j) ((contrEquiv1 (dotABDxND A B D N wf) D rfl rfl).symm d) = ix2 j d := by
  have hk := contrEquiv1_symm_val (dotABDxND A B D N wf) D rfl rfl d
  funext ax
  apply Fin.ext
  match ax with
  | ⟨0, _⟩ => rfl
  | ⟨1, _⟩ => exact ((dotABDxND A B D N wf).rhsIdx_val_of_single (cr := 1) rfl _ _).trans hk

/-- The host's `dot_general` with these dimension numbers, read at `(p, q, j)`: the sum over the contracted coordinate
    of the left operand's fibre `(p, q)` against the right operand's row `j`. -/
theorem dotABDxND_apply {φ₁ φ₂ : FTy} (l : FVec Ideal ⟨3, ![A, B, D]⟩ φ₁) (r : FVec Ideal ⟨2, ![N, D]⟩ φ₂)
    (prec : Option ContractPrecision) (sched : HostSchedule) (p : Fin A) (q : Fin B) (j : Fin N) :
    FloatOps.dotGeneral (dotABDxND A B D N wf) prec sched l r (ix3 p q j) = ∑ d : Fin D, l (ix3 p q d) * r (ix2 j d) := by
  refine (Ideal.dotGeneral_apply (dotABDxND A B D N wf) prec sched l r (ix3 p q j)).trans ?_
  rw [← Equiv.sum_comp (contrEquiv1 (dotABDxND A B D N wf) D rfl rfl).symm]
  refine Finset.sum_congr rfl fun d _ => ?_
  rw [dotABDxND_lhsIdx, dotABDxND_rhsIdx]

end Dot

/-! ## `broadcast_in_dim` and a unit-axis reshape at an index -/

section Broadcast
variable {α : Type} {a b c d : ℕ}

/-- A matrix `[a, b]` given a unit last axis `[a, b, 1]`: `(p, q, u) ↦ (p, q)`. -/
theorem bcast_ab_ab1_apply (x : (⟨2, ![a, b]⟩ : Shape).Idx → α)
    (h : (⟨2, ![a, b]⟩ : Shape).BroadcastsInDim ⟨3, ![a, b, 1]⟩ (![0, 1] : Fin 2 → Fin 3)) (p : Fin a) (q : Fin b) (u : Fin 1) :
    broadcastInDim ⟨3, ![a, b, 1]⟩ ![0, 1] h x (ix3 p q u) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An `[a, b, 1]` array repeated along its last axis over `[a, b, c]`: `(p, q, j) ↦ (p, q, 0)`. -/
theorem bcast_ab1_abc_apply (x : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (j : Fin c) :
    broadcastInDim ⟨3, ![a, b, c]⟩ ![0, 1, 2] h x (ix3 p q j) = x (ix3 p q (0 : Fin 1)) := by
  refine broadcastInDim_apply _ h x _ (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector `[c]` as the one-row slab `[1, 1, c]`: `(u, v, q) ↦ q`. -/
theorem bcast_c_11c_apply (x : (⟨1, ![c]⟩ : Shape).Idx → α)
    (h : (⟨1, ![c]⟩ : Shape).BroadcastsInDim ⟨3, ![1, 1, c]⟩ (![2] : Fin 1 → Fin 3)) (u v : Fin 1) (q : Fin c) :
    broadcastInDim ⟨3, ![1, 1, c]⟩ ![2] h x (ix3 u v q) = x (ix1 q) := by
  refine broadcastInDim_apply _ h x _ (ix1 q) fun ax => ?_
  match ax with
  | ⟨0, _⟩ =>
    show q.val = if c = 1 then 0 else q.val
    split
    · have := q.isLt; omega
    · rfl

/-- A one-row slab `[1, 1, c]` repeated over `[a, b, c]`: `(p, q, j) ↦ (0, 0, j)`. -/
theorem bcast_11c_abc_apply (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (j : Fin c) :
    broadcastInDim ⟨3, ![a, b, c]⟩ ![0, 1, 2] h x (ix3 p q j) = x (ix3 (0 : Fin 1) (0 : Fin 1) j) := by
  refine broadcastInDim_apply _ h x _ (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A per-channel vector `[c]` spread over `[a, b, c]` through `[1, 1, c]`: `(p, q, j) ↦ j`. -/
theorem bcastChannel_apply (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3)) (p : Fin a) (q : Fin b) (j : Fin c) :
    broadcastInDim ⟨3, ![a, b, c]⟩ ![0, 1, 2] h2 (broadcastInDim ⟨3, ![1, 1, c]⟩ ![2] h1 x) (ix3 p q j) = x (ix1 j) :=
  (bcast_11c_abc_apply _ h2 p q j).trans (bcast_c_11c_apply x h1 0 0 j)

/-- A `[1, b, c, d]` array repeated along its leading axis over `[a, b, c, d]`: `(p, q, r, t) ↦ (0, q, r, t)`. -/
theorem bcast_1bcd_abcd_apply (x : (⟨4, ![1, b, c, d]⟩ : Shape).Idx → α)
    (h : (⟨4, ![1, b, c, d]⟩ : Shape).BroadcastsInDim ⟨4, ![a, b, c, d]⟩ (![0, 1, 2, 3] : Fin 4 → Fin 4)) (p : Fin a) (q : Fin b)
    (r : Fin c) (t : Fin d) :
    broadcastInDim ⟨4, ![a, b, c, d]⟩ ![0, 1, 2, 3] h x (ix4 p q r t) = x (ix4 (0 : Fin 1) q r t) := by
  refine broadcastInDim_apply _ h x _ (ix4 (0 : Fin 1) q r t) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ =>
    show t.val = if d = 1 then 0 else t.val
    split
    · have := t.isLt; omega
    · rfl

/-- An `[a, 1, 1, c]` array recast to `[a, 1, c]` reads, at `(p, u, q)`, the operand at `(p, 0, 0, q)`. -/
theorem shapeCast_a11c_a1c_apply (x : (⟨4, ![a, 1, 1, c]⟩ : Shape).Idx → α)
    (h : (⟨4, ![a, 1, 1, c]⟩ : Shape).ShapeCasts ⟨3, ![a, 1, c]⟩) (p : Fin a) (u : Fin 1) (q : Fin c) :
    shapeCast ⟨3, ![a, 1, c]⟩ x h (ix3 p u q) = x (ix4 p (0 : Fin 1) (0 : Fin 1) q) :=
  shapeCast_apply x h _ _ (by
    have hu : u.val = 0 := by omega
    rw [Shape.rowMajor_val_four, Shape.rowMajor_val_three]
    show ((p.val * 1 + 0) * 1 + 0) * c + q.val = (p.val * 1 + u.val) * c + q.val
    rw [hu]
    simp only [Nat.mul_one, Nat.add_zero])

end Broadcast

/-! ## The pieces of a modulated layer normalisation, on the host, at an index -/

section LayerNorm
variable {a b c k m : ℕ}

/-- A row's sum over a literal, as a column `[a, b, 1]` repeated over the row: at `(p, q, j)` the quotient of row `(p, q)`. -/
theorem rowQuotSpread_apply {u : Shape} (x : FVec Ideal ⟨3, ![a, b, c]⟩ .f32)
    (hr : Shape.ReducesTo ⟨3, ![a, b, c]⟩ [2] ⟨2, ![a, b]⟩) (hu : 0 < u.numel)
    (h1 : (⟨2, ![a, b]⟩ : Shape).BroadcastsInDim ⟨3, ![a, b, 1]⟩ (![0, 1] : Fin 2 → Fin 3))
    (h0 : (⟨0, ![]⟩ : Shape).BroadcastsInDim ⟨3, ![a, b, 1]⟩ ![])
    (h2 : (⟨3, ![a, b, 1]⟩ : Shape).BroadcastsInDim ⟨3, ![a, b, c]⟩ (![0, 1, 2] : Fin 3 → Fin 3))
    (w : BitVec 32) (p : Fin a) (q : Fin b) (j : Fin c) :
    broadcastInDim ⟨3, ![a, b, c]⟩ ![0, 1, 2] h2
        (Host.divf (broadcastInDim ⟨3, ![a, b, 1]⟩ ![0, 1] h1 (Host.reduceAdd x (constant u .f32 0x00000000#32) hr hu))
          (broadcastInDim ⟨3, ![a, b, 1]⟩ ![] h0 (constant (F := Ideal) ⟨0, ![]⟩ .f32 w))) (ix3 p q j)
      = Ideal.div (∑ i : Fin c, x (ix3 p q i)) (Ideal.ofBits .f32 w) :=
  (bcast_ab1_abc_apply _ h2 p q j).trans
    ((hostDivf_apply _ _ _).trans
      (congrArg₂ Ideal.div ((bcast_ab_ab1_apply _ h1 p q 0).trans (Hmu.Lib.hostReduceAdd_abc_axis2_apply x hr hu p q))
        (Hmu.Lib.bcast_const_apply w h0 _)))

/-- The reciprocal square root of (a row's sum over a literal, plus a literal), repeated over the row. -/
theorem rowRsqrtSpread_apply {u : Shape} (y : FVec Ideal ⟨3, ![a, b, c]⟩ .f32)
    (hr : Shape.ReducesTo ⟨3, ![a, b, c]⟩ [2] ⟨2, ![a, b]⟩) (hu : 0 < u.numel)
    (h1 : (⟨2, ![a, b]⟩ : Shape).BroadcastsInDim ⟨3, ![a, b, 1]⟩ (![0, 1] : Fin 2 → Fin 3))
    (h0 : (⟨0, ![]⟩ : Shape).BroadcastsInDim ⟨3, ![a, b, 1]⟩ ![])
    (h2 : (⟨3, ![a, b, 1]⟩ : Shape).BroadcastsInDim ⟨3, ![a, b, c]⟩ (![0, 1, 2] : Fin 3 → Fin 3))
    (w e : BitVec 32) (p : Fin a) (q : Fin b) (j : Fin c) :
    broadcastInDim ⟨3, ![a, b, c]⟩ ![0, 1, 2] h2
        (Host.rsqrt (addf
          (Host.divf (broadcastInDim ⟨3, ![a, b, 1]⟩ ![0, 1] h1 (Host.reduceAdd y (constant u .f32 0x00000000#32) hr hu))
            (broadcastInDim ⟨3, ![a, b, 1]⟩ ![] h0 (constant (F := Ideal) ⟨0, ![]⟩ .f32 w)))
          (broadcastInDim ⟨3, ![a, b, 1]⟩ ![] h0 (constant (F := Ideal) ⟨0, ![]⟩ .f32 e)))) (ix3 p q j)
      = Ideal.rsqrt (Ideal.div (∑ i : Fin c, y (ix3 p q i)) (Ideal.ofBits .f32 w) + Ideal.ofBits .f32 e) :=
  (bcast_ab1_abc_apply _ h2 p q j).trans
    ((Hmu.Lib.hostRsqrt_apply _ _).trans
      (congrArg Ideal.rsqrt
        (congrArg₂ (· + ·)
          ((hostDivf_apply _ _ _).trans
            (congrArg₂ Ideal.div ((bcast_ab_ab1_apply _ h1 p q 0).trans (Hmu.Lib.hostReduceAdd_abc_axis2_apply y hr hu p q))
              (Hmu.Lib.bcast_const_apply w h0 _)))
          (Hmu.Lib.bcast_const_apply e h0 _))))

/-- Row `s` of an `[a, 1, m, c]` array, cut out, recast to `[a, 1, c]` and repeated over `[a, k, c]`: at `(p, j, q)` the
    array at `(p, 0, s, q)`. -/
theorem cutRowSpread_apply {α : Type} (v : (⟨4, ![a, 1, m, c]⟩ : Shape).Idx → α) (o : ℕ)
    (hs : (⟨4, ![a, 1, m, c]⟩ : Shape).Slices ![0, 0, o, 0] ⟨4, ![a, 1, 1, c]⟩)
    (hc : (⟨4, ![a, 1, 1, c]⟩ : Shape).ShapeCasts ⟨3, ![a, 1, c]⟩)
    (hb : (⟨3, ![a, 1, c]⟩ : Shape).BroadcastsInDim ⟨3, ![a, k, c]⟩ (![0, 1, 2] : Fin 3 → Fin 3))
    (s : Fin m) (hso : s.val = o) (p : Fin a) (j : Fin k) (q : Fin c) :
    broadcastInDim ⟨3, ![a, k, c]⟩ ![0, 1, 2] hb
        (shapeCast ⟨3, ![a, 1, c]⟩ (extractStridedSlice ⟨4, ![a, 1, 1, c]⟩ ![0, 0, o, 0] v hs) hc) (ix3 p j q)
      = v (ix4 p (0 : Fin 1) s q) :=
  (Hmu.Lib.bcast_a1c_akc_apply _ hb p j q).trans
    ((shapeCast_a11c_a1c_apply _ hc p 0 q).trans
      (slice4_axis2_apply o v hs p 0 0 q s (by show s.val = o + 0; omega)))

/-- The same row plus a literal, repeated over `[a, k, c]`. -/
theorem cutRowPlusSpread_apply (v : FVec Ideal ⟨4, ![a, 1, m, c]⟩ .f32) (o : ℕ)
    (hs : (⟨4, ![a, 1, m, c]⟩ : Shape).Slices ![0, 0, o, 0] ⟨4, ![a, 1, 1, c]⟩)
    (hc : (⟨4, ![a, 1, 1, c]⟩ : Shape).ShapeCasts ⟨3, ![a, 1, c]⟩)
    (h0 : (⟨0, ![]⟩ : Shape).BroadcastsInDim ⟨3, ![a, 1, c]⟩ ![])
    (hb : (⟨3, ![a, 1, c]⟩ : Shape).BroadcastsInDim ⟨3, ![a, k, c]⟩ (![0, 1, 2] : Fin 3 → Fin 3))
    (w : BitVec 32) (s : Fin m) (hso : s.val = o) (p : Fin a) (j : Fin k) (q : Fin c) :
    broadcastInDim ⟨3, ![a, k, c]⟩ ![0, 1, 2] hb
        (addf (shapeCast ⟨3, ![a, 1, c]⟩ (extractStridedSlice ⟨4, ![a, 1, 1, c]⟩ ![0, 0, o, 0] v hs) hc)
          (broadcastInDim ⟨3, ![a, 1, c]⟩ ![] h0 (constant (F := Ideal) ⟨0, ![]⟩ .f32 w))) (ix3 p j q)
      = v (ix4 p (0 : Fin 1) s q) + Ideal.ofBits .f32 w :=
  (Hmu.Lib.bcast_a1c_akc_apply _ hb p j q).trans
    (congrArg₂ (· + ·)
      ((shapeCast_a11c_a1c_apply _ hc p 0 q).trans (slice4_axis2_apply o v hs p 0 0 q s (by show s.val = o + 0; omega)))
      (Hmu.Lib.bcast_const_apply w h0 _))

/-- A `[1, 1, m, c]` table repeated over the batch plus a `[a, 1, m, c]` one, at `(p, 0, s, q)`. -/
theorem tablePlus_apply (t : FVec Ideal ⟨4, ![1, 1, m, c]⟩ .f32) (v : FVec Ideal ⟨4, ![a, 1, m, c]⟩ .f32)
    (h : (⟨4, ![1, 1, m, c]⟩ : Shape).BroadcastsInDim ⟨4, ![a, 1, m, c]⟩ (![0, 1, 2, 3] : Fin 4 → Fin 4))
    (p : Fin a) (s : Fin m) (q : Fin c) :
    addf (broadcastInDim ⟨4, ![a, 1, m, c]⟩ ![0, 1, 2, 3] h t) v (ix4 p (0 : Fin 1) s q)
      = t (ix4 (0 : Fin 1) (0 : Fin 1) s q) + v (ix4 p (0 : Fin 1) s q) :=
  congrArg (· + v (ix4 p (0 : Fin 1) s q)) (bcast_1bcd_abcd_apply t h p 0 s q)

end LayerNorm

/-! ## The hidden activations and the output, entry by entry -/

/-- The hidden layer's input at `(b, l, j)`: the modulated layer normalisation of the attention branch's row against row `j`
    of the first weight matrix, plus its bias. -/
theorem hidden_entry (V0 : Valuation τ sig (Elt Ideal)) (b : Fin 4) (l : Fin 1024) (j : Fin 4096) :
    res_main_v99 (F := Ideal) V0 (ix3 b l j)
      = Cert.Spec.Hfrom (V0 (Proc.devRef .tc main_arg2)) (V0 (Proc.devRef .tc main_arg4)) (V0 (Proc.devRef .tc main_arg10))
          (V0 (Proc.devRef .tc main_arg11)) (fun b' l' c' => res_main_v71 (F := Ideal) V0 (ix3 b' l' c')) b l j := by
  unfold res_main_v99 res_main_v77 res_main_v75 res_main_v1
  generalize res_main_v71 (F := Ideal) V0 = x1
  unfold Cert.Spec.Hfrom
  show (_ : EReal) + (_ : EReal) = _
  refine congrArg₂ (· + ·) ?_ (bcastChannel_apply _ _ _ b l j)
  refine (dotABDxND_apply _ _ _ none .single b l j).trans ?_
  refine Finset.sum_congr rfl fun k _ => congrArg₂ (· * ·) ?_ rfl
  have hm : ∀ i : Fin 1024, _ = Cert.Spec.mean (fun i' => x1 (ix3 b l i')) := fun i =>
    rowQuotSpread_apply x1 reducesTo_S4x1024x1024_S4x1024_d2 h_S_ bcast_S4x1024_S4x1024x1_0_1 bcast_S_S4x1024x1
      bcast_S4x1024x1_S4x1024x1024_0_1_2 0x44800000#32 b l i
  unfold Cert.Spec.modulate
  show ((_ : EReal) - (_ : EReal)) * (_ : EReal) * (_ : EReal) + (_ : EReal) = _
  refine congrArg₂ (· + ·) (congrArg₂ (· * ·) (congrArg₂ (· * ·) (congrArg₂ (· - ·) rfl (hm k)) ?_) ?_) ?_
  · refine (rowRsqrtSpread_apply _ reducesTo_S4x1024x1024_S4x1024_d2 h_S_ bcast_S4x1024_S4x1024x1_0_1 bcast_S_S4x1024x1
      bcast_S4x1024x1_S4x1024x1024_0_1_2 0x44800000#32 0x3727C5AC#32 b l k).trans ?_
    unfold Cert.Spec.var
    refine congrArg (fun z => Ideal.rsqrt (Ideal.div z Cert.Spec.c1024 + Cert.Spec.cEps)) (Finset.sum_congr rfl fun i _ => ?_)
    show ((_ : EReal) - (_ : EReal)) * ((_ : EReal) - (_ : EReal)) = _
    exact congrArg₂ (· * ·) (congrArg₂ (· - ·) rfl (hm i)) (congrArg₂ (· - ·) rfl (hm i))
  · refine (cutRowPlusSpread_apply _ 3 _ _ _ _ 0x3F800000#32 (3 : Fin 6) rfl b l k).trans ?_
    exact congrArg (· + Cert.Spec.cOne) (tablePlus_apply _ _ _ b 3 k)
  · exact (cutRowSpread_apply _ 5 _ _ _ (5 : Fin 6) rfl b l k).trans (tablePlus_apply _ _ _ b 5 k)

/-- The block's output at entry `(b, l, c)`, over the attention branch's result. -/
theorem feedforward_branch (V0 : Valuation τ sig (Elt Ideal)) (b : Fin 4) (l c : Fin 1024) :
    Cert.ReferenceIdeal.Result.out (F := Ideal) V0 (ix3 b l c)
      = Cert.Spec.Yfrom (V0 (Proc.devRef .tc main_arg2)) (V0 (Proc.devRef .tc main_arg4)) (V0 (Proc.devRef .tc main_arg10))
          (V0 (Proc.devRef .tc main_arg11)) (V0 (Proc.devRef .tc main_arg12)) (V0 (Proc.devRef .tc main_arg13))
          (fun b' l' c' => res_main_v71 (F := Ideal) V0 (ix3 b' l' c')) b l c := by
  unfold Cert.ReferenceIdeal.Result.out res_main_v1 Cert.Spec.Yfrom
  show (_ : EReal) + ((_ : EReal) + (_ : EReal)) * (_ : EReal) = _
  refine congrArg₂ (· + ·) rfl (congrArg₂ (· * ·) (congrArg₂ (· + ·) ?_ (bcastChannel_apply _ _ _ b l c)) ?_)
  · refine (dotABDxND_apply _ _ _ none .single b l c).trans ?_
    refine Finset.sum_congr rfl fun j _ => congrArg₂ (· * ·) ?_ rfl
    have hh := hidden_entry V0 b l j
    unfold Cert.Spec.gelu
    show (_ : EReal) * ((_ : EReal) * ((_ : EReal) + Ideal.tanh ((_ : EReal) * ((_ : EReal) + (_ : EReal) * (((_ : EReal) * (_ : EReal)) * (_ : EReal)))))) = _
    exact congrArg₂ (· * ·) hh (congrArg₂ (· * ·) (Hmu.Lib.bcast_const_apply _ _ _) (congrArg₂ (· + ·) (Hmu.Lib.bcast_const_apply _ _ _)
      (congrArg Ideal.tanh (congrArg₂ (· * ·) (Hmu.Lib.bcast_const_apply _ _ _) (congrArg₂ (· + ·) hh
        (congrArg₂ (· * ·) (Hmu.Lib.bcast_const_apply _ _ _) (congrArg₂ (· * ·) (congrArg₂ (· * ·) hh hh) hh)))))))
  · exact (cutRowSpread_apply _ 1 _ _ _ (1 : Fin 6) rfl b l c).trans (tablePlus_apply _ _ _ b 1 c)

end Cert.ReferenceIdeal.RefFfn

end
-- ==== Proof.RefSpec.lean ====
/-
  The reference program's result is the specification's output of its arguments: its feed-forward branch over its attention
  branch's result, and that result the specification's.
-/
import proofs.«126116_j51702816309661_2_alg».proof.Proof.RefAttention
import proofs.«126116_j51702816309661_2_alg».proof.Proof.RefFeedForward
import proofs.«126116_j51702816309661_2_alg».proof.Proof.Spec
import Idealize.ShloMosaic.Lib.ValueIdx

set_option maxRecDepth 16384

noncomputable section

namespace Cert.ReferenceIdeal.RefSpec

open Cert.ReferenceIdeal Cert.ReferenceIdeal.Gen Cert.ReferenceIdeal.Value Idealize.ShloMosaic Idealize.ShloMosaic.TcCoe
  Idealize.ShloMosaic.ValueIdx Idealize.SL.Sem Idealize.ShloMosaic.StableHlo

theorem ref_value (V0 : Valuation τ sig (Elt Ideal)) :
    @Eq (S4x1024x1024.Idx → EReal) (Cert.ReferenceIdeal.Result.out (F := Ideal) V0)
      (Cert.Spec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) := by
  funext i
  obtain ⟨b, l, cc, rfl⟩ : ∃ (b : Fin 4) (l cc : Fin 1024), i = ix3 b l cc := ⟨i 0, i 1, i 2, eq_ix3 i⟩
  rw [Cert.ReferenceIdeal.RefFfn.feedforward_branch V0 b l cc]
  show _ = Cert.Spec.Y _ _ _ _ _ _ _ _ _ _ _ _ _ _ b l cc
  unfold Cert.Spec.Y
  exact congrArg (fun x1 => Cert.Spec.Yfrom _ _ _ _ _ _ x1 b l cc)
    (funext fun b' => funext fun l' => funext fun c' => Cert.ReferenceIdeal.RefValue.attention_branch V0 b' l' c')

end Cert.ReferenceIdeal.RefSpec

end
-- ==== Proof.GlueOps.lean ====
/-
  The host operations between the grids, read at an entry: a modulation row sliced out of the 4×1×6×1024 array and flattened
  to 4×1×1024; a weight transposed; the 4×1024×1024 projections split into sixteen heads of 64 and the head axis moved in front
  of the sequence axis.
-/
import proofs.«126116_j51702816309661_2_alg».proof.Proof.Gen.KernelIdeal
import proofs.«126116_j51702816309661_2_alg».proof.Proof.Spec
import proofs.«126116_j51702816309661_2_alg».proof.Proof.LibHostRead
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.GlueOps

open Cert.KernelIdeal Idealize.ShloMosaic Idealize.ShloMosaic.ValueIdx

/-- Row `s` of the modulation array, sliced at the literal offset `o = s` and flattened, at `(b, 0, k)`. -/
theorem slice_row {α : Type} (A : S4x1x6x1024.Idx → α) (o : ℕ) (s : Fin 6) (hs : s.val = o)
    (h : S4x1x6x1024.Slices ![0, 0, o, 0] S4x1x1x1024) (h' : S4x1x1x1024.ShapeCasts S4x1x1024) (b : Fin 4) (k : Fin 1024) :
    shapeCast S4x1x1024 (extractStridedSlice S4x1x1x1024 ![0, 0, o, 0] A h) h' (ix3 b (0 : Fin 1) k) = A (ix4 b (0 : Fin 1) s k) := by
  -- the flattening keeps the row-major position: (b, 0, k) of 4×1×1024 is (b, 0, 0, k) of 4×1×1×1024
  refine (shapeCast_apply _ h' (ix3 b (0 : Fin 1) k) (ix4 b (0 : Fin 1) (0 : Fin 1) k) ?_).trans ?_
  · rw [Shape.rowMajor_val_four, Shape.rowMajor_val_three]
    show ((b.val * 1 + 0) * 1 + 0) * 1024 + k.val = (b.val * 1 + 0) * 1024 + k.val
    simp only [Nat.mul_one, Nat.add_zero]
  -- and the slice shifts the third coordinate by the offset
  · exact slice4_axis2_apply o A h b (0 : Fin 1) (0 : Fin 1) k s (hs.trans (Nat.add_zero o).symm)

/-- The sum of the broadcast 1×1×6×1024 array and the 4×1×6×1024 one, at an entry: the specification's `g`. -/
theorem ada_plus_cond (Ada : S1x1x6x1024.Idx → EReal) (Cond : S4x1x6x1024.Idx → EReal)
    (h : S1x1x6x1024.BroadcastsInDim S4x1x6x1024 ![0, 1, 2, 3]) (b : Fin 4) (s : Fin 6) (k : Fin 1024) :
    addf (F := Ideal) (φ := .f32) (broadcastInDim S4x1x6x1024 ![0, 1, 2, 3] h Ada) Cond (ix4 b (0 : Fin 1) s k) = Cert.Spec.g Cond Ada b s k := by
  show (broadcastInDim S4x1x6x1024 ![0, 1, 2, 3] h Ada (ix4 b (0 : Fin 1) s k) : EReal) + Cond (ix4 b (0 : Fin 1) s k) = _
  unfold Cert.Spec.g
  refine congrArg (fun z : EReal => z + Cond (ix4 b (0 : Fin 1) s k)) ?_
  -- the broadcast reads coordinate 0 on the operand's two unit axes and the result's own coordinate on the other two
  refine broadcastInDim_apply _ h Ada _ (ix4 (0 : Fin 1) (0 : Fin 1) s k) fun ax => ?_
  match ax with
  | ⟨0, _⟩ => rfl
  | ⟨1, _⟩ => rfl
  | ⟨2, _⟩ => rfl
  | ⟨3, _⟩ => rfl

/-- A 1024×1024 weight transposed, at `(k, d)`; and the two rectangular ones. -/
theorem transpose_sq {α : Type} (W : S1024x1024.Idx → α) (h : S1024x1024.Transposes [1, 0] S1024x1024) (k d : Fin 1024) :
    transpose S1024x1024 [1, 0] W h (ix2 k d) = W (ix2 d k) :=
  transpose_ix2_apply W h k d
theorem transpose_up {α : Type} (W : S4096x1024.Idx → α) (h : S4096x1024.Transposes [1, 0] S1024x4096) (k : Fin 1024) (j : Fin 4096) :
    transpose S1024x4096 [1, 0] W h (ix2 k j) = W (ix2 j k) :=
  transpose_ix2_apply W h k j
theorem transpose_dn {α : Type} (W : S1024x4096.Idx → α) (h : S1024x4096.Transposes [1, 0] S4096x1024) (j : Fin 4096) (c : Fin 1024) :
    transpose S4096x1024 [1, 0] W h (ix2 j c) = W (ix2 c j) :=
  transpose_ix2_apply W h j c

/-- The head split: channel `64·h + e` of row `(b, l)` becomes entry `(b, h, l, e)`. -/
theorem head_split {α : Type} (A : S4x1024x1024.Idx → α) (h1 : S4x1024x1024.ShapeCasts S4x1024x16x64)
    (h2 : S4x1024x16x64.Transposes [0, 2, 1, 3] S4x16x1024x64) (b : Fin 4) (hh : Fin 16) (l : Fin 1024) (e : Fin 64) :
    transpose S4x16x1024x64 [0, 2, 1, 3] (shapeCast S4x1024x16x64 A h1) h2 (ix4 b hh l e) = A (ix3 b l (Cert.Spec.hd hh e)) := by
  -- the transpose swaps the two middle coordinates back
  refine (transpose_apply _ _ h2 _ (ix4 b l hh e) fun c =>
    match c with | ⟨0, _⟩ => rfl | ⟨1, _⟩ => rfl | ⟨2, _⟩ => rfl | ⟨3, _⟩ => rfl).trans ?_
  -- and the reshape keeps the row-major position: ((1024 b + l) 16 + h) 64 + e = (1024 b + l) 1024 + (64 h + e)
  refine shapeCast_apply A h1 _ (ix3 b l (Cert.Spec.hd hh e)) ?_
  rw [Shape.rowMajor_val_three, Shape.rowMajor_val_four]
  show (b.val * 1024 + l.val) * 1024 + (hh.val * 64 + e.val) = ((b.val * 1024 + l.val) * 16 + hh.val) * 64 + e.val
  omega

end Cert.KernelIdeal.GlueOps

end
-- ==== Proof.ProjectionsValue.lean ====
/-
  The projection grid's three output arrays as functions of the arrays the grid is entered with, entry by entry: the
  queries are the modulated normalised rows of `x` times the (transposed) query weight, the keys and the values the rows
  of `context` times the (transposed) key and value weights. First the three output blocks at an entry; then, because
  block (batch, row block) of each output array is what point (batch, row block) wrote and the eight blocks fill the
  array, the arrays themselves.
-/
import proofs.«126116_j51702816309661_2_alg».proof.Proof.Projections
import proofs.«126116_j51702816309661_2_alg».proof.Proof.Spec
import proofs.«126116_j51702816309661_2_alg».proof.Proof.LibRowOps
import proofs.«126116_j51702816309661_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.ProjectionsValue

open Cert.KernelIdeal Cert.KernelIdeal.Gen Idealize.ShloMosaic Idealize.ShloMosaic.TcCoe Idealize.ShloMosaic.ValueIdx
open Idealize.ShloMosaic.Pipeline (Dat)

/-- A row's sum divided by a constant, as a column broadcast over the tile, at `(r, k)`. -/
theorem sumCol_apply (X : FVec Ideal S512x1024 .f32) (h : Shape.Reduces S512x1024 [1] S512) (hφ : FKind.Formats .f32)
    (hacc : (0x00000000#32 : BitVec 32) = FKind.add.neutral .f32 hφ) (h1 : S512.ShapeCasts S512x1) (h2 : S512x1.Broadcasts S512x1024)
    (c : Ideal .f32) (r : Fin 512) (k : Fin 1024) :
    broadcastTo S512x1024 (divf (shapeCast S512x1 (multiReduction .add [1] S512 X 0x00000000#32 h hφ hacc) h1) (broadcast S512x1 c)) h2 (ix2 r k)
      = Ideal.div (∑ j : Fin 1024, X (ix2 r j)) c :=
  (Gcn.Lib.broadcastTo_a1_ab_apply _ h2 r k).trans
    (congrArg (fun z => Ideal.div z c) ((Gcn.Lib.shapeCast_a_a1_apply _ h1 r 0).trans (Gcn.Lib.rowSum_apply X h hφ hacc r)))

/-- The reciprocal square root of (a row's sum over a constant, plus a constant), as a column broadcast over the tile. -/
theorem rsqrtCol_apply (Y : FVec Ideal S512x1024 .f32) (h : Shape.Reduces S512x1024 [1] S512) (hφ : FKind.Formats .f32)
    (hacc : (0x00000000#32 : BitVec 32) = FKind.add.neutral .f32 hφ) (h1 : S512.ShapeCasts S512x1) (h2 : S512x1.Broadcasts S512x1024)
    (c e : Ideal .f32) (r : Fin 512) (k : Fin 1024) :
    broadcastTo S512x1024 (rsqrt (addf (divf (shapeCast S512x1 (multiReduction .add [1] S512 Y 0x00000000#32 h hφ hacc) h1) (broadcast S512x1 c))
        (broadcast S512x1 e))) h2 (ix2 r k)
      = Ideal.rsqrt (Ideal.div (∑ j : Fin 1024, Y (ix2 r j)) c + e) :=
  (Gcn.Lib.broadcastTo_a1_ab_apply _ h2 r k).trans
    (congrArg (fun z => Ideal.rsqrt (Ideal.div z c + e)) ((Gcn.Lib.shapeCast_a_a1_apply _ h1 r 0).trans (Gcn.Lib.rowSum_apply Y h hφ hacc r)))

/-- A 1×1×1024 row recast to 1×1024 and broadcast over the tile reads the row at the column. -/
theorem rowBcast_apply (v : Vec Ideal S1x1x1024 .f32) (h1 : S1x1x1024.ShapeCasts S1x1024) (h2 : S1x1024.Broadcasts S512x1024)
    (r : Fin 512) (k : Fin 1024) :
    broadcastTo S512x1024 (shapeCast S1x1024 v h1) h2 (ix2 r k) = v (ix3 (0 : Fin 1) (0 : Fin 1) k) :=
  (broadcastTo_1b_ab_apply _ h2 r k).trans (shapeCast_1ab_ab_apply v h1 0 k)

/-- The query payload at entry `(r, d)`: the modulated normalised row `r` against column `d` of the weight. -/
theorem query_entry (v0 : Vec Ideal S1x512x1024 .f32) (v20 v26 : Vec Ideal S1x1x1024 .f32) (v31 : Vec Ideal S1024x1024 .bf16)
    (r : Fin 512) (d : Fin 1024) :
    k0_pay5 (F := Ideal) v0 v20 v26 v31 (ix2 r d)
      = ∑ k : Fin 1024, Cert.Spec.modulate (fun j => v0 (ix3 (0 : Fin 1) r j)) (fun j => v20 (ix3 (0 : Fin 1) (0 : Fin 1) j))
          (fun j => v26 (ix3 (0 : Fin 1) (0 : Fin 1) j)) k * v31 (ix2 k d) := by
  unfold k0_pay5
  refine (Gcn.Lib.plain_matmul_zero_apply _ _ none r d).trans ?_
  refine Finset.sum_congr rfl fun k _ => ?_
  refine congrArg₂ (· * ·) ?_ (congrFun (shapeCast_self _ _) _)
  have hx : ∀ j : Fin 1024, shapeCast S512x1024 v0 shapeCasts_S1x512x1024_S512x1024 (ix2 r j) = v0 (ix3 (0 : Fin 1) r j) :=
    fun j => shapeCast_1ab_ab_apply v0 _ r j
  have hm : ∀ i : Fin 1024, _ = Cert.Spec.mean (fun j => v0 (ix3 (0 : Fin 1) r j)) := fun i =>
    (sumCol_apply (shapeCast S512x1024 v0 shapeCasts_S1x512x1024_S512x1024) reduces_S512x1024_S512 (.inl rfl) rfl
      shapeCasts_S512_S512x1 broadcasts_S512x1_S512x1024 (Scalar.ofBits .f32 0x44800000#32) r i).trans
      (congrArg (fun z => Ideal.div z Cert.Spec.c1024) (Finset.sum_congr rfl fun j _ => hx j))
  unfold Cert.Spec.modulate
  show ((_ : EReal) - (_ : EReal)) * (_ : EReal) * (_ : EReal) + (_ : EReal) = _
  refine congrArg₂ (· + ·) (congrArg₂ (· * ·) (congrArg₂ (· * ·) (congrArg₂ (· - ·) (hx k) (hm k)) ?_) ?_) (rowBcast_apply v26 _ _ r k)
  · refine (rsqrtCol_apply _ reduces_S512x1024_S512 (.inl rfl) rfl shapeCasts_S512_S512x1 broadcasts_S512x1_S512x1024
      (Scalar.ofBits .f32 0x44800000#32) (Scalar.ofBits .f32 0x3727C5AC#32) r k).trans ?_
    exact congrArg (fun z => Ideal.rsqrt (Ideal.div z Cert.Spec.c1024 + Cert.Spec.cEps)) (Finset.sum_congr rfl fun i _ =>
      congrArg₂ (· * ·) (congrArg₂ (· - ·) (hx i) (hm i)) (congrArg₂ (· - ·) (hx i) (hm i)))
  · exact (broadcastTo_1b_ab_apply _ _ r k).trans (congrArg (· + Cert.Spec.cOne) (shapeCast_1ab_ab_apply v20 _ 0 k))

theorem hz3 : (![0, 0, 0] : Fin 3 → Nat) = fun _ => 0 := funext fun a => by fin_cases a <;> rfl
theorem hz2 : (![0, 0] : Fin 2 → Nat) = fun _ => 0 := funext fun a => by fin_cases a <;> rfl

/-- A context row against a weight column: the key and value payloads at entry `(0, r, d)`. -/
theorem plain_entry (v38 : Vec Ideal S1x512x1024 .f32) (w : Vec Ideal S1024x1024 .bf16) (r : Fin 512) (d : Fin 1024) :
    k0_pay3 (F := Ideal) v38 w (ix3 (0 : Fin 1) r d) = ∑ k : Fin 1024, v38 (ix3 (0 : Fin 1) r k) * w (ix2 k d) := by
  unfold k0_pay3 k0_pay2
  refine (shapeCast_ab_1ab_apply _ _ 0 r d).trans ?_
  refine (Gcn.Lib.plain_matmul_zero_apply _ _ none r d).trans ?_
  exact Finset.sum_congr rfl fun k _ => congrArg₂ (· * ·) (shapeCast_1ab_ab_apply v38 _ r k) (congrFun (shapeCast_self _ _) _)
theorem plain_entry' (v38 : Vec Ideal S1x512x1024 .f32) (w : Vec Ideal S1024x1024 .bf16) (r : Fin 512) (d : Fin 1024) :
    k0_pay4 (F := Ideal) v38 w (ix3 (0 : Fin 1) r d) = ∑ k : Fin 1024, v38 (ix3 (0 : Fin 1) r k) * w (ix2 k d) := by
  unfold k0_pay4 k0_pay2
  refine (shapeCast_ab_1ab_apply _ _ 0 r d).trans ?_
  refine (Gcn.Lib.plain_matmul_zero_apply _ _ none r d).trans ?_
  exact Finset.sum_congr rfl fun k _ => congrArg₂ (· * ·) (shapeCast_1ab_ab_apply v38 _ r k) (congrFun (shapeCast_self _ _) _)

/-- The three output blocks at entry `(0, r, d)`. -/
theorem qBlock_entry (x : Vec Ideal S1x512x1024 .f32) (sc sh : Vec Ideal S1x1x1024 .f32) (wq : Vec Ideal S1024x1024 .bf16)
    (r : Fin 512) (d : Fin 1024) :
    Projections.qBlock (F := Ideal) x sc sh wq (ix3 (0 : Fin 1) r d)
      = ∑ k : Fin 1024, Cert.Spec.modulate (fun j => x (ix3 (0 : Fin 1) r j)) (fun j => sc (ix3 (0 : Fin 1) (0 : Fin 1) j))
          (fun j => sh (ix3 (0 : Fin 1) (0 : Fin 1) j)) k * wq (ix2 k d) := by
  unfold Projections.qBlock
  rw [View.canon_unit_zero hz3]
  simp only [View.ld_unit_zero (S := S1x512x1024) hz3, View.ld_unit_zero (S := S1x1x1024) hz3, View.ld_unit_zero (S := S1024x1024) hz2]
  unfold k0_pay1
  exact (shapeCast_ab_1ab_apply _ _ 0 r d).trans (query_entry x sc sh wq r d)
theorem kBlock_entry (ctx : Vec Ideal S1x512x1024 .f32) (wk : Vec Ideal S1024x1024 .bf16) (r : Fin 512) (d : Fin 1024) :
    Projections.kBlock (F := Ideal) ctx wk (ix3 (0 : Fin 1) r d) = ∑ k : Fin 1024, ctx (ix3 (0 : Fin 1) r k) * wk (ix2 k d) := by
  unfold Projections.kBlock
  rw [View.canon_unit_zero hz3]
  simp only [View.ld_unit_zero (S := S1x512x1024) hz3, View.ld_unit_zero (S := S1024x1024) hz2]
  exact plain_entry ctx wk r d
theorem vBlock_entry (ctx : Vec Ideal S1x512x1024 .f32) (wv : Vec Ideal S1024x1024 .bf16) (r : Fin 512) (d : Fin 1024) :
    Projections.vBlock (F := Ideal) ctx wv (ix3 (0 : Fin 1) r d) = ∑ k : Fin 1024, ctx (ix3 (0 : Fin 1) r k) * wv (ix2 k d) := by
  unfold Projections.vBlock
  rw [View.canon_unit_zero hz3]
  simp only [View.ld_unit_zero (S := S1x512x1024) hz3, View.ld_unit_zero (S := S1024x1024) hz2]
  exact plain_entry' ctx wv r d

/-! ## From blocks to arrays -/

section Arrays

variable (V : (c : Dev nD) → (b : Ref sig .tc) → Buf (Elt Ideal) ((c : Thread nD τ).loc b))

/-- The printed index maps over the grid's eight points: the three outputs and the two row inputs move together (batch,
    row block, 0), the modulation rows with the batch alone, the weights not at all. -/
theorem idx_facts : ∀ t : Fin cfg0.N,
    win0_7.index t (0 : Fin 3) ≤ 3 ∧ win0_7.index t (1 : Fin 3) ≤ 1 ∧ win0_7.index t (2 : Fin 3) = 0
    ∧ win0_0.index t = win0_7.index t ∧ win0_3.index t = win0_7.index t ∧ win0_8.index t = win0_7.index t ∧ win0_9.index t = win0_7.index t
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_4.index t = ![0, 0] ∧ win0_5.index t = ![0, 0] ∧ win0_6.index t = ![0, 0] :=
  (by decide +kernel : ∀ t : Fin grid0.N, _)
/-- Every (batch, row block) is some point's. -/
theorem idx_onto : ∀ (q0 : Fin 4) (q1 : Fin 2), ∃ t : Fin cfg0.N, win0_7.index t = ![q0.val, q1.val, 0] :=
  (by decide +kernel : ∀ (q0 : Fin 4) (q1 : Fin 2), ∃ t : Fin grid0.N, win0_7.index t = ![q0.val, q1.val, 0])

/-- The queries as one array of the arrays the grid is entered with. -/
def Gq' (Xa : S4x1024x1024.Idx → EReal) (Sc Sh : S4x1x1024.Idx → EReal) (Wt : S1024x1024.Idx → EReal) (b : Fin 4) (l d : Fin 1024) : EReal :=
  ∑ k : Fin 1024, Cert.Spec.modulate (fun j => Xa (ix3 b l j)) (fun j => Sc (ix3 b (0 : Fin 1) j)) (fun j => Sh (ix3 b (0 : Fin 1) j)) k * Wt (ix2 k d)
def Gq (Xa : S4x1024x1024.Idx → EReal) (Sc Sh : S4x1x1024.Idx → EReal) (Wt : S1024x1024.Idx → EReal) (i : S4x1024x1024.Idx) : EReal :=
  Gq' Xa Sc Sh Wt (i 0) (i 1) (i 2)

theorem q_flushed (c : Dev nD) (t : Fin cfg0.N) :
    (Projections.dat V c).flushed 7 t
      = ((cfg0.win 7).blk t).view.read (Elt Ideal) (Gq (V c main_arg0) (V c main_v7) (V c main_v11) (V c main_v15)) := by
  show (cfg0.win 7).cut (grid0.coords t) ((Projections.dat V c).after 7 t) = _
  rw [Projections.after_7]
  funext j
  obtain ⟨u, r, d, rfl⟩ : ∃ (u : Fin 1) (r : Fin 512) (d : Fin 1024), j = ix3 u r d := ⟨j 0, j 1, j 2, eq_ix3 j⟩
  obtain rfl : u = 0 := Subsingleton.elim _ _
  show Projections.qBlock (Projections.blk V c 0 t) (Projections.blk V c 1 t) (Projections.blk V c 2 t) (Projections.blk V c 4 t) (ix3 0 r d)
    = Gq (V c main_arg0) (V c main_v7) (V c main_v11) (V c main_v15) (((cfg0.win 7).blk t).view.emb (ix3 0 r d))
  rw [qBlock_entry]
  unfold Gq Gq'
  obtain ⟨f0, f1, f2, e0, e3, e8, e9, a1, b1, c1, a2, b2, c2, w4, w5, w6⟩ := idx_facts t
  have hE0 : ((((cfg0.win 7).blk t).view.emb (ix3 (0 : Fin 1) r d)) 0).val = win0_7.index t (0 : Fin 3) := by
    show win0_7.index t (0 : Fin 3) * 1 + 1 * 0 = _; omega
  have hE1 : ((((cfg0.win 7).blk t).view.emb (ix3 (0 : Fin 1) r d)) 1).val = win0_7.index t (1 : Fin 3) * 512 + r.val := by
    show win0_7.index t (1 : Fin 3) * 512 + 1 * r.val = _; omega
  have hE2 : ((((cfg0.win 7).blk t).view.emb (ix3 (0 : Fin 1) r d)) 2).val = d.val := by
    show win0_7.index t (2 : Fin 3) * 1024 + 1 * d.val = _; omega
  have hX : ∀ j : Fin 1024, Projections.blk V c 0 t (ix3 (0 : Fin 1) r j)
      = V c main_arg0 (ix3 ((((cfg0.win 7).blk t).view.emb (ix3 (0 : Fin 1) r d)) 0) ((((cfg0.win 7).blk t).view.emb (ix3 (0 : Fin 1) r d)) 1) j) := fun j => by
    unfold Projections.blk
    show V c main_arg0 (((cfg0.win 0).blk t).view.emb (ix3 (0 : Fin 1) r j)) = _
    refine congrArg _ (funext fun a => Fin.ext ?_)
    have g0 : win0_0.index t (0 : Fin 3) = win0_7.index t (0 : Fin 3) := congrFun e0 0
    have g1 : win0_0.index t (1 : Fin 3) = win0_7.index t (1 : Fin 3) := congrFun e0 1
    have g2 : win0_0.index t (2 : Fin 3) = win0_7.index t (2 : Fin 3) := congrFun e0 2
    match a with
    | ⟨0, _⟩ => show win0_0.index t (0 : Fin 3) * 1 + 1 * 0 = ((((cfg0.win 7).blk t).view.emb (ix3 (0 : Fin 1) r d)) 0).val; rw [hE0]; omega
    | ⟨1, _⟩ => show win0_0.index t (1 : Fin 3) * 512 + 1 * r.val = ((((cfg0.win 7).blk t).view.emb (ix3 (0 : Fin 1) r d)) 1).val; rw [hE1]; omega
    | ⟨2, _⟩ => show win0_0.index t (2 : Fin 3) * 1024 + 1 * j.val = j.val; omega
  have hSc : ∀ j : Fin 1024, Projections.blk V c 1 t (ix3 (0 : Fin 1) (0 : Fin 1) j)
      = V c main_v7 (ix3 ((((cfg0.win 7).blk t).view.emb (ix3 (0 : Fin 1) r d)) 0) (0 : Fin 1) j) := fun j => by
    unfold Projections.blk
    show V c main_v7 (((cfg0.win 1).blk t).view.emb (ix3 (0 : Fin 1) (0 : Fin 1) j)) = _
    refine congrArg _ (funext fun a => Fin.ext ?_)
    match a with
    | ⟨0, _⟩ => show win0_1.index t (0 : Fin 3) * 1 + 1 * 0 = ((((cfg0.win 7).blk t).view.emb (ix3 (0 : Fin 1) r d)) 0).val; rw [hE0]; omega
    | ⟨1, _⟩ => show win0_1.index t (1 : Fin 3) * 1 + 1 * 0 = 0; omega
    | ⟨2, _⟩ => show win0_1.index t (2 : Fin 3) * 1024 + 1 * j.val = j.val; omega
  have hSh : ∀ j : Fin 1024, Projections.blk V c 2 t (ix3 (0 : Fin 1) (0 : Fin 1) j)
      = V c main_v11 (ix3 ((((cfg0.win 7).blk t).view.emb (ix3 (0 : Fin 1) r d)) 0) (0 : Fin 1) j) := fun j => by
    unfold Projections.blk
    show V c main_v11 (((cfg0.win 2).blk t).view.emb (ix3 (0 : Fin 1) (0 : Fin 1) j)) = _
    refine congrArg _ (funext fun a => Fin.ext ?_)
    match a with
    | ⟨0, _⟩ => show win0_2.index t (0 : Fin 3) * 1 + 1 * 0 = ((((cfg0.win 7).blk t).view.emb (ix3 (0 : Fin 1) r d)) 0).val; rw [hE0]; omega
    | ⟨1, _⟩ => show win0_2.index t (1 : Fin 3) * 1 + 1 * 0 = 0; omega
    | ⟨2, _⟩ => show win0_2.index t (2 : Fin 3) * 1024 + 1 * j.val = j.val; omega
  have hW : ∀ k : Fin 1024, Projections.blk V c 4 t (ix2 k d)
      = V c main_v15 (ix2 k ((((cfg0.win 7).blk t).view.emb (ix3 (0 : Fin 1) r d)) 2)) := fun k => by
    unfold Projections.blk
    show V c main_v15 (((cfg0.win 4).blk t).view.emb (ix2 k d)) = _
    refine congrArg _ (funext fun a => Fin.ext ?_)
    have g0 : win0_4.index t (0 : Fin 2) = 0 := congrFun w4 0
    have g1 : win0_4.index t (1 : Fin 2) = 0 := congrFun w4 1
    match a with
    | ⟨0, _⟩ => show win0_4.index t (0 : Fin 2) * 1024 + 1 * k.val = k.val; omega
    | ⟨1, _⟩ => show win0_4.index t (1 : Fin 2) * 1024 + 1 * d.val = ((((cfg0.win 7).blk t).view.emb (ix3 (0 : Fin 1) r d)) 2).val; rw [hE2]; omega
  simp only [hX, hSc, hSh, hW]

theorem q_mem_blk (t : Fin cfg0.N) (i : S4x1024x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v26_0).slice (win0_7.rect t)).set ↔ _
  rw [View.set_slice_whole, Rect.mem_set_unit]
  exact Iff.rfl
theorem q_cover (i : S4x1024x1024.Idx) : ∃ t : Fin cfg0.N, (cfg0.win 7).flush t = true ∧ i ∈ ((cfg0.win 7).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  obtain ⟨f0, f1, f2, e0, e3, e8, e9, a1, b1, c1, a2, b2, c2, w4, w5, w6⟩ := idx_facts t
  have q0 : win0_7.index t (0 : Fin 3) = (i 0).val := congrFun ht 0
  have q1 : win0_7.index t (1 : Fin 3) = (i 1).val / 512 := congrFun ht 1
  have q2 : win0_7.index t (2 : Fin 3) = 0 := congrFun ht 2

  refine ⟨t, flush0_7 t, ?_⟩
  rw [q_mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- The query array after the grid. -/
theorem q_final (c : Dev nD) :
    (Projections.dat V c).arrAt 7 cfg0.N = Gq (V c main_arg0) (V c main_v7) (V c main_v11) (V c main_v15) :=
  (Projections.dat V c).arrAt_eq_of_cover 7 _ (fun t _ => q_flushed V c t) q_cover

/-- The keys (and the values) as one array of the arrays the grid is entered with. -/
def Gkv' (Ct : S4x1024x1024.Idx → EReal) (Wt : S1024x1024.Idx → EReal) (b : Fin 4) (l d : Fin 1024) : EReal :=
  ∑ k : Fin 1024, Ct (ix3 b l k) * Wt (ix2 k d)
def Gkv (Ct : S4x1024x1024.Idx → EReal) (Wt : S1024x1024.Idx → EReal) (i : S4x1024x1024.Idx) : EReal := Gkv' Ct Wt (i 0) (i 1) (i 2)

theorem k_flushed (c : Dev nD) (t : Fin cfg0.N) :
    (Projections.dat V c).flushed 8 t
      = ((cfg0.win 8).blk t).view.read (Elt Ideal) (Gkv (V c main_arg1) (V c main_v17)) := by
  show (cfg0.win 8).cut (grid0.coords t) ((Projections.dat V c).after 8 t) = _
  rw [Projections.after_8]
  funext j
  obtain ⟨u, r, d, rfl⟩ : ∃ (u : Fin 1) (r : Fin 512) (d : Fin 1024), j = ix3 u r d := ⟨j 0, j 1, j 2, eq_ix3 j⟩
  obtain rfl : u = 0 := Subsingleton.elim _ _
  show Projections.kBlock (Projections.blk V c 3 t) (Projections.blk V c 5 t) (ix3 0 r d)
    = Gkv (V c main_arg1) (V c main_v17) (((cfg0.win 8).blk t).view.emb (ix3 (0 : Fin 1) r d))
  rw [kBlock_entry]
  unfold Gkv Gkv'
  obtain ⟨f0, f1, f2, e0, e3, e8, e9, a1, b1, c1, a2, b2, c2, w4, w5, w6⟩ := idx_facts t
  have k0 : win0_8.index t (0 : Fin 3) = win0_7.index t (0 : Fin 3) := congrFun e8 0
  have k1 : win0_8.index t (1 : Fin 3) = win0_7.index t (1 : Fin 3) := congrFun e8 1
  have k2 : win0_8.index t (2 : Fin 3) = win0_7.index t (2 : Fin 3) := congrFun e8 2
  have hE0 : ((((cfg0.win 8).blk t).view.emb (ix3 (0 : Fin 1) r d)) 0).val = win0_7.index t (0 : Fin 3) := by
    show win0_8.index t (0 : Fin 3) * 1 + 1 * 0 = _; omega
  have hE1 : ((((cfg0.win 8).blk t).view.emb (ix3 (0 : Fin 1) r d)) 1).val = win0_7.index t (1 : Fin 3) * 512 + r.val := by
    show win0_8.index t (1 : Fin 3) * 512 + 1 * r.val = _; omega
  have hE2 : ((((cfg0.win 8).blk t).view.emb (ix3 (0 : Fin 1) r d)) 2).val = d.val := by
    show win0_8.index t (2 : Fin 3) * 1024 + 1 * d.val = _; omega
  have hX : ∀ j : Fin 1024, Projections.blk V c 3 t (ix3 (0 : Fin 1) r j)
      = V c main_arg1 (ix3 ((((cfg0.win 8).blk t).view.emb (ix3 (0 : Fin 1) r d)) 0) ((((cfg0.win 8).blk t).view.emb (ix3 (0 : Fin 1) r d)) 1) j) := fun j => by
    unfold Projections.blk
    show V c main_arg1 (((cfg0.win 3).blk t).view.emb (ix3 (0 : Fin 1) r j)) = _
    refine congrArg _ (funext fun a => Fin.ext ?_)
    have g0 : win0_3.index t (0 : Fin 3) = win0_7.index t (0 : Fin 3) := congrFun e3 0
    have g1 : win0_3.index t (1 : Fin 3) = win0_7.index t (1 : Fin 3) := congrFun e3 1
    have g2 : win0_3.index t (2 : Fin 3) = win0_7.index t (2 : Fin 3) := congrFun e3 2
    match a with
    | ⟨0, _⟩ => show win0_3.index t (0 : Fin 3) * 1 + 1 * 0 = ((((cfg0.win 8).blk t).view.emb (ix3 (0 : Fin 1) r d)) 0).val; rw [hE0]; omega
    | ⟨1, _⟩ => show win0_3.index t (1 : Fin 3) * 512 + 1 * r.val = ((((cfg0.win 8).blk t).view.emb (ix3 (0 : Fin 1) r d)) 1).val; rw [hE1]; omega
    | ⟨2, _⟩ => show win0_3.index t (2 : Fin 3) * 1024 + 1 * j.val = j.val; omega
  have hW : ∀ k : Fin 1024, Projections.blk V c 5 t (ix2 k d)
      = V c main_v17 (ix2 k ((((cfg0.win 8).blk t).view.emb (ix3 (0 : Fin 1) r d)) 2)) := fun k => by
    unfold Projections.blk
    show V c main_v17 (((cfg0.win 5).blk t).view.emb (ix2 k d)) = _
    refine congrArg _ (funext fun a => Fin.ext ?_)
    have g0 : win0_5.index t (0 : Fin 2) = 0 := congrFun w5 0
    have g1 : win0_5.index t (1 : Fin 2) = 0 := congrFun w5 1
    match a with
    | ⟨0, _⟩ => show win0_5.index t (0 : Fin 2) * 1024 + 1 * k.val = k.val; omega
    | ⟨1, _⟩ => show win0_5.index t (1 : Fin 2) * 1024 + 1 * d.val = ((((cfg0.win 8).blk t).view.emb (ix3 (0 : Fin 1) r d)) 2).val; rw [hE2]; omega
  simp only [hX, hW]

theorem k_mem_blk (t : Fin cfg0.N) (i : S4x1024x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v26_1).slice (win0_8.rect t)).set ↔ _
  rw [View.set_slice_whole, Rect.mem_set_unit]
  exact Iff.rfl
theorem k_cover (i : S4x1024x1024.Idx) : ∃ t : Fin cfg0.N, (cfg0.win 8).flush t = true ∧ i ∈ ((cfg0.win 8).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  obtain ⟨f0, f1, f2, e0, e3, e8, e9, a1, b1, c1, a2, b2, c2, w4, w5, w6⟩ := idx_facts t
  have q0 : win0_7.index t (0 : Fin 3) = (i 0).val := congrFun ht 0
  have q1 : win0_7.index t (1 : Fin 3) = (i 1).val / 512 := congrFun ht 1
  have q2 : win0_7.index t (2 : Fin 3) = 0 := congrFun ht 2
  have k0 : win0_8.index t (0 : Fin 3) = win0_7.index t (0 : Fin 3) := congrFun e8 0
  have k1 : win0_8.index t (1 : Fin 3) = win0_7.index t (1 : Fin 3) := congrFun e8 1
  have k2 : win0_8.index t (2 : Fin 3) = win0_7.index t (2 : Fin 3) := congrFun e8 2
  refine ⟨t, flush0_8 t, ?_⟩
  rw [k_mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

theorem k_final (c : Dev nD) : (Projections.dat V c).arrAt 8 cfg0.N = Gkv (V c main_arg1) (V c main_v17) :=
  (Projections.dat V c).arrAt_eq_of_cover 8 _ (fun t _ => k_flushed V c t) k_cover

theorem v_flushed (c : Dev nD) (t : Fin cfg0.N) :
    (Projections.dat V c).flushed 9 t
      = ((cfg0.win 9).blk t).view.read (Elt Ideal) (Gkv (V c main_arg1) (V c main_v19)) := by
  show (cfg0.win 9).cut (grid0.coords t) ((Projections.dat V c).after 9 t) = _
  rw [Projections.after_9]
  funext j
  obtain ⟨u, r, d, rfl⟩ : ∃ (u : Fin 1) (r : Fin 512) (d : Fin 1024), j = ix3 u r d := ⟨j 0, j 1, j 2, eq_ix3 j⟩
  obtain rfl : u = 0 := Subsingleton.elim _ _
  show Projections.vBlock (Projections.blk V c 3 t) (Projections.blk V c 6 t) (ix3 0 r d)
    = Gkv (V c main_arg1) (V c main_v19) (((cfg0.win 9).blk t).view.emb (ix3 (0 : Fin 1) r d))
  rw [vBlock_entry]
  unfold Gkv Gkv'
  obtain ⟨f0, f1, f2, e0, e3, e8, e9, a1, b1, c1, a2, b2, c2, w4, w5, w6⟩ := idx_facts t
  have k0 : win0_9.index t (0 : Fin 3) = win0_7.index t (0 : Fin 3) := congrFun e9 0
  have k1 : win0_9.index t (1 : Fin 3) = win0_7.index t (1 : Fin 3) := congrFun e9 1
  have k2 : win0_9.index t (2 : Fin 3) = win0_7.index t (2 : Fin 3) := congrFun e9 2
  have hE0 : ((((cfg0.win 9).blk t).view.emb (ix3 (0 : Fin 1) r d)) 0).val = win0_7.index t (0 : Fin 3) := by
    show win0_9.index t (0 : Fin 3) * 1 + 1 * 0 = _; omega
  have hE1 : ((((cfg0.win 9).blk t).view.emb (ix3 (0 : Fin 1) r d)) 1).val = win0_7.index t (1 : Fin 3) * 512 + r.val := by
    show win0_9.index t (1 : Fin 3) * 512 + 1 * r.val = _; omega
  have hE2 : ((((cfg0.win 9).blk t).view.emb (ix3 (0 : Fin 1) r d)) 2).val = d.val := by
    show win0_9.index t (2 : Fin 3) * 1024 + 1 * d.val = _; omega
  have hX : ∀ j : Fin 1024, Projections.blk V c 3 t (ix3 (0 : Fin 1) r j)
      = V c main_arg1 (ix3 ((((cfg0.win 9).blk t).view.emb (ix3 (0 : Fin 1) r d)) 0) ((((cfg0.win 9).blk t).view.emb (ix3 (0 : Fin 1) r d)) 1) j) := fun j => by
    unfold Projections.blk
    show V c main_arg1 (((cfg0.win 3).blk t).view.emb (ix3 (0 : Fin 1) r j)) = _
    refine congrArg _ (funext fun a => Fin.ext ?_)
    have g0 : win0_3.index t (0 : Fin 3) = win0_7.index t (0 : Fin 3) := congrFun e3 0
    have g1 : win0_3.index t (1 : Fin 3) = win0_7.index t (1 : Fin 3) := congrFun e3 1
    have g2 : win0_3.index t (2 : Fin 3) = win0_7.index t (2 : Fin 3) := congrFun e3 2
    match a with
    | ⟨0, _⟩ => show win0_3.index t (0 : Fin 3) * 1 + 1 * 0 = ((((cfg0.win 9).blk t).view.emb (ix3 (0 : Fin 1) r d)) 0).val; rw [hE0]; omega
    | ⟨1, _⟩ => show win0_3.index t (1 : Fin 3) * 512 + 1 * r.val = ((((cfg0.win 9).blk t).view.emb (ix3 (0 : Fin 1) r d)) 1).val; rw [hE1]; omega
    | ⟨2, _⟩ => show win0_3.index t (2 : Fin 3) * 1024 + 1 * j.val = j.val; omega
  have hW : ∀ k : Fin 1024, Projections.blk V c 6 t (ix2 k d)
      = V c main_v19 (ix2 k ((((cfg0.win 9).blk t).view.emb (ix3 (0 : Fin 1) r d)) 2)) := fun k => by
    unfold Projections.blk
    show V c main_v19 (((cfg0.win 6).blk t).view.emb (ix2 k d)) = _
    refine congrArg _ (funext fun a => Fin.ext ?_)
    have g0 : win0_6.index t (0 : Fin 2) = 0 := congrFun w6 0
    have g1 : win0_6.index t (1 : Fin 2) = 0 := congrFun w6 1
    match a with
    | ⟨0, _⟩ => show win0_6.index t (0 : Fin 2) * 1024 + 1 * k.val = k.val; omega
    | ⟨1, _⟩ => show win0_6.index t (1 : Fin 2) * 1024 + 1 * d.val = ((((cfg0.win 9).blk t).view.emb (ix3 (0 : Fin 1) r d)) 2).val; rw [hE2]; omega
  simp only [hX, hW]

theorem v_mem_blk (t : Fin cfg0.N) (i : S4x1024x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v26_2).slice (win0_9.rect t)).set ↔ _
  rw [View.set_slice_whole, Rect.mem_set_unit]
  exact Iff.rfl
theorem v_cover (i : S4x1024x1024.Idx) : ∃ t : Fin cfg0.N, (cfg0.win 9).flush t = true ∧ i ∈ ((cfg0.win 9).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  obtain ⟨f0, f1, f2, e0, e3, e8, e9, a1, b1, c1, a2, b2, c2, w4, w5, w6⟩ := idx_facts t
  have q0 : win0_7.index t (0 : Fin 3) = (i 0).val := congrFun ht 0
  have q1 : win0_7.index t (1 : Fin 3) = (i 1).val / 512 := congrFun ht 1
  have q2 : win0_7.index t (2 : Fin 3) = 0 := congrFun ht 2
  have k0 : win0_9.index t (0 : Fin 3) = win0_7.index t (0 : Fin 3) := congrFun e9 0
  have k1 : win0_9.index t (1 : Fin 3) = win0_7.index t (1 : Fin 3) := congrFun e9 1
  have k2 : win0_9.index t (2 : Fin 3) = win0_7.index t (2 : Fin 3) := congrFun e9 2
  refine ⟨t, flush0_9 t, ?_⟩
  rw [v_mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

theorem v_final (c : Dev nD) : (Projections.dat V c).arrAt 9 cfg0.N = Gkv (V c main_arg1) (V c main_v19) :=
  (Projections.dat V c).arrAt_eq_of_cover 9 _ (fun t _ => v_flushed V c t) v_cover

end Arrays

end Cert.KernelIdeal.ProjectionsValue

end
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«126116_j51702816309661_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.AttentionValue.lean ====
/-
  One head's contribution to the output projection, entry by entry: softmax over the 1024 keys of the scaled scores plus
  bias, times the values, times the head's 64 rows of the output weight.
-/
import proofs.«126116_j51702816309661_2_alg».proof.Proof.AttentionBody
import proofs.«126116_j51702816309661_2_alg».proof.Proof.Spec
import proofs.«126116_j51702816309661_2_alg».proof.Proof.LibRowOps
import proofs.«126116_j51702816309661_2_alg».proof.Proof.LibPlainDot
import proofs.«126116_j51702816309661_2_alg».proof.Proof.LibTransposedDot
import proofs.«126116_j51702816309661_2_alg».proof.Proof.LibTileOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.AttentionValue

open Cert.KernelIdeal Cert.KernelIdeal.Gen Idealize.ShloMosaic Idealize.ShloMosaic.ValueIdx

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a, b]` array loaded through its whole block reads, at `(0, 0, i, j)`, the array there. -/
theorem ld_whole4 {Val : EltTy → Type} {e : EltTy} {a b : ℕ} (x : (⟨4, ![1, 1, a, b]⟩ : Shape).Idx → Val e)
    (inb : ∀ ax, (![0, 0, 0, 0] : Fin 4 → ℕ) ax + (⟨4, ![1, 1, a, b]⟩ : Shape).size ax ≤ (⟨4, ![1, 1, a, b]⟩ : Shape).size ax)
    (i : Fin a) (j : Fin b) :
    View.ld (Val := Val) x (Rect.unit (s := ⟨4, ![1, 1, a, b]⟩) ![0, 0, 0, 0] (⟨4, ![1, 1, a, b]⟩ : Shape).size inb)
        (ix4 (0 : Fin 1) (0 : Fin 1) i j)
      = x (ix4 (0 : Fin 1) (0 : Fin 1) i j) := by
  show x ((Rect.unit (s := ⟨4, ![1, 1, a, b]⟩) ![0, 0, 0, 0] (⟨4, ![1, 1, a, b]⟩ : Shape).size inb).idx
    (ix4 (0 : Fin 1) (0 : Fin 1) i j)) = _
  refine congrArg x (funext fun ax => Fin.ext ?_)
  match ax with
  | ⟨0, _⟩ => show 0 + 1 * 0 = 0; omega
  | ⟨1, _⟩ => show 0 + 1 * 0 = 0; omega
  | ⟨2, _⟩ => show 0 + 1 * i.val = i.val; omega
  | ⟨3, _⟩ => show 0 + 1 * j.val = j.val; omega

/-- An `[a, b]` array loaded through its whole block reads, at `(i, j)`, the array there. -/
theorem ld_whole2 {Val : EltTy → Type} {e : EltTy} {a b : ℕ} (x : (⟨2, ![a, b]⟩ : Shape).Idx → Val e)
    (inb : ∀ ax, (![0, 0] : Fin 2 → ℕ) ax + (⟨2, ![a, b]⟩ : Shape).size ax ≤ (⟨2, ![a, b]⟩ : Shape).size ax)
    (i : Fin a) (j : Fin b) :
    View.ld (Val := Val) x (Rect.unit (s := ⟨2, ![a, b]⟩) ![0, 0] (⟨2, ![a, b]⟩ : Shape).size inb) (ix2 i j) = x (ix2 i j) := by
  show x ((Rect.unit (s := ⟨2, ![a, b]⟩) ![0, 0] (⟨2, ![a, b]⟩ : Shape).size inb).idx (ix2 i j)) = _
  refine congrArg x (funext fun ax => Fin.ext ?_)
  match ax with
  | ⟨0, _⟩ => show 0 + 1 * i.val = i.val; omega
  | ⟨1, _⟩ => show 0 + 1 * j.val = j.val; omega

/-- The row-wise softmax of a 512×1024 tile as the body computes it — the row maximum from `-∞` as a column broadcast
    back over the tile, the exponentials of the differences, their row sum as a column broadcast back, the quotient — read
    at `(r, m)`: the softmax of row `r` at `m`. -/
theorem softmax_tile_apply (X : FVec Ideal S512x1024 .f32) (hr : Shape.Reduces S512x1024 [1] S512) (hφ : FKind.Formats .f32)
    (hmax : (0xFF800000#32 : BitVec 32) = FKind.maximumf.neutral .f32 hφ)
    (hadd : (0x00000000#32 : BitVec 32) = FKind.add.neutral .f32 hφ)
    (h1 : S512.ShapeCasts S512x1) (h2 : S512x1.Broadcasts S512x1024) (r : Fin 512) (m : Fin 1024) :
    divf (exp (subf X (broadcastTo S512x1024 (shapeCast S512x1 (multiReduction .maximumf [1] S512 X 0xFF800000#32 hr hφ hmax) h1) h2)))
      (broadcastTo S512x1024 (shapeCast S512x1 (multiReduction .add [1] S512
        (exp (subf X (broadcastTo S512x1024 (shapeCast S512x1 (multiReduction .maximumf [1] S512 X 0xFF800000#32 hr hφ hmax) h1) h2)))
        0x00000000#32 hr hφ hadd) h1) h2) (ix2 r m)
      = Cert.Spec.softmax (fun m' => X (ix2 r m')) m := by
  have hmx : ∀ k : Fin 1024,
      broadcastTo S512x1024 (shapeCast S512x1 (multiReduction .maximumf [1] S512 X 0xFF800000#32 hr hφ hmax) h1) h2 (ix2 r k)
        = (Finset.univ : Finset (Fin 1024)).fold max ⊥ (fun m' => X (ix2 r m')) := fun k =>
    (Gcn.Lib.broadcastTo_a1_ab_apply _ h2 r k).trans
      ((Gcn.Lib.shapeCast_a_a1_apply _ h1 r 0).trans (Gcn.Lib.rowMax_apply X hr hφ hmax r))
  have hex : ∀ k : Fin 1024,
      exp (subf X (broadcastTo S512x1024 (shapeCast S512x1 (multiReduction .maximumf [1] S512 X 0xFF800000#32 hr hφ hmax) h1) h2)) (ix2 r k)
        = Ideal.exp (X (ix2 r k) - (Finset.univ : Finset (Fin 1024)).fold max ⊥ (fun m' => X (ix2 r m'))) := fun k =>
    congrArg (fun z => Ideal.exp (X (ix2 r k) - z)) (hmx k)
  unfold Cert.Spec.softmax
  show Ideal.div (_ : EReal) (_ : EReal) = _
  refine congrArg₂ Ideal.div (hex m) ?_
  refine (Hmu.Lib.rowSumCol_apply _ hr hφ hadd h1 h2 r m).trans ?_
  exact Finset.sum_congr rfl fun k _ => hex k

/-- The contribution at entry `(r, c)`. -/
theorem contrib_entry (q : Vec Ideal S1x1x512x64 .bf16) (k v : Vec Ideal S1x1x1024x64 .bf16) (bias : Vec Ideal S1x1x512x1024 .f32)
    (wo : Vec Ideal S64x1024 .bf16) (r : Fin 512) (c : Fin 1024) :
    Attention.contrib (F := Ideal) q k v bias wo (ix2 r c)
      = ∑ e : Fin 64, (∑ m : Fin 1024,
          Cert.Spec.softmax (fun m' => (∑ e' : Fin 64, q (ix4 (0 : Fin 1) (0 : Fin 1) r e') * k (ix4 (0 : Fin 1) (0 : Fin 1) m' e')) * Cert.Spec.cScale
              + bias (ix4 (0 : Fin 1) (0 : Fin 1) r m')) m * v (ix4 (0 : Fin 1) (0 : Fin 1) m e)) * wo (ix2 e c) := by
  unfold Attention.contrib k1_pay4
  refine (Gcn.Lib.plain_matmul_zero_apply _ _ none r c).trans ?_
  refine Finset.sum_congr rfl fun e _ => ?_
  refine congrArg₂ (· * ·) ?_ ((congrFun (shapeCast_self _ _) _).trans (ld_whole2 wo _ e c))
  refine (Gcn.Lib.plain_matmul_zero_apply _ _ none r e).trans ?_
  refine Finset.sum_congr rfl fun m _ => ?_
  refine congrArg₂ (· * ·) ?_ ((shapeCast_11ab_ab_apply _ _ m e).trans (ld_whole4 v _ m e))
  refine (softmax_tile_apply _ reduces_S512x1024_S512 (.inl rfl) rfl rfl shapeCasts_S512_S512x1 broadcasts_S512x1_S512x1024 r m).trans ?_
  refine congrArg (fun s => Cert.Spec.softmax s m) (funext fun m' => ?_)
  show (_ : EReal) * (_ : EReal) + (_ : EReal) = _
  refine congrArg₂ (· + ·) (congrArg₂ (· * ·) ?_ rfl) ((shapeCast_11ab_ab_apply _ _ r m').trans (ld_whole4 bias _ r m'))
  refine (LinkLoss.transposed_matmul_zero_apply _ _ none r m').trans ?_
  exact Finset.sum_congr rfl fun e' _ => congrArg₂ (· * ·)
    ((shapeCast_11ab_ab_apply _ _ r e').trans (ld_whole4 q _ r e')) ((shapeCast_11ab_ab_apply _ _ m' e').trans (ld_whole4 k _ m' e'))

end Cert.KernelIdeal.AttentionValue

end
-- ==== Proof.AttentionArrays.lean ====
/-
  The attention grid's output array as a function of the arrays the grid is entered with, entry by entry. After the first
  head of a (batch, row block) the accumulator holds that head's contribution, after every other head what it held plus
  that head's, so after the last head the sum of the sixteen contributions; the last head stores `x` plus the gated sum of
  that and the output bias. Block (batch, row block) of the output array is what the last head of that (batch, row block)
  wrote, and the eight blocks fill the array.
-/
import proofs.«126116_j51702816309661_2_alg».proof.Proof.AttentionBody
import proofs.«126116_j51702816309661_2_alg».proof.Proof.AttentionValue
import proofs.«126116_j51702816309661_2_alg».proof.Proof.Spec
import proofs.«126116_j51702816309661_2_alg».proof.Proof.LibRowOps
import proofs.«126116_j51702816309661_2_alg».proof.Proof.LibTileOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.AttentionArrays

open Cert.KernelIdeal Cert.KernelIdeal.Gen Idealize.ShloMosaic Idealize.ShloMosaic.TcCoe Idealize.ShloMosaic.ValueIdx
open Idealize.ShloMosaic.Pipeline (Dat)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- After a first head the accumulator holds the head's contribution (zero plus it). -/
theorem accFirst_entry (q : Vec Ideal S1x1x512x64 .bf16) (k v : Vec Ideal S1x1x1024x64 .bf16) (bias : Vec Ideal S1x1x512x1024 .f32)
    (wo : Vec Ideal S64x1024 .bf16) (r : Fin 512) (c : Fin 1024) :
    Attention.accFirst (F := Ideal) q k v bias wo (ix2 r c) = Attention.contrib q k v bias wo (ix2 r c) := by
  unfold Attention.accFirst
  rw [View.canon_unit_zero hz2]
  unfold k1_pay1 k1_pay3
  refine (congrFun (shapeCast_self _ _) _).trans ?_
  show (shapeCast S512x1024 (broadcast S512x1024 (Scalar.ofBits .f32 0x00000000#32 : Ideal .f32)) shapeCasts_S512x1024_S512x1024 (ix2 r c) : EReal)
      + Attention.contrib q k v bias wo (ix2 r c) = _
  rw [shapeCast_self]
  show (Ideal.ofBits .f32 0x00000000#32 : EReal) + _ = _
  rw [Ideal.ofBits_zero_f32, zero_add]

/-- After any other head it holds what it held plus the head's contribution. -/
theorem accStep_entry (prev : Vec Ideal S512x1024 .f32) (q : Vec Ideal S1x1x512x64 .bf16) (k v : Vec Ideal S1x1x1024x64 .bf16)
    (bias : Vec Ideal S1x1x512x1024 .f32) (wo : Vec Ideal S64x1024 .bf16) (r : Fin 512) (c : Fin 1024) :
    Attention.accStep (F := Ideal) prev q k v bias wo (ix2 r c) = prev (ix2 r c) + Attention.contrib q k v bias wo (ix2 r c) := by
  unfold Attention.accStep
  rw [View.canon_unit_zero hz2]
  simp only [View.ld_unit_zero (S := S512x1024) hz2]
  unfold k1_pay1
  exact congrFun (shapeCast_self _ _) _

/-- The output block at entry `(0, r, c)`: `x` plus the gated sum of the accumulator and the output bias. -/
theorem outBlock_entry (x : Vec Ideal S1x512x1024 .f32) (acc : Vec Ideal S512x1024 .f32) (bo : Vec Ideal S1024 .f32)
    (gm : Vec Ideal S1x1x1024 .f32) (r : Fin 512) (c : Fin 1024) :
    Attention.outBlock (F := Ideal) x acc bo gm (ix3 (0 : Fin 1) r c)
      = x (ix3 (0 : Fin 1) r c) + (acc (ix2 r c) + bo (ix1 c)) * gm (ix3 (0 : Fin 1) (0 : Fin 1) c) := by
  unfold Attention.outBlock
  rw [View.canon_unit_zero hz3]
  simp only [View.ld_unit_zero (S := S1x512x1024) hz3, View.ld_unit_zero (S := S512x1024) hz2, View.ld_unit_zero (S := S1024) hz1,
    View.ld_unit_zero (S := S1x1x1024) hz3]
  unfold k1_pay2
  refine (shapeCast_ab_1ab_apply _ _ 0 r c).trans ?_
  show (_ : EReal) + ((_ : EReal) + (_ : EReal)) * (_ : EReal) = _
  exact congrArg₂ (· + ·) (shapeCast_1ab_ab_apply x _ r c)
    (congrArg₂ (· * ·) (congrArg₂ (· + ·) rfl (Hmu.Lib.rowVec_apply bo _ _ r c))
      ((broadcastTo_1b_ab_apply _ _ r c).trans (shapeCast_1ab_ab_apply gm _ 0 c)))

section Unrolled

variable (V : (c : Dev nD) → (b : Ref sig .tc) → Buf (Elt Ideal) ((c : Thread nD τ).loc b))

/-- The contribution of the head at point `t`. -/
def contribAt (c : Dev nD) (t : Fin cfg1.N) : Vec Ideal S512x1024 .f32 :=
  Attention.contrib (Attention.blk V c 0 t) (Attention.blk V c 1 t) (Attention.blk V c 2 t) (Attention.blk V c 3 t) (Attention.blk V c 6 t)

/-- The accumulator after head `h` of the group that starts at point `16·g`: the sum of the contributions so far. -/
theorem accAfter_group (c : Dev nD) (g : ℕ) (r : Fin 512) (cc : Fin 1024) :
    ∀ h : ℕ, h < 16 → Attention.accAfter V c (16 * g + h) (ix2 r cc)
      = ∑ h' ∈ Finset.range (h + 1), contribAt V c (Attention.pt (16 * g + h')) (ix2 r cc) := by
  intro h
  induction h with
  | zero =>
    intro _
    rw [Nat.add_zero, Attention.accAfter_first V c (16 * g) (by omega), Finset.sum_range_one, Nat.add_zero]
    exact accFirst_entry _ _ _ _ _ r cc
  | succ h ih =>
    intro hh
    have e : 16 * g + (h + 1) = (16 * g + h) + 1 := by omega
    rw [e, Attention.accAfter_step V c (16 * g + h) (by omega), Finset.sum_range_succ, ← ih (by omega), ← e]
    exact accStep_entry _ _ _ _ _ _ r cc

end Unrolled

section Final

variable (V : (c : Dev nD) → (b : Ref sig .tc) → Buf (Elt Ideal) ((c : Thread nD τ).loc b))

/-- The point of batch `b`, of the row block that holds row `l`, and of head `h`; and row `l`'s place in its block. -/
def ptOf (b : Fin 4) (l : Fin 1024) (h : Fin 16) : Fin cfg1.N := Attention.pt (32 * b.val + 16 * (l.val / 512) + h.val)
def rowIn (l : Fin 1024) : Fin 512 := ⟨l.val % 512, Nat.mod_lt _ (by decide)⟩

/-- The printed index maps of the output, of `x`, of the gate row and of the output bias over the 128 points. -/
theorem idx_facts : ∀ t : Fin cfg1.N,
    win1_8.index t = ![t.val / 32, t.val / 16 % 2, 0] ∧ win1_4.index t = ![t.val / 32, t.val / 16 % 2, 0]
    ∧ win1_5.index t = ![t.val / 32, 0, 0] ∧ win1_7.index t = ![0] :=
  (by decide +kernel : ∀ t : Fin grid1.N, _)

/-- The attention branch's result as one array of the arrays the grid is entered with: `x` plus the gated sum of the
    sixteen heads' contributions and the output bias. -/
def Gx1' (Xa : S4x1024x1024.Idx → EReal) (Bo : S1024.Idx → EReal) (Gm : S4x1x1024.Idx → EReal)
    (contribs : Fin 4 → Fin 1024 → Fin 16 → Fin 1024 → EReal) (b : Fin 4) (l cc : Fin 1024) : EReal :=
  Xa (ix3 b l cc) + ((∑ h : Fin 16, contribs b l h cc) + Bo (ix1 cc)) * Gm (ix3 b (0 : Fin 1) cc)
def Gx1 (c : Dev nD) (i : S4x1024x1024.Idx) : EReal :=
  Gx1' (V c main_arg0) (V c main_arg9) (V c main_v3) (fun b l h cc => contribAt V c (ptOf b l h) (ix2 (rowIn l) cc)) (i 0) (i 1) (i 2)

theorem x1_flushed (c : Dev nD) (t : Fin cfg1.N) (hf : (cfg1.win 8).flush t = true) :
    (Attention.dat V c).flushed 8 t = ((cfg1.win 8).blk t).view.read (Elt Ideal) (Gx1 V c) := by
  have h15 : t.val % 16 = 15 := (flush1_8 t).mp hf
  have hN : t.val < 128 := lt_of_lt_of_eq t.isLt (show cfg1.N = 128 from N_1)
  show (cfg1.win 8).cut (grid1.coords t) ((Attention.dat V c).after 8 t) = _
  rw [Attention.after_8]
  funext j
  obtain ⟨u, r, d, rfl⟩ : ∃ (u : Fin 1) (r : Fin 512) (d : Fin 1024), j = ix3 u r d := ⟨j 0, j 1, j 2, eq_ix3 j⟩
  obtain rfl : u = 0 := Subsingleton.elim _ _
  show Attention.outBlock (Attention.blk V c 4 t) (Attention.accAfter V c t.val) (Attention.blk V c 7 t) (Attention.blk V c 5 t) (ix3 0 r d)
    = Gx1 V c (((cfg1.win 8).blk t).view.emb (ix3 0 r d))
  rw [outBlock_entry]
  obtain ⟨e8, e4, e5, e7⟩ := idx_facts t
  have hE0 : ((((cfg1.win 8).blk t).view.emb (ix3 (0 : Fin 1) r d)) 0).val = t.val / 32 := by
    show win1_8.index t (0 : Fin 3) * 1 + 1 * 0 = _; rw [show win1_8.index t (0 : Fin 3) = t.val / 32 from congrFun e8 0]; omega
  have hE1 : ((((cfg1.win 8).blk t).view.emb (ix3 (0 : Fin 1) r d)) 1).val = t.val / 16 % 2 * 512 + r.val := by
    show win1_8.index t (1 : Fin 3) * 512 + 1 * r.val = _; rw [show win1_8.index t (1 : Fin 3) = t.val / 16 % 2 from congrFun e8 1]; omega
  have hE2 : ((((cfg1.win 8).blk t).view.emb (ix3 (0 : Fin 1) r d)) 2).val = d.val := by
    show win1_8.index t (2 : Fin 3) * 1024 + 1 * d.val = _; rw [show win1_8.index t (2 : Fin 3) = 0 from congrFun e8 2]; omega
  unfold Gx1 Gx1'
  have hX : Attention.blk V c 4 t (ix3 (0 : Fin 1) r d) = V c main_arg0 (ix3 ((((cfg1.win 8).blk t).view.emb (ix3 (0 : Fin 1) r d)) 0) ((((cfg1.win 8).blk t).view.emb (ix3 (0 : Fin 1) r d)) 1) ((((cfg1.win 8).blk t).view.emb (ix3 (0 : Fin 1) r d)) 2)) := by
    unfold Attention.blk
    show V c main_arg0 (((cfg1.win 4).blk t).view.emb (ix3 (0 : Fin 1) r d)) = _
    refine congrArg _ (funext fun a => Fin.ext ?_)
    have g0 : win1_4.index t (0 : Fin 3) = t.val / 32 := congrFun e4 0
    have g1 : win1_4.index t (1 : Fin 3) = t.val / 16 % 2 := congrFun e4 1
    have g2 : win1_4.index t (2 : Fin 3) = 0 := congrFun e4 2
    match a with
    | ⟨0, _⟩ => show win1_4.index t (0 : Fin 3) * 1 + 1 * 0 = ((((cfg1.win 8).blk t).view.emb (ix3 (0 : Fin 1) r d)) 0).val; rw [hE0]; omega
    | ⟨1, _⟩ => show win1_4.index t (1 : Fin 3) * 512 + 1 * r.val = ((((cfg1.win 8).blk t).view.emb (ix3 (0 : Fin 1) r d)) 1).val; rw [hE1]; omega
    | ⟨2, _⟩ => show win1_4.index t (2 : Fin 3) * 1024 + 1 * d.val = ((((cfg1.win 8).blk t).view.emb (ix3 (0 : Fin 1) r d)) 2).val; rw [hE2]; omega
  have hBo : Attention.blk V c 7 t (ix1 d) = V c main_arg9 (ix1 ((((cfg1.win 8).blk t).view.emb (ix3 (0 : Fin 1) r d)) 2)) := by
    unfold Attention.blk
    show V c main_arg9 (((cfg1.win 7).blk t).view.emb (ix1 d)) = _
    refine congrArg _ (funext fun a => Fin.ext ?_)
    have g0 : win1_7.index t (0 : Fin 1) = 0 := congrFun e7 0
    match a with
    | ⟨0, _⟩ => show win1_7.index t (0 : Fin 1) * 1024 + 1 * d.val = ((((cfg1.win 8).blk t).view.emb (ix3 (0 : Fin 1) r d)) 2).val; rw [hE2]; omega
  have hGm : Attention.blk V c 5 t (ix3 (0 : Fin 1) (0 : Fin 1) d) = V c main_v3 (ix3 ((((cfg1.win 8).blk t).view.emb (ix3 (0 : Fin 1) r d)) 0) (0 : Fin 1) ((((cfg1.win 8).blk t).view.emb (ix3 (0 : Fin 1) r d)) 2)) := by
    unfold Attention.blk
    show V c main_v3 (((cfg1.win 5).blk t).view.emb (ix3 (0 : Fin 1) (0 : Fin 1) d)) = _
    refine congrArg _ (funext fun a => Fin.ext ?_)
    have g0 : win1_5.index t (0 : Fin 3) = t.val / 32 := congrFun e5 0
    have g1 : win1_5.index t (1 : Fin 3) = 0 := congrFun e5 1
    have g2 : win1_5.index t (2 : Fin 3) = 0 := congrFun e5 2
    match a with
    | ⟨0, _⟩ => show win1_5.index t (0 : Fin 3) * 1 + 1 * 0 = ((((cfg1.win 8).blk t).view.emb (ix3 (0 : Fin 1) r d)) 0).val; rw [hE0]; omega
    | ⟨1, _⟩ => show win1_5.index t (1 : Fin 3) * 1 + 1 * 0 = 0; omega
    | ⟨2, _⟩ => show win1_5.index t (2 : Fin 3) * 1024 + 1 * d.val = ((((cfg1.win 8).blk t).view.emb (ix3 (0 : Fin 1) r d)) 2).val; rw [hE2]; omega
  have hAcc : Attention.accAfter V c t.val (ix2 r d)
      = ∑ h : Fin 16, contribAt V c (ptOf ((((cfg1.win 8).blk t).view.emb (ix3 (0 : Fin 1) r d)) 0) ((((cfg1.win 8).blk t).view.emb (ix3 (0 : Fin 1) r d)) 1) h) (ix2 (rowIn ((((cfg1.win 8).blk t).view.emb (ix3 (0 : Fin 1) r d)) 1)) ((((cfg1.win 8).blk t).view.emb (ix3 (0 : Fin 1) r d)) 2)) := by
    have ht : 16 * (t.val / 16) + 15 = t.val := by omega
    have hg := accAfter_group V c (t.val / 16) r d 15 (by omega)
    rw [ht] at hg
    rw [hg, Finset.sum_range]
    refine Finset.sum_congr rfl fun h _ => ?_
    have hp : Attention.pt (16 * (t.val / 16) + h.val) = ptOf ((((cfg1.win 8).blk t).view.emb (ix3 (0 : Fin 1) r d)) 0) ((((cfg1.win 8).blk t).view.emb (ix3 (0 : Fin 1) r d)) 1) h := by
      unfold ptOf Attention.pt
      apply Fin.ext
      show (16 * (t.val / 16) + h.val) % 128 = (32 * ((((cfg1.win 8).blk t).view.emb (ix3 (0 : Fin 1) r d)) 0).val + 16 * (((((cfg1.win 8).blk t).view.emb (ix3 (0 : Fin 1) r d)) 1).val / 512) + h.val) % 128
      rw [hE0, hE1]; have := h.isLt; have := r.isLt; omega
    have hr : r = rowIn ((((cfg1.win 8).blk t).view.emb (ix3 (0 : Fin 1) r d)) 1) := by
      apply Fin.ext
      show r.val = ((((cfg1.win 8).blk t).view.emb (ix3 (0 : Fin 1) r d)) 1).val % 512
      rw [hE1]; have := r.isLt; omega
    have hd : d = ((((cfg1.win 8).blk t).view.emb (ix3 (0 : Fin 1) r d)) 2) := Fin.ext hE2.symm
    exact congrArg₂ (fun p i => contribAt V c p i) hp (congrArg₂ ix2 hr hd)
  rw [hX, hAcc, hBo, hGm]

theorem x1_mem_blk (t : Fin cfg1.N) (i : S4x1024x1024.Idx) :
    i ∈ ((cfg1.win 8).blk t).view.set ↔ ∀ a : Fin 3, win1_8.index t a * S1x512x1024.size a ≤ (i a).val
      ∧ (i a).val < win1_8.index t a * S1x512x1024.size a + S1x512x1024.size a := by
  show i ∈ ((View.whole main_v33).slice (win1_8.rect t)).set ↔ _
  rw [View.set_slice_whole, Rect.mem_set_unit]
  exact Iff.rfl
/-- Every (batch, row block) has a last head. -/
theorem idx_onto : ∀ (q0 : Fin 4) (q1 : Fin 2), ∃ t : Fin cfg1.N, t.val % 16 = 15 ∧ win1_8.index t = ![q0.val, q1.val, 0] :=
  (by decide +kernel : ∀ (q0 : Fin 4) (q1 : Fin 2), ∃ t : Fin grid1.N, t.val % 16 = 15 ∧ win1_8.index t = ![q0.val, q1.val, 0])
theorem x1_cover (i : S4x1024x1024.Idx) : ∃ t : Fin cfg1.N, (cfg1.win 8).flush t = true ∧ i ∈ ((cfg1.win 8).blk t).view.set := by
  have hi0 : (i 0).val < 4 := (i 0).isLt
  have hi1 : (i 1).val < 1024 := (i 1).isLt
  have hi2 : (i 2).val < 1024 := (i 2).isLt
  obtain ⟨t, h15, ht⟩ := idx_onto ⟨(i 0).val, hi0⟩ ⟨(i 1).val / 512, by omega⟩
  have q0 : win1_8.index t (0 : Fin 3) = (i 0).val := congrFun ht 0
  have q1 : win1_8.index t (1 : Fin 3) = (i 1).val / 512 := congrFun ht 1
  have q2 : win1_8.index t (2 : Fin 3) = 0 := congrFun ht 2
  refine ⟨t, (flush1_8 t).mpr h15, ?_⟩
  rw [x1_mem_blk]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 512 ≤ (i 1).val ∧ (i 1).val < win1_8.index t (1 : Fin 3) * 512 + 512; omega
  | ⟨2, _⟩ => show win1_8.index t (2 : Fin 3) * 1024 ≤ (i 2).val ∧ (i 2).val < win1_8.index t (2 : Fin 3) * 1024 + 1024; omega

/-- The attention branch's array after the grid. -/
theorem x1_final (c : Dev nD) : (Attention.dat V c).arrAt 8 cfg1.N = Gx1 V c :=
  (Attention.dat V c).arrAt_eq_of_cover 8 _ (fun t hf => x1_flushed V c t hf) x1_cover

end Final

end Cert.KernelIdeal.AttentionArrays

end
-- ==== Proof.Glue.lean ====
/-
  What the host operations between the grids leave, entry by entry, in terms of the launch memory: the six modulation rows
  (row `s` of ada_gss + cond_BD), the six weights transposed, the arguments themselves; that none of these is touched by a
  later grid or stretch before it is read; and the projections split into heads.
-/
import proofs.«126116_j51702816309661_2_alg».proof.Proof.Whole
import proofs.«126116_j51702816309661_2_alg».proof.Proof.GlueOps
import proofs.«126116_j51702816309661_2_alg».proof.Proof.ProjectionsValue
import proofs.«126116_j51702816309661_2_alg».proof.Proof.AttentionArrays
import proofs.«126116_j51702816309661_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Glue

open Cert.KernelIdeal Cert.KernelIdeal.Gen Cert.KernelIdeal.Whole Idealize.ShloMosaic Idealize.ShloMosaic.TcCoe Idealize.ShloMosaic.ValueIdx
  Idealize.ShloMosaic.StableHlo

variable (m : (ℓ : Loc nD τ sig) → Buf (Elt Ideal) ℓ) (c : Dev nD)

/-! ## As the projection grid is entered -/

theorem gate1_entry (b : Fin 4) (k : Fin 1024) :
    (E1 m c main_v3 : S4x1x1024.Idx → EReal) (ix3 b (0 : Fin 1) k) = Cert.Spec.g (m ((c : Thread nD τ).loc main_arg2)) (m ((c : Thread nD τ).loc main_arg4)) b 0 k := by
  have e : @Eq (S4x1x1024.Idx → EReal) (E1 m c main_v3)
      (shapeCast S4x1x1024 (extractStridedSlice S4x1x1x1024 ![0, 0, 0, 0]
          (addf (F := Ideal) (φ := .f32) (broadcastInDim S4x1x6x1024 ![0, 1, 2, 3] bcast_S1x1x6x1024_S4x1x6x1024_0_1_2_3
              ((m ((c : Thread nD τ).loc main_arg4)) : S1x1x6x1024.Idx → EReal))
            ((m ((c : Thread nD τ).loc main_arg2)) : S4x1x6x1024.Idx → EReal)) slices_S4x1x6x1024_S4x1x1x1024_0_0_0_0) shapeCasts_S4x1x1x1024_S4x1x1024) := by
    show StableHlo.after hostOps0 (fun b => m (c, b)) (Proc.devRef .tc main_v3) = _
    after_results <;> rfl
  rw [e]
  exact (GlueOps.slice_row _ 0 0 rfl _ _ b k).trans (GlueOps.ada_plus_cond _ _ _ b 0 k)

theorem gate2_entry (b : Fin 4) (k : Fin 1024) :
    (E1 m c main_v5 : S4x1x1024.Idx → EReal) (ix3 b (0 : Fin 1) k) = Cert.Spec.g (m ((c : Thread nD τ).loc main_arg2)) (m ((c : Thread nD τ).loc main_arg4)) b 1 k := by
  have e : @Eq (S4x1x1024.Idx → EReal) (E1 m c main_v5)
      (shapeCast S4x1x1024 (extractStridedSlice S4x1x1x1024 ![0, 0, 1, 0]
          (addf (F := Ideal) (φ := .f32) (broadcastInDim S4x1x6x1024 ![0, 1, 2, 3] bcast_S1x1x6x1024_S4x1x6x1024_0_1_2_3
              ((m ((c : Thread nD τ).loc main_arg4)) : S1x1x6x1024.Idx → EReal))
            ((m ((c : Thread nD τ).loc main_arg2)) : S4x1x6x1024.Idx → EReal)) slices_S4x1x6x1024_S4x1x1x1024_0_0_1_0) shapeCasts_S4x1x1x1024_S4x1x1024) := by
    show StableHlo.after hostOps0 (fun b => m (c, b)) (Proc.devRef .tc main_v5) = _
    after_results <;> rfl
  rw [e]
  exact (GlueOps.slice_row _ 1 1 rfl _ _ b k).trans (GlueOps.ada_plus_cond _ _ _ b 1 k)

theorem scale1_entry (b : Fin 4) (k : Fin 1024) :
    (E1 m c main_v7 : S4x1x1024.Idx → EReal) (ix3 b (0 : Fin 1) k) = Cert.Spec.g (m ((c : Thread nD τ).loc main_arg2)) (m ((c : Thread nD τ).loc main_arg4)) b 2 k := by
  have e : @Eq (S4x1x1024.Idx → EReal) (E1 m c main_v7)
      (shapeCast S4x1x1024 (extractStridedSlice S4x1x1x1024 ![0, 0, 2, 0]
          (addf (F := Ideal) (φ := .f32) (broadcastInDim S4x1x6x1024 ![0, 1, 2, 3] bcast_S1x1x6x1024_S4x1x6x1024_0_1_2_3
              ((m ((c : Thread nD τ).loc main_arg4)) : S1x1x6x1024.Idx → EReal))
            ((m ((c : Thread nD τ).loc main_arg2)) : S4x1x6x1024.Idx → EReal)) slices_S4x1x6x1024_S4x1x1x1024_0_0_2_0) shapeCasts_S4x1x1x1024_S4x1x1024) := by
    show StableHlo.after hostOps0 (fun b => m (c, b)) (Proc.devRef .tc main_v7) = _
    after_results <;> rfl
  rw [e]
  exact (GlueOps.slice_row _ 2 2 rfl _ _ b k).trans (GlueOps.ada_plus_cond _ _ _ b 2 k)

theorem scale2_entry (b : Fin 4) (k : Fin 1024) :
    (E1 m c main_v9 : S4x1x1024.Idx → EReal) (ix3 b (0 : Fin 1) k) = Cert.Spec.g (m ((c : Thread nD τ).loc main_arg2)) (m ((c : Thread nD τ).loc main_arg4)) b 3 k := by
  have e : @Eq (S4x1x1024.Idx → EReal) (E1 m c main_v9)
      (shapeCast S4x1x1024 (extractStridedSlice S4x1x1x1024 ![0, 0, 3, 0]
          (addf (F := Ideal) (φ := .f32) (broadcastInDim S4x1x6x1024 ![0, 1, 2, 3] bcast_S1x1x6x1024_S4x1x6x1024_0_1_2_3
              ((m ((c : Thread nD τ).loc main_arg4)) : S1x1x6x1024.Idx → EReal))
            ((m ((c : Thread nD τ).loc main_arg2)) : S4x1x6x1024.Idx → EReal)) slices_S4x1x6x1024_S4x1x1x1024_0_0_3_0) shapeCasts_S4x1x1x1024_S4x1x1024) := by
    show StableHlo.after hostOps0 (fun b => m (c, b)) (Proc.devRef .tc main_v9) = _
    after_results <;> rfl
  rw [e]
  exact (GlueOps.slice_row _ 3 3 rfl _ _ b k).trans (GlueOps.ada_plus_cond _ _ _ b 3 k)

theorem shift1_entry (b : Fin 4) (k : Fin 1024) :
    (E1 m c main_v11 : S4x1x1024.Idx → EReal) (ix3 b (0 : Fin 1) k) = Cert.Spec.g (m ((c : Thread nD τ).loc main_arg2)) (m ((c : Thread nD τ).loc main_arg4)) b 4 k := by
  have e : @Eq (S4x1x1024.Idx → EReal) (E1 m c main_v11)
      (shapeCast S4x1x1024 (extractStridedSlice S4x1x1x1024 ![0, 0, 4, 0]
          (addf (F := Ideal) (φ := .f32) (broadcastInDim S4x1x6x1024 ![0, 1, 2, 3] bcast_S1x1x6x1024_S4x1x6x1024_0_1_2_3
              ((m ((c : Thread nD τ).loc main_arg4)) : S1x1x6x1024.Idx → EReal))
            ((m ((c : Thread nD τ).loc main_arg2)) : S4x1x6x1024.Idx → EReal)) slices_S4x1x6x1024_S4x1x1x1024_0_0_4_0) shapeCasts_S4x1x1x1024_S4x1x1024) := by
    show StableHlo.after hostOps0 (fun b => m (c, b)) (Proc.devRef .tc main_v11) = _
    after_results <;> rfl
  rw [e]
  exact (GlueOps.slice_row _ 4 4 rfl _ _ b k).trans (GlueOps.ada_plus_cond _ _ _ b 4 k)

theorem shift2_entry (b : Fin 4) (k : Fin 1024) :
    (E1 m c main_v13 : S4x1x1024.Idx → EReal) (ix3 b (0 : Fin 1) k) = Cert.Spec.g (m ((c : Thread nD τ).loc main_arg2)) (m ((c : Thread nD τ).loc main_arg4)) b 5 k := by
  have e : @Eq (S4x1x1024.Idx → EReal) (E1 m c main_v13)
      (shapeCast S4x1x1024 (extractStridedSlice S4x1x1x1024 ![0, 0, 5, 0]
          (addf (F := Ideal) (φ := .f32) (broadcastInDim S4x1x6x1024 ![0, 1, 2, 3] bcast_S1x1x6x1024_S4x1x6x1024_0_1_2_3
              ((m ((c : Thread nD τ).loc main_arg4)) : S1x1x6x1024.Idx → EReal))
            ((m ((c : Thread nD τ).loc main_arg2)) : S4x1x6x1024.Idx → EReal)) slices_S4x1x6x1024_S4x1x1x1024_0_0_5_0) shapeCasts_S4x1x1x1024_S4x1x1024) := by
    show StableHlo.after hostOps0 (fun b => m (c, b)) (Proc.devRef .tc main_v13) = _
    after_results <;> rfl
  rw [e]
  exact (GlueOps.slice_row _ 5 5 rfl _ _ b k).trans (GlueOps.ada_plus_cond _ _ _ b 5 k)

theorem wqT_entry (k d : Fin 1024) :
    (E1 m c main_v15 : S1024x1024.Idx → EReal) (ix2 k d) = ((m ((c : Thread nD τ).loc main_arg5)) : S1024x1024.Idx → EReal) (ix2 d k) := by
  have e : @Eq (S1024x1024.Idx → EReal) (E1 m c main_v15)
      (truncf (F := Ideal) (φ := .f32) .bf16 (transpose S1024x1024 [1, 0] ((m ((c : Thread nD τ).loc main_arg5)) : S1024x1024.Idx → EReal)
        transposes_S1024x1024_S1024x1024_1_0) bitsLt_bf16_f32) := by
    show StableHlo.after hostOps0 (fun b => m (c, b)) (Proc.devRef .tc main_v15) = _
    after_results <;> rfl
  rw [e]
  exact GlueOps.transpose_sq _ _ k d

theorem wkT_entry (k d : Fin 1024) :
    (E1 m c main_v17 : S1024x1024.Idx → EReal) (ix2 k d) = ((m ((c : Thread nD τ).loc main_arg6)) : S1024x1024.Idx → EReal) (ix2 d k) := by
  have e : @Eq (S1024x1024.Idx → EReal) (E1 m c main_v17)
      (truncf (F := Ideal) (φ := .f32) .bf16 (transpose S1024x1024 [1, 0] ((m ((c : Thread nD τ).loc main_arg6)) : S1024x1024.Idx → EReal)
        transposes_S1024x1024_S1024x1024_1_0) bitsLt_bf16_f32) := by
    show StableHlo.after hostOps0 (fun b => m (c, b)) (Proc.devRef .tc main_v17) = _
    after_results <;> rfl
  rw [e]
  exact GlueOps.transpose_sq _ _ k d

theorem wvT_entry (k d : Fin 1024) :
    (E1 m c main_v19 : S1024x1024.Idx → EReal) (ix2 k d) = ((m ((c : Thread nD τ).loc main_arg7)) : S1024x1024.Idx → EReal) (ix2 d k) := by
  have e : @Eq (S1024x1024.Idx → EReal) (E1 m c main_v19)
      (truncf (F := Ideal) (φ := .f32) .bf16 (transpose S1024x1024 [1, 0] ((m ((c : Thread nD τ).loc main_arg7)) : S1024x1024.Idx → EReal)
        transposes_S1024x1024_S1024x1024_1_0) bitsLt_bf16_f32) := by
    show StableHlo.after hostOps0 (fun b => m (c, b)) (Proc.devRef .tc main_v19) = _
    after_results <;> rfl
  rw [e]
  exact GlueOps.transpose_sq _ _ k d

theorem woT_entry (k d : Fin 1024) :
    (E1 m c main_v21 : S1024x1024.Idx → EReal) (ix2 k d) = ((m ((c : Thread nD τ).loc main_arg8)) : S1024x1024.Idx → EReal) (ix2 d k) := by
  have e : @Eq (S1024x1024.Idx → EReal) (E1 m c main_v21)
      (truncf (F := Ideal) (φ := .f32) .bf16 (transpose S1024x1024 [1, 0] ((m ((c : Thread nD τ).loc main_arg8)) : S1024x1024.Idx → EReal)
        transposes_S1024x1024_S1024x1024_1_0) bitsLt_bf16_f32) := by
    show StableHlo.after hostOps0 (fun b => m (c, b)) (Proc.devRef .tc main_v21) = _
    after_results <;> rfl
  rw [e]
  exact GlueOps.transpose_sq _ _ k d

theorem w1T_entry (k : Fin 1024) (j : Fin 4096) :
    (E1 m c main_v23 : S1024x4096.Idx → EReal) (ix2 k j) = ((m ((c : Thread nD τ).loc main_arg10)) : S4096x1024.Idx → EReal) (ix2 j k) := by
  have e : @Eq (S1024x4096.Idx → EReal) (E1 m c main_v23)
      (truncf (F := Ideal) (φ := .f32) .bf16 (transpose S1024x4096 [1, 0] ((m ((c : Thread nD τ).loc main_arg10)) : S4096x1024.Idx → EReal)
        transposes_S4096x1024_S1024x4096_1_0) bitsLt_bf16_f32) := by
    show StableHlo.after hostOps0 (fun b => m (c, b)) (Proc.devRef .tc main_v23) = _
    after_results <;> rfl
  rw [e]
  exact GlueOps.transpose_up _ _ k j
theorem w2T_entry (j : Fin 4096) (d : Fin 1024) :
    (E1 m c main_v25 : S4096x1024.Idx → EReal) (ix2 j d) = ((m ((c : Thread nD τ).loc main_arg12)) : S1024x4096.Idx → EReal) (ix2 d j) := by
  have e : @Eq (S4096x1024.Idx → EReal) (E1 m c main_v25)
      (truncf (F := Ideal) (φ := .f32) .bf16 (transpose S4096x1024 [1, 0] ((m ((c : Thread nD τ).loc main_arg12)) : S1024x4096.Idx → EReal)
        transposes_S1024x4096_S4096x1024_1_0) bitsLt_bf16_f32) := by
    show StableHlo.after hostOps0 (fun b => m (c, b)) (Proc.devRef .tc main_v25) = _
    after_results <;> rfl
  rw [e]
  exact GlueOps.transpose_dn _ _ j d

/-- An argument is as launched when the projection grid is entered. -/
theorem arg0_entry : E1 m c main_arg0 = m ((c : Thread nD τ).loc main_arg0) := V1_of m c main_arg0 (by decide)
theorem arg1_entry : E1 m c main_arg1 = m ((c : Thread nD τ).loc main_arg1) := V1_of m c main_arg1 (by decide)
theorem arg3_entry : E1 m c main_arg3 = m ((c : Thread nD τ).loc main_arg3) := V1_of m c main_arg3 (by decide)
theorem arg9_entry : E1 m c main_arg9 = m ((c : Thread nD τ).loc main_arg9) := V1_of m c main_arg9 (by decide)
theorem arg11_entry : E1 m c main_arg11 = m ((c : Thread nD τ).loc main_arg11) := V1_of m c main_arg11 (by decide)
theorem arg13_entry : E1 m c main_arg13 = m ((c : Thread nD τ).loc main_arg13) := V1_of m c main_arg13 (by decide)

/-! ## Untouched until read -/

/-- A buffer no later stretch writes and no earlier grid has as an array is, at the attention grid's entry, what it was at
    the projection grid's; -/
theorem keep3 (b : Ref sig .tc) (h1 : b ∉ hostOps1_W) (h0 : ∀ w, Pipeline.arrRef spec0 w ≠ b) :
    B3 m c (Proc.devRef .tc b) = B1 m c (Proc.devRef .tc b) :=
  (StableHlo.after_of_writes_sub hostOps1 _ hostOps1_writes h1).trans (B2_of_ne m c b h0)
/-- and at the feed-forward grid's entry too, if the attention grid does not have it as an array either. -/
theorem keep4 (b : Ref sig .tc) (h4 : ∀ w, Pipeline.arrRef spec1 w ≠ b) (h1 : b ∉ hostOps1_W) (h0 : ∀ w, Pipeline.arrRef spec0 w ≠ b) :
    B4 m c (Proc.devRef .tc b) = B1 m c (Proc.devRef .tc b) :=
  (B4_of_ne m c b h4).trans (keep3 m c b h1 h0)

/-! ## As the attention grid is entered -/

/-- The projections after the first grid. -/
theorem q_array : @Eq (S4x1024x1024.Idx → EReal) (B2 m c (Proc.devRef .tc main_v26_0))
    (ProjectionsValue.Gq (E1 m c main_arg0) (E1 m c main_v7) (E1 m c main_v11) (E1 m c main_v15)) :=
  (B2_arr m c 7).trans (ProjectionsValue.q_final (E1 m) c)
theorem k_array : @Eq (S4x1024x1024.Idx → EReal) (B2 m c (Proc.devRef .tc main_v26_1))
    (ProjectionsValue.Gkv (E1 m c main_arg1) (E1 m c main_v17)) :=
  (B2_arr m c 8).trans (ProjectionsValue.k_final (E1 m) c)
theorem v_array : @Eq (S4x1024x1024.Idx → EReal) (B2 m c (Proc.devRef .tc main_v26_2))
    (ProjectionsValue.Gkv (E1 m c main_arg1) (E1 m c main_v19)) :=
  (B2_arr m c 9).trans (ProjectionsValue.v_final (E1 m) c)

/-- The queries, head by head: the specification's. -/
theorem q_heads (b : Fin 4) (h : Fin 16) (l : Fin 1024) (e : Fin 64) :
    (E3 m c main_v28 : S4x16x1024x64.Idx → EReal) (ix4 b h l e)
      = Cert.Spec.Q (m ((c : Thread nD τ).loc main_arg0)) (m ((c : Thread nD τ).loc main_arg2)) (m ((c : Thread nD τ).loc main_arg4)) (m ((c : Thread nD τ).loc main_arg5)) b l (Cert.Spec.hd h e) := by
  have e1 : @Eq (S4x16x1024x64.Idx → EReal) (E3 m c main_v28)
      (transpose S4x16x1024x64 [0, 2, 1, 3] (shapeCast S4x1024x16x64 (B2 m c (Proc.devRef .tc main_v26_0) : S4x1024x1024.Idx → EReal)
        shapeCasts_S4x1024x1024_S4x1024x16x64) transposes_S4x1024x16x64_S4x16x1024x64_0_2_1_3) := by
    show StableHlo.after hostOps1 (B2 m c) (Proc.devRef .tc main_v28) = _
    after_results <;> rfl
  rw [e1]
  refine (GlueOps.head_split _ _ _ b h l e).trans ?_
  rw [q_array]
  show ProjectionsValue.Gq' _ _ _ _ b l (Cert.Spec.hd h e) = _
  unfold ProjectionsValue.Gq' Cert.Spec.Q
  rw [arg0_entry m c]
  refine Finset.sum_congr rfl fun k _ => ?_
  refine congrArg₂ (· * ·) ?_ (wqT_entry m c k (Cert.Spec.hd h e))
  exact congrArg₂ (fun sc sh => Cert.Spec.modulate _ sc sh k) (funext fun j => scale1_entry m c b j) (funext fun j => shift1_entry m c b j)

/-- The keys and the values, head by head. -/
theorem k_heads (b : Fin 4) (h : Fin 16) (mk : Fin 1024) (e : Fin 64) :
    (E3 m c main_v30 : S4x16x1024x64.Idx → EReal) (ix4 b h mk e) = Cert.Spec.K (m ((c : Thread nD τ).loc main_arg1)) (m ((c : Thread nD τ).loc main_arg6)) b mk (Cert.Spec.hd h e) := by
  have e1 : @Eq (S4x16x1024x64.Idx → EReal) (E3 m c main_v30)
      (transpose S4x16x1024x64 [0, 2, 1, 3] (shapeCast S4x1024x16x64 (B2 m c (Proc.devRef .tc main_v26_1) : S4x1024x1024.Idx → EReal)
        shapeCasts_S4x1024x1024_S4x1024x16x64) transposes_S4x1024x16x64_S4x16x1024x64_0_2_1_3) := by
    show StableHlo.after hostOps1 (B2 m c) (Proc.devRef .tc main_v30) = _
    after_results <;> rfl
  rw [e1]
  refine (GlueOps.head_split _ _ _ b h mk e).trans ?_
  rw [k_array]
  show ProjectionsValue.Gkv' _ _ b mk (Cert.Spec.hd h e) = _
  unfold ProjectionsValue.Gkv' Cert.Spec.K
  rw [arg1_entry m c]
  exact Finset.sum_congr rfl fun k _ => congrArg₂ (· * ·) rfl (wkT_entry m c k (Cert.Spec.hd h e))
theorem v_heads (b : Fin 4) (h : Fin 16) (mk : Fin 1024) (e : Fin 64) :
    (E3 m c main_v32 : S4x16x1024x64.Idx → EReal) (ix4 b h mk e) = Cert.Spec.V (m ((c : Thread nD τ).loc main_arg1)) (m ((c : Thread nD τ).loc main_arg7)) b mk (Cert.Spec.hd h e) := by
  have e1 : @Eq (S4x16x1024x64.Idx → EReal) (E3 m c main_v32)
      (transpose S4x16x1024x64 [0, 2, 1, 3] (shapeCast S4x1024x16x64 (B2 m c (Proc.devRef .tc main_v26_2) : S4x1024x1024.Idx → EReal)
        shapeCasts_S4x1024x1024_S4x1024x16x64) transposes_S4x1024x16x64_S4x16x1024x64_0_2_1_3) := by
    show StableHlo.after hostOps1 (B2 m c) (Proc.devRef .tc main_v32) = _
    after_results <;> rfl
  rw [e1]
  refine (GlueOps.head_split _ _ _ b h mk e).trans ?_
  rw [v_array]
  show ProjectionsValue.Gkv' _ _ b mk (Cert.Spec.hd h e) = _
  unfold ProjectionsValue.Gkv' Cert.Spec.V
  rw [arg1_entry m c]
  exact Finset.sum_congr rfl fun k _ => congrArg₂ (· * ·) rfl (wvT_entry m c k (Cert.Spec.hd h e))

/-- What else the attention grid reads is as it was: the bias, `x` (which the projection grid read and left), the output
    bias, the first gate row, the transposed output weight. -/
theorem bias_at3 : E3 m c main_arg3 = m ((c : Thread nD τ).loc main_arg3) :=
  (keep3 m c main_arg3 (by decide) (by decide)).trans (arg3_entry m c)
theorem bo_at3 : E3 m c main_arg9 = m ((c : Thread nD τ).loc main_arg9) :=
  (keep3 m c main_arg9 (by decide) (by decide)).trans (arg9_entry m c)
theorem x_at3 : E3 m c main_arg0 = m ((c : Thread nD τ).loc main_arg0) :=
  (StableHlo.after_of_writes_sub hostOps1 _ hostOps1_writes (r := main_arg0) (by decide)).trans
    (((B2_arr m c 0).trans (((Projections.dat (E1 m) c).arrAt_in 0 rfl _).trans (Projections.dat_A (E1 m) c 0))).trans (arg0_entry m c))
theorem gate1_at3 (b : Fin 4) (k : Fin 1024) :
    (E3 m c main_v3 : S4x1x1024.Idx → EReal) (ix3 b (0 : Fin 1) k) = Cert.Spec.g (m ((c : Thread nD τ).loc main_arg2)) (m ((c : Thread nD τ).loc main_arg4)) b 0 k := by
  rw [show E3 m c main_v3 = E1 m c main_v3 from keep3 m c main_v3 (by decide) (by decide)]
  exact gate1_entry m c b k
theorem woT_at3 (k d : Fin 1024) :
    (E3 m c main_v21 : S1024x1024.Idx → EReal) (ix2 k d) = ((m ((c : Thread nD τ).loc main_arg8)) : S1024x1024.Idx → EReal) (ix2 d k) := by
  rw [show E3 m c main_v21 = E1 m c main_v21 from keep3 m c main_v21 (by decide) (by decide)]
  exact woT_entry m c k d

/-! ## As the feed-forward grid is entered -/

theorem x1_array : @Eq (S4x1024x1024.Idx → EReal) (E4 m c main_v33) (AttentionArrays.Gx1 (E3 m) c) :=
  (B4_arr m c 8).trans (AttentionArrays.x1_final (E3 m) c)
theorem scale2_at4 (b : Fin 4) (k : Fin 1024) :
    (E4 m c main_v9 : S4x1x1024.Idx → EReal) (ix3 b (0 : Fin 1) k) = Cert.Spec.g (m ((c : Thread nD τ).loc main_arg2)) (m ((c : Thread nD τ).loc main_arg4)) b 3 k := by
  rw [show E4 m c main_v9 = E1 m c main_v9 from keep4 m c main_v9 (by decide) (by decide) (by decide)]
  exact scale2_entry m c b k
theorem shift2_at4 (b : Fin 4) (k : Fin 1024) :
    (E4 m c main_v13 : S4x1x1024.Idx → EReal) (ix3 b (0 : Fin 1) k) = Cert.Spec.g (m ((c : Thread nD τ).loc main_arg2)) (m ((c : Thread nD τ).loc main_arg4)) b 5 k := by
  rw [show E4 m c main_v13 = E1 m c main_v13 from keep4 m c main_v13 (by decide) (by decide) (by decide)]
  exact shift2_entry m c b k
theorem gate2_at4 (b : Fin 4) (k : Fin 1024) :
    (E4 m c main_v5 : S4x1x1024.Idx → EReal) (ix3 b (0 : Fin 1) k) = Cert.Spec.g (m ((c : Thread nD τ).loc main_arg2)) (m ((c : Thread nD τ).loc main_arg4)) b 1 k := by
  rw [show E4 m c main_v5 = E1 m c main_v5 from keep4 m c main_v5 (by decide) (by decide) (by decide)]
  exact gate2_entry m c b k
theorem w1T_at4 (k : Fin 1024) (j : Fin 4096) :
    (E4 m c main_v23 : S1024x4096.Idx → EReal) (ix2 k j) = ((m ((c : Thread nD τ).loc main_arg10)) : S4096x1024.Idx → EReal) (ix2 j k) := by
  rw [show E4 m c main_v23 = E1 m c main_v23 from keep4 m c main_v23 (by decide) (by decide) (by decide)]
  exact w1T_entry m c k j
theorem w2T_at4 (j : Fin 4096) (d : Fin 1024) :
    (E4 m c main_v25 : S4096x1024.Idx → EReal) (ix2 j d) = ((m ((c : Thread nD τ).loc main_arg12)) : S1024x4096.Idx → EReal) (ix2 d j) := by
  rw [show E4 m c main_v25 = E1 m c main_v25 from keep4 m c main_v25 (by decide) (by decide) (by decide)]
  exact w2T_entry m c j d
theorem b1_at4 : E4 m c main_arg11 = m ((c : Thread nD τ).loc main_arg11) :=
  (keep4 m c main_arg11 (by decide) (by decide) (by decide)).trans (arg11_entry m c)
theorem b2_at4 : E4 m c main_arg13 = m ((c : Thread nD τ).loc main_arg13) :=
  (keep4 m c main_arg13 (by decide) (by decide) (by decide)).trans (arg13_entry m c)

end Cert.KernelIdeal.Glue

end
-- ==== Proof.FeedForwardValue.lean ====
/-
  The feed-forward grid's output block, entry by entry: row `r` of the block plus the gated feed-forward of its modulated
  normalisation, the hidden axis of 4096 summed once (the body takes it in four slices of 1024 and adds the four products up).
-/
import proofs.«126116_j51702816309661_2_alg».proof.Proof.FeedForward
import proofs.«126116_j51702816309661_2_alg».proof.Proof.Spec
import proofs.«126116_j51702816309661_2_alg».proof.Proof.LibRowOps
import proofs.«126116_j51702816309661_2_alg».proof.Proof.LibPlainDot
import proofs.«126116_j51702816309661_2_alg».proof.Proof.LibTransposedDot
import proofs.«126116_j51702816309661_2_alg».proof.Proof.LibTileOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.FeedForwardValue

open Cert.KernelIdeal Cert.KernelIdeal.Gen Idealize.ShloMosaic Idealize.ShloMosaic.ValueIdx

section Pieces

open Cert.Spec (c1024 cEps cOne cHalf cCube cTanh)

/-! ## Chains of layout operations read at an entry -/

/-- A row's sum divided by a constant, as a column broadcast over the tile, at `(r, k)`. -/
theorem sumCol_apply (X : FVec Ideal S512x1024 .f32) (h : Shape.Reduces S512x1024 [1] S512) (hφ : FKind.Formats .f32)
    (hacc : (0x00000000#32 : BitVec 32) = FKind.add.neutral .f32 hφ) (h1 : S512.ShapeCasts S512x1) (h2 : S512x1.Broadcasts S512x1024)
    (c : Ideal .f32) (r : Fin 512) (k : Fin 1024) :
    broadcastTo S512x1024 (divf (shapeCast S512x1 (multiReduction .add [1] S512 X 0x00000000#32 h hφ hacc) h1) (broadcast S512x1 c)) h2 (ix2 r k)
      = Ideal.div (∑ j : Fin 1024, X (ix2 r j)) c :=
  (Gcn.Lib.broadcastTo_a1_ab_apply _ h2 r k).trans
    (congrArg (fun z => Ideal.div z c) ((Gcn.Lib.shapeCast_a_a1_apply _ h1 r 0).trans (Gcn.Lib.rowSum_apply X h hφ hacc r)))

/-- The reciprocal square root of (a row's sum over a constant, plus a constant), as a column broadcast over the tile. -/
theorem rsqrtCol_apply (Y : FVec Ideal S512x1024 .f32) (h : Shape.Reduces S512x1024 [1] S512) (hφ : FKind.Formats .f32)
    (hacc : (0x00000000#32 : BitVec 32) = FKind.add.neutral .f32 hφ) (h1 : S512.ShapeCasts S512x1) (h2 : S512x1.Broadcasts S512x1024)
    (c e : Ideal .f32) (r : Fin 512) (k : Fin 1024) :
    broadcastTo S512x1024 (rsqrt (addf (divf (shapeCast S512x1 (multiReduction .add [1] S512 Y 0x00000000#32 h hφ hacc) h1) (broadcast S512x1 c))
        (broadcast S512x1 e))) h2 (ix2 r k)
      = Ideal.rsqrt (Ideal.div (∑ j : Fin 1024, Y (ix2 r j)) c + e) :=
  (Gcn.Lib.broadcastTo_a1_ab_apply _ h2 r k).trans
    (congrArg (fun z => Ideal.rsqrt (Ideal.div z c + e)) ((Gcn.Lib.shapeCast_a_a1_apply _ h1 r 0).trans (Gcn.Lib.rowSum_apply Y h hφ hacc r)))

/-- A 1×1×1024 row recast to 1×1024 and broadcast over the tile reads the row at the column. -/
theorem modRow_apply (v : Vec Ideal S1x1x1024 .f32) (h1 : S1x1x1024.ShapeCasts S1x1024) (h2 : S1x1024.Broadcasts S512x1024)
    (r : Fin 512) (k : Fin 1024) :
    broadcastTo S512x1024 (shapeCast S1x1024 v h1) h2 (ix2 r k) = v (ix3 (0 : Fin 1) (0 : Fin 1) k) :=
  (broadcastTo_1b_ab_apply _ h2 r k).trans (shapeCast_1ab_ab_apply v h1 0 k)

/-- The matrix unit accumulating into zero, the right operand first cast to its own shape, at `(r, j)`. -/
theorem mm_entry (A : FVec Ideal S512x1024 .bf16) (W : Vec Ideal S1024x1024 .bf16) (r : Fin 512) (j : Fin 1024) :
    matmul dot_S512x1024_S1024x1024_S512x1024_1_0_0_1_n_n none A
        (shapeCast S1024x1024 W shapeCasts_S1024x1024_S1024x1024 : FVec Ideal S1024x1024 .bf16)
        (constant S512x1024 .f32 0x00000000#32) (ix2 r j)
      = ∑ k : Fin 1024, A (ix2 r k) * W (ix2 k j) :=
  (Gcn.Lib.plain_matmul_zero_apply _ _ none r j).trans
    (Finset.sum_congr rfl fun k _ => congrArg₂ (· * ·) rfl (congrFun (shapeCast_self _ _) _))

/-- The tanh form of gelu as the body multiplies it out: the cube taken as `u · (u · u)`. -/
theorem gelu_eq (u : EReal) :
    u * (cHalf * (cOne + Ideal.tanh (cTanh * (u + cCube * (u * (u * u)))))) = Cert.Spec.gelu u := by
  unfold Cert.Spec.gelu; rw [mul_comm u (u * u)]

/-! ## The body's payloads read at an entry -/

/-- The modulated normalisation of row `r` at column `k`. -/
theorem pay3_entry (v0 : Vec Ideal S1x512x1024 .f32) (v20 v26 : Vec Ideal S1x1x1024 .f32) (r : Fin 512) (k : Fin 1024) :
    k2_pay3 (F := Ideal) v0 v20 v26 (ix2 r k)
      = Cert.Spec.modulate (fun i => v0 (ix3 (0 : Fin 1) r i)) (fun i => v20 (ix3 (0 : Fin 1) (0 : Fin 1) i))
          (fun i => v26 (ix3 (0 : Fin 1) (0 : Fin 1) i)) k := by
  unfold k2_pay3 k2_pay2
  have hx : ∀ j : Fin 1024, shapeCast S512x1024 v0 shapeCasts_S1x512x1024_S512x1024 (ix2 r j) = v0 (ix3 (0 : Fin 1) r j) :=
    fun j => shapeCast_1ab_ab_apply v0 _ r j
  have hm : ∀ i : Fin 1024, _ = Cert.Spec.mean (fun i => v0 (ix3 (0 : Fin 1) r i)) := fun i =>
    (sumCol_apply (shapeCast S512x1024 v0 shapeCasts_S1x512x1024_S512x1024) reduces_S512x1024_S512 (.inl rfl) rfl
      shapeCasts_S512_S512x1 broadcasts_S512x1_S512x1024 (Scalar.ofBits .f32 0x44800000#32) r i).trans
      (congrArg (fun z => Ideal.div z c1024) (Finset.sum_congr rfl fun j _ => hx j))
  unfold Cert.Spec.modulate
  show ((_ : EReal) - (_ : EReal)) * (_ : EReal) * (_ : EReal) + (_ : EReal) = _
  refine congrArg₂ (· + ·) (congrArg₂ (· * ·) (congrArg₂ (· * ·) (congrArg₂ (· - ·) (hx k) (hm k)) ?_) ?_) (modRow_apply v26 _ _ r k)
  · refine (rsqrtCol_apply _ reduces_S512x1024_S512 (.inl rfl) rfl shapeCasts_S512_S512x1 broadcasts_S512x1_S512x1024
      (Scalar.ofBits .f32 0x44800000#32) (Scalar.ofBits .f32 0x3727C5AC#32) r k).trans ?_
    exact congrArg (fun z => Ideal.rsqrt (Ideal.div z c1024 + cEps)) (Finset.sum_congr rfl fun i _ =>
      congrArg₂ (· * ·) (congrArg₂ (· - ·) (hx i) (hm i)) (congrArg₂ (· - ·) (hx i) (hm i)))
  · exact (broadcastTo_1b_ab_apply _ _ r k).trans (congrArg (· + cOne) (shapeCast_1ab_ab_apply v20 _ 0 k))

/-- The first slice's hidden pre-activations without their bias. -/
theorem pay5_entry (v0 : Vec Ideal S1x512x1024 .f32) (v20 v26 : Vec Ideal S1x1x1024 .f32) (W : Vec Ideal S1024x1024 .bf16)
    (r : Fin 512) (j : Fin 1024) :
    k2_pay5 (F := Ideal) v0 v20 v26 W (ix2 r j) = ∑ k : Fin 1024, k2_pay3 (F := Ideal) v0 v20 v26 (ix2 r k) * W (ix2 k j) := by
  unfold k2_pay5
  exact mm_entry _ W r j

/-- A bias slice as a row over the tile. -/
theorem pay6_entry (B : Vec Ideal S1024 .f32) (r : Fin 512) (j : Fin 1024) : k2_pay6 (F := Ideal) B (ix2 r j) = B (ix1 j) := by
  unfold k2_pay6
  exact Hmu.Lib.rowVec_apply B _ _ r j

/-- The running sum starts at zero. -/
theorem pay4_entry (i : S512x1024.Idx) : k2_pay4 (F := Ideal) i = 0 := Ideal.ofBits_zero_f32

/-- The hidden pre-activation of one slice at `(r, j)`: the modulated row against column `j` of the slice of the first
    weight, plus the slice of the first bias at `j`. -/
def hid (M : FVec Ideal S512x1024 .bf16) (W : Vec Ideal S1024x1024 .bf16) (B : Vec Ideal S1024 .f32) (r : Fin 512) (j : Fin 1024) : EReal :=
  (∑ k : Fin 1024, M (ix2 r k) * W (ix2 k j)) + B (ix1 j)

/-- One slice's share of the second product at `(r, c)`. -/
def share (M : FVec Ideal S512x1024 .bf16) (W : Vec Ideal S1024x1024 .bf16) (B : Vec Ideal S1024 .f32) (D : Vec Ideal S1024x1024 .bf16)
    (r : Fin 512) (c : Fin 1024) : EReal :=
  ∑ j : Fin 1024, Cert.Spec.gelu (hid M W B r j) * D (ix2 j c)

/-- The first slice's share added to what the running sum held. -/
theorem pay7_entry (v31 v35 v37 : FVec Ideal S512x1024 .f32) (D : Vec Ideal S1024x1024 .bf16) (r : Fin 512) (c : Fin 1024) :
    k2_pay7 (F := Ideal) v31 v35 v37 D (ix2 r c)
      = v31 (ix2 r c) + ∑ j : Fin 1024, Cert.Spec.gelu (v35 (ix2 r j) + v37 (ix2 r j)) * D (ix2 j c) := by
  unfold k2_pay7
  show (_ : EReal) + (_ : EReal) = _
  refine congrArg₂ (· + ·) rfl ?_
  refine (mm_entry _ D r c).trans ?_
  exact Finset.sum_congr rfl fun j _ => congrArg (· * D (ix2 j c)) (gelu_eq _)

/-- The pre-activation of a slice: the matrix product plus the bias row. -/
theorem pay11_entry (M : FVec Ideal S512x1024 .bf16) (W : Vec Ideal S1024x1024 .bf16) (B : Vec Ideal S1024 .f32) (r : Fin 512) (j : Fin 1024) :
    k2_pay11 (F := Ideal) M W B (ix2 r j) = hid M W B r j := by
  unfold k2_pay11 hid
  show (_ : EReal) + (_ : EReal) = _
  exact congrArg₂ (· + ·) (mm_entry M W r j) (Hmu.Lib.rowVec_apply B _ _ r j)

/-- The activation of a slice. -/
theorem pay8_entry (M : FVec Ideal S512x1024 .bf16) (W : Vec Ideal S1024x1024 .bf16) (B : Vec Ideal S1024 .f32) (r : Fin 512) (j : Fin 1024) :
    k2_pay8 (F := Ideal) M W B (ix2 r j) = Cert.Spec.gelu (hid M W B r j) := by
  unfold k2_pay8 hid
  refine (gelu_eq _).trans (congrArg Cert.Spec.gelu ?_)
  show (_ : EReal) + (_ : EReal) = _
  exact congrArg₂ (· + ·) (mm_entry M W r j) (Hmu.Lib.rowVec_apply B _ _ r j)

/-- A slice of the second weight cast to its own shape. -/
theorem pay9_eq (D : Vec Ideal S1024x1024 .bf16) : k2_pay9 (F := Ideal) D = D := by
  unfold k2_pay9
  exact shapeCast_self _ _

/-- Two more shares added to the running sum: one from an activation computed before, one computed here. -/
theorem pay10_entry (M : FVec Ideal S512x1024 .bf16) (v56 : FVec Ideal S512x1024 .f32) (v77 : FVec Ideal S512x1024 .bf16)
    (v79 : FVec Ideal S1024x1024 .bf16) (W : Vec Ideal S1024x1024 .bf16) (B : Vec Ideal S1024 .f32) (D : Vec Ideal S1024x1024 .bf16)
    (r : Fin 512) (c : Fin 1024) :
    k2_pay10 (F := Ideal) M v56 v77 v79 (constant S512x1024 .f32 0x00000000#32) W B D (ix2 r c)
      = (v56 (ix2 r c) + ∑ j : Fin 1024, v77 (ix2 r j) * v79 (ix2 j c)) + share M W B D r c := by
  unfold k2_pay10 share hid
  show ((_ : EReal) + (_ : EReal)) + (_ : EReal) = _
  refine congrArg₂ (· + ·) (congrArg₂ (· + ·) rfl (Gcn.Lib.plain_matmul_zero_apply v77 v79 none r c)) ?_
  refine (mm_entry _ D r c).trans ?_
  refine Finset.sum_congr rfl fun j _ => congrArg (· * D (ix2 j c)) ?_
  refine (gelu_eq _).trans (congrArg Cert.Spec.gelu ?_)
  show (_ : EReal) + (_ : EReal) = _
  exact congrArg₂ (· + ·) (mm_entry M W r j) (Hmu.Lib.rowVec_apply B _ _ r j)

/-- The hyperbolic tangent inside the last slice's activation. -/
theorem pay12_entry (M : FVec Ideal S512x1024 .bf16) (W : Vec Ideal S1024x1024 .bf16) (B : Vec Ideal S1024 .f32) (i : S512x1024.Idx) :
    k2_pay12 (F := Ideal) M W B i
      = Ideal.tanh (cTanh * (k2_pay11 (F := Ideal) M W B i
          + cCube * (k2_pay11 (F := Ideal) M W B i * (k2_pay11 (F := Ideal) M W B i * k2_pay11 (F := Ideal) M W B i)))) := by
  unfold k2_pay12
  rfl

/-- The stored value: the last share added, then the second bias, the gate row and the residual. -/
theorem pay1_entry (v1 v106 v113 v121 : FVec Ideal S512x1024 .f32) (D : Vec Ideal S1024x1024 .bf16) (B2 : Vec Ideal S1024 .f32)
    (G : Vec Ideal S1x1x1024 .f32) (r : Fin 512) (c : Fin 1024) :
    k2_pay1 (F := Ideal) v1 v106 v113 v121 (Scalar.ofBits .f32 0x3F800000#32) D B2 G (ix3 (0 : Fin 1) r c)
      = v1 (ix2 r c)
        + ((v106 (ix2 r c) + ∑ j : Fin 1024, (v113 (ix2 r j) * (cHalf * (cOne + v121 (ix2 r j)))) * D (ix2 j c)) + B2 (ix1 c))
          * G (ix3 (0 : Fin 1) (0 : Fin 1) c) := by
  unfold k2_pay1
  refine (shapeCast_ab_1ab_apply _ _ 0 r c).trans ?_
  show (_ : EReal) + (((_ : EReal) + (_ : EReal)) + (_ : EReal)) * (_ : EReal) = _
  refine congrArg₂ (· + ·) rfl (congrArg₂ (· * ·) (congrArg₂ (· + ·) (congrArg₂ (· + ·) rfl ?_) (Hmu.Lib.rowVec_apply B2 _ _ r c))
    (modRow_apply G _ _ r c))
  exact mm_entry _ D r c

/-! ## Loads through unit-stride rectangles -/

/-- The whole block's rectangle places an index at itself. -/
theorem emb_blk (r : Fin 512) (c : Fin 1024) : FeedForward.rBlk.emb (ix3 (0 : Fin 1) r c) = ix3 (0 : Fin 1) r c := by
  refine funext fun ax => Fin.ext ?_
  match ax with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- One store through the whole block leaves its payload at every entry. -/
theorem canon_blk_entry (p : FeedForward.rBlk.shape.Idx → Elt Ideal .f32) (r : Fin 512) (c : Fin 1024) :
    View.canon [⟨FeedForward.rBlk, p⟩] (ix3 (0 : Fin 1) r c) = p (ix3 (0 : Fin 1) r c) := by
  have h := View.canon_cons_emb FeedForward.rBlk p [] (ix3 (0 : Fin 1) r c)
  rwa [emb_blk] at h

/-- A load through the whole block reads the block. -/
theorem ld_blk {Val : EltTy → Type} {e : EltTy} (x : S1x512x1024.Idx → Val e) : View.ld (Val := Val) x FeedForward.rBlk = x := by
  funext j
  show x (FeedForward.rBlk.idx j) = x j
  refine congrArg x (funext fun ax => Fin.ext ?_)
  match ax with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A load through the whole row reads the row. -/
theorem ld_row {Val : EltTy → Type} {e : EltTy} (x : S1x1x1024.Idx → Val e) : View.ld (Val := Val) x FeedForward.rRow = x := by
  funext j
  show x (FeedForward.rRow.idx j) = x j
  refine congrArg x (funext fun ax => Fin.ext ?_)
  match ax with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A load through the whole second bias reads it. -/
theorem ld_b2 {Val : EltTy → Type} {e : EltTy} (x : S1024.Idx → Val e) : View.ld (Val := Val) x FeedForward.rB2nd = x := by
  funext j
  show x (FeedForward.rB2nd.idx j) = x j
  refine congrArg x (funext fun ax => Fin.ext ?_)
  match ax with
  | ⟨0, _⟩ => exact (Nat.zero_add _).trans (Nat.one_mul _)

/-- 1024 columns of the first weight loaded from the literal column offset `o`: entry `(k, j)` is the weight at `(k, o + j)`. -/
theorem ld_up {Val : EltTy → Type} {e : EltTy} (w : S1024x4096.Idx → Val e) (o : ℕ)
    (inb : ∀ ax, (![0, o] : Fin 2 → ℕ) ax + S1024x1024.size ax ≤ S1024x4096.size ax) (k j : Fin 1024) (J : Fin 4096)
    (hJ : J.val = o + j.val) :
    View.ld (Val := Val) w (Rect.unit (s := S1024x4096) ![0, o] S1024x1024.size inb) (ix2 k j) = w (ix2 k J) := by
  show w ((Rect.unit (s := S1024x4096) ![0, o] S1024x1024.size inb).idx (ix2 k j)) = _
  refine congrArg w (funext fun ax => Fin.ext ?_)
  match ax with
  | ⟨0, _⟩ => show 0 + 1 * k.val = k.val; omega
  | ⟨1, _⟩ => show o + 1 * j.val = J.val; omega

/-- 1024 entries of the first bias loaded from the literal offset `o`: entry `j` is the bias at `o + j`. -/
theorem ld_b1 {Val : EltTy → Type} {e : EltTy} (b : S4096.Idx → Val e) (o : ℕ)
    (inb : ∀ ax, (![o] : Fin 1 → ℕ) ax + S1024.size ax ≤ S4096.size ax) (j : Fin 1024) (J : Fin 4096) (hJ : J.val = o + j.val) :
    View.ld (Val := Val) b (Rect.unit (s := S4096) ![o] S1024.size inb) (ix1 j) = b (ix1 J) := by
  show b ((Rect.unit (s := S4096) ![o] S1024.size inb).idx (ix1 j)) = _
  refine congrArg b (funext fun ax => Fin.ext ?_)
  match ax with
  | ⟨0, _⟩ => show o + 1 * j.val = J.val; omega

/-- 1024 rows of the second weight loaded from the literal row offset `o`: entry `(j, c)` is the weight at `(o + j, c)`. -/
theorem ld_dn {Val : EltTy → Type} {e : EltTy} (w : S4096x1024.Idx → Val e) (o : ℕ)
    (inb : ∀ ax, (![o, 0] : Fin 2 → ℕ) ax + S1024x1024.size ax ≤ S4096x1024.size ax) (j c : Fin 1024) (J : Fin 4096)
    (hJ : J.val = o + j.val) :
    View.ld (Val := Val) w (Rect.unit (s := S4096x1024) ![o, 0] S1024x1024.size inb) (ix2 j c) = w (ix2 J c) := by
  show w ((Rect.unit (s := S4096x1024) ![o, 0] S1024x1024.size inb).idx (ix2 j c)) = _
  refine congrArg w (funext fun ax => Fin.ext ?_)
  match ax with
  | ⟨0, _⟩ => show o + 1 * j.val = J.val; omega
  | ⟨1, _⟩ => show 0 + 1 * c.val = c.val; omega

/-! ## The hidden axis in four slices -/

/-- Position `j` of the slice of 1024 that starts at `o`. -/
def sl (o : ℕ) (ho : o + 1024 ≤ 4096) (j : Fin 1024) : Fin 4096 := ⟨o + j.val, by omega⟩

/-- A sum over the 4096 hidden units is the sum of its four slices of 1024. -/
theorem sum_four {M : Type*} [AddCommMonoid M] (f : Fin 4096 → M) :
    ∑ j : Fin 4096, f j
      = (((∑ j : Fin 1024, f (sl 0 (by omega) j)) + ∑ j : Fin 1024, f (sl 1024 (by omega) j))
          + ∑ j : Fin 1024, f (sl 2048 (by omega) j)) + ∑ j : Fin 1024, f (sl 3072 (by omega) j) := by
  have h3 := Fin.sum_univ_add (a := 3072) (b := 1024) f
  have h2 := Fin.sum_univ_add (a := 2048) (b := 1024) (fun i : Fin 3072 => f (Fin.castAdd 1024 i))
  have h1 := Fin.sum_univ_add (a := 1024) (b := 1024) (fun i : Fin 2048 => f (Fin.castAdd 1024 (Fin.castAdd 1024 i)))
  refine h3.trans (congrArg₂ (· + ·) (h2.trans (congrArg₂ (· + ·) (h1.trans (congrArg₂ (· + ·) ?_ rfl)) rfl)) rfl)
  exact Finset.sum_congr rfl fun j _ => congrArg f (Fin.ext (Nat.zero_add _).symm)

/-! ## The stored value over the loaded slices -/

/-- The stored value at `(0, r, c)` as the four slices' shares, from any loaded blocks. -/
theorem core (v0 : Vec Ideal S1x512x1024 .f32) (v20 v26 G : Vec Ideal S1x1x1024 .f32)
    (U0 U1 U2 U3 : Vec Ideal S1024x1024 .bf16) (B0 B1 B2 B3 : Vec Ideal S1024 .f32) (D0 D1 D2 D3 : Vec Ideal S1024x1024 .bf16)
    (bb : Vec Ideal S1024 .f32) (r : Fin 512) (c : Fin 1024) :
    k2_pay1 (F := Ideal) (k2_pay2 v0)
        (k2_pay10 (k2_pay3 v0 v20 v26) (k2_pay7 k2_pay4 (k2_pay5 v0 v20 v26 U0) (k2_pay6 B0) D0) (k2_pay8 (k2_pay3 v0 v20 v26) U1 B1)
          (k2_pay9 D1) (constant S512x1024 .f32 0x00000000#32) U2 B2 D2)
        (k2_pay11 (k2_pay3 v0 v20 v26) U3 B3) (k2_pay12 (k2_pay3 v0 v20 v26) U3 B3) (Scalar.ofBits .f32 0x3F800000#32) D3 bb G
        (ix3 (0 : Fin 1) r c)
      = v0 (ix3 (0 : Fin 1) r c)
        + ((((share (k2_pay3 v0 v20 v26) U0 B0 D0 r c + share (k2_pay3 v0 v20 v26) U1 B1 D1 r c)
              + share (k2_pay3 v0 v20 v26) U2 B2 D2 r c) + share (k2_pay3 v0 v20 v26) U3 B3 D3 r c) + bb (ix1 c))
          * G (ix3 (0 : Fin 1) (0 : Fin 1) c) := by
  refine (pay1_entry _ _ _ _ D3 bb G r c).trans ?_
  refine congrArg₂ (· + ·) (shapeCast_1ab_ab_apply v0 _ r c)
    (congrArg (· * G (ix3 (0 : Fin 1) (0 : Fin 1) c)) (congrArg (· + bb (ix1 c)) (congrArg₂ (· + ·) ?_ ?_)))
  · refine (pay10_entry _ _ _ _ U2 B2 D2 r c).trans ?_
    refine congrArg (· + share (k2_pay3 v0 v20 v26) U2 B2 D2 r c) (congrArg₂ (· + ·) ?_ ?_)
    · refine (pay7_entry _ _ _ D0 r c).trans ?_
      refine (congrArg₂ (· + ·) (pay4_entry _) rfl).trans ((zero_add _).trans ?_)
      unfold share hid
      exact Finset.sum_congr rfl fun j _ => congrArg (· * D0 (ix2 j c))
        (congrArg Cert.Spec.gelu (congrArg₂ (· + ·) (pay5_entry v0 v20 v26 U0 r j) (pay6_entry B0 r j)))
    · unfold share
      exact Finset.sum_congr rfl fun j _ => congrArg₂ (· * ·) (pay8_entry _ U1 B1 r j) (congrFun (pay9_eq D1) _)
  · unfold share
    refine Finset.sum_congr rfl fun j _ => congrArg (· * D3 (ix2 j c)) ?_
    refine (congrArg (fun t => k2_pay11 (F := Ideal) (k2_pay3 v0 v20 v26) U3 B3 (ix2 r j) * (cHalf * (cOne + t)))
      (pay12_entry _ U3 B3 (ix2 r j))).trans ?_
    exact (gelu_eq _).trans (congrArg Cert.Spec.gelu (pay11_entry _ U3 B3 r j))

/-- The share of the slice loaded from the literal offset `o`, in the whole arrays' own coordinates. -/
theorem share_slice (x : Vec Ideal S1x512x1024 .f32) (sc sh : Vec Ideal S1x1x1024 .f32) (w1 : Vec Ideal S1024x4096 .bf16)
    (b1 : Vec Ideal S4096 .f32) (w2 : Vec Ideal S4096x1024 .bf16) (o : ℕ) (ho : o + 1024 ≤ 4096)
    (inbU : ∀ ax, (![0, o] : Fin 2 → ℕ) ax + S1024x1024.size ax ≤ S1024x4096.size ax)
    (inbB : ∀ ax, (![o] : Fin 1 → ℕ) ax + S1024.size ax ≤ S4096.size ax)
    (inbD : ∀ ax, (![o, 0] : Fin 2 → ℕ) ax + S1024x1024.size ax ≤ S4096x1024.size ax) (r : Fin 512) (c : Fin 1024) :
    share (k2_pay3 (F := Ideal) x sc sh) (View.ld w1 (Rect.unit (s := S1024x4096) ![0, o] S1024x1024.size inbU))
        (View.ld b1 (Rect.unit (s := S4096) ![o] S1024.size inbB)) (View.ld w2 (Rect.unit (s := S4096x1024) ![o, 0] S1024x1024.size inbD)) r c
      = ∑ j : Fin 1024, Cert.Spec.gelu ((∑ k : Fin 1024,
            Cert.Spec.modulate (fun i => x (ix3 (0 : Fin 1) r i)) (fun i => sc (ix3 (0 : Fin 1) (0 : Fin 1) i))
              (fun i => sh (ix3 (0 : Fin 1) (0 : Fin 1) i)) k * w1 (ix2 k (sl o ho j))) + b1 (ix1 (sl o ho j)))
          * w2 (ix2 (sl o ho j) c) := by
  unfold share hid
  exact Finset.sum_congr rfl fun j _ => congrArg₂ (· * ·)
    (congrArg Cert.Spec.gelu (congrArg₂ (· + ·)
      (Finset.sum_congr rfl fun k _ => congrArg₂ (· * ·) (pay3_entry x sc sh r k) (ld_up w1 o inbU k j (sl o ho j) rfl))
      (ld_b1 b1 o inbB j (sl o ho j) rfl)))
    (ld_dn w2 o inbD j c (sl o ho j) rfl)

end Pieces

/-- The output block at entry `(0, r, c)`. -/
theorem block_entry (x : Vec Ideal S1x512x1024 .f32) (sc sh gm : Vec Ideal S1x1x1024 .f32) (w1 : Vec Ideal S1024x4096 .bf16)
    (b1 : Vec Ideal S4096 .f32) (w2 : Vec Ideal S4096x1024 .bf16) (b2 : Vec Ideal S1024 .f32) (r : Fin 512) (c : Fin 1024) :
    FeedForward.outBlock (F := Ideal) x sc sh gm w1 b1 w2 b2 (ix3 (0 : Fin 1) r c)
      = x (ix3 (0 : Fin 1) r c)
        + ((∑ j : Fin 4096, Cert.Spec.gelu ((∑ k : Fin 1024,
              Cert.Spec.modulate (fun i => x (ix3 (0 : Fin 1) r i)) (fun i => sc (ix3 (0 : Fin 1) (0 : Fin 1) i))
                (fun i => sh (ix3 (0 : Fin 1) (0 : Fin 1) i)) k * w1 (ix2 k j)) + b1 (ix1 j)) * w2 (ix2 j c))
            + b2 (ix1 c)) * gm (ix3 (0 : Fin 1) (0 : Fin 1) c) := by
  unfold FeedForward.outBlock
  rw [ld_blk x, ld_row sc, ld_row sh, ld_row gm, ld_b2 b2]
  refine (canon_blk_entry _ r c).trans ?_
  refine (core x sc sh gm _ _ _ _ _ _ _ _ _ _ _ _ b2 r c).trans ?_
  refine Eq.trans ?_ (congrArg (fun z => x (ix3 (0 : Fin 1) r c) + (z + b2 (ix1 c)) * gm (ix3 (0 : Fin 1) (0 : Fin 1) c))
    (sum_four (fun j : Fin 4096 => Cert.Spec.gelu ((∑ k : Fin 1024,
      Cert.Spec.modulate (fun i => x (ix3 (0 : Fin 1) r i)) (fun i => sc (ix3 (0 : Fin 1) (0 : Fin 1) i))
        (fun i => sh (ix3 (0 : Fin 1) (0 : Fin 1) i)) k * w1 (ix2 k j)) + b1 (ix1 j)) * w2 (ix2 j c))).symm)
  exact congrArg (fun z => x (ix3 (0 : Fin 1) r c) + (z + b2 (ix1 c)) * gm (ix3 (0 : Fin 1) (0 : Fin 1) c))
    (congrArg₂ (· + ·) (congrArg₂ (· + ·) (congrArg₂ (· + ·)
      (share_slice x sc sh w1 b1 w2 0 (by omega) _ _ _ r c) (share_slice x sc sh w1 b1 w2 1024 (by omega) _ _ _ r c))
      (share_slice x sc sh w1 b1 w2 2048 (by omega) _ _ _ r c)) (share_slice x sc sh w1 b1 w2 3072 (by omega) _ _ _ r c))

end Cert.KernelIdeal.FeedForwardValue

end
-- ==== Proof.FeedForwardArrays.lean ====
/-
  The feed-forward grid's output array as one function of the arrays the grid is entered with, entry by entry: block (batch,
  row block) of the output array is what point (batch, row block) wrote, and the eight blocks fill the array.
-/
import proofs.«126116_j51702816309661_2_alg».proof.Proof.FeedForward
import proofs.«126116_j51702816309661_2_alg».proof.Proof.FeedForwardValue
import proofs.«126116_j51702816309661_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.FeedForwardArrays

open Cert.KernelIdeal Cert.KernelIdeal.Gen Idealize.ShloMosaic Idealize.ShloMosaic.TcCoe Idealize.ShloMosaic.ValueIdx
open Idealize.ShloMosaic.Pipeline (Dat)

/-- The block's output as one array of the arrays the grid is entered with. -/
def Gy' (X1a : S4x1024x1024.Idx → EReal) (Sc Sh Gm : S4x1x1024.Idx → EReal) (W1t : S1024x4096.Idx → EReal) (B1 : S4096.Idx → EReal)
    (W2t : S4096x1024.Idx → EReal) (B2 : S1024.Idx → EReal) (b : Fin 4) (l c : Fin 1024) : EReal :=
  X1a (ix3 b l c)
    + ((∑ j : Fin 4096, Cert.Spec.gelu ((∑ k : Fin 1024,
          Cert.Spec.modulate (fun i => X1a (ix3 b l i)) (fun i => Sc (ix3 b (0 : Fin 1) i)) (fun i => Sh (ix3 b (0 : Fin 1) i)) k * W1t (ix2 k j))
          + B1 (ix1 j)) * W2t (ix2 j c))
        + B2 (ix1 c)) * Gm (ix3 b (0 : Fin 1) c)
def Gy (X1a : S4x1024x1024.Idx → EReal) (Sc Sh Gm : S4x1x1024.Idx → EReal) (W1t : S1024x4096.Idx → EReal) (B1 : S4096.Idx → EReal)
    (W2t : S4096x1024.Idx → EReal) (B2 : S1024.Idx → EReal) (i : S4x1024x1024.Idx) : EReal :=
  Gy' X1a Sc Sh Gm W1t B1 W2t B2 (i 0) (i 1) (i 2)

section Arrays

variable (V : (c : Dev nD) → (b : Ref sig .tc) → Buf (Elt Ideal) ((c : Thread nD τ).loc b))

/-- The printed index maps over the grid's eight points: the output and the rows move together (batch, row block, 0), the
    scale, shift and gate rows with the batch alone, the weights and the biases not at all. -/
theorem idx_facts : ∀ t : Fin cfg2.N,
    win2_8.index t (0 : Fin 3) ≤ 3 ∧ win2_8.index t (1 : Fin 3) ≤ 1 ∧ win2_8.index t (2 : Fin 3) = 0
    ∧ win2_0.index t = win2_8.index t
    ∧ win2_1.index t (0 : Fin 3) = win2_8.index t (0 : Fin 3) ∧ win2_1.index t (1 : Fin 3) = 0 ∧ win2_1.index t (2 : Fin 3) = 0
    ∧ win2_2.index t (0 : Fin 3) = win2_8.index t (0 : Fin 3) ∧ win2_2.index t (1 : Fin 3) = 0 ∧ win2_2.index t (2 : Fin 3) = 0
    ∧ win2_3.index t (0 : Fin 3) = win2_8.index t (0 : Fin 3) ∧ win2_3.index t (1 : Fin 3) = 0 ∧ win2_3.index t (2 : Fin 3) = 0
    ∧ win2_4.index t = ![0, 0] ∧ win2_5.index t = ![0] ∧ win2_6.index t = ![0, 0] ∧ win2_7.index t = ![0] :=
  (by decide +kernel : ∀ t : Fin grid2.N, _)
/-- Every (batch, row block) is some point's. -/
theorem idx_onto : ∀ (q0 : Fin 4) (q1 : Fin 2), ∃ t : Fin cfg2.N, win2_8.index t = ![q0.val, q1.val, 0] :=
  (by decide +kernel : ∀ (q0 : Fin 4) (q1 : Fin 2), ∃ t : Fin grid2.N, win2_8.index t = ![q0.val, q1.val, 0])

/-! Entry `(0, r, d)` of point `t`'s output block sits in the array at (the point's batch, its row block × 512 + r, d). -/
theorem out_coord0 (t : Fin cfg2.N) (r : Fin 512) (d : Fin 1024) :
    ((((cfg2.win 8).blk t).view.emb (ix3 (0 : Fin 1) r d)) 0).val = win2_8.index t (0 : Fin 3) := by
  show win2_8.index t (0 : Fin 3) * 1 + 1 * 0 = _; omega
theorem out_coord1 (t : Fin cfg2.N) (r : Fin 512) (d : Fin 1024) :
    ((((cfg2.win 8).blk t).view.emb (ix3 (0 : Fin 1) r d)) 1).val = win2_8.index t (1 : Fin 3) * 512 + r.val := by
  show win2_8.index t (1 : Fin 3) * 512 + 1 * r.val = _; omega
theorem out_coord2 (t : Fin cfg2.N) (r : Fin 512) (d : Fin 1024) :
    ((((cfg2.win 8).blk t).view.emb (ix3 (0 : Fin 1) r d)) 2).val = d.val := by
  obtain ⟨f0, f1, f2, -⟩ := idx_facts t
  show win2_8.index t (2 : Fin 3) * 1024 + 1 * d.val = _; omega

/-! The eight input blocks of point `t`, read at the entries the output entry `(0, r, d)` uses, are the arrays read at the
    matching array coordinates: a block's coordinate is its index × the block size + the coordinate inside the block. -/
theorem rows_read (c : Dev nD) (t : Fin cfg2.N) (r : Fin 512) (d j : Fin 1024) :
    FeedForward.blk V c 0 t (ix3 (0 : Fin 1) r j) = V c main_v33 (ix3 ((((cfg2.win 8).blk t).view.emb (ix3 (0 : Fin 1) r d)) 0) ((((cfg2.win 8).blk t).view.emb (ix3 (0 : Fin 1) r d)) 1) j) := by
  obtain ⟨f0, f1, f2, e0, -⟩ := idx_facts t
  have hE0 := out_coord0 t r d
  have hE1 := out_coord1 t r d
  unfold FeedForward.blk
  show V c main_v33 (((cfg2.win 0).blk t).view.emb (ix3 (0 : Fin 1) r j)) = _
  refine congrArg _ (funext fun a => Fin.ext ?_)
  have g0 : win2_0.index t (0 : Fin 3) = win2_8.index t (0 : Fin 3) := congrFun e0 0
  have g1 : win2_0.index t (1 : Fin 3) = win2_8.index t (1 : Fin 3) := congrFun e0 1
  have g2 : win2_0.index t (2 : Fin 3) = win2_8.index t (2 : Fin 3) := congrFun e0 2
  match a with
  | ⟨0, _⟩ => show win2_0.index t (0 : Fin 3) * 1 + 1 * 0 = ((((cfg2.win 8).blk t).view.emb (ix3 (0 : Fin 1) r d)) 0).val; rw [hE0]; omega
  | ⟨1, _⟩ => show win2_0.index t (1 : Fin 3) * 512 + 1 * r.val = ((((cfg2.win 8).blk t).view.emb (ix3 (0 : Fin 1) r d)) 1).val; rw [hE1]; omega
  | ⟨2, _⟩ => show win2_0.index t (2 : Fin 3) * 1024 + 1 * j.val = j.val; omega
theorem rows_read_at (c : Dev nD) (t : Fin cfg2.N) (r : Fin 512) (d : Fin 1024) :
    FeedForward.blk V c 0 t (ix3 (0 : Fin 1) r d) = V c main_v33 (ix3 ((((cfg2.win 8).blk t).view.emb (ix3 (0 : Fin 1) r d)) 0) ((((cfg2.win 8).blk t).view.emb (ix3 (0 : Fin 1) r d)) 1) ((((cfg2.win 8).blk t).view.emb (ix3 (0 : Fin 1) r d)) 2)) := by
  refine (rows_read V c t r d d).trans (congrArg _ (funext fun a => Fin.ext ?_))
  match a with
  | ⟨0, _⟩ => rfl
  | ⟨1, _⟩ => rfl
  | ⟨2, _⟩ => exact (out_coord2 t r d).symm
theorem scale_read (c : Dev nD) (t : Fin cfg2.N) (r : Fin 512) (d j : Fin 1024) :
    FeedForward.blk V c 1 t (ix3 (0 : Fin 1) (0 : Fin 1) j) = V c main_v9 (ix3 ((((cfg2.win 8).blk t).view.emb (ix3 (0 : Fin 1) r d)) 0) (0 : Fin 1) j) := by
  obtain ⟨f0, f1, f2, e0, a1, b1, c1, -⟩ := idx_facts t
  have hE0 := out_coord0 t r d
  unfold FeedForward.blk
  show V c main_v9 (((cfg2.win 1).blk t).view.emb (ix3 (0 : Fin 1) (0 : Fin 1) j)) = _
  refine congrArg _ (funext fun a => Fin.ext ?_)
  match a with
  | ⟨0, _⟩ => show win2_1.index t (0 : Fin 3) * 1 + 1 * 0 = ((((cfg2.win 8).blk t).view.emb (ix3 (0 : Fin 1) r d)) 0).val; rw [hE0]; omega
  | ⟨1, _⟩ => show win2_1.index t (1 : Fin 3) * 1 + 1 * 0 = 0; omega
  | ⟨2, _⟩ => show win2_1.index t (2 : Fin 3) * 1024 + 1 * j.val = j.val; omega
theorem shift_read (c : Dev nD) (t : Fin cfg2.N) (r : Fin 512) (d j : Fin 1024) :
    FeedForward.blk V c 2 t (ix3 (0 : Fin 1) (0 : Fin 1) j) = V c main_v13 (ix3 ((((cfg2.win 8).blk t).view.emb (ix3 (0 : Fin 1) r d)) 0) (0 : Fin 1) j) := by
  obtain ⟨f0, f1, f2, e0, a1, b1, c1, a2, b2, c2, -⟩ := idx_facts t
  have hE0 := out_coord0 t r d
  unfold FeedForward.blk
  show V c main_v13 (((cfg2.win 2).blk t).view.emb (ix3 (0 : Fin 1) (0 : Fin 1) j)) = _
  refine congrArg _ (funext fun a => Fin.ext ?_)
  match a with
  | ⟨0, _⟩ => show win2_2.index t (0 : Fin 3) * 1 + 1 * 0 = ((((cfg2.win 8).blk t).view.emb (ix3 (0 : Fin 1) r d)) 0).val; rw [hE0]; omega
  | ⟨1, _⟩ => show win2_2.index t (1 : Fin 3) * 1 + 1 * 0 = 0; omega
  | ⟨2, _⟩ => show win2_2.index t (2 : Fin 3) * 1024 + 1 * j.val = j.val; omega
theorem gate_read (c : Dev nD) (t : Fin cfg2.N) (r : Fin 512) (d : Fin 1024) :
    FeedForward.blk V c 3 t (ix3 (0 : Fin 1) (0 : Fin 1) d) = V c main_v5 (ix3 ((((cfg2.win 8).blk t).view.emb (ix3 (0 : Fin 1) r d)) 0) (0 : Fin 1) ((((cfg2.win 8).blk t).view.emb (ix3 (0 : Fin 1) r d)) 2)) := by
  obtain ⟨f0, f1, f2, e0, a1, b1, c1, a2, b2, c2, a3, b3, c3, -⟩ := idx_facts t
  have hE0 := out_coord0 t r d
  have hE2 := out_coord2 t r d
  unfold FeedForward.blk
  show V c main_v5 (((cfg2.win 3).blk t).view.emb (ix3 (0 : Fin 1) (0 : Fin 1) d)) = _
  refine congrArg _ (funext fun a => Fin.ext ?_)
  match a with
  | ⟨0, _⟩ => show win2_3.index t (0 : Fin 3) * 1 + 1 * 0 = ((((cfg2.win 8).blk t).view.emb (ix3 (0 : Fin 1) r d)) 0).val; rw [hE0]; omega
  | ⟨1, _⟩ => show win2_3.index t (1 : Fin 3) * 1 + 1 * 0 = 0; omega
  | ⟨2, _⟩ => show win2_3.index t (2 : Fin 3) * 1024 + 1 * d.val = ((((cfg2.win 8).blk t).view.emb (ix3 (0 : Fin 1) r d)) 2).val; rw [hE2]; omega
theorem up_read (c : Dev nD) (t : Fin cfg2.N) (k : Fin 1024) (j : Fin 4096) :
    FeedForward.blk V c 4 t (ix2 k j) = V c main_v23 (ix2 k j) := by
  obtain ⟨f0, f1, f2, e0, a1, b1, c1, a2, b2, c2, a3, b3, c3, w4, -⟩ := idx_facts t
  unfold FeedForward.blk
  show V c main_v23 (((cfg2.win 4).blk t).view.emb (ix2 k j)) = _
  refine congrArg _ (funext fun a => Fin.ext ?_)
  have g0 : win2_4.index t (0 : Fin 2) = 0 := congrFun w4 0
  have g1 : win2_4.index t (1 : Fin 2) = 0 := congrFun w4 1
  match a with
  | ⟨0, _⟩ => show win2_4.index t (0 : Fin 2) * 1024 + 1 * k.val = k.val; omega
  | ⟨1, _⟩ => show win2_4.index t (1 : Fin 2) * 4096 + 1 * j.val = j.val; omega
theorem bias1_read (c : Dev nD) (t : Fin cfg2.N) (j : Fin 4096) :
    FeedForward.blk V c 5 t (ix1 j) = V c main_arg11 (ix1 j) := by
  obtain ⟨f0, f1, f2, e0, a1, b1, c1, a2, b2, c2, a3, b3, c3, w4, w5, -⟩ := idx_facts t
  unfold FeedForward.blk
  show V c main_arg11 (((cfg2.win 5).blk t).view.emb (ix1 j)) = _
  refine congrArg _ (funext fun a => Fin.ext ?_)
  have g0 : win2_5.index t (0 : Fin 1) = 0 := congrFun w5 0
  match a with
  | ⟨0, _⟩ => show win2_5.index t (0 : Fin 1) * 4096 + 1 * j.val = j.val; omega
theorem down_read (c : Dev nD) (t : Fin cfg2.N) (r : Fin 512) (d : Fin 1024) (j : Fin 4096) :
    FeedForward.blk V c 6 t (ix2 j d) = V c main_v25 (ix2 j ((((cfg2.win 8).blk t).view.emb (ix3 (0 : Fin 1) r d)) 2)) := by
  obtain ⟨f0, f1, f2, e0, a1, b1, c1, a2, b2, c2, a3, b3, c3, w4, w5, w6, -⟩ := idx_facts t
  have hE2 := out_coord2 t r d
  unfold FeedForward.blk
  show V c main_v25 (((cfg2.win 6).blk t).view.emb (ix2 j d)) = _
  refine congrArg _ (funext fun a => Fin.ext ?_)
  have g0 : win2_6.index t (0 : Fin 2) = 0 := congrFun w6 0
  have g1 : win2_6.index t (1 : Fin 2) = 0 := congrFun w6 1
  match a with
  | ⟨0, _⟩ => show win2_6.index t (0 : Fin 2) * 4096 + 1 * j.val = j.val; omega
  | ⟨1, _⟩ => show win2_6.index t (1 : Fin 2) * 1024 + 1 * d.val = ((((cfg2.win 8).blk t).view.emb (ix3 (0 : Fin 1) r d)) 2).val; rw [hE2]; omega
theorem bias2_read (c : Dev nD) (t : Fin cfg2.N) (r : Fin 512) (d : Fin 1024) :
    FeedForward.blk V c 7 t (ix1 d) = V c main_arg13 (ix1 ((((cfg2.win 8).blk t).view.emb (ix3 (0 : Fin 1) r d)) 2)) := by
  obtain ⟨f0, f1, f2, e0, a1, b1, c1, a2, b2, c2, a3, b3, c3, w4, w5, w6, w7⟩ := idx_facts t
  have hE2 := out_coord2 t r d
  unfold FeedForward.blk
  show V c main_arg13 (((cfg2.win 7).blk t).view.emb (ix1 d)) = _
  refine congrArg _ (funext fun a => Fin.ext ?_)
  have g0 : win2_7.index t (0 : Fin 1) = 0 := congrFun w7 0
  match a with
  | ⟨0, _⟩ => show win2_7.index t (0 : Fin 1) * 1024 + 1 * d.val = ((((cfg2.win 8).blk t).view.emb (ix3 (0 : Fin 1) r d)) 2).val; rw [hE2]; omega

/-- What point `t` writes back is block `t` of the array function. -/
theorem y_flushed (c : Dev nD) (t : Fin cfg2.N) :
    (FeedForward.dat V c).flushed 8 t
      = ((cfg2.win 8).blk t).view.read (Elt Ideal)
          (Gy (V c main_v33) (V c main_v9) (V c main_v13) (V c main_v5) (V c main_v23) (V c main_arg11) (V c main_v25) (V c main_arg13)) := by
  show (cfg2.win 8).cut (grid2.coords t) ((FeedForward.dat V c).after 8 t) = _
  rw [FeedForward.after_8]
  funext j
  obtain ⟨u, r, d, rfl⟩ : ∃ (u : Fin 1) (r : Fin 512) (d : Fin 1024), j = ix3 u r d := ⟨j 0, j 1, j 2, eq_ix3 j⟩
  obtain rfl : u = 0 := Subsingleton.elim _ _
  show FeedForward.outBlock (FeedForward.blk V c 0 t) (FeedForward.blk V c 1 t) (FeedForward.blk V c 2 t) (FeedForward.blk V c 3 t)
      (FeedForward.blk V c 4 t) (FeedForward.blk V c 5 t) (FeedForward.blk V c 6 t) (FeedForward.blk V c 7 t) (ix3 0 r d)
    = Gy (V c main_v33) (V c main_v9) (V c main_v13) (V c main_v5) (V c main_v23) (V c main_arg11) (V c main_v25) (V c main_arg13)
        (((cfg2.win 8).blk t).view.emb (ix3 0 r d))
  rw [FeedForwardValue.block_entry]
  unfold Gy Gy'
  rw [rows_read_at V c t r d, gate_read V c t r d, bias2_read V c t r d]
  simp only [rows_read V c t r d, scale_read V c t r d, shift_read V c t r d, up_read V c t, bias1_read V c t, down_read V c t r d]

theorem y_mem_blk (t : Fin cfg2.N) (i : S4x1024x1024.Idx) :
    i ∈ ((cfg2.win 8).blk t).view.set ↔ ∀ a : Fin 3, win2_8.index t a * S1x512x1024.size a ≤ (i a).val
      ∧ (i a).val < win2_8.index t a * S1x512x1024.size a + S1x512x1024.size a := by
  show i ∈ ((View.whole main_v34).slice (win2_8.rect t)).set ↔ _
  rw [View.set_slice_whole, Rect.mem_set_unit]
  exact Iff.rfl
/-- The eight blocks fill the array. -/
theorem y_cover (i : S4x1024x1024.Idx) : ∃ t : Fin cfg2.N, (cfg2.win 8).flush t = true ∧ i ∈ ((cfg2.win 8).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  have q0 : win2_8.index t (0 : Fin 3) = (i 0).val := congrFun ht 0
  have q1 : win2_8.index t (1 : Fin 3) = (i 1).val / 512 := congrFun ht 1
  have q2 : win2_8.index t (2 : Fin 3) = 0 := congrFun ht 2
  refine ⟨t, flush2_8 t, ?_⟩
  rw [y_mem_blk]
  intro a
  match a with
  | ⟨0, _⟩ => show win2_8.index t (0 : Fin 3) * 1 ≤ (i 0).val ∧ (i 0).val < win2_8.index t (0 : Fin 3) * 1 + 1; omega
  | ⟨1, _⟩ => show win2_8.index t (1 : Fin 3) * 512 ≤ (i 1).val ∧ (i 1).val < win2_8.index t (1 : Fin 3) * 512 + 512; omega
  | ⟨2, _⟩ => show win2_8.index t (2 : Fin 3) * 1024 ≤ (i 2).val ∧ (i 2).val < win2_8.index t (2 : Fin 3) * 1024 + 1024; omega

/-- The output array after the grid. -/
theorem y_final (c : Dev nD) :
    (FeedForward.dat V c).arrAt 8 cfg2.N
      = Gy (V c main_v33) (V c main_v9) (V c main_v13) (V c main_v5) (V c main_v23) (V c main_arg11) (V c main_v25) (V c main_arg13) :=
  (FeedForward.dat V c).arrAt_eq_of_cover 8 _ (fun t _ => y_flushed V c t) y_cover

end Arrays

end Cert.KernelIdeal.FeedForwardArrays

end
-- ==== Proof.Assembly.lean ====
/-
  The kernel program's result against the specification. One head's contribution, over the arrays the attention grid is
  entered with, is the specification's head output against the head's 64 rows of the output weight (the head-split queries,
  keys and values are the specification's projections at channel 64·h + e); so the attention grid's array is the
  specification's attention branch, and the feed-forward grid's output over it the specification's output.
-/
import proofs.«126116_j51702816309661_2_alg».proof.Proof.Glue
import proofs.«126116_j51702816309661_2_alg».proof.Proof.AttentionArrays
import proofs.«126116_j51702816309661_2_alg».proof.Proof.AttentionValue
import proofs.«126116_j51702816309661_2_alg».proof.Proof.FeedForwardArrays
import proofs.«126116_j51702816309661_2_alg».proof.Proof.Spec
import Idealize.ShloMosaic.Lib.ValueIdx
import Idealize.ShloMosaic.Lib.Pipeline.Value

set_option maxRecDepth 16384

noncomputable section

namespace Cert.KernelIdeal.Assembly

open Cert.KernelIdeal Cert.KernelIdeal.Gen Cert.KernelIdeal.Whole Idealize.ShloMosaic Idealize.ShloMosaic.TcCoe Idealize.ShloMosaic.ValueIdx

variable (m : (ℓ : Loc nD τ sig) → Buf (Elt Ideal) ℓ) (c : Dev nD)

/-- The printed index maps of the attention grid's head-wise inputs over its 128 points. -/
theorem idx_in : ∀ t : Fin cfg1.N,
    win1_0.index t = ![t.val / 32, t.val % 16, t.val / 16 % 2, 0] ∧ win1_1.index t = ![t.val / 32, t.val % 16, 0, 0]
    ∧ win1_2.index t = ![t.val / 32, t.val % 16, 0, 0] ∧ win1_3.index t = ![t.val / 32, t.val % 16, t.val / 16 % 2, 0]
    ∧ win1_6.index t = ![t.val % 16, 0] :=
  (by decide +kernel : ∀ t : Fin grid1.N, _)

theorem ptOf_val (b : Fin 4) (l : Fin 1024) (h : Fin 16) :
    (AttentionArrays.ptOf b l h).val = 32 * b.val + 16 * (l.val / 512) + h.val := by
  unfold AttentionArrays.ptOf Attention.pt
  show (32 * b.val + 16 * (l.val / 512) + h.val) % 128 = _
  have := b.isLt; have := l.isLt; have := h.isLt; omega

/-- One head's contribution at a row and channel is the specification's head output against the head's rows of the
    output weight. -/
theorem contrib_spec (b : Fin 4) (l cc : Fin 1024) (h : Fin 16) :
    AttentionArrays.contribAt (E3 m) c (AttentionArrays.ptOf b l h) (ix2 (AttentionArrays.rowIn l) cc)
      = ∑ e : Fin 64, Cert.Spec.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b h l e
          * ((m ((c : Thread nD τ).loc main_arg8)) : S1024x1024.Idx → EReal) (ix2 cc (Cert.Spec.hd h e)) := by
  unfold AttentionArrays.contribAt
  rw [AttentionValue.contrib_entry]
  have hv := ptOf_val b l h
  obtain ⟨i0, i1, i2, i3, i6⟩ := idx_in (AttentionArrays.ptOf b l h)
  have hb := b.isLt; have hl := l.isLt; have hh := h.isLt
  have hq : ∀ e' : Fin 64, Attention.blk (E3 m) c 0 (AttentionArrays.ptOf b l h) (ix4 (0 : Fin 1) (0 : Fin 1) (AttentionArrays.rowIn l) e') = E3 m c main_v28 (ix4 b h l e') := fun e' => by
    unfold Attention.blk
    show E3 m c main_v28 (((cfg1.win 0).blk (AttentionArrays.ptOf b l h)).view.emb (ix4 (0 : Fin 1) (0 : Fin 1) (AttentionArrays.rowIn l) e')) = _
    refine congrArg _ (funext fun a => Fin.ext ?_)
    match a with
    | ⟨0, _⟩ => show win1_0.index (AttentionArrays.ptOf b l h) (0 : Fin 4) * 1 + 1 * 0 = b.val; rw [show win1_0.index (AttentionArrays.ptOf b l h) (0 : Fin 4) = (AttentionArrays.ptOf b l h).val / 32 from congrFun i0 0]; omega
    | ⟨1, _⟩ => show win1_0.index (AttentionArrays.ptOf b l h) (1 : Fin 4) * 1 + 1 * 0 = h.val; rw [show win1_0.index (AttentionArrays.ptOf b l h) (1 : Fin 4) = (AttentionArrays.ptOf b l h).val % 16 from congrFun i0 1]; omega
    | ⟨2, _⟩ => show win1_0.index (AttentionArrays.ptOf b l h) (2 : Fin 4) * 512 + 1 * (l.val % 512) = l.val; rw [show win1_0.index (AttentionArrays.ptOf b l h) (2 : Fin 4) = (AttentionArrays.ptOf b l h).val / 16 % 2 from congrFun i0 2]; omega
    | ⟨3, _⟩ => show win1_0.index (AttentionArrays.ptOf b l h) (3 : Fin 4) * 64 + 1 * e'.val = e'.val; rw [show win1_0.index (AttentionArrays.ptOf b l h) (3 : Fin 4) = 0 from congrFun i0 3]; omega

  have hk : ∀ (m' : Fin 1024) (e' : Fin 64), Attention.blk (E3 m) c 1 (AttentionArrays.ptOf b l h) (ix4 (0 : Fin 1) (0 : Fin 1) m' e') = E3 m c main_v30 (ix4 b h m' e') := fun m' e' => by
    unfold Attention.blk
    show E3 m c main_v30 (((cfg1.win 1).blk (AttentionArrays.ptOf b l h)).view.emb (ix4 (0 : Fin 1) (0 : Fin 1) m' e')) = _
    refine congrArg _ (funext fun a => Fin.ext ?_)
    match a with
    | ⟨0, _⟩ => show win1_1.index (AttentionArrays.ptOf b l h) (0 : Fin 4) * 1 + 1 * 0 = b.val; rw [show win1_1.index (AttentionArrays.ptOf b l h) (0 : Fin 4) = (AttentionArrays.ptOf b l h).val / 32 from congrFun i1 0]; omega
    | ⟨1, _⟩ => show win1_1.index (AttentionArrays.ptOf b l h) (1 : Fin 4) * 1 + 1 * 0 = h.val; rw [show win1_1.index (AttentionArrays.ptOf b l h) (1 : Fin 4) = (AttentionArrays.ptOf b l h).val % 16 from congrFun i1 1]; omega
    | ⟨2, _⟩ => show win1_1.index (AttentionArrays.ptOf b l h) (2 : Fin 4) * 1024 + 1 * m'.val = m'.val; rw [show win1_1.index (AttentionArrays.ptOf b l h) (2 : Fin 4) = 0 from congrFun i1 2]; omega
    | ⟨3, _⟩ => show win1_1.index (AttentionArrays.ptOf b l h) (3 : Fin 4) * 64 + 1 * e'.val = e'.val; rw [show win1_1.index (AttentionArrays.ptOf b l h) (3 : Fin 4) = 0 from congrFun i1 3]; omega

  have hvv : ∀ (m' : Fin 1024) (e' : Fin 64), Attention.blk (E3 m) c 2 (AttentionArrays.ptOf b l h) (ix4 (0 : Fin 1) (0 : Fin 1) m' e') = E3 m c main_v32 (ix4 b h m' e') := fun m' e' => by
    unfold Attention.blk
    show E3 m c main_v32 (((cfg1.win 2).blk (AttentionArrays.ptOf b l h)).view.emb (ix4 (0 : Fin 1) (0 : Fin 1) m' e')) = _
    refine congrArg _ (funext fun a => Fin.ext ?_)
    match a with
    | ⟨0, _⟩ => show win1_2.index (AttentionArrays.ptOf b l h) (0 : Fin 4) * 1 + 1 * 0 = b.val; rw [show win1_2.index (AttentionArrays.ptOf b l h) (0 : Fin 4) = (AttentionArrays.ptOf b l h).val / 32 from congrFun i2 0]; omega
    | ⟨1, _⟩ => show win1_2.index (AttentionArrays.ptOf b l h) (1 : Fin 4) * 1 + 1 * 0 = h.val; rw [show win1_2.index (AttentionArrays.ptOf b l h) (1 : Fin 4) = (AttentionArrays.ptOf b l h).val % 16 from congrFun i2 1]; omega
    | ⟨2, _⟩ => show win1_2.index (AttentionArrays.ptOf b l h) (2 : Fin 4) * 1024 + 1 * m'.val = m'.val; rw [show win1_2.index (AttentionArrays.ptOf b l h) (2 : Fin 4) = 0 from congrFun i2 2]; omega
    | ⟨3, _⟩ => show win1_2.index (AttentionArrays.ptOf b l h) (3 : Fin 4) * 64 + 1 * e'.val = e'.val; rw [show win1_2.index (AttentionArrays.ptOf b l h) (3 : Fin 4) = 0 from congrFun i2 3]; omega

  have hbias : ∀ m' : Fin 1024, Attention.blk (E3 m) c 3 (AttentionArrays.ptOf b l h) (ix4 (0 : Fin 1) (0 : Fin 1) (AttentionArrays.rowIn l) m') = E3 m c main_arg3 (ix4 b h l m') := fun m' => by
    unfold Attention.blk
    show E3 m c main_arg3 (((cfg1.win 3).blk (AttentionArrays.ptOf b l h)).view.emb (ix4 (0 : Fin 1) (0 : Fin 1) (AttentionArrays.rowIn l) m')) = _
    refine congrArg _ (funext fun a => Fin.ext ?_)
    match a with
    | ⟨0, _⟩ => show win1_3.index (AttentionArrays.ptOf b l h) (0 : Fin 4) * 1 + 1 * 0 = b.val; rw [show win1_3.index (AttentionArrays.ptOf b l h) (0 : Fin 4) = (AttentionArrays.ptOf b l h).val / 32 from congrFun i3 0]; omega
    | ⟨1, _⟩ => show win1_3.index (AttentionArrays.ptOf b l h) (1 : Fin 4) * 1 + 1 * 0 = h.val; rw [show win1_3.index (AttentionArrays.ptOf b l h) (1 : Fin 4) = (AttentionArrays.ptOf b l h).val % 16 from congrFun i3 1]; omega
    | ⟨2, _⟩ => show win1_3.index (AttentionArrays.ptOf b l h) (2 : Fin 4) * 512 + 1 * (l.val % 512) = l.val; rw [show win1_3.index (AttentionArrays.ptOf b l h) (2 : Fin 4) = (AttentionArrays.ptOf b l h).val / 16 % 2 from congrFun i3 2]; omega
    | ⟨3, _⟩ => show win1_3.index (AttentionArrays.ptOf b l h) (3 : Fin 4) * 1024 + 1 * m'.val = m'.val; rw [show win1_3.index (AttentionArrays.ptOf b l h) (3 : Fin 4) = 0 from congrFun i3 3]; omega

  have hwo : ∀ e' : Fin 64, Attention.blk (E3 m) c 6 (AttentionArrays.ptOf b l h) (ix2 e' cc) = E3 m c main_v21 (ix2 (Cert.Spec.hd h e') cc) := fun e' => by
    unfold Attention.blk
    show E3 m c main_v21 (((cfg1.win 6).blk (AttentionArrays.ptOf b l h)).view.emb (ix2 e' cc)) = _
    refine congrArg _ (funext fun a => Fin.ext ?_)
    match a with
    | ⟨0, _⟩ => show win1_6.index (AttentionArrays.ptOf b l h) (0 : Fin 2) * 64 + 1 * e'.val = (h.val * 64 + e'.val); rw [show win1_6.index (AttentionArrays.ptOf b l h) (0 : Fin 2) = (AttentionArrays.ptOf b l h).val % 16 from congrFun i6 0]; omega
    | ⟨1, _⟩ => show win1_6.index (AttentionArrays.ptOf b l h) (1 : Fin 2) * 1024 + 1 * cc.val = cc.val; rw [show win1_6.index (AttentionArrays.ptOf b l h) (1 : Fin 2) = 0 from congrFun i6 1]; omega

  simp only [hq, hk, hvv, hbias, hwo]
  refine Finset.sum_congr rfl fun e _ => congrArg₂ (· * ·) ?_ (Glue.woT_at3 m c (Cert.Spec.hd h e) cc)
  unfold Cert.Spec.O
  refine Finset.sum_congr rfl fun mk _ => congrArg₂ (· * ·) ?_ (Glue.v_heads m c b h mk e)
  refine congrArg (fun s => Cert.Spec.softmax s mk) (funext fun m' => ?_)
  unfold Cert.Spec.S
  refine congrArg₂ (· + ·) (congrArg (· * Cert.Spec.cScale) (Finset.sum_congr rfl fun e' _ =>
    congrArg₂ (· * ·) (Glue.q_heads m c b h l e') (Glue.k_heads m c b h m' e'))) ?_
  rw [Glue.bias_at3 m c]

/-- Layer normalisation and modulation depend only on the row and the two modulation rows. -/
theorem modulate_congr {z z' sc sc' sh sh' : Fin 1024 → EReal} (hz : z = z') (hsc : sc = sc') (hsh : sh = sh') (k : Fin 1024) :
    Cert.Spec.modulate z sc sh k = Cert.Spec.modulate z' sc' sh' k := by subst hz hsc hsh; rfl

/-- The attention branch's array, as the feed-forward grid finds it, is the specification's. -/
theorem x1_spec (b : Fin 4) (l cc : Fin 1024) :
    (E4 m c main_v33 : S4x1024x1024.Idx → EReal) (ix3 b l cc)
      = Cert.Spec.X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b l cc := by
  rw [Glue.x1_array m c]
  show AttentionArrays.Gx1' _ _ _ _ b l cc = _
  unfold AttentionArrays.Gx1' Cert.Spec.X1
  rw [Glue.x_at3 m c, Glue.bo_at3 m c]
  refine congrArg₂ (· + ·) rfl (congrArg₂ (· * ·) (congrArg₂ (· + ·) ?_ rfl) (Glue.gate1_at3 m c b cc))
  exact Finset.sum_congr rfl fun h _ => contrib_spec m c b l cc h

/-- THE KERNEL PROGRAM'S RESULT: the feed-forward grid's output array, over what the earlier segments left, is the
    specification's output of the fourteen arguments. -/
theorem kernel_value :
    @Eq (S4x1024x1024.Idx → EReal) ((FeedForward.dat (E4 m) c).arrAt 8 cfg2.N)
      (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [FeedForwardArrays.y_final (E4 m) c]
  funext i
  obtain ⟨b, l, cc, rfl⟩ : ∃ (b : Fin 4) (l cc : Fin 1024), i = ix3 b l cc := ⟨i 0, i 1, i 2, eq_ix3 i⟩
  show FeedForwardArrays.Gy' _ _ _ _ _ _ _ _ b l cc = Cert.Spec.Y _ _ _ _ _ _ _ _ _ _ _ _ _ _ b l cc
  unfold FeedForwardArrays.Gy' Cert.Spec.Y Cert.Spec.Yfrom Cert.Spec.Hfrom
  rw [Glue.b1_at4 m c, Glue.b2_at4 m c]
  refine congrArg₂ (· + ·) (x1_spec m c b l cc) (congrArg₂ (· * ·) (congrArg₂ (· + ·) ?_ rfl) (Glue.gate2_at4 m c b cc))
  refine Finset.sum_congr rfl fun j _ => congrArg₂ (· * ·) (congrArg Cert.Spec.gelu (congrArg₂ (· + ·) ?_ rfl)) (Glue.w2T_at4 m c j cc)
  refine Finset.sum_congr rfl fun k _ => congrArg₂ (· * ·) ?_ (Glue.w1T_at4 m c k j)
  exact modulate_congr (funext fun i => x1_spec m c b l i) (funext fun i => Glue.scale2_at4 m c b i) (funext fun i => Glue.shift2_at4 m c b i) k

end Cert.KernelIdeal.Assembly

end
-- ==== Proof.lean ====
/-
  One transformer block with adaptive layer-norm modulation, cross attention and a gated feed-forward branch, over
  x, context : f32[4, 1024, 1024] and sixteen heads of width 64.

  Both programs compute, for the six modulation rows g = ada_gss + cond_BD (gamma1, gamma2, scale1, scale2, shift1, shift2):
    mod_x   = LN(x) · (scale1 + 1) + shift1,             LN(z) = (z − mean z) · rsqrt(mean (z − mean z)² + ε) along the last axis
    q, k, v = mod_x · Wqᵀ, context · Wkᵀ, context · Wvᵀ,  split into heads
    p       = softmax over the key axis of (q kᵀ)/32 + attn_bias,  written exp(s − max s) / Σ exp(s − max s)
    x1      = x + ((p v, heads merged) · Woᵀ + bo) · gamma1
    out     = x1 + (gelu_tanh(LN(x1)·(scale2 + 1) + shift2) · W1ᵀ + b1) · W2ᵀ + b2) · gamma2.
  The kernel side runs this as three grids: the three projections on row blocks of 512; attention per (batch, row block,
  head), each head's 512×64 result multiplied at once into the 64 rows of Woᵀ that belong to it and accumulated over the
  sixteen heads before the bias, the gate and the residual are applied at the last head; and the feed-forward branch per
  row block with the hidden axis of 4096 taken in four slices of 1024 whose products are added up.
  On the extended reals the two sides differ only in how two sums are grouped — a sum over 1024 = 16 × 64 taken head by
  head, and a sum over 4096 = 4 × 1024 taken slice by slice — which commutativity and associativity of + settle; every
  literal (1024, 1/32, ε, the two gelu constants, 1/2, 1, −∞) is the same word on both sides.

  Proved here: the three frames — the reference's is its generated run with the result dropped; each kernel program's is
  its run as five segments (Whole.lean: host operations, the projection grid, host operations, the attention grid, the
  feed-forward grid), every argument read back unchanged at the end — and that the idealized kernel is the printed kernel's
  own text (no rewrite was applied) — and the value equation: the kernel program's result array and the reference's composed
  term are both the specification's output (Spec.lean) of the fourteen arguments, the first by reading each grid's output
  array off its blocks and the host operations between them, the second by reading the reference's operations at an entry;
  the two regroupings (sixteen heads of 64 against one sum over 1024; four slices of 1024 against one sum over 4096) are
  absorbed where each side is read.
-/
import proofs.«126116_j51702816309661_2_alg».proof.Defs
import proofs.«126116_j51702816309661_2_alg».proof.Proof.Gen.Kernel
import proofs.«126116_j51702816309661_2_alg».proof.Proof.Gen.Kernel.Skeleton
import proofs.«126116_j51702816309661_2_alg».proof.Proof.Gen.Kernel.Launch
import proofs.«126116_j51702816309661_2_alg».proof.Proof.Gen.Kernel.Regions
import proofs.«126116_j51702816309661_2_alg».proof.Proof.Gen.Kernel.Points
import proofs.«126116_j51702816309661_2_alg».proof.Proof.Gen.KernelIdeal
import proofs.«126116_j51702816309661_2_alg».proof.Proof.Gen.KernelIdeal.Skeleton
import proofs.«126116_j51702816309661_2_alg».proof.Proof.Gen.KernelIdeal.Launch
import proofs.«126116_j51702816309661_2_alg».proof.Proof.Gen.KernelIdeal.Regions
import proofs.«126116_j51702816309661_2_alg».proof.Proof.Gen.KernelIdeal.Points
import proofs.«126116_j51702816309661_2_alg».proof.Proof.Gen.ReferenceIdeal
import proofs.«126116_j51702816309661_2_alg».proof.Proof.Gen.ReferenceIdeal.Run
import proofs.«126116_j51702816309661_2_alg».proof.Proof.Gen.Pre_finite_inputs
import proofs.«126116_j51702816309661_2_alg».proof.Proof.Whole
import proofs.«126116_j51702816309661_2_alg».proof.Proof.Bits.Whole
import proofs.«126116_j51702816309661_2_alg».proof.Proof.RefResult
import proofs.«126116_j51702816309661_2_alg».proof.Proof.RefSpec
import proofs.«126116_j51702816309661_2_alg».proof.Proof.Assembly
import Idealize.ShloMosaic.Adequacy
import Idealize.ShloMosaic.Init

noncomputable section

namespace Cert.Proof

open Idealize.ShloMosaic Idealize.SL.Sem Cert.Kernel

/-- The reference is a host program: its frame is its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized: nothing to preserve. -/
theorem preserves : Cert.preserves_Kernel_KernelIdeal := trivial

/-- The printed kernel program runs to its end, faults nowhere and leaves its fourteen arguments as launched. -/
theorem frame_p : Cert.frame_Kernel := fun m ρ _ => Cert.Kernel.Whole.frame (F := Bits) m ρ

/-- The same of the idealized kernel program. -/
theorem frame_pi : Cert.frame_KernelIdeal := fun m ρ _ => Cert.KernelIdeal.Whole.frame (F := Ideal) m ρ

/-- THE VALUE EQUATION. On every core, from memories that agree on the fourteen arguments: the feed-forward grid's output
    array after its eight write-backs — over what the idealized kernel program's earlier segments left — is the reference's
    composed term of the arguments, entry by entry on the extended reals. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.KernelIdeal.nD) :
    Cert.ReferenceIdeal.Result.out (F := Ideal) (StableHlo.launchContents m' c)
      = (Cert.KernelIdeal.FeedForward.dat (Cert.KernelIdeal.Whole.E4 (F := Ideal) m) c).arrAt 8 Cert.KernelIdeal.cfg2.N := by
  obtain ⟨h0, h1, h2, h3, h4, h5, h6, h7, h8, h9, h10, h11, h12, h13⟩ := hagree c
  refine (Cert.ReferenceIdeal.RefSpec.ref_value (StableHlo.launchContents m' c)).trans ?_
  refine Eq.trans ?_ (Cert.KernelIdeal.Assembly.kernel_value m c).symm
  show Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
  rw [h0, h1, h2, h3, h4, h5, h6, h7, h8, h9, h10, h11, h12, h13]

/-- Both idealized programs end with the same block output, entry by entry: the kernel program's run names its result as
    the feed-forward grid's output array, the reference's run names its own as its composed term, and the value equation
    joins them. -/
theorem algebraic : Cert.algebraic_KernelIdeal_ReferenceIdeal := by
  intro m ρ m' ρ' _ hagree
  refine ⟨fun c => (Cert.KernelIdeal.FeedForward.dat (Cert.KernelIdeal.Whole.E4 (F := Ideal) m) c).arrAt 8 Cert.KernelIdeal.cfg2.N,
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact value_eq m m' hagree c

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
